-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S4096x128 : Shape := ⟨2, ![4096, 128]⟩
abbrev S1x128 : Shape := ⟨2, ![1, 128]⟩
abbrev S4096 : Shape := ⟨1, ![4096]⟩

class Facts : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  reducesTo_S4096x128_S4096_d1 : S4096x128.ReducesTo [1] S4096
  bcast_S_S4096 : S_.BroadcastsInDim S4096 (![] : Fin 0 → Fin S4096.rank)
  reducesTo_S4096_S_d0 : S4096.ReducesTo [0] S_
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []

variable [Facts]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def fn_part5 {F : FTy → Type} [FloatOps F] (main_v23 : FVec F S4096x128 .f32) (main_v87 : IVec S_ 1) (main_v89 : FVec F S4096 .f32) (main_cst_27 : FVec F S_ .f32) : IVec S_ 1 :=
  let main_v90 : FVec F S4096 .f32 := broadcastInDim S4096 ![] bcast_S_S4096 main_cst_27
  let main_v91 : IVec S4096 1 := cmpf .ogt main_v89 main_v90
  let main_c_28 : IVec S_ 1 := constantI S_ 1 1#1
  let main_v92 : IVec S_ 1 := (fun x v => Host.reduce IntOp.andi x v reducesTo_S4096_S_d0 h_S_) main_v91 main_c_28
  let main_v93 : IVec S_ 1 := andi main_v87 main_v92
  let main_v94 : FVec F S4096x128 .f32 := mulf main_v23 main_v23
  let main_cst_29 : FVec F S_ .f32 := constant S_ .f32 0x00000000#32
  let main_v95 : FVec F S4096 .f32 := (fun x v => Host.reduceAdd x v reducesTo_S4096x128_S4096_d1 h_S_) main_v94 main_cst_29
  let main_cst_30 : FVec F S_ .f32 := constant S_ .f32 0x00000000#32
  let main_v96 : FVec F S4096 .f32 := broadcastInDim S4096 ![] bcast_S_S4096 main_cst_30
  let main_v97 : IVec S4096 1 := cmpf .ogt main_v95 main_v96
  let main_c_31 : IVec S_ 1 := constantI S_ 1 1#1
  let main_v98 : IVec S_ 1 := (fun x v => Host.reduce IntOp.andi x v reducesTo_S4096_S_d0 h_S_) main_v97 main_c_31
  let main_v99 : IVec S_ 1 := andi main_v93 main_v98
  main_v99

def fn_part4 {F : FTy → Type} [FloatOps F] (main_arg11 : FVec F S256x128 .f32) (main_arg12 : FVec F S128 .f32) (main_v11 : FVec F S4096x128 .f32) (main_v23 : FVec F S4096x128 .f32) (main_v72 : IVec S_ 1) (main_v73 : FVec F S256 .f32) : IVec S_ 1 :=
  let main_cst_20 : FVec F S_ .f32 := constant S_ .f32 0x7F800000#32
  let main_v74 : FVec F S256 .f32 := broadcastInDim S256 ![] bcast_S_S256 main_cst_20
  let main_v75 : IVec S256 1 := cmpf .olt main_v73 main_v74
  let main_c_21 : IVec S_ 1 := constantI S_ 1 1#1
  let main_v76 : IVec S_ 1 := (fun x v => Host.reduce IntOp.andi x v reducesTo_S256_S_d0 h_S_) main_v75 main_c_21
  let main_v77 : IVec S_ 1 := andi main_v72 main_v76
  let main_v78 : FVec F S256x128 .f32 := Host.absf main_arg11
  let main_cst_22 : FVec F S_ .f32 := constant S_ .f32 0x7F800000#32
  let main_v79 : FVec F S256x128 .f32 := broadcastInDim S256x128 ![] bcast_S_S256x128 main_cst_22
  let main_v80 : IVec S256x128 1 := cmpf .olt main_v78 main_v79
  let main_c_23 : IVec S_ 1 := constantI S_ 1 1#1
  let main_v81 : IVec S_ 1 := (fun x v => Host.reduce IntOp.andi x v reducesTo_S256x128_S_d0_1 h_S_) main_v80 main_c_23
  let main_v82 : IVec S_ 1 := andi main_v77 main_v81
  let main_v83 : FVec F S128 .f32 := Host.absf main_arg12
  let main_cst_24 : FVec F S_ .f32 := constant S_ .f32 0x7F800000#32
  let main_v84 : FVec F S128 .f32 := broadcastInDim S128 ![] bcast_S_S128 main_cst_24
  let main_v85 : IVec S128 1 := cmpf .olt main_v83 main_v84
  let main_c_25 : IVec S_ 1 := constantI S_ 1 1#1
  let main_v86 : IVec S_ 1 := (fun x v => Host.reduce IntOp.andi x v reducesTo_S128_S_d0 h_S_) main_v85 main_c_25
  let main_v87 : IVec S_ 1 := andi main_v82 main_v86
  let main_v88 : FVec F S4096x128 .f32 := mulf main_v11 main_v11
  let main_cst_26 : FVec F S_ .f32 := constant S_ .f32 0x00000000#32
  let main_v89 : FVec F S4096 .f32 := (fun x v => Host.reduceAdd x v reducesTo_S4096x128_S4096_d1 h_S_) main_v88 main_cst_26
  let main_cst_27 : FVec F S_ .f32 := constant S_ .f32 0x00000000#32
  fn_part5 (F := F) main_v23 main_v87 main_v89 main_cst_27

def fn_part3 {F : FTy → Type} [FloatOps F] (main_arg7 : FVec F S256x128 .f32) (main_arg8 : FVec F S128 .f32) (main_arg9 : FVec F S256x256 .f32) (main_arg10 : FVec F S256 .f32) (main_arg11 : FVec F S256x128 .f32) (main_arg12 : FVec F S128 .f32) (main_v11 : FVec F S4096x128 .f32) (main_v23 : FVec F S4096x128 .f32) (main_v52 : IVec S_ 1) (main_v55 : IVec S256 1) (main_c_13 : IVec S_ 1) : IVec S_ 1 :=
  let main_v56 : IVec S_ 1 := (fun x v => Host.reduce IntOp.andi x v reducesTo_S256_S_d0 h_S_) main_v55 main_c_13
  let main_v57 : IVec S_ 1 := andi main_v52 main_v56
  let main_v58 : FVec F S256x128 .f32 := Host.absf main_arg7
  let main_cst_14 : FVec F S_ .f32 := constant S_ .f32 0x7F800000#32
  let main_v59 : FVec F S256x128 .f32 := broadcastInDim S256x128 ![] bcast_S_S256x128 main_cst_14
  let main_v60 : IVec S256x128 1 := cmpf .olt main_v58 main_v59
  let main_c_15 : IVec S_ 1 := constantI S_ 1 1#1
  let main_v61 : IVec S_ 1 := (fun x v => Host.reduce IntOp.andi x v reducesTo_S256x128_S_d0_1 h_S_) main_v60 main_c_15
  let main_v62 : IVec S_ 1 := andi main_v57 main_v61
  let main_v63 : FVec F S128 .f32 := Host.absf main_arg8
  let main_cst_16 : FVec F S_ .f32 := constant S_ .f32 0x7F800000#32
  let main_v64 : FVec F S128 .f32 := broadcastInDim S128 ![] bcast_S_S128 main_cst_16
  let main_v65 : IVec S128 1 := cmpf .olt main_v63 main_v64
  let main_c_17 : IVec S_ 1 := constantI S_ 1 1#1
  let main_v66 : IVec S_ 1 := (fun x v => Host.reduce IntOp.andi x v reducesTo_S128_S_d0 h_S_) main_v65 main_c_17
  let main_v67 : IVec S_ 1 := andi main_v62 main_v66
  let main_v68 : FVec F S256x256 .f32 := Host.absf main_arg9
  let main_cst_18 : FVec F S_ .f32 := constant S_ .f32 0x7F800000#32
  let main_v69 : FVec F S256x256 .f32 := broadcastInDim S256x256 ![] bcast_S_S256x256 main_cst_18
  let main_v70 : IVec S256x256 1 := cmpf .olt main_v68 main_v69
  let main_c_19 : IVec S_ 1 := constantI S_ 1 1#1
  let main_v71 : IVec S_ 1 := (fun x v => Host.reduce IntOp.andi x v reducesTo_S256x256_S_d0_1 h_S_) main_v70 main_c_19
  let main_v72 : IVec S_ 1 := andi main_v67 main_v71
  let main_v73 : FVec F S256 .f32 := Host.absf main_arg10
  fn_part4 (F := F) main_arg11 main_arg12 main_v11 main_v23 main_v72 main_v73

def fn_part2 {F : FTy → Type} [FloatOps F] (main_arg4 : FVec F S4096x4096 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_v11 : FVec F S4096x128 .f32) (main_v23 : FVec F S4096x128 .f32) (main_v37 : IVec S_ 1) (main_v38 : FVec F S4096x4096 .f32) (main_cst_6 : FVec F S_ .f32) : IVec S_ 1 :=
  let main_v39 : FVec F S4096x4096 .f32 := broadcastInDim S4096x4096 ![] bcast_S_S4096x4096 main_cst_6
  let main_v40 : IVec S4096x4096 1 := cmpf .olt main_v38 main_v39
  let main_c_7 : IVec S_ 1 := constantI S_ 1 1#1
  let main_v41 : IVec S_ 1 := (fun x v => Host.reduce IntOp.andi x v reducesTo_S4096x4096_S_d0_1 h_S_) main_v40 main_c_7
  let main_v42 : IVec S_ 1 := andi main_v37 main_v41
  let main_v43 : FVec F S4096x4096 .f32 := Host.absf main_arg4
  let main_cst_8 : FVec F S_ .f32 := constant S_ .f32 0x7F800000#32
  let main_v44 : FVec F S4096x4096 .f32 := broadcastInDim S4096x4096 ![] bcast_S_S4096x4096 main_cst_8
  let main_v45 : IVec S4096x4096 1 := cmpf .olt main_v43 main_v44
  let main_c_9 : IVec S_ 1 := constantI S_ 1 1#1
  let main_v46 : IVec S_ 1 := (fun x v => Host.reduce IntOp.andi x v reducesTo_S4096x4096_S_d0_1 h_S_) main_v45 main_c_9
  let main_v47 : IVec S_ 1 := andi main_v42 main_v46
  let main_v48 : FVec F S256x256 .f32 := Host.absf main_arg5
  let main_cst_10 : FVec F S_ .f32 := constant S_ .f32 0x7F800000#32
  let main_v49 : FVec F S256x256 .f32 := broadcastInDim S256x256 ![] bcast_S_S256x256 main_cst_10
  let main_v50 : IVec S256x256 1 := cmpf .olt main_v48 main_v49
  let main_c_11 : IVec S_ 1 := constantI S_ 1 1#1
  let main_v51 : IVec S_ 1 := (fun x v => Host.reduce IntOp.andi x v reducesTo_S256x256_S_d0_1 h_S_) main_v50 main_c_11
  let main_v52 : IVec S_ 1 := andi main_v47 main_v51
  let main_v53 : FVec F S256 .f32 := Host.absf main_arg6
  let main_cst_12 : FVec F S_ .f32 := constant S_ .f32 0x7F800000#32
  let main_v54 : FVec F S256 .f32 := broadcastInDim S256 ![] bcast_S_S256 main_cst_12
  let main_v55 : IVec S256 1 := cmpf .olt main_v53 main_v54
  let main_c_13 : IVec S_ 1 := constantI S_ 1 1#1
  fn_part3 (F := F) main_arg7 main_arg8 main_arg9 main_arg10 main_arg11 main_arg12 main_v11 main_v23 main_v52 main_v55 main_c_13

def fn_part1 {F : FTy → Type} [FloatOps F] (main_arg0 : FVec F S4096x256 .f32) (main_arg1 : FVec F S4096x4096 .f32) (main_arg2 : FVec F S4096x256 .f32) (main_arg3 : FVec F S4096x4096 .f32) (main_arg4 : FVec F S4096x4096 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_v11 : FVec F S4096x128 .f32) (main_v20 : FVec F S4096x128 .f32) (main_v21 : FVec F S1x128 .f32) : IVec S_ 1 :=
  let main_v22 : FVec F S4096x128 .f32 := broadcastInDim S4096x128 ![0, 1] bcast_S1x128_S4096x128_0_1 main_v21
  let main_v23 : FVec F S4096x128 .f32 := addf main_v20 main_v22
  let main_v24 : FVec F S4096x256 .f32 := Host.absf main_arg0
  let main_cst_1 : FVec F S_ .f32 := constant S_ .f32 0x7F800000#32
  let main_v25 : FVec F S4096x256 .f32 := broadcastInDim S4096x256 ![] bcast_S_S4096x256 main_cst_1
  let main_v26 : IVec S4096x256 1 := cmpf .olt main_v24 main_v25
  let main_c : IVec S_ 1 := constantI S_ 1 1#1
  let main_v27 : IVec S_ 1 := (fun x v => Host.reduce IntOp.andi x v reducesTo_S4096x256_S_d0_1 h_S_) main_v26 main_c
  let main_v28 : FVec F S4096x4096 .f32 := Host.absf main_arg1
  let main_cst_2 : FVec F S_ .f32 := constant S_ .f32 0x7F800000#32
  let main_v29 : FVec F S4096x4096 .f32 := broadcastInDim S4096x4096 ![] bcast_S_S4096x4096 main_cst_2
  let main_v30 : IVec S4096x4096 1 := cmpf .olt main_v28 main_v29
  let main_c_3 : IVec S_ 1 := constantI S_ 1 1#1
  let main_v31 : IVec S_ 1 := (fun x v => Host.reduce IntOp.andi x v reducesTo_S4096x4096_S_d0_1 h_S_) main_v30 main_c_3
  let main_v32 : IVec S_ 1 := andi main_v27 main_v31
  let main_v33 : FVec F S4096x256 .f32 := Host.absf main_arg2
  let main_cst_4 : FVec F S_ .f32 := constant S_ .f32 0x7F800000#32
  let main_v34 : FVec F S4096x256 .f32 := broadcastInDim S4096x256 ![] bcast_S_S4096x256 main_cst_4
  let main_v35 : IVec S4096x256 1 := cmpf .olt main_v33 main_v34
  let main_c_5 : IVec S_ 1 := constantI S_ 1 1#1
  let main_v36 : IVec S_ 1 := (fun x v => Host.reduce IntOp.andi x v reducesTo_S4096x256_S_d0_1 h_S_) main_v35 main_c_5
  let main_v37 : IVec S_ 1 := andi main_v32 main_v36
  let main_v38 : FVec F S4096x4096 .f32 := Host.absf main_arg3
  let main_cst_6 : FVec F S_ .f32 := constant S_ .f32 0x7F800000#32
  fn_part2 (F := F) main_arg4 main_arg5 main_arg6 main_arg7 main_arg8 main_arg9 main_arg10 main_arg11 main_arg12 main_v11 main_v23 main_v37 main_v38 main_cst_6

def fn {F : FTy → Type} [FloatOps F] (main_arg0 : FVec F S4096x256 .f32) (main_arg1 : FVec F S4096x4096 .f32) (main_arg2 : FVec F S4096x256 .f32) (main_arg3 : FVec F S4096x4096 .f32) (main_arg4 : FVec F S4096x4096 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) : IVec S_ 1 :=
  let main_v0 : FVec F S4096x256 .f32 := (fun l r => Host.dotGeneral dot_S4096x256_S256x256_S4096x256_1_0_0_1_n_n none l r) main_arg0 main_arg5
  let main_v1 : FVec F S4096x256 .f32 := (fun l r => Host.dotGeneral dot_S4096x4096_S4096x256_S4096x256_1_0_0_1_n_n none l r) main_arg1 main_v0
  let main_v2 : FVec F S1x256 .f32 := broadcastInDim S1x256 ![1] bcast_S256_S1x256_1 main_arg6
  let main_v3 : FVec F S4096x256 .f32 := broadcastInDim S4096x256 ![0, 1] bcast_S1x256_S4096x256_0_1 main_v2
  let main_v4 : FVec F S4096x256 .f32 := addf main_v1 main_v3
  let main_cst : FVec F S_ .f32 := constant S_ .f32 0x00000000#32
  let main_v5 : FVec F S4096x256 .f32 := broadcastInDim S4096x256 ![] bcast_S_S4096x256 main_cst
  let main_v6 : FVec F S4096x256 .f32 := maximumf main_v4 main_v5
  let main_v7 : FVec F S4096x128 .f32 := (fun l r => Host.dotGeneral dot_S4096x256_S256x128_S4096x128_1_0_0_1_n_n none l r) main_v6 main_arg7
  let main_v8 : FVec F S4096x128 .f32 := (fun l r => Host.dotGeneral dot_S4096x4096_S4096x128_S4096x128_1_0_0_1_n_n none l r) main_arg1 main_v7
  let main_v9 : FVec F S1x128 .f32 := broadcastInDim S1x128 ![1] bcast_S128_S1x128_1 main_arg8
  let main_v10 : FVec F S4096x128 .f32 := broadcastInDim S4096x128 ![0, 1] bcast_S1x128_S4096x128_0_1 main_v9
  let main_v11 : FVec F S4096x128 .f32 := addf main_v8 main_v10
  let main_v12 : FVec F S4096x256 .f32 := (fun l r => Host.dotGeneral dot_S4096x256_S256x256_S4096x256_1_0_0_1_n_n none l r) main_arg2 main_arg9
  let main_v13 : FVec F S4096x256 .f32 := (fun l r => Host.dotGeneral dot_S4096x4096_S4096x256_S4096x256_1_0_0_1_n_n none l r) main_arg3 main_v12
  let main_v14 : FVec F S1x256 .f32 := broadcastInDim S1x256 ![1] bcast_S256_S1x256_1 main_arg10
  let main_v15 : FVec F S4096x256 .f32 := broadcastInDim S4096x256 ![0, 1] bcast_S1x256_S4096x256_0_1 main_v14
  let main_v16 : FVec F S4096x256 .f32 := addf main_v13 main_v15
  let main_cst_0 : FVec F S_ .f32 := constant S_ .f32 0x00000000#32
  let main_v17 : FVec F S4096x256 .f32 := broadcastInDim S4096x256 ![] bcast_S_S4096x256 main_cst_0
  let main_v18 : FVec F S4096x256 .f32 := maximumf main_v16 main_v17
  let main_v19 : FVec F S4096x128 .f32 := (fun l r => Host.dotGeneral dot_S4096x256_S256x128_S4096x128_1_0_0_1_n_n none l r) main_v18 main_arg11
  let main_v20 : FVec F S4096x128 .f32 := (fun l r => Host.dotGeneral dot_S4096x4096_S4096x128_S4096x128_1_0_0_1_n_n none l r) main_arg3 main_v19
  let main_v21 : FVec F S1x128 .f32 := broadcastInDim S1x128 ![1] bcast_S128_S1x128_1 main_arg12
  fn_part1 (F := F) main_arg0 main_arg1 main_arg2 main_arg3 main_arg4 main_arg5 main_arg6 main_arg7 main_arg8 main_arg9 main_arg10 main_arg11 main_arg12 main_v11 main_v20 main_v21
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S4096x128 : Shape := ⟨2, ![4096, 128]⟩
abbrev S512x4096 : Shape := ⟨2, ![512, 4096]⟩
abbrev S512x128 : Shape := ⟨2, ![512, 128]⟩
abbrev S512x256 : Shape := ⟨2, ![512, 256]⟩
abbrev S1x128 : Shape := ⟨2, ![1, 128]⟩
abbrev S512 : Shape := ⟨1, ![512]⟩
abbrev S512x1 : Shape := ⟨2, ![512, 1]⟩
abbrev S1x1 : Shape := ⟨2, ![1, 1]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 34
  | .vmem => 38
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x4096, .f32⟩
  | .hbm, ⟨4, _⟩ => ⟨S4096x4096, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S4096x256, .bf16⟩
  | .hbm, ⟨14, _⟩ => ⟨S4096x256, .bf16⟩
  | .hbm, ⟨15, _⟩ => ⟨S256x256, .bf16⟩
  | .hbm, ⟨16, _⟩ => ⟨S256x256, .bf16⟩
  | .hbm, ⟨17, _⟩ => ⟨S1x256, .f32⟩
  | .hbm, ⟨18, _⟩ => ⟨S1x256, .f32⟩
  | .hbm, ⟨19, _⟩ => ⟨S256x128, .bf16⟩
  | .hbm, ⟨20, _⟩ => ⟨S256x128, .bf16⟩
  | .hbm, ⟨21, _⟩ => ⟨S4096x128, .bf16⟩
  | .hbm, ⟨22, _⟩ => ⟨S4096x128, .bf16⟩
  | .hbm, ⟨23, _⟩ => ⟨S1x128, .f32⟩
  | .hbm, ⟨24, _⟩ => ⟨S1x128, .f32⟩
  | .hbm, ⟨25, _⟩ => ⟨S4096x128, .f32⟩
  | .hbm, ⟨26, _⟩ => ⟨S4096x128, .f32⟩
  | .hbm, ⟨27, _⟩ => ⟨S4096x128, .bf16⟩
  | .hbm, ⟨28, _⟩ => ⟨S4096x128, .bf16⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S256x128, .bf16⟩
  | .local _ .vmem, ⟨11, _⟩ => ⟨S256x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x4096, .f32⟩
  | .local _ .vmem, ⟨17, _⟩ => ⟨S512x4096, .f32⟩
  | .local _ .vmem, ⟨18, _⟩ => ⟨S512x4096, .f32⟩
  | .local _ .vmem, ⟨19, _⟩ => ⟨S512x4096, .f32⟩
  | .local _ .vmem, ⟨20, _⟩ => ⟨S4096x128, .bf16⟩
  | .local _ .vmem, ⟨21, _⟩ => ⟨S4096x128, .bf16⟩
  | .local _ .vmem, ⟨22, _⟩ => ⟨S1x128, .f32⟩
  | .local _ .vmem, ⟨23, _⟩ => ⟨S1x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .bf16⟩
  | .local _ .vmem, ⟨29, _⟩ => ⟨S512x128, .bf16⟩
  | .local _ .vmem, ⟨30, _⟩ => ⟨S512x128, .bf16⟩
  | .local _ .vmem, ⟨31, _⟩ => ⟨S512x128, .bf16⟩
  | .local _ .vmem, ⟨32, _⟩ => ⟨S512x128, .bf16⟩
  | .local _ .vmem, ⟨33, _⟩ => ⟨S512x128, .bf16⟩
  | .local _ .vmem, ⟨34, _⟩ => ⟨S4096x128, .bf16⟩
  | .local _ .vmem, ⟨35, _⟩ => ⟨S512x4096, .f32⟩
  | .local _ .vmem, ⟨36, _⟩ => ⟨S512x4096, .f32⟩
  | .local _ .vmem, ⟨37, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem2_1 : DmaSem sig := 36
abbrev cc2_sem3_0 : DmaSem sig := 37

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

def k1_cond1 (i : grid1.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k1_cond2 (i : grid1.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_8 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bitsLt_bf16_f32 : FTy.bits .bf16 < FTy.bits .f32
  shapeCasts_S256_S1x256 : S256.ShapeCasts S1x256
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  shapeCasts_S512x128_S512x128 : S512x128.ShapeCasts S512x128
  reduces_S512x4096_S512 : S512x4096.Reduces [1] S512
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  shapeCasts_S_S_ : S_.ShapeCasts S_
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .bf16 = 32 ∨ (Rect.block (s := S4096x256) S4096x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .bf16 = 32 ∨ (Rect.block (s := S4096x256) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x128.size a
  hwx0_10 : ∀ i : grid0.Coords, EltTy.bits .bf16 = 32 ∨ (Rect.block (s := S4096x128) S512x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S4096x128.size a
  hwx0_11 : ∀ i : grid0.Coords, EltTy.bits .bf16 = 32 ∨ (Rect.block (s := S4096x128) S512x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .bf16 = 32 ∨ (Rect.block (s := S4096x128) S4096x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S4096x128.size a
  hwx1_3 : ∀ i : grid1.Coords, EltTy.bits .bf16 = 32 ∨ (Rect.block (s := S4096x128) S4096x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S4096x128.size a
  hwx1_6 : ∀ i : grid1.Coords, EltTy.bits .f32 = 32 ∨ (Rect.block (s := S4096x128) S512x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S4096x128.size a
  hwx1_7 : ∀ i : grid1.Coords, EltTy.bits .f32 = 32 ∨ (Rect.block (s := S4096x128) S512x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S4096x128.size a
  hwx1_8 : ∀ i : grid1.Coords, EltTy.bits .bf16 = 32 ∨ (Rect.block (s := S4096x128) S512x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x128.size a ≤ S4096x128.size a
  hwx1_9 : ∀ i : grid1.Coords, EltTy.bits .bf16 = 32 ∨ (Rect.block (s := S4096x128) S512x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S4096x128.size a
  hwx2_0 : ∀ i : grid2.Coords, EltTy.bits .bf16 = 32 ∨ (Rect.block (s := S4096x128) S512x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .bf16 = 32 ∨ (Rect.block (s := S4096x128) S4096x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S4096x4096.size a
  hwx2_2 : ∀ i : grid2.Coords, EltTy.bits .f32 = 32 ∨ (Rect.block (s := S4096x4096) S512x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond1 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_0) S4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_1) S4096x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11_0) S512x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11_1) S512x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_2) S512x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v11_3) S512x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun i => !(k1_cond1 i == 1#1) | 7 => fun i => !(k1_cond2 i == 1#1) | 8 => fun i => !(k1_cond1 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v11_2) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11_3) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S512x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S4096x128 : Shape := ⟨2, ![4096, 128]⟩
abbrev S1x128 : Shape := ⟨2, ![1, 128]⟩
abbrev S4096 : Shape := ⟨1, ![4096]⟩
abbrev S4096x1 : Shape := ⟨2, ![4096, 1]⟩
abbrev S128x4096 : Shape := ⟨2, ![128, 4096]⟩
abbrev S1x4096 : Shape := ⟨2, ![1, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x4096, .f32⟩
  | .hbm, ⟨4, _⟩ => ⟨S4096x4096, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S4096x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x128, .f32⟩
  | .hbm, ⟨22, _⟩ => ⟨S4096x128, .f32⟩
  | .hbm, ⟨23, _⟩ => ⟨S1x128, .f32⟩
  | .hbm, ⟨24, _⟩ => ⟨S4096x128, .f32⟩
  | .hbm, ⟨25, _⟩ => ⟨S4096x128, .f32⟩
  | .hbm, ⟨26, _⟩ => ⟨S4096x256, .f32⟩
  | .hbm, ⟨27, _⟩ => ⟨S4096x256, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4096x128, .f32⟩
  | .hbm, ⟨35, _⟩ => ⟨S4096x128, .f32⟩
  | .hbm, ⟨36, _⟩ => ⟨S1x128, .f32⟩
  | .hbm, ⟨37, _⟩ => ⟨S4096x128, .f32⟩
  | .hbm, ⟨38, _⟩ => ⟨S4096x128, .f32⟩
  | .hbm, ⟨39, _⟩ => ⟨S4096x128, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1, .f32⟩
  | .hbm, ⟨44, _⟩ => ⟨S4096x128, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1, .f32⟩
  | .hbm, ⟨49, _⟩ => ⟨S128x4096, .f32⟩
  | .hbm, ⟨50, _⟩ => ⟨S4096x4096, .f32⟩
  | .hbm, ⟨51, _⟩ => ⟨S1x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v24 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_2 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  transposes_S4096x128_S128x4096_1_0 : S4096x128.Transposes [1, 0] S128x4096
  transposes_S4096x1_S1x4096_1_0 : S4096x1.Transposes [1, 0] S1x4096
  bcast_S_S4096x4096 : S_.BroadcastsInDim S4096x4096 (![] : Fin 0 → Fin S4096x4096.rank)
  reducesTo_S4096x4096_S4096_d1 : S4096x4096.ReducesTo [1] S4096
  shapeCasts_S4096_S4096x1 : S4096.ShapeCasts S4096x1
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  reducesTo_S4096_S_d0 : S4096.ReducesTo [0] S_
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x4096_S4096x4096_1_0_0_1_n_n_wf : DotDims.WF S4096x128 S128x4096 S4096x4096 [1] [0] [0] [1] [] []
  dot_S4096x1_S1x4096_S4096x4096_1_0_0_1_n_n_wf : DotDims.WF S4096x1 S1x4096 S4096x4096 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf

class Facts : Prop extends Facts₀ where

variable [Facts]
-- ==== Proof.Chain.lean ====
/-
  The kernel program's run as a chain of segments. @main is: eight host operations (the bf16 copies of the features
  and weights, the two bias rows), the first kernel region (both towers' hidden layer), two host reshapes (the second
  layer's bias rows), the second region (both towers' embeddings and their normalized rows), the third region (the
  similarity loss accumulated over row blocks), and four host operations (the accumulator as a scalar, divided by the
  row count).  Given, per region, proof data stated at the buffer contents the region is entered with — the arrays as
  found, the class invariant, full shares, nothing owed, and the body obligation — this module folds the buffer
  contents through the six segments (`W0` … `W6`), states each region as a segment between two such boundaries, and
  runs the whole: every weakly fair execution terminates, nothing faults, and every unscoped buffer ends at `W6`.
  From that one post both the frame (the thirteen arguments end as launched) and the results' values are read.
-/
import proofs.«134049_g16819091931673_cont_week2b_1393_5_alg».proof.Proof.Gen.KernelIdeal.Launch
import proofs.«134049_g16819091931673_cont_week2b_1393_5_alg».proof.Proof.Gen.KernelIdeal.Skeleton
import proofs.«134049_g16819091931673_cont_week2b_1393_5_alg».proof.Proof.Gen.KernelIdeal.Points
import proofs.«134049_g16819091931673_cont_week2b_1393_5_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core, as a region's proof data take them. -/
abbrev Vals (F : FTy → Type) : Type := (c : Dev nD) → (b : Ref sig .tc) → Buf (Elt F) ((c : Thread nD τ).loc b)

/-- One region's half of the certificate, at any entry contents: its proof data — the arrays as the region finds
    them, the class invariant (the scoped rest and the generator register), full shares, nothing owed — and the body
    obligation. -/
structure Half (F : FTy → Type) [FloatOps F] (cfg : Cfg sig Λ₀) where
  dat : Vals F → (c : Dev nD) → Dat τ (Elt F) Unit ℕ (UR sig nD τ) ℕ cfg c
  hA : ∀ V c w, (dat V c).A w = V c (Pipeline.arrRef (fun w => (cfg.win w).toWinSpec) w)
  hΦ : ∀ V c t, (dat V c).Φ t = Pipeline.ΦA (fun w => (cfg.win w).toWinSpec) c
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ

variable (H0 : Half F cfg0) (H1 : Half F cfg1) (H2 : Half F cfg2)
variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch: the first region's entry. -/
abbrev W1 : Dev nD → Valuation τ sig (Elt F) := fun c => StableHlo.after hostOps0 (W0 m ρ c)
abbrev V1 : Vals F := fun c b => W1 m ρ c b
/-- After the first region: its arrays at what its write-backs leave, every other buffer as entered. -/
def W2 (c : Dev nD) : Valuation τ sig (Elt F) :=
  Pipeline.withArrays spec0 c (W1 m ρ c) fun w => (H0.dat (V1 m ρ) c).arrAt w cfg0.N
theorem W2_arr (c : Dev nD) (w : Fin cfg0.W) :
    W2 H0 m ρ c (Proc.devRef .tc (Pipeline.arrRef spec0 w)) = (H0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H0 m ρ c (Proc.devRef .tc b) = W1 m ρ c (Proc.devRef .tc b) := by
  unfold W2; exact Pipeline.withArrays_of_ne spec0 c _ _ b hb
abbrev V2 : Vals F := fun c b => W2 H0 m ρ c b
theorem hF0 (c : Dev nD) (w : Fin cfg0.W) : (H0.dat (V1 m ρ) c).arrAt w cfg0.N = V2 H0 m ρ c (Pipeline.arrRef spec0 w) :=
  (W2_arr H0 m ρ c w).symm
theorem hrest0 (c : Dev nD) : ∀ b, b ∉ Finset.univ.image (Pipeline.arrRef spec0) → V2 H0 m ρ c b = V1 m ρ c b :=
  fun b hb => W2_of_ne H0 m ρ c b fun w e => hb (Finset.mem_image.mpr ⟨w, Finset.mem_univ _, e⟩)

/-- After the second host stretch: the second region's entry. -/
abbrev W3 : Dev nD → Valuation τ sig (Elt F) := fun c => StableHlo.after hostOps1 (W2 H0 m ρ c)
abbrev V3 : Vals F := fun c b => W3 H0 m ρ c b
/-- After the second region. -/
def W4 (c : Dev nD) : Valuation τ sig (Elt F) :=
  Pipeline.withArrays spec1 c (W3 H0 m ρ c) fun w => (H1.dat (V3 H0 m ρ) c).arrAt w cfg1.N
theorem W4_arr (c : Dev nD) (w : Fin cfg1.W) :
    W4 H0 H1 m ρ c (Proc.devRef .tc (Pipeline.arrRef spec1 w)) = (H1.dat (V3 H0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H0 H1 m ρ c (Proc.devRef .tc b) = W3 H0 m ρ c (Proc.devRef .tc b) := by
  unfold W4; exact Pipeline.withArrays_of_ne spec1 c _ _ b hb
abbrev V4 : Vals F := fun c b => W4 H0 H1 m ρ c b
theorem hF1 (c : Dev nD) (w : Fin cfg1.W) : (H1.dat (V3 H0 m ρ) c).arrAt w cfg1.N = V4 H0 H1 m ρ c (Pipeline.arrRef spec1 w) :=
  (W4_arr H0 H1 m ρ c w).symm
theorem hrest1 (c : Dev nD) : ∀ b, b ∉ Finset.univ.image (Pipeline.arrRef spec1) → V4 H0 H1 m ρ c b = V3 H0 m ρ c b :=
  fun b hb => W4_of_ne H0 H1 m ρ c b fun w e => hb (Finset.mem_image.mpr ⟨w, Finset.mem_univ _, e⟩)

/-- After the third region (entered at once from the second region's exit). -/
def W5 (c : Dev nD) : Valuation τ sig (Elt F) :=
  Pipeline.withArrays spec2 c (W4 H0 H1 m ρ c) fun w => (H2.dat (V4 H0 H1 m ρ) c).arrAt w cfg2.N
theorem W5_arr (c : Dev nD) (w : Fin cfg2.W) :
    W5 H0 H1 H2 m ρ c (Proc.devRef .tc (Pipeline.arrRef spec2 w)) = (H2.dat (V4 H0 H1 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 H0 H1 H2 m ρ c (Proc.devRef .tc b) = W4 H0 H1 m ρ c (Proc.devRef .tc b) := by
  unfold W5; exact Pipeline.withArrays_of_ne spec2 c _ _ b hb
abbrev V5 : Vals F := fun c b => W5 H0 H1 H2 m ρ c b
theorem hF2 (c : Dev nD) (w : Fin cfg2.W) : (H2.dat (V4 H0 H1 m ρ) c).arrAt w cfg2.N = V5 H0 H1 H2 m ρ c (Pipeline.arrRef spec2 w) :=
  (W5_arr H0 H1 H2 m ρ c w).symm
theorem hrest2 (c : Dev nD) : ∀ b, b ∉ Finset.univ.image (Pipeline.arrRef spec2) → V5 H0 H1 H2 m ρ c b = V4 H0 H1 m ρ c b :=
  fun b hb => W5_of_ne H0 H1 H2 m ρ c b fun w e => hb (Finset.mem_image.mpr ⟨w, Finset.mem_univ _, e⟩)

/-- After the last host stretch: the end. -/
abbrev W6 : Dev nD → Valuation τ sig (Elt F) := fun c => StableHlo.after hostOps3 (W5 H0 H1 H2 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => H0.dat (V1 m ρ) c
  | ⟨1, _⟩ => fun c => H1.dat (V3 H0 m ρ) c
  | ⟨2, _⟩ => fun c => H2.dat (V4 H0 H1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 between its two boundaries: its arrays are split out of the unscoped buffers at entry and put back at
    what its write-backs leave at exit; the generator register goes into the class invariant and comes back; nothing
    is owed; the kernel has no semaphore of its own. -/
def reg0 : Pipeline.RegionSeg (pcfgs (F := F)) adm (pdats H0 H1 H2 m ρ) () defs₀ 𝒱₀ L lv 0 where
  win := launch0.win.to₀
  block_pos := launch0.block_pos
  stage_whole := launch0.stage_whole
  K := PEmpty
  osem k := k.elim
  ho := Pipeline.OwnSemFacts.none _
  hbody c := (H0.hbody (V1 m ρ) c).loose
  hwaits := Pipeline.hwaits_of_owed_zero _ _ _ _ L lv 0 fun c t => H0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 H0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H0 H1 H2 m ρ) launch0.win launch0.arr_whole c
      ((pdats H0 H1 H2 m ρ 0 c).share_full fun w => H0.hq (V1 m ρ) c w) (V1 m ρ c) fun w => H0.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _; left
        rw [show (pdats H0 H1 H2 m ρ 0 c).recorded 0 = Set.univ from H0.hrec (V1 m ρ) c 0]; trivial
      rw [show (pdats H0 H1 H2 m ρ 0 c).owed 0 = 0 from H0.howed (V1 m ρ) c 0]
      iexact HO
    isplitl [Hp]; · iexact Hp
    iexact Hrest
  hin c := by
    rw [show (pdats H0 H1 H2 m ρ 0 c).Φ 0 = Pipeline.ΦA spec0 c from H0.hΦ (V1 m ρ) c 0]; unfold Pipeline.ΦA
    iintro ⟨Hp, -, Hr⟩
    isplitl [Hr]; · iexact Hr
    iexact Hp
  hout c := by
    rw [Pipeline.ownSems0_none, show (pdats H0 H1 H2 m ρ 0 c).Φ (Fin.last _) = Pipeline.ΦA spec0 c from H0.hΦ (V1 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 m ρ) ((pdats H0 H1 H2 m ρ 0 c).share_full fun w => H0.hq (V1 m ρ) c w)
      (V1 m ρ c) (V2 H0 m ρ c) ((pdats H0 H1 H2 m ρ 0 c).arrAt · cfg0.N) (hF0 H0 m ρ c) (hrest0 H0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H0 H1 H2 m ρ 0 c).owed (Fin.last _) = 0 from H0.howed (V1 m ρ) c _]
    iexact HO

set_option backward.isDefEq.respectTransparency.types false in
/-- Region 1 between its two boundaries: its arrays are split out of the unscoped buffers at entry and put back at
    what its write-backs leave at exit; the generator register goes into the class invariant and comes back; nothing
    is owed; the kernel has no semaphore of its own. -/
def reg1 : Pipeline.RegionSeg (pcfgs (F := F)) adm (pdats H0 H1 H2 m ρ) () defs₀ 𝒱₀ L lv 1 where
  win := launch1.win.to₀
  block_pos := launch1.block_pos
  stage_whole := launch1.stage_whole
  K := PEmpty
  osem k := k.elim
  ho := Pipeline.OwnSemFacts.none _
  hbody c := (H1.hbody (V3 H0 m ρ) c).loose
  hwaits := Pipeline.hwaits_of_owed_zero _ _ _ _ L lv 1 fun c t => H1.howed (V3 H0 m ρ) c t
  pre c := iprop(StableHlo.held (c : Thread nD τ) (Pipeline.ucRefs τ sig) (W3 H0 m ρ c) ∗ R c)
  post c := iprop(StableHlo.held (c : Thread nD τ) (Pipeline.ucRefs τ sig) (W4 H0 H1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 H0 m ρ c)
  hentry c := by
    rw [Pipeline.ownSems0_none]
    have hsplit := Pipeline.arrays_of_unscopedBufs (p := 1) (pcfgs (F := F)) adm (pdats H0 H1 H2 m ρ) launch1.win launch1.arr_whole c
      ((pdats H0 H1 H2 m ρ 1 c).share_full fun w => H1.hq (V3 H0 m ρ) c w) (V3 H0 m ρ c) fun w => H1.hA (V3 H0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _; left
        rw [show (pdats H0 H1 H2 m ρ 1 c).recorded 0 = Set.univ from H1.hrec (V3 H0 m ρ) c 0]; trivial
      rw [show (pdats H0 H1 H2 m ρ 1 c).owed 0 = 0 from H1.howed (V3 H0 m ρ) c 0]
      iexact HO
    isplitl [Hp]; · iexact Hp
    iexact Hrest
  hin c := by
    rw [show (pdats H0 H1 H2 m ρ 1 c).Φ 0 = Pipeline.ΦA spec1 c from H1.hΦ (V3 H0 m ρ) c 0]; unfold Pipeline.ΦA
    iintro ⟨Hp, -, Hr⟩
    isplitl [Hr]; · iexact Hr
    iexact Hp
  hout c := by
    rw [Pipeline.ownSems0_none, show (pdats H0 H1 H2 m ρ 1 c).Φ (Fin.last _) = Pipeline.ΦA spec1 c from H1.hΦ (V3 H0 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 m ρ) ((pdats H0 H1 H2 m ρ 1 c).share_full fun w => H1.hq (V3 H0 m ρ) c w)
      (V3 H0 m ρ c) (V4 H0 H1 m ρ c) ((pdats H0 H1 H2 m ρ 1 c).arrAt · cfg1.N) (hF1 H0 H1 m ρ c) (hrest1 H0 H1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H0 H1 H2 m ρ 1 c).owed (Fin.last _) = 0 from H1.howed (V3 H0 m ρ) c _]
    iexact HO

set_option backward.isDefEq.respectTransparency.types false in
/-- Region 2 between its two boundaries: its arrays are split out of the unscoped buffers at entry and put back at
    what its write-backs leave at exit; the generator register goes into the class invariant and comes back; nothing
    is owed; the kernel has no semaphore of its own. -/
def reg2 : Pipeline.RegionSeg (pcfgs (F := F)) adm (pdats H0 H1 H2 m ρ) () defs₀ 𝒱₀ L lv 2 where
  win := launch2.win.to₀
  block_pos := launch2.block_pos
  stage_whole := launch2.stage_whole
  K := PEmpty
  osem k := k.elim
  ho := Pipeline.OwnSemFacts.none _
  hbody c := (H2.hbody (V4 H0 H1 m ρ) c).loose
  hwaits := Pipeline.hwaits_of_owed_zero _ _ _ _ L lv 2 fun c t => H2.howed (V4 H0 H1 m ρ) c t
  pre c := iprop(StableHlo.held (c : Thread nD τ) (Pipeline.ucRefs τ sig) (W4 H0 H1 m ρ c) ∗ R c)
  post c := iprop(StableHlo.held (c : Thread nD τ) (Pipeline.ucRefs τ sig) (W5 H0 H1 H2 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 H0 H1 m ρ c)
  hentry c := by
    rw [Pipeline.ownSems0_none]
    have hsplit := Pipeline.arrays_of_unscopedBufs (p := 2) (pcfgs (F := F)) adm (pdats H0 H1 H2 m ρ) launch2.win launch2.arr_whole c
      ((pdats H0 H1 H2 m ρ 2 c).share_full fun w => H2.hq (V4 H0 H1 m ρ) c w) (V4 H0 H1 m ρ c) fun w => H2.hA (V4 H0 H1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _; left
        rw [show (pdats H0 H1 H2 m ρ 2 c).recorded 0 = Set.univ from H2.hrec (V4 H0 H1 m ρ) c 0]; trivial
      rw [show (pdats H0 H1 H2 m ρ 2 c).owed 0 = 0 from H2.howed (V4 H0 H1 m ρ) c 0]
      iexact HO
    isplitl [Hp]; · iexact Hp
    iexact Hrest
  hin c := by
    rw [show (pdats H0 H1 H2 m ρ 2 c).Φ 0 = Pipeline.ΦA spec2 c from H2.hΦ (V4 H0 H1 m ρ) c 0]; unfold Pipeline.ΦA
    iintro ⟨Hp, -, Hr⟩
    isplitl [Hr]; · iexact Hr
    iexact Hp
  hout c := by
    rw [Pipeline.ownSems0_none, show (pdats H0 H1 H2 m ρ 2 c).Φ (Fin.last _) = Pipeline.ΦA spec2 c from H2.hΦ (V4 H0 H1 m ρ) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 m ρ) ((pdats H0 H1 H2 m ρ 2 c).share_full fun w => H2.hq (V4 H0 H1 m ρ) c w)
      (V4 H0 H1 m ρ c) (V5 H0 H1 H2 m ρ c) ((pdats H0 H1 H2 m ρ 2 c).arrAt · cfg2.N) (hF2 H0 H1 H2 m ρ c) (hrest2 H0 H1 H2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H0 H1 H2 m ρ 2 c).owed (Fin.last _) = 0 from H2.howed (V4 H0 H1 m ρ) c _]
    iexact HO

/-! ## @main as segments, and the launch -/

/-- @main's six segments in order. -/
abbrev segs : List (Pipeline.Seg (pcfgs (F := F)) adm (pdats H0 H1 H2 m ρ) () defs₀ 𝒱₀ L lv) :=
  [ .host (hseg hostOps0 hostOps0_sub hostOps0_fresh (W0 m ρ)),
    .region (reg0 H0 H1 H2 m ρ),
    .host (hseg hostOps1 hostOps1_sub hostOps1_fresh (W2 H0 m ρ)),
    .region (reg1 H0 H1 H2 m ρ),
    .region (reg2 H0 H1 H2 m ρ),
    .host (hseg hostOps3 hostOps3_sub hostOps3_fresh (W5 H0 H1 H2 m ρ)) ]
/-- @main is the run of the segments. -/
theorem main_run (c : Dev nD) : main (F := F) c = Pipeline.Seg.run (segs H0 H1 H2 m ρ) := (main_chain c).trans (by chain_rfl)

/-- The last thread state without the `owes`: every unscoped buffer at the last boundary's contents. -/
abbrev Tₙ (c : Dev nD) : sProp 𝕄 := iprop(StableHlo.held (c : Thread nD τ) (Pipeline.ucRefs τ sig) (W6 H0 H1 H2 m ρ c) ∗ ∃ r, prngReg c r)

set_option backward.isDefEq.respectTransparency.types false in
/-- THE RUN: from any memory with zero counters every weakly fair execution of @main terminates, nothing faulting,
    and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 H0 H1 H2 m ρ c b) :=
  Pipeline.θ_run_regions_kit (pcfgs (F := F)) adm (pdats H0 H1 H2 m ρ) () cellOf_inj emb₁ defs₀ 𝒱₀ L lv m ρ main (segs H0 H1 H2 m ρ)
    (fun c Q => by rw [main_run H0 H1 H2 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H0 H1 H2 m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 H0 H1 H2 m ρ c) ∗ R c) ⊢ iprop(Tₙ H0 H1 H2 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 H0 H1 H2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 H0 H1 H2 m ρ c) s')
      isplitl [Hh] <;> iassumption)
    (hQ := fun s h c => h c)

/-! ## Reading a boundary back

    A host stretch leaves every buffer it does not write as it was; a region leaves every buffer that is not one of
    its OUTPUT arrays as it was (an input array is read through its window and never written back; any other buffer
    bypasses the region). -/

theorem W1_keep (c : Dev nD) (r : Ref sig .tc) (h : r ∉ hostOps0_W) : W1 m ρ c r = W0 m ρ c r :=
  StableHlo.after_of_writes_sub hostOps0 _ hostOps0_writes h
theorem W3_keep (c : Dev nD) (r : Ref sig .tc) (h : r ∉ hostOps1_W) : W3 H0 m ρ c r = W2 H0 m ρ c r :=
  StableHlo.after_of_writes_sub hostOps1 _ hostOps1_writes h
theorem W6_keep (c : Dev nD) (r : Ref sig .tc) (h : r ∉ hostOps3_W) : W6 H0 H1 H2 m ρ c r = W5 H0 H1 H2 m ρ c r :=
  StableHlo.after_of_writes_sub hostOps3 _ hostOps3_writes h

theorem W2_keep (c : Dev nD) (b : Ref sig .tc) (hb : ∀ w, Pipeline.arrRef spec0 w = b → (cfg0.win w).isOut = false) :
    W2 H0 m ρ c (Proc.devRef .tc b) = W1 m ρ c (Proc.devRef .tc b) := by
  by_cases h : ∃ w, Pipeline.arrRef spec0 w = b
  · obtain ⟨w, rfl⟩ := h
    exact (W2_arr H0 m ρ c w).trans (((H0.dat (V1 m ρ) c).arrAt_in w (hb w rfl) _).trans (H0.hA (V1 m ρ) c w))
  · exact W2_of_ne H0 m ρ c b fun w e => h ⟨w, e⟩
theorem W4_keep (c : Dev nD) (b : Ref sig .tc) (hb : ∀ w, Pipeline.arrRef spec1 w = b → (cfg1.win w).isOut = false) :
    W4 H0 H1 m ρ c (Proc.devRef .tc b) = W3 H0 m ρ c (Proc.devRef .tc b) := by
  by_cases h : ∃ w, Pipeline.arrRef spec1 w = b
  · obtain ⟨w, rfl⟩ := h
    exact (W4_arr H0 H1 m ρ c w).trans (((H1.dat (V3 H0 m ρ) c).arrAt_in w (hb w rfl) _).trans (H1.hA (V3 H0 m ρ) c w))
  · exact W4_of_ne H0 H1 m ρ c b fun w e => h ⟨w, e⟩
theorem W5_keep (c : Dev nD) (b : Ref sig .tc) (hb : ∀ w, Pipeline.arrRef spec2 w = b → (cfg2.win w).isOut = false) :
    W5 H0 H1 H2 m ρ c (Proc.devRef .tc b) = W4 H0 H1 m ρ c (Proc.devRef .tc b) := by
  by_cases h : ∃ w, Pipeline.arrRef spec2 w = b
  · obtain ⟨w, rfl⟩ := h
    exact (W5_arr H0 H1 H2 m ρ c w).trans (((H2.dat (V4 H0 H1 m ρ) c).arrAt_in w (hb w rfl) _).trans (H2.hA (V4 H0 H1 m ρ) c w))
  · exact W5_of_ne H0 H1 H2 m ρ c b fun w e => h ⟨w, e⟩

/-- A buffer that no host stretch writes and that is no region's output array ends as launched. -/
theorem W6_launch (c : Dev nD) (r : Ref sig .tc) (h0 : r ∉ hostOps0_W) (h1 : r ∉ hostOps1_W) (h3 : r ∉ hostOps3_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false) :
    W6 H0 H1 H2 m ρ c (Proc.devRef .tc r) = m ((c : Thread nD τ).loc r) :=
  (W6_keep H0 H1 H2 m ρ c r h3).trans <| (W5_keep H0 H1 H2 m ρ c r k2).trans <| (W4_keep H0 H1 m ρ c r k1).trans <|
    (W3_keep H0 m ρ c r h1).trans <| (W2_keep H0 m ρ c r k0).trans <| (W1_keep m ρ c r h0).trans rfl

theorem W6_main_arg0 (c : Dev nD) : W6 H0 H1 H2 m ρ c (Proc.devRef .tc main_arg0) = m ((c : Thread nD τ).loc main_arg0) :=
  W6_launch H0 H1 H2 m ρ c main_arg0 (by decide) (by decide) (by decide) (by decide) (by decide) (by decide)
theorem W6_main_arg1 (c : Dev nD) : W6 H0 H1 H2 m ρ c (Proc.devRef .tc main_arg1) = m ((c : Thread nD τ).loc main_arg1) :=
  W6_launch H0 H1 H2 m ρ c main_arg1 (by decide) (by decide) (by decide) (by decide) (by decide) (by decide)
theorem W6_main_arg2 (c : Dev nD) : W6 H0 H1 H2 m ρ c (Proc.devRef .tc main_arg2) = m ((c : Thread nD τ).loc main_arg2) :=
  W6_launch H0 H1 H2 m ρ c main_arg2 (by decide) (by decide) (by decide) (by decide) (by decide) (by decide)
theorem W6_main_arg3 (c : Dev nD) : W6 H0 H1 H2 m ρ c (Proc.devRef .tc main_arg3) = m ((c : Thread nD τ).loc main_arg3) :=
  W6_launch H0 H1 H2 m ρ c main_arg3 (by decide) (by decide) (by decide) (by decide) (by decide) (by decide)
theorem W6_main_arg4 (c : Dev nD) : W6 H0 H1 H2 m ρ c (Proc.devRef .tc main_arg4) = m ((c : Thread nD τ).loc main_arg4) :=
  W6_launch H0 H1 H2 m ρ c main_arg4 (by decide) (by decide) (by decide) (by decide) (by decide) (by decide)
theorem W6_main_arg5 (c : Dev nD) : W6 H0 H1 H2 m ρ c (Proc.devRef .tc main_arg5) = m ((c : Thread nD τ).loc main_arg5) :=
  W6_launch H0 H1 H2 m ρ c main_arg5 (by decide) (by decide) (by decide) (by decide) (by decide) (by decide)
theorem W6_main_arg6 (c : Dev nD) : W6 H0 H1 H2 m ρ c (Proc.devRef .tc main_arg6) = m ((c : Thread nD τ).loc main_arg6) :=
  W6_launch H0 H1 H2 m ρ c main_arg6 (by decide) (by decide) (by decide) (by decide) (by decide) (by decide)
theorem W6_main_arg7 (c : Dev nD) : W6 H0 H1 H2 m ρ c (Proc.devRef .tc main_arg7) = m ((c : Thread nD τ).loc main_arg7) :=
  W6_launch H0 H1 H2 m ρ c main_arg7 (by decide) (by decide) (by decide) (by decide) (by decide) (by decide)
theorem W6_main_arg8 (c : Dev nD) : W6 H0 H1 H2 m ρ c (Proc.devRef .tc main_arg8) = m ((c : Thread nD τ).loc main_arg8) :=
  W6_launch H0 H1 H2 m ρ c main_arg8 (by decide) (by decide) (by decide) (by decide) (by decide) (by decide)
theorem W6_main_arg9 (c : Dev nD) : W6 H0 H1 H2 m ρ c (Proc.devRef .tc main_arg9) = m ((c : Thread nD τ).loc main_arg9) :=
  W6_launch H0 H1 H2 m ρ c main_arg9 (by decide) (by decide) (by decide) (by decide) (by decide) (by decide)
theorem W6_main_arg10 (c : Dev nD) : W6 H0 H1 H2 m ρ c (Proc.devRef .tc main_arg10) = m ((c : Thread nD τ).loc main_arg10) :=
  W6_launch H0 H1 H2 m ρ c main_arg10 (by decide) (by decide) (by decide) (by decide) (by decide) (by decide)
theorem W6_main_arg11 (c : Dev nD) : W6 H0 H1 H2 m ρ c (Proc.devRef .tc main_arg11) = m ((c : Thread nD τ).loc main_arg11) :=
  W6_launch H0 H1 H2 m ρ c main_arg11 (by decide) (by decide) (by decide) (by decide) (by decide) (by decide)
theorem W6_main_arg12 (c : Dev nD) : W6 H0 H1 H2 m ρ c (Proc.devRef .tc main_arg12) = m ((c : Thread nD τ).loc main_arg12) :=
  W6_launch H0 H1 H2 m ρ c main_arg12 (by decide) (by decide) (by decide) (by decide) (by decide) (by decide)

include H0 H1 H2 in
/-- THE FRAME, off the run: the thirteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 H0 H1 H2 m ρ c),
     (h c _ (mem_uc main_arg1 (by decide))).trans (W6_main_arg1 H0 H1 H2 m ρ c),
     (h c _ (mem_uc main_arg2 (by decide))).trans (W6_main_arg2 H0 H1 H2 m ρ c),
     (h c _ (mem_uc main_arg3 (by decide))).trans (W6_main_arg3 H0 H1 H2 m ρ c),
     (h c _ (mem_uc main_arg4 (by decide))).trans (W6_main_arg4 H0 H1 H2 m ρ c),
     (h c _ (mem_uc main_arg5 (by decide))).trans (W6_main_arg5 H0 H1 H2 m ρ c),
     (h c _ (mem_uc main_arg6 (by decide))).trans (W6_main_arg6 H0 H1 H2 m ρ c),
     (h c _ (mem_uc main_arg7 (by decide))).trans (W6_main_arg7 H0 H1 H2 m ρ c),
     (h c _ (mem_uc main_arg8 (by decide))).trans (W6_main_arg8 H0 H1 H2 m ρ c),
     (h c _ (mem_uc main_arg9 (by decide))).trans (W6_main_arg9 H0 H1 H2 m ρ c),
     (h c _ (mem_uc main_arg10 (by decide))).trans (W6_main_arg10 H0 H1 H2 m ρ c),
     (h c _ (mem_uc main_arg11 (by decide))).trans (W6_main_arg11 H0 H1 H2 m ρ c),
     (h c _ (mem_uc main_arg12 (by decide))).trans (W6_main_arg12 H0 H1 H2 m ρ c)⟩)
    (run H0 H1 H2 m ρ)

end Cert.KernelIdeal.Chain

end
-- ==== Proof.Ends.lean ====
/-
  What the run's last boundary holds at the program's three results, and what each region is entered with: every
  buffer read back through the fold of boundaries to the argument arrays, the host stretches' operations applied on
  the way (a bf16 copy, a bias vector as a row, the accumulator as a scalar divided by the row count).
-/
import proofs.«134049_g16819091931673_cont_week2b_1393_5_alg».proof.Proof.Chain
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem Idealize.ShloMosaic.StableHlo

variable {F : FTy → Type} [FloatOps F]
variable (H0 : Half F cfg0) (H1 : Half F cfg1) (H2 : Half F cfg2)
variable (m : (ℓ : Loc nD τ sig) → Buf (Elt F) ℓ) (ρ : Dev nD → PrngReg)

/-! ## The first region's entry -/

theorem V1_launch (c : Dev nD) (r : Ref sig .tc) (h : r ∉ hostOps0_W) : V1 m ρ c r = m ((c : Thread nD τ).loc r) :=
  (W1_keep m ρ c r h).trans rfl
theorem V1_x1 (c : Dev nD) : V1 m ρ c main_v0 = truncf .bf16 (m ((c : Thread nD τ).loc main_arg0)) bitsLt_bf16_f32 := by
  show StableHlo.after hostOps0 (W0 m ρ c) (Proc.devRef .tc main_v0) = _; after_results <;> rfl
theorem V1_x2 (c : Dev nD) : V1 m ρ c main_v1 = truncf .bf16 (m ((c : Thread nD τ).loc main_arg2)) bitsLt_bf16_f32 := by
  show StableHlo.after hostOps0 (W0 m ρ c) (Proc.devRef .tc main_v1) = _; after_results <;> rfl
theorem V1_w11 (c : Dev nD) : V1 m ρ c main_v2 = truncf .bf16 (m ((c : Thread nD τ).loc main_arg5)) bitsLt_bf16_f32 := by
  show StableHlo.after hostOps0 (W0 m ρ c) (Proc.devRef .tc main_v2) = _; after_results <;> rfl
theorem V1_w21 (c : Dev nD) : V1 m ρ c main_v3 = truncf .bf16 (m ((c : Thread nD τ).loc main_arg9)) bitsLt_bf16_f32 := by
  show StableHlo.after hostOps0 (W0 m ρ c) (Proc.devRef .tc main_v3) = _; after_results <;> rfl
theorem V1_b11 (c : Dev nD) : V1 m ρ c main_v4 = shapeCast S1x256 (m ((c : Thread nD τ).loc main_arg6)) shapeCasts_S256_S1x256 := by
  show StableHlo.after hostOps0 (W0 m ρ c) (Proc.devRef .tc main_v4) = _; after_results <;> rfl
theorem V1_b21 (c : Dev nD) : V1 m ρ c main_v5 = shapeCast S1x256 (m ((c : Thread nD τ).loc main_arg10)) shapeCasts_S256_S1x256 := by
  show StableHlo.after hostOps0 (W0 m ρ c) (Proc.devRef .tc main_v5) = _; after_results <;> rfl
theorem V1_w12 (c : Dev nD) : V1 m ρ c main_v6 = truncf .bf16 (m ((c : Thread nD τ).loc main_arg7)) bitsLt_bf16_f32 := by
  show StableHlo.after hostOps0 (W0 m ρ c) (Proc.devRef .tc main_v6) = _; after_results <;> rfl
theorem V1_w22 (c : Dev nD) : V1 m ρ c main_v7 = truncf .bf16 (m ((c : Thread nD τ).loc main_arg11)) bitsLt_bf16_f32 := by
  show StableHlo.after hostOps0 (W0 m ρ c) (Proc.devRef .tc main_v7) = _; after_results <;> rfl

/-! ## The second region's entry -/

theorem V3_launch (c : Dev nD) (r : Ref sig .tc) (h0 : r ∉ hostOps0_W) (h1 : r ∉ hostOps1_W)
    (k0 : ∀ w, Pipeline.arrRef spec0 w = r → (cfg0.win w).isOut = false) : V3 H0 m ρ c r = m ((c : Thread nD τ).loc r) :=
  (W3_keep H0 m ρ c r h1).trans <| (W2_keep H0 m ρ c r k0).trans <| (W1_keep m ρ c r h0).trans rfl
theorem V3_s21 (c : Dev nD) : V3 H0 m ρ c main_v8_0 = (H0.dat (V1 m ρ) c).arrAt 10 cfg0.N :=
  (W3_keep H0 m ρ c main_v8_0 (by decide)).trans (W2_arr H0 m ρ c 10)
theorem V3_s22 (c : Dev nD) : V3 H0 m ρ c main_v8_1 = (H0.dat (V1 m ρ) c).arrAt 11 cfg0.N :=
  (W3_keep H0 m ρ c main_v8_1 (by decide)).trans (W2_arr H0 m ρ c 11)
theorem W2_launch (c : Dev nD) (r : Ref sig .tc) (h0 : r ∉ hostOps0_W)
    (k0 : ∀ w, Pipeline.arrRef spec0 w = r → (cfg0.win w).isOut = false) : W2 H0 m ρ c (Proc.devRef .tc r) = m ((c : Thread nD τ).loc r) :=
  (W2_keep H0 m ρ c r k0).trans <| (W1_keep m ρ c r h0).trans rfl
theorem V3_b12 (c : Dev nD) : V3 H0 m ρ c main_v9 = shapeCast S1x128 (m ((c : Thread nD τ).loc main_arg8)) shapeCasts_S128_S1x128 := by
  show StableHlo.after hostOps1 (W2 H0 m ρ c) (Proc.devRef .tc main_v9) = _; after_results
  rw [W2_launch H0 m ρ c main_arg8 (by decide) (by decide)]; rfl
theorem V3_b22 (c : Dev nD) : V3 H0 m ρ c main_v10 = shapeCast S1x128 (m ((c : Thread nD τ).loc main_arg12)) shapeCasts_S128_S1x128 := by
  show StableHlo.after hostOps1 (W2 H0 m ρ c) (Proc.devRef .tc main_v10) = _; after_results
  rw [W2_launch H0 m ρ c main_arg12 (by decide) (by decide)]; rfl

/-! ## The third region's entry -/

theorem V4_zn1 (c : Dev nD) : V4 H0 H1 m ρ c main_v11_2 = (H1.dat (V3 H0 m ρ) c).arrAt 8 cfg1.N := W4_arr H0 H1 m ρ c 8
theorem V4_zn2 (c : Dev nD) : V4 H0 H1 m ρ c main_v11_3 = (H1.dat (V3 H0 m ρ) c).arrAt 9 cfg1.N := W4_arr H0 H1 m ρ c 9
theorem V4_clm (c : Dev nD) : V4 H0 H1 m ρ c main_arg4 = m ((c : Thread nD τ).loc main_arg4) :=
  (W4_keep H0 H1 m ρ c main_arg4 (by decide)).trans (V3_launch H0 m ρ c main_arg4 (by decide) (by decide) (by decide))

/-! ## The results -/

theorem W6_z1 (c : Dev nD) : W6 H0 H1 H2 m ρ c (Proc.devRef .tc main_v11_0) = (H1.dat (V3 H0 m ρ) c).arrAt 6 cfg1.N :=
  (W6_keep H0 H1 H2 m ρ c main_v11_0 (by decide)).trans <| (W5_keep H0 H1 H2 m ρ c main_v11_0 (by decide)).trans (W4_arr H0 H1 m ρ c 6)
theorem W6_z2 (c : Dev nD) : W6 H0 H1 H2 m ρ c (Proc.devRef .tc main_v11_1) = (H1.dat (V3 H0 m ρ) c).arrAt 7 cfg1.N :=
  (W6_keep H0 H1 H2 m ρ c main_v11_1 (by decide)).trans <| (W5_keep H0 H1 H2 m ρ c main_v11_1 (by decide)).trans (W4_arr H0 H1 m ρ c 7)
theorem W6_loss (c : Dev nD) : W6 H0 H1 H2 m ρ c (Proc.devRef .tc main_v15)
    = shapeCast S_ (Host.divf (shapeCast S_ ((H2.dat (V4 H0 H1 m ρ) c).arrAt 3 cfg2.N) shapeCasts_S1x1_S_) (constant S_ .f32 0x45800000#32)) shapeCasts_S_S_ := by
  show StableHlo.after hostOps3 (W5 H0 H1 H2 m ρ c) (Proc.devRef .tc main_v15) = _; after_results
  rw [W5_arr H0 H1 H2 m ρ c 3]; rfl

end Cert.KernelIdeal.Chain

end
-- ==== Proof.Mid.lean ====
/-
  Region 0 of the two-tower graph convolution: the hidden layer, one block of rows per grid point.

  The grid has 16 points. At a point i < 8 the body takes rows 512·i … 512·i + 511 of the first adjacency matrix (a
  block) and stores relu((block·x₁)·W₁₁ + b₁₁)·W₁₂ whole into the first output's buffer; at a point i ≥ 8 it does the same
  for the second tower on block i − 8 of the second adjacency matrix. A row of the result depends on that row of the
  adjacency alone. The inactive tower's windows are parked: the first output's block index stays 7 through the last
  eight points, where the body stores nothing into it, so its buffer is handed back as found and block 7, stored at
  point 7, is written back only after the last point, as point 7 left it; the second output's index stays 0 through the first eight points,
  where nothing is written back. So each output array ends as one function of the entry contents — row block k is the
  tower's payload of row block k of its adjacency and the tower's four whole operands — and the inputs end unchanged.
-/
import proofs.«134049_g16819091931673_cont_week2b_1393_5_alg».proof.Proof.Gen.KernelIdeal.Launch
import proofs.«134049_g16819091931673_cont_week2b_1393_5_alg».proof.Proof.Gen.KernelIdeal.Skeleton
import proofs.«134049_g16819091931673_cont_week2b_1393_5_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.ValueIdx
import Idealize.ShloMosaic.Lib.Ring
import Idealize.ShloMosaic.Lib.Tactic

set_option maxRecDepth 16384

noncomputable section

namespace Cert.KernelIdeal.Mid

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)

variable {F : FTy → Type} [FloatOps F]

local notation "𝕄" => MT nD τ sig Unit (Elt F) ℕ (UR sig nD τ) ℕ

/-! # The body of region 0 (`cc0__mid_body`) on whole staging memrefs, one triple per tower -/

/-! ## The body's accesses: every load and the store take the whole buffer -/

abbrev rA : Rect S512x4096 := Rect.unit (s := S512x4096) ![0, 0] S512x4096.size inb_S512x4096_S512x4096_0_0
abbrev rX : Rect S4096x256 := Rect.unit (s := S4096x256) ![0, 0] S4096x256.size inb_S4096x256_S4096x256_0_0
abbrev rW1 : Rect S256x256 := Rect.unit (s := S256x256) ![0, 0] S256x256.size inb_S256x256_S256x256_0_0
abbrev rB : Rect S1x256 := Rect.unit (s := S1x256) ![0, 0] S1x256.size inb_S1x256_S1x256_0_0
abbrev rW2 : Rect S256x128 := Rect.unit (s := S256x128) ![0, 0] S256x128.size inb_S256x128_S256x128_0_0
abbrev rO : Rect S512x128 := Rect.unit (s := S512x128) ![0, 0] S512x128.size inb_S512x128_S512x128_0_0

/-! ## What a tower's branch leaves in its output window's buffer -/

/-- Tower 1's output buffer after the body, from the tower's input blocks: its one store, the whole buffer. -/
def out0_10 (x0 : Vec F S512x4096 .f32) (x2 : Vec F S4096x256 .bf16) (x4 : Vec F S256x256 .bf16) (x6 : Vec F S1x256 .f32) (x8 : Vec F S256x128 .bf16) : Vec F S512x128 .bf16 :=
  View.canon [⟨rO, k0_pay1 (View.ld x0 rA) (View.ld x2 rX) (View.ld x4 rW1) (View.ld x6 rB) (View.ld x8 rW2)⟩]

/-- Tower 2's, likewise. -/
def out0_11 (x0 : Vec F S512x4096 .f32) (x2 : Vec F S4096x256 .bf16) (x4 : Vec F S256x256 .bf16) (x6 : Vec F S1x256 .f32) (x8 : Vec F S256x128 .bf16) : Vec F S512x128 .bf16 :=
  View.canon [⟨rO, k0_pay2 (View.ld x0 rA) (View.ld x2 rX) (View.ld x4 rW1) (View.ld x6 rB) (View.ld x8 rW2)⟩]

/-- The one store covers the buffer. -/
theorem coverO (p0 : Vec F S512x128 .bf16) (y : S512x128.Idx) :
    ∃ pc ∈ ([⟨rO, p0⟩] : List (View.Piece (Elt F) S512x128 .bf16)), y ∈ pc.1.set :=
  View.cover_of_tiled [⟨rO, p0⟩] S512x128.size (by rfl) y

/-! ## The body's triple, per tower -/

set_option maxHeartbeats 4000000 in
/-- The body at a point of tower 1 (its branch taken, the other not): on whole staging memrefs, the tower's five inputs at
    read contents and its output at anything, it runs to the continuation holding the inputs as they were and the output at
    `out0_10` of them; the other tower's memrefs are not touched. -/
theorem sound_kernel0_t1 (c : Dev nD) (E : Set ℕ) (i : grid0.Coords) (h1 : k0_cond1 i = 1#1) (h2 : ¬ k0_cond2 i = 1#1)
    (arg1 : Memref sig .tc .vmem S512x4096 .f32) (harg1 : arg1.IsWhole) (arg2 : Memref sig .tc .vmem S512x4096 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S256x128 .bf16) (harg9 : arg9.IsWhole) (arg10 : Memref sig .tc .vmem S256x128 .bf16) (harg10 : arg10.IsWhole) (arg11 : Memref sig .tc .vmem S512x128 .bf16) (harg11 : arg11.IsWhole) (arg12 : Memref sig .tc .vmem S512x128 .bf16) (harg12 : arg12.IsWhole)
    (x0 : Vec F S512x4096 .f32) (x2 : Vec F S4096x256 .bf16) (x4 : Vec F S256x256 .bf16) (x6 : Vec F S1x256 .f32) (x8 : Vec F S256x128 .bf16) (K : PUnit → sProp 𝕄) :
    iprop(owns (c : Thread nD τ) arg1 fullShare x0 ∗ owns (c : Thread nD τ) arg3 fullShare x2 ∗ owns (c : Thread nD τ) arg5 fullShare x4 ∗ owns (c : Thread nD τ) arg7 fullShare x6 ∗ owns (c : Thread nD τ) arg9 fullShare x8 ∗ (∃ d, owns (c : Thread nD τ) arg11 fullShare d)
        ∗ (iprop(owns (c : Thread nD τ) arg1 fullShare x0 ∗ owns (c : Thread nD τ) arg3 fullShare x2 ∗ owns (c : Thread nD τ) arg5 fullShare x4 ∗ owns (c : Thread nD τ) arg7 fullShare x6 ∗ owns (c : Thread nD τ) arg9 fullShare x8 ∗ owns (c : Thread nD τ) arg11 fullShare (out0_10 x0 x2 x4 x6 x8)) -∗ K ⟨⟩))
      ⊢ wp frame (wpE (defs₀ (F := F)) Variants.none c none) E (cc0__mid_body i arg1 harg1 arg2 harg2 arg3 harg3 arg4 harg4 arg5 harg5 arg6 harg6 arg7 harg7 arg8 harg8 arg9 harg9 arg10 harg10 arg11 harg11 arg12 harg12) K := by
  simp only [cc0__mid_body_eq_skeleton]; unfold cc0__mid_body_skel
  unfold owns
  iintro ⟨⟨%f0, %hf0, H0⟩, ⟨%f2, %hf2, H2⟩, ⟨%f4, %hf4, H4⟩, ⟨%f6, %hf6, H6⟩, ⟨%f8, %hf8, H8⟩, ⟨%d10, %f10, -, H10⟩, Hk⟩
  subst hf0; subst hf2; subst hf4; subst hf6; subst hf8
  sl_exec (disch := first | exact h1 | exact h2)
  sl_step
  iapply Hk
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [H6]
  · iexists f6; isplitr; · ipureintro; rfl
    iexact H6
  isplitl [H8]
  · iexists f8; isplitr; · ipureintro; rfl
    iexact H8
  iexists _; isplitr
  swap; · iexact H10
  ipureintro
  exact View.read_writes_eq_canon _ _ _ (coverO _)

set_option maxHeartbeats 4000000 in
/-- The body at a point of tower 2 (its branch taken, the other not): on whole staging memrefs, the tower's five inputs at
    read contents and its output at anything, it runs to the continuation holding the inputs as they were and the output at
    `out0_11` of them; the other tower's memrefs are not touched. -/
theorem sound_kernel0_t2 (c : Dev nD) (E : Set ℕ) (i : grid0.Coords) (h1 : ¬ k0_cond1 i = 1#1) (h2 : k0_cond2 i = 1#1)
    (arg1 : Memref sig .tc .vmem S512x4096 .f32) (harg1 : arg1.IsWhole) (arg2 : Memref sig .tc .vmem S512x4096 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S256x128 .bf16) (harg9 : arg9.IsWhole) (arg10 : Memref sig .tc .vmem S256x128 .bf16) (harg10 : arg10.IsWhole) (arg11 : Memref sig .tc .vmem S512x128 .bf16) (harg11 : arg11.IsWhole) (arg12 : Memref sig .tc .vmem S512x128 .bf16) (harg12 : arg12.IsWhole)
    (x0 : Vec F S512x4096 .f32) (x2 : Vec F S4096x256 .bf16) (x4 : Vec F S256x256 .bf16) (x6 : Vec F S1x256 .f32) (x8 : Vec F S256x128 .bf16) (K : PUnit → sProp 𝕄) :
    iprop(owns (c : Thread nD τ) arg2 fullShare x0 ∗ owns (c : Thread nD τ) arg4 fullShare x2 ∗ owns (c : Thread nD τ) arg6 fullShare x4 ∗ owns (c : Thread nD τ) arg8 fullShare x6 ∗ owns (c : Thread nD τ) arg10 fullShare x8 ∗ (∃ d, owns (c : Thread nD τ) arg12 fullShare d)
        ∗ (iprop(owns (c : Thread nD τ) arg2 fullShare x0 ∗ owns (c : Thread nD τ) arg4 fullShare x2 ∗ owns (c : Thread nD τ) arg6 fullShare x4 ∗ owns (c : Thread nD τ) arg8 fullShare x6 ∗ owns (c : Thread nD τ) arg10 fullShare x8 ∗ owns (c : Thread nD τ) arg12 fullShare (out0_11 x0 x2 x4 x6 x8)) -∗ K ⟨⟩))
      ⊢ wp frame (wpE (defs₀ (F := F)) Variants.none c none) E (cc0__mid_body i arg1 harg1 arg2 harg2 arg3 harg3 arg4 harg4 arg5 harg5 arg6 harg6 arg7 harg7 arg8 harg8 arg9 harg9 arg10 harg10 arg11 harg11 arg12 harg12) K := by
  simp only [cc0__mid_body_eq_skeleton]; unfold cc0__mid_body_skel
  unfold owns
  iintro ⟨⟨%f0, %hf0, H0⟩, ⟨%f2, %hf2, H2⟩, ⟨%f4, %hf4, H4⟩, ⟨%f6, %hf6, H6⟩, ⟨%f8, %hf8, H8⟩, ⟨%d10, %f10, -, H10⟩, Hk⟩
  subst hf0; subst hf2; subst hf4; subst hf6; subst hf8
  sl_exec (disch := first | exact h1 | exact h2)
  sl_step
  iapply Hk
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [H6]
  · iexists f6; isplitr; · ipureintro; rfl
    iexact H6
  isplitl [H8]
  · iexists f8; isplitr; · ipureintro; rfl
    iexact H8
  iexists _; isplitr
  swap; · iexact H10
  ipureintro
  exact View.read_writes_eq_canon _ _ _ (coverO _)

/-! ## The closed forms of the result arrays (no arithmetic opened: block `k` of a result is the tower's payload of the
    inputs' blocks at `k`) -/

/-- The offset of a whole-buffer access is zero on both axes. -/
theorem hz2 : (![0, 0] : Fin 2 → Nat) = fun _ => 0 := funext fun a => by fin_cases a <;> rfl

/-- A tower's one store takes the whole buffer and its loads whole buffers: what it leaves is the payload itself. -/
theorem out0_10_eq (x0 : Vec F S512x4096 .f32) (x2 : Vec F S4096x256 .bf16) (x4 : Vec F S256x256 .bf16) (x6 : Vec F S1x256 .f32) (x8 : Vec F S256x128 .bf16) :
    out0_10 x0 x2 x4 x6 x8 = k0_pay1 x0 x2 x4 x6 x8 := by
  unfold out0_10
  rw [View.canon_unit_zero hz2]
  simp only [View.ld_unit_zero (S := S512x4096) hz2, View.ld_unit_zero (S := S4096x256) hz2, View.ld_unit_zero (S := S256x256) hz2,
    View.ld_unit_zero (S := S1x256) hz2, View.ld_unit_zero (S := S256x128) hz2]
/-- Tower 2's likewise. -/
theorem out0_11_eq (x0 : Vec F S512x4096 .f32) (x2 : Vec F S4096x256 .bf16) (x4 : Vec F S256x256 .bf16) (x6 : Vec F S1x256 .f32) (x8 : Vec F S256x128 .bf16) :
    out0_11 x0 x2 x4 x6 x8 = k0_pay2 x0 x2 x4 x6 x8 := by
  unfold out0_11
  rw [View.canon_unit_zero hz2]
  simp only [View.ld_unit_zero (S := S512x4096) hz2, View.ld_unit_zero (S := S4096x256) hz2, View.ld_unit_zero (S := S256x256) hz2,
    View.ld_unit_zero (S := S1x256) hz2, View.ld_unit_zero (S := S256x128) hz2]

/-- Row block `k` of a 4096×4096 array: its rows 512·k … 512·k + 511. -/
def rowBlk (A : S4096x4096.Idx → Elt F .f32) (k : Fin 8) : Vec F S512x4096 .f32 :=
  fun y => A (ix2 (n1 := 4096) (⟨512 * k.val + (y 0).val, by have := k.isLt; have := idx2_lt0 y; omega⟩ : Fin 4096) (y 1))

/-- What output window 10's array ends holding, index by index: row `r` lies in row block `r / 512`, whose 512 rows are
    tower 1's payload of that row block of the adjacency array and the tower's four whole operands. -/
def G0_10 (adj : S4096x4096.Idx → Elt F .f32) (x : Vec F S4096x256 .bf16) (w1 : Vec F S256x256 .bf16) (b : Vec F S1x256 .f32) (w2 : Vec F S256x128 .bf16) :
    Vec F S4096x128 .bf16 := fun i =>
  k0_pay1 (rowBlk adj ⟨(i 0).val / 512, by have := idx2_lt0 i; omega⟩) x w1 b w2 (ix2 (⟨(i 0).val % 512, Nat.mod_lt _ (by decide)⟩ : Fin 512) (i 1))

/-- Read at an index of row block `k`. -/
theorem G0_10_at (adj : S4096x4096.Idx → Elt F .f32) (x : Vec F S4096x256 .bf16) (w1 : Vec F S256x256 .bf16) (b : Vec F S1x256 .f32) (w2 : Vec F S256x128 .bf16)
    (k : Fin 8) (y : S512x128.Idx) (i : S4096x128.Idx) (h0 : (i 0).val = 512 * k.val + (y 0).val) (h1 : (i 1).val = (y 1).val) :
    G0_10 adj x w1 b w2 i = k0_pay1 (rowBlk adj k) x w1 b w2 y := by
  have hy0 : (y 0).val < 512 := idx2_lt0 y
  have hi0 : (i 0).val < 4096 := idx2_lt0 i
  have ek : (⟨(i 0).val / 512, by omega⟩ : Fin 8) = k := Fin.ext (by show (i 0).val / 512 = k.val; omega)
  have el : (ix2 (⟨(i 0).val % 512, Nat.mod_lt _ (by decide)⟩ : Fin 512) (i 1) : S512x128.Idx) = y := by
    funext a; apply Fin.ext
    match a with
    | ⟨0, _⟩ => show (i 0).val % 512 = (y 0).val; omega
    | ⟨1, _⟩ => exact h1
  exact congrArg₂ (fun k' y' => k0_pay1 (rowBlk adj k') x w1 b w2 y') ek el

/-- What output window 11's array ends holding, index by index: row `r` lies in row block `r / 512`, whose 512 rows are
    tower 2's payload of that row block of the adjacency array and the tower's four whole operands. -/
def G0_11 (adj : S4096x4096.Idx → Elt F .f32) (x : Vec F S4096x256 .bf16) (w1 : Vec F S256x256 .bf16) (b : Vec F S1x256 .f32) (w2 : Vec F S256x128 .bf16) :
    Vec F S4096x128 .bf16 := fun i =>
  k0_pay2 (rowBlk adj ⟨(i 0).val / 512, by have := idx2_lt0 i; omega⟩) x w1 b w2 (ix2 (⟨(i 0).val % 512, Nat.mod_lt _ (by decide)⟩ : Fin 512) (i 1))

/-- Read at an index of row block `k`. -/
theorem G0_11_at (adj : S4096x4096.Idx → Elt F .f32) (x : Vec F S4096x256 .bf16) (w1 : Vec F S256x256 .bf16) (b : Vec F S1x256 .f32) (w2 : Vec F S256x128 .bf16)
    (k : Fin 8) (y : S512x128.Idx) (i : S4096x128.Idx) (h0 : (i 0).val = 512 * k.val + (y 0).val) (h1 : (i 1).val = (y 1).val) :
    G0_11 adj x w1 b w2 i = k0_pay2 (rowBlk adj k) x w1 b w2 y := by
  have hy0 : (y 0).val < 512 := idx2_lt0 y
  have hi0 : (i 0).val < 4096 := idx2_lt0 i
  have ek : (⟨(i 0).val / 512, by omega⟩ : Fin 8) = k := Fin.ext (by show (i 0).val / 512 = k.val; omega)
  have el : (ix2 (⟨(i 0).val % 512, Nat.mod_lt _ (by decide)⟩ : Fin 512) (i 1) : S512x128.Idx) = y := by
    funext a; apply Fin.ext
    match a with
    | ⟨0, _⟩ => show (i 0).val % 512 = (y 0).val; omega
    | ⟨1, _⟩ => exact h1
  exact congrArg₂ (fun k' y' => k0_pay2 (rowBlk adj k') x w1 b w2 y') ek el

section Region
-- the TensorCore's buffer contents when the region is entered
variable (V : (c : Dev nD) → (b : Ref sig .tc) → Buf (Elt F) ((c : Thread nD τ).loc b))

/-! # Region 0 at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's buffer holds its block at every point, fetched there or not: unfetched, the block index has not moved. -/
/-- Input window 0's buffer holds its block at every point, for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, for any proof data over the entry contents whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, for any proof data over the entry contents whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's buffer holds its block at every point, for any proof data over the entry contents whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's buffer holds its block at every point, for any proof data over the entry contents whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's buffer holds its block at every point, for any proof data over the entry contents whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's buffer holds its block at every point, for any proof data over the entry contents whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's buffer holds its block at every point, for any proof data over the entry contents whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's buffer holds its block at every point, for any proof data over the entry contents whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's buffer holds its block at every point, for any proof data over the entry contents whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The two towers over the grid -/

/-- Tower 1's branch is taken exactly at the first eight points, -/
theorem hcond1 : ∀ t : Fin cfg0.N, k0_cond1 (grid0.coords t) = 1#1 ↔ t.val < 8 :=
  (by decide +kernel : ∀ t : Fin grid0.N, k0_cond1 (grid0.coords t) = 1#1 ↔ t.val < 8)
/-- tower 2's exactly at the last eight. -/
theorem hcond2 : ∀ t : Fin cfg0.N, k0_cond2 (grid0.coords t) = 1#1 ↔ 8 ≤ t.val :=
  (by decide +kernel : ∀ t : Fin grid0.N, k0_cond2 (grid0.coords t) = 1#1 ↔ 8 ≤ t.val)
/-- Output window 10 is idle exactly at tower 2's points, -/
theorem idle10 : ∀ t : Fin cfg0.N, cfg0.idle 10 (cfg0.grid.coords t) = decide (8 ≤ t.val) :=
  (by decide +kernel : ∀ t : Fin grid0.N, idle0 10 (grid0.coords t) = decide (8 ≤ t.val))
/-- output window 11 exactly at tower 1's. -/
theorem idle11 : ∀ t : Fin cfg0.N, cfg0.idle 11 (cfg0.grid.coords t) = decide (t.val < 8) :=
  (by decide +kernel : ∀ t : Fin grid0.N, idle0 11 (grid0.coords t) = decide (t.val < 8))
/-- Output window 11's block index first moves after point 8: no point of tower 1 writes it back. -/
theorem flush11_lt : ∀ t : Fin cfg0.N, t.val < 8 → (cfg0.win 11).flush t = false :=
  (by decide +kernel : ∀ t : Fin grid0.N, t.val < 8 → win0_11.flush t = false)
/-- Output window 10's buffer holds nothing the body stored up to point 7 and after the last point only: from point 8 on
    it holds tower 1's last block, not yet written back. -/
theorem fresh10 (n : ℕ) (hn : n ≤ cfg0.N) : cfg0.fresh 10 n = (decide (n ≤ 7) || decide (16 ≤ n)) :=
  Pipeline.Cfg.fresh_tab cfg0 10 (fun n => decide (n ≤ 7) || decide (16 ≤ n)) (by decide)
    (by decide +kernel : ∀ t : Fin grid0.N, (decide (t.val + 1 ≤ 7) || decide (16 ≤ t.val + 1))
        = (win0_10.flush t || (idle0 10 (grid0.coords t) && (decide (t.val ≤ 7) || decide (16 ≤ t.val))))) n hn

/-- The point whose blocks tower 1's output buffer was last computed from: the point itself among the first eight, point 7
    after them. -/
def p1 (t : Fin cfg0.N) : Fin cfg0.N := if t.val < 8 then t else t0_7

/-- Among the first eight points it is the point itself, -/
theorem p1_lt (t : Fin cfg0.N) (h : t.val < 8) : p1 t = t := by unfold p1; rw [if_pos h]
/-- after them it is point 7, -/
theorem p1_ge (t : Fin cfg0.N) (h : 8 ≤ t.val) : p1 t = t0_7 := by unfold p1; rw [if_neg (by omega)]
/-- and from point 8 on it is what it was at the point before. -/
theorem p1_pred (t : Fin cfg0.N) (h : 8 ≤ t.val) (h' : t.val - 1 < cfg0.N) : p1 ⟨t.val - 1, h'⟩ = p1 t := by
  rw [p1_ge t h]
  by_cases h9 : 9 ≤ t.val
  · exact p1_ge _ (by show 8 ≤ t.val - 1; omega)
  · rw [p1_lt _ (by show t.val - 1 < 8; omega)]; apply Fin.ext; show t.val - 1 = 7; omega

/-! ## The pipeline's proof data -/

/-- The proof data of region 0 on core `c`: the arrays as the region finds them; after the body at point `t` each input's
    buffer at its block, tower 2's output at its payload of tower 2's blocks at `t`, tower 1's output at its payload of
    tower 1's blocks at `p1 t` (carried unchanged through tower 2's points to the last write-back); the invariant that nothing else is touched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 (p1 t)) (iblk0 V c 2 (p1 t)) (iblk0 V c 4 (p1 t)) (iblk0 V c 6 (p1 t)) (iblk0 V c 8 (p1 t))
    | ⟨11, _⟩ => out0_11 (iblk0 V c 1 t) (iblk0 V c 3 t) (iblk0 V c 5 t) (iblk0 V c 7 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The body leaves input window 0's block in place. -/
theorem after0_0 (c : Dev nD) (t : Fin cfg0.N) : (dat0 V c).after 0 t = iblk0 V c 0 t := by dsimp only [dat0]
/-- The body leaves input window 1's block in place. -/
theorem after0_1 (c : Dev nD) (t : Fin cfg0.N) : (dat0 V c).after 1 t = iblk0 V c 1 t := by dsimp only [dat0]
/-- The body leaves input window 2's block in place. -/
theorem after0_2 (c : Dev nD) (t : Fin cfg0.N) : (dat0 V c).after 2 t = iblk0 V c 2 t := by dsimp only [dat0]
/-- The body leaves input window 3's block in place. -/
theorem after0_3 (c : Dev nD) (t : Fin cfg0.N) : (dat0 V c).after 3 t = iblk0 V c 3 t := by dsimp only [dat0]
/-- The body leaves input window 4's block in place. -/
theorem after0_4 (c : Dev nD) (t : Fin cfg0.N) : (dat0 V c).after 4 t = iblk0 V c 4 t := by dsimp only [dat0]
/-- The body leaves input window 5's block in place. -/
theorem after0_5 (c : Dev nD) (t : Fin cfg0.N) : (dat0 V c).after 5 t = iblk0 V c 5 t := by dsimp only [dat0]
/-- The body leaves input window 6's block in place. -/
theorem after0_6 (c : Dev nD) (t : Fin cfg0.N) : (dat0 V c).after 6 t = iblk0 V c 6 t := by dsimp only [dat0]
/-- The body leaves input window 7's block in place. -/
theorem after0_7 (c : Dev nD) (t : Fin cfg0.N) : (dat0 V c).after 7 t = iblk0 V c 7 t := by dsimp only [dat0]
/-- The body leaves input window 8's block in place. -/
theorem after0_8 (c : Dev nD) (t : Fin cfg0.N) : (dat0 V c).after 8 t = iblk0 V c 8 t := by dsimp only [dat0]
/-- The body leaves input window 9's block in place. -/
theorem after0_9 (c : Dev nD) (t : Fin cfg0.N) : (dat0 V c).after 9 t = iblk0 V c 9 t := by dsimp only [dat0]
/-- Tower 1's output after point `t`: its payload of tower 1's blocks at `p1 t`. -/
theorem after0_10 (c : Dev nD) (t : Fin cfg0.N) : (dat0 V c).after 10 t
    = out0_10 (iblk0 V c 0 (p1 t)) (iblk0 V c 2 (p1 t)) (iblk0 V c 4 (p1 t)) (iblk0 V c 6 (p1 t)) (iblk0 V c 8 (p1 t)) := by dsimp only [dat0]
/-- Tower 2's output after point `t`: its payload of tower 2's blocks at `t`. -/
theorem after0_11 (c : Dev nD) (t : Fin cfg0.N) : (dat0 V c).after 11 t
    = out0_11 (iblk0 V c 1 t) (iblk0 V c 3 t) (iblk0 V c 5 t) (iblk0 V c 7 t) (iblk0 V c 9 t) := by dsimp only [dat0]

/-- Input window 0's buffer holds its block when the body runs at `t`. -/
theorem before0_0 (c : Dev nD) (t : Fin cfg0.N) (d) : (dat0 V c).before 0 t d = iblk0 V c 0 t :=
  before0_0_of V (dat0 V c) (A_eq0 V c 0) (after0_0 V c) t d
/-- Input window 1's buffer holds its block when the body runs at `t`. -/
theorem before0_1 (c : Dev nD) (t : Fin cfg0.N) (d) : (dat0 V c).before 1 t d = iblk0 V c 1 t :=
  before0_1_of V (dat0 V c) (A_eq0 V c 1) (after0_1 V c) t d
/-- Input window 2's buffer holds its block when the body runs at `t`. -/
theorem before0_2 (c : Dev nD) (t : Fin cfg0.N) (d) : (dat0 V c).before 2 t d = iblk0 V c 2 t :=
  before0_2_of V (dat0 V c) (A_eq0 V c 2) (after0_2 V c) t d
/-- Input window 3's buffer holds its block when the body runs at `t`. -/
theorem before0_3 (c : Dev nD) (t : Fin cfg0.N) (d) : (dat0 V c).before 3 t d = iblk0 V c 3 t :=
  before0_3_of V (dat0 V c) (A_eq0 V c 3) (after0_3 V c) t d
/-- Input window 4's buffer holds its block when the body runs at `t`. -/
theorem before0_4 (c : Dev nD) (t : Fin cfg0.N) (d) : (dat0 V c).before 4 t d = iblk0 V c 4 t :=
  before0_4_of V (dat0 V c) (A_eq0 V c 4) (after0_4 V c) t d
/-- Input window 5's buffer holds its block when the body runs at `t`. -/
theorem before0_5 (c : Dev nD) (t : Fin cfg0.N) (d) : (dat0 V c).before 5 t d = iblk0 V c 5 t :=
  before0_5_of V (dat0 V c) (A_eq0 V c 5) (after0_5 V c) t d
/-- Input window 6's buffer holds its block when the body runs at `t`. -/
theorem before0_6 (c : Dev nD) (t : Fin cfg0.N) (d) : (dat0 V c).before 6 t d = iblk0 V c 6 t :=
  before0_6_of V (dat0 V c) (A_eq0 V c 6) (after0_6 V c) t d
/-- Input window 7's buffer holds its block when the body runs at `t`. -/
theorem before0_7 (c : Dev nD) (t : Fin cfg0.N) (d) : (dat0 V c).before 7 t d = iblk0 V c 7 t :=
  before0_7_of V (dat0 V c) (A_eq0 V c 7) (after0_7 V c) t d
/-- Input window 8's buffer holds its block when the body runs at `t`. -/
theorem before0_8 (c : Dev nD) (t : Fin cfg0.N) (d) : (dat0 V c).before 8 t d = iblk0 V c 8 t :=
  before0_8_of V (dat0 V c) (A_eq0 V c 8) (after0_8 V c) t d
/-- Input window 9's buffer holds its block when the body runs at `t`. -/
theorem before0_9 (c : Dev nD) (t : Fin cfg0.N) (d) : (dat0 V c).before 9 t d = iblk0 V c 9 t :=
  before0_9_of V (dat0 V c) (A_eq0 V c 9) (after0_9 V c) t d

/-- Tower 1's output buffer is carried through tower 2's points: there `after` is the previous point's. -/
theorem carry10 (c : Dev nD) (t : Fin cfg0.N) (h8 : 8 ≤ t.val) (h' : t.val - 1 < cfg0.N) :
    (dat0 V c).after 10 t = (dat0 V c).after 10 ⟨t.val - 1, h'⟩ := by
  rw [after0_10, after0_10, p1_pred t h8 h']

/-- What tower 1's output buffer holds when the body runs at `t`: nothing stated where nothing was stored since the last
    write-back, else what the point before left. -/
theorem before0_10 (c : Dev nD) (t : Fin cfg0.N) (d) :
    (dat0 V c).before 10 t d = if cfg0.fresh 10 t.val then d else (dat0 V c).after 10 ⟨t.val - 1, by omega⟩ :=
  (dat0 V c).before_out_traj 10 rfl (fun _ _ => rfl)
    (fun t ht hi hfr => carry10 V c t (by have := idle10 t; rw [this] at hi; exact of_decide_eq_true hi) _) t.val t rfl d

/-- At tower 2's points it holds tower 1's last block, as `after` there says. -/
theorem before0_10_ge (c : Dev nD) (t : Fin cfg0.N) (h8 : 8 ≤ t.val) (d) : (dat0 V c).before 10 t d = (dat0 V c).after 10 t := by
  have hN : t.val < 16 := lt_of_lt_of_eq t.isLt N_0
  have hfr : cfg0.fresh 10 t.val = false := by
    rw [fresh10 t.val (le_of_lt t.isLt)]
    rw [decide_eq_false (by omega : ¬ t.val ≤ 7), decide_eq_false (by omega : ¬ 16 ≤ t.val)]; rfl
  rw [before0_10, hfr, if_neg Bool.false_ne_true]
  exact (carry10 V c t h8 _).symm

/-! ## The body obligation, at a generic point -/

/-- Where output window 10 is live the body leaves it at `after`, -/
theorem leaves10_live (c : Dev nD) (t : Fin cfg0.N) (h : cfg0.idle 10 (cfg0.grid.coords t) = false) :
    (dat0 V c).leavesExact 10 t = owns (c : Thread nD τ) (st0_10 t) fullShare ((dat0 V c).after 10 t) := by
  unfold Dat.leavesExact; rw [h]
/-- and output window 11 likewise; -/
theorem leaves11_live (c : Dev nD) (t : Fin cfg0.N) (h : cfg0.idle 11 (cfg0.grid.coords t) = false) :
    (dat0 V c).leavesExact 11 t = owns (c : Thread nD τ) (st0_11 t) fullShare ((dat0 V c).after 11 t) := by
  unfold Dat.leavesExact; rw [h]
/-- so too where window 10 is written back, idle there or not. -/
theorem leaves10_flush (c : Dev nD) (t : Fin cfg0.N) (h : (cfg0.win 10).flush t = true) :
    (dat0 V c).leavesExact 10 t = owns (c : Thread nD τ) (st0_10 t) fullShare ((dat0 V c).after 10 t) := by
  unfold Dat.leavesExact; rw [h]; cases cfg0.idle 10 (cfg0.grid.coords t) <;> rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: each input's buffer at its block, each output's at what the body leaves there — where the output
    is idle and not written back, as it was found. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ (dat0 V c).leavesExact 10 t
    ∗ (dat0 V c).leavesExact 11 t)

set_option maxHeartbeats 4000000 in
/-- The body at any point: at one of the first eight, tower 1's triple, tower 2's output handed back as found; at one of the
    last eight, tower 2's triple, tower 1's output handed back as found — at its last block where the point writes it back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases ht : t.val < 8
  · have h1 : k0_cond1 (grid0.coords t) = 1#1 := (hcond1 t).mpr ht
    have h2 : ¬ k0_cond2 (grid0.coords t) = 1#1 := fun h => absurd ((hcond2 t).mp h) (by omega)
    rw [leaves10_live V c t (by rw [idle10]; exact decide_eq_false (by omega)),
      (dat0 V c).leavesExact_idle 11 t (by rw [idle11]; exact decide_eq_true ht) (flush11_lt t ht),
      after0_10, p1_lt t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    iapply (sound_kernel0_t1 c Set.univ (grid0.coords t) h1 h2 _ _ _ _ _ _ _ _ _ _ _ _ _ _ _ _ _ _ _ _ _ _ _ _ (iblk0 V c 0 t) (iblk0 V c 2 t) (iblk0 V c 4 t) (iblk0 V c 6 t) (iblk0 V c 8 t) _)
    isplitl [H0]; · iexact H0
    isplitl [H2]; · iexact H2
    isplitl [H4]; · iexact H4
    isplitl [H6]; · iexact H6
    isplitl [H8]; · iexact H8
    isplitl [H10]; · iexists _; iexact H10
    iintro ⟨H0, H2, H4, H6, H8, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have ht8 : 8 ≤ t.val := by omega
    have h1 : ¬ k0_cond1 (grid0.coords t) = 1#1 := fun h => absurd ((hcond1 t).mp h) ht
    have h2 : k0_cond2 (grid0.coords t) = 1#1 := (hcond2 t).mpr ht8
    rw [leaves11_live V c t (by rw [idle11]; exact decide_eq_false ht), after0_11]
    cases hf : (cfg0.win 10).flush t
    · rw [(dat0 V c).leavesExact_idle 10 t (by rw [idle10]; exact decide_eq_true ht8) hf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%d11, H11⟩⟩
      iapply (sound_kernel0_t2 c Set.univ (grid0.coords t) h1 h2 _ _ _ _ _ _ _ _ _ _ _ _ _ _ _ _ _ _ _ _ _ _ _ _ (iblk0 V c 1 t) (iblk0 V c 3 t) (iblk0 V c 5 t) (iblk0 V c 7 t) (iblk0 V c 9 t) _)
      isplitl [H1]; · iexact H1
      isplitl [H3]; · iexact H3
      isplitl [H5]; · iexact H5
      isplitl [H7]; · iexact H7
      isplitl [H9]; · iexact H9
      isplitl [H11]; · iexists _; iexact H11
      iintro ⟨H1, H3, H5, H7, H9, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [leaves10_flush V c t hf]
      simp only [before0_10_ge V c t ht8]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel0_t2 c Set.univ (grid0.coords t) h1 h2 _ _ _ _ _ _ _ _ _ _ _ _ _ _ _ _ _ _ _ _ _ _ _ _ (iblk0 V c 1 t) (iblk0 V c 3 t) (iblk0 V c 5 t) (iblk0 V c 7 t) (iblk0 V c 9 t) _)
      isplitl [H1]; · iexact H1
      isplitl [H3]; · iexact H3
      isplitl [H5]; · iexact H5
      isplitl [H7]; · iexact H7
      isplitl [H9]; · iexact H9
      isplitl [H11]; · iexists _; iexact H11
      iintro ⟨H1, H3, H5, H7, H9, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the region -/

/-! The input arrays are never written back. -/
/-- Input window 0's array is as the region found it. -/
theorem kept0_0 (c : Dev nD) : (dat0 V c).arrAt 0 cfg0.N = V c (Pipeline.arrRef spec0 0) :=
  ((dat0 V c).arrAt_in 0 rfl _).trans (A_eq0 V c 0)
/-- Input window 1's array is as the region found it. -/
theorem kept0_1 (c : Dev nD) : (dat0 V c).arrAt 1 cfg0.N = V c (Pipeline.arrRef spec0 1) :=
  ((dat0 V c).arrAt_in 1 rfl _).trans (A_eq0 V c 1)
/-- Input window 2's array is as the region found it. -/
theorem kept0_2 (c : Dev nD) : (dat0 V c).arrAt 2 cfg0.N = V c (Pipeline.arrRef spec0 2) :=
  ((dat0 V c).arrAt_in 2 rfl _).trans (A_eq0 V c 2)
/-- Input window 3's array is as the region found it. -/
theorem kept0_3 (c : Dev nD) : (dat0 V c).arrAt 3 cfg0.N = V c (Pipeline.arrRef spec0 3) :=
  ((dat0 V c).arrAt_in 3 rfl _).trans (A_eq0 V c 3)
/-- Input window 4's array is as the region found it. -/
theorem kept0_4 (c : Dev nD) : (dat0 V c).arrAt 4 cfg0.N = V c (Pipeline.arrRef spec0 4) :=
  ((dat0 V c).arrAt_in 4 rfl _).trans (A_eq0 V c 4)
/-- Input window 5's array is as the region found it. -/
theorem kept0_5 (c : Dev nD) : (dat0 V c).arrAt 5 cfg0.N = V c (Pipeline.arrRef spec0 5) :=
  ((dat0 V c).arrAt_in 5 rfl _).trans (A_eq0 V c 5)
/-- Input window 6's array is as the region found it. -/
theorem kept0_6 (c : Dev nD) : (dat0 V c).arrAt 6 cfg0.N = V c (Pipeline.arrRef spec0 6) :=
  ((dat0 V c).arrAt_in 6 rfl _).trans (A_eq0 V c 6)
/-- Input window 7's array is as the region found it. -/
theorem kept0_7 (c : Dev nD) : (dat0 V c).arrAt 7 cfg0.N = V c (Pipeline.arrRef spec0 7) :=
  ((dat0 V c).arrAt_in 7 rfl _).trans (A_eq0 V c 7)
/-- Input window 8's array is as the region found it. -/
theorem kept0_8 (c : Dev nD) : (dat0 V c).arrAt 8 cfg0.N = V c (Pipeline.arrRef spec0 8) :=
  ((dat0 V c).arrAt_in 8 rfl _).trans (A_eq0 V c 8)
/-- Input window 9's array is as the region found it. -/
theorem kept0_9 (c : Dev nD) : (dat0 V c).arrAt 9 cfg0.N = V c (Pipeline.arrRef spec0 9) :=
  ((dat0 V c).arrAt_in 9 rfl _).trans (A_eq0 V c 9)

/-- Window 2's block index is (0, 0) at every point. -/
theorem idxc_2 : ∀ t : Fin cfg0.N, win0_2.index t = ![0, 0] :=
  (by decide +kernel : ∀ t : Fin grid0.N, win0_2.index t = ![0, 0])
/-- Window 3's block index is (0, 0) at every point. -/
theorem idxc_3 : ∀ t : Fin cfg0.N, win0_3.index t = ![0, 0] :=
  (by decide +kernel : ∀ t : Fin grid0.N, win0_3.index t = ![0, 0])
/-- Window 4's block index is (0, 0) at every point. -/
theorem idxc_4 : ∀ t : Fin cfg0.N, win0_4.index t = ![0, 0] :=
  (by decide +kernel : ∀ t : Fin grid0.N, win0_4.index t = ![0, 0])
/-- Window 5's block index is (0, 0) at every point. -/
theorem idxc_5 : ∀ t : Fin cfg0.N, win0_5.index t = ![0, 0] :=
  (by decide +kernel : ∀ t : Fin grid0.N, win0_5.index t = ![0, 0])
/-- Window 6's block index is (0, 0) at every point. -/
theorem idxc_6 : ∀ t : Fin cfg0.N, win0_6.index t = ![0, 0] :=
  (by decide +kernel : ∀ t : Fin grid0.N, win0_6.index t = ![0, 0])
/-- Window 7's block index is (0, 0) at every point. -/
theorem idxc_7 : ∀ t : Fin cfg0.N, win0_7.index t = ![0, 0] :=
  (by decide +kernel : ∀ t : Fin grid0.N, win0_7.index t = ![0, 0])
/-- Window 8's block index is (0, 0) at every point. -/
theorem idxc_8 : ∀ t : Fin cfg0.N, win0_8.index t = ![0, 0] :=
  (by decide +kernel : ∀ t : Fin grid0.N, win0_8.index t = ![0, 0])
/-- Window 9's block index is (0, 0) at every point. -/
theorem idxc_9 : ∀ t : Fin cfg0.N, win0_9.index t = ![0, 0] :=
  (by decide +kernel : ∀ t : Fin grid0.N, win0_9.index t = ![0, 0])
/-- Window 2's block is its whole array at every point. -/
theorem blkc2_eq (c : Dev nD) (t : Fin cfg0.N) : (iblk0 V c 2 t : Vec F S4096x256 .bf16) = V c (Pipeline.arrRef spec0 2) := by
  funext y
  have hi := idxc_2 t
  have i0 : win0_2.index t (0 : Fin 2) = 0 := congrFun hi 0
  have i1 : win0_2.index t (1 : Fin 2) = 0 := congrFun hi 1
  have e : ((cfg0.win 2).blk t).view.emb y = y := by
    funext a; apply Fin.ext
    match a with
    | ⟨0, _⟩ =>
      have hb : (((cfg0.win 2).blk t).view.emb y 0).val = win0_2.index t (0 : Fin 2) * 4096 + 1 * (y 0).val := rfl
      show (((cfg0.win 2).blk t).view.emb y 0).val = (y 0).val
      rw [hb, i0]; omega
    | ⟨1, _⟩ =>
      have hb : (((cfg0.win 2).blk t).view.emb y 1).val = win0_2.index t (1 : Fin 2) * 256 + 1 * (y 1).val := rfl
      show (((cfg0.win 2).blk t).view.emb y 1).val = (y 1).val
      rw [hb, i1]; omega
  show V c (Pipeline.arrRef spec0 2) (((cfg0.win 2).blk t).view.emb y) = V c (Pipeline.arrRef spec0 2) y
  rw [e]
/-- Window 3's block is its whole array at every point. -/
theorem blkc3_eq (c : Dev nD) (t : Fin cfg0.N) : (iblk0 V c 3 t : Vec F S4096x256 .bf16) = V c (Pipeline.arrRef spec0 3) := by
  funext y
  have hi := idxc_3 t
  have i0 : win0_3.index t (0 : Fin 2) = 0 := congrFun hi 0
  have i1 : win0_3.index t (1 : Fin 2) = 0 := congrFun hi 1
  have e : ((cfg0.win 3).blk t).view.emb y = y := by
    funext a; apply Fin.ext
    match a with
    | ⟨0, _⟩ =>
      have hb : (((cfg0.win 3).blk t).view.emb y 0).val = win0_3.index t (0 : Fin 2) * 4096 + 1 * (y 0).val := rfl
      show (((cfg0.win 3).blk t).view.emb y 0).val = (y 0).val
      rw [hb, i0]; omega
    | ⟨1, _⟩ =>
      have hb : (((cfg0.win 3).blk t).view.emb y 1).val = win0_3.index t (1 : Fin 2) * 256 + 1 * (y 1).val := rfl
      show (((cfg0.win 3).blk t).view.emb y 1).val = (y 1).val
      rw [hb, i1]; omega
  show V c (Pipeline.arrRef spec0 3) (((cfg0.win 3).blk t).view.emb y) = V c (Pipeline.arrRef spec0 3) y
  rw [e]
/-- Window 4's block is its whole array at every point. -/
theorem blkc4_eq (c : Dev nD) (t : Fin cfg0.N) : (iblk0 V c 4 t : Vec F S256x256 .bf16) = V c (Pipeline.arrRef spec0 4) := by
  funext y
  have hi := idxc_4 t
  have i0 : win0_4.index t (0 : Fin 2) = 0 := congrFun hi 0
  have i1 : win0_4.index t (1 : Fin 2) = 0 := congrFun hi 1
  have e : ((cfg0.win 4).blk t).view.emb y = y := by
    funext a; apply Fin.ext
    match a with
    | ⟨0, _⟩ =>
      have hb : (((cfg0.win 4).blk t).view.emb y 0).val = win0_4.index t (0 : Fin 2) * 256 + 1 * (y 0).val := rfl
      show (((cfg0.win 4).blk t).view.emb y 0).val = (y 0).val
      rw [hb, i0]; omega
    | ⟨1, _⟩ =>
      have hb : (((cfg0.win 4).blk t).view.emb y 1).val = win0_4.index t (1 : Fin 2) * 256 + 1 * (y 1).val := rfl
      show (((cfg0.win 4).blk t).view.emb y 1).val = (y 1).val
      rw [hb, i1]; omega
  show V c (Pipeline.arrRef spec0 4) (((cfg0.win 4).blk t).view.emb y) = V c (Pipeline.arrRef spec0 4) y
  rw [e]
/-- Window 5's block is its whole array at every point. -/
theorem blkc5_eq (c : Dev nD) (t : Fin cfg0.N) : (iblk0 V c 5 t : Vec F S256x256 .bf16) = V c (Pipeline.arrRef spec0 5) := by
  funext y
  have hi := idxc_5 t
  have i0 : win0_5.index t (0 : Fin 2) = 0 := congrFun hi 0
  have i1 : win0_5.index t (1 : Fin 2) = 0 := congrFun hi 1
  have e : ((cfg0.win 5).blk t).view.emb y = y := by
    funext a; apply Fin.ext
    match a with
    | ⟨0, _⟩ =>
      have hb : (((cfg0.win 5).blk t).view.emb y 0).val = win0_5.index t (0 : Fin 2) * 256 + 1 * (y 0).val := rfl
      show (((cfg0.win 5).blk t).view.emb y 0).val = (y 0).val
      rw [hb, i0]; omega
    | ⟨1, _⟩ =>
      have hb : (((cfg0.win 5).blk t).view.emb y 1).val = win0_5.index t (1 : Fin 2) * 256 + 1 * (y 1).val := rfl
      show (((cfg0.win 5).blk t).view.emb y 1).val = (y 1).val
      rw [hb, i1]; omega
  show V c (Pipeline.arrRef spec0 5) (((cfg0.win 5).blk t).view.emb y) = V c (Pipeline.arrRef spec0 5) y
  rw [e]
/-- Window 6's block is its whole array at every point. -/
theorem blkc6_eq (c : Dev nD) (t : Fin cfg0.N) : (iblk0 V c 6 t : Vec F S1x256 .f32) = V c (Pipeline.arrRef spec0 6) := by
  funext y
  have hi := idxc_6 t
  have i0 : win0_6.index t (0 : Fin 2) = 0 := congrFun hi 0
  have i1 : win0_6.index t (1 : Fin 2) = 0 := congrFun hi 1
  have e : ((cfg0.win 6).blk t).view.emb y = y := by
    funext a; apply Fin.ext
    match a with
    | ⟨0, _⟩ =>
      have hb : (((cfg0.win 6).blk t).view.emb y 0).val = win0_6.index t (0 : Fin 2) * 1 + 1 * (y 0).val := rfl
      show (((cfg0.win 6).blk t).view.emb y 0).val = (y 0).val
      rw [hb, i0]; omega
    | ⟨1, _⟩ =>
      have hb : (((cfg0.win 6).blk t).view.emb y 1).val = win0_6.index t (1 : Fin 2) * 256 + 1 * (y 1).val := rfl
      show (((cfg0.win 6).blk t).view.emb y 1).val = (y 1).val
      rw [hb, i1]; omega
  show V c (Pipeline.arrRef spec0 6) (((cfg0.win 6).blk t).view.emb y) = V c (Pipeline.arrRef spec0 6) y
  rw [e]
/-- Window 7's block is its whole array at every point. -/
theorem blkc7_eq (c : Dev nD) (t : Fin cfg0.N) : (iblk0 V c 7 t : Vec F S1x256 .f32) = V c (Pipeline.arrRef spec0 7) := by
  funext y
  have hi := idxc_7 t
  have i0 : win0_7.index t (0 : Fin 2) = 0 := congrFun hi 0
  have i1 : win0_7.index t (1 : Fin 2) = 0 := congrFun hi 1
  have e : ((cfg0.win 7).blk t).view.emb y = y := by
    funext a; apply Fin.ext
    match a with
    | ⟨0, _⟩ =>
      have hb : (((cfg0.win 7).blk t).view.emb y 0).val = win0_7.index t (0 : Fin 2) * 1 + 1 * (y 0).val := rfl
      show (((cfg0.win 7).blk t).view.emb y 0).val = (y 0).val
      rw [hb, i0]; omega
    | ⟨1, _⟩ =>
      have hb : (((cfg0.win 7).blk t).view.emb y 1).val = win0_7.index t (1 : Fin 2) * 256 + 1 * (y 1).val := rfl
      show (((cfg0.win 7).blk t).view.emb y 1).val = (y 1).val
      rw [hb, i1]; omega
  show V c (Pipeline.arrRef spec0 7) (((cfg0.win 7).blk t).view.emb y) = V c (Pipeline.arrRef spec0 7) y
  rw [e]
/-- Window 8's block is its whole array at every point. -/
theorem blkc8_eq (c : Dev nD) (t : Fin cfg0.N) : (iblk0 V c 8 t : Vec F S256x128 .bf16) = V c (Pipeline.arrRef spec0 8) := by
  funext y
  have hi := idxc_8 t
  have i0 : win0_8.index t (0 : Fin 2) = 0 := congrFun hi 0
  have i1 : win0_8.index t (1 : Fin 2) = 0 := congrFun hi 1
  have e : ((cfg0.win 8).blk t).view.emb y = y := by
    funext a; apply Fin.ext
    match a with
    | ⟨0, _⟩ =>
      have hb : (((cfg0.win 8).blk t).view.emb y 0).val = win0_8.index t (0 : Fin 2) * 256 + 1 * (y 0).val := rfl
      show (((cfg0.win 8).blk t).view.emb y 0).val = (y 0).val
      rw [hb, i0]; omega
    | ⟨1, _⟩ =>
      have hb : (((cfg0.win 8).blk t).view.emb y 1).val = win0_8.index t (1 : Fin 2) * 128 + 1 * (y 1).val := rfl
      show (((cfg0.win 8).blk t).view.emb y 1).val = (y 1).val
      rw [hb, i1]; omega
  show V c (Pipeline.arrRef spec0 8) (((cfg0.win 8).blk t).view.emb y) = V c (Pipeline.arrRef spec0 8) y
  rw [e]
/-- Window 9's block is its whole array at every point. -/
theorem blkc9_eq (c : Dev nD) (t : Fin cfg0.N) : (iblk0 V c 9 t : Vec F S256x128 .bf16) = V c (Pipeline.arrRef spec0 9) := by
  funext y
  have hi := idxc_9 t
  have i0 : win0_9.index t (0 : Fin 2) = 0 := congrFun hi 0
  have i1 : win0_9.index t (1 : Fin 2) = 0 := congrFun hi 1
  have e : ((cfg0.win 9).blk t).view.emb y = y := by
    funext a; apply Fin.ext
    match a with
    | ⟨0, _⟩ =>
      have hb : (((cfg0.win 9).blk t).view.emb y 0).val = win0_9.index t (0 : Fin 2) * 256 + 1 * (y 0).val := rfl
      show (((cfg0.win 9).blk t).view.emb y 0).val = (y 0).val
      rw [hb, i0]; omega
    | ⟨1, _⟩ =>
      have hb : (((cfg0.win 9).blk t).view.emb y 1).val = win0_9.index t (1 : Fin 2) * 128 + 1 * (y 1).val := rfl
      show (((cfg0.win 9).blk t).view.emb y 1).val = (y 1).val
      rw [hb, i1]; omega
  show V c (Pipeline.arrRef spec0 9) (((cfg0.win 9).blk t).view.emb y) = V c (Pipeline.arrRef spec0 9) y
  rw [e]

/-- Adjacency window 0's block at a point of block index (k, 0) is row block k of its array. -/
theorem blk0_eq (c : Dev nD) (t : Fin cfg0.N) (k : Fin 8) (h0 : win0_0.index t (0 : Fin 2) = k.val) (h1 : win0_0.index t (1 : Fin 2) = 0) :
    (iblk0 V c 0 t : Vec F S512x4096 .f32) = rowBlk (V c (Pipeline.arrRef spec0 0)) k := by
  funext y
  have hy0 : (y 0).val < 512 := idx2_lt0 y
  have e : ((cfg0.win 0).blk t).view.emb y = (ix2 (n1 := 4096) (⟨512 * k.val + (y 0).val, by have := k.isLt; omega⟩ : Fin 4096) (y 1) : S4096x4096.Idx) := by
    funext a; apply Fin.ext
    match a with
    | ⟨0, _⟩ =>
      have hb : (((cfg0.win 0).blk t).view.emb y 0).val = win0_0.index t (0 : Fin 2) * 512 + 1 * (y 0).val := rfl
      show (((cfg0.win 0).blk t).view.emb y 0).val = 512 * k.val + (y 0).val
      rw [hb, h0]; omega
    | ⟨1, _⟩ =>
      have hb : (((cfg0.win 0).blk t).view.emb y 1).val = win0_0.index t (1 : Fin 2) * 4096 + 1 * (y 1).val := rfl
      show (((cfg0.win 0).blk t).view.emb y 1).val = (y 1).val
      rw [hb, h1]; omega
  show V c (Pipeline.arrRef spec0 0) (((cfg0.win 0).blk t).view.emb y) = rowBlk (V c (Pipeline.arrRef spec0 0)) k y
  rw [e]; rfl
/-- Adjacency window 1's block at a point of block index (k, 0) is row block k of its array. -/
theorem blk1_eq (c : Dev nD) (t : Fin cfg0.N) (k : Fin 8) (h0 : win0_1.index t (0 : Fin 2) = k.val) (h1 : win0_1.index t (1 : Fin 2) = 0) :
    (iblk0 V c 1 t : Vec F S512x4096 .f32) = rowBlk (V c (Pipeline.arrRef spec0 1)) k := by
  funext y
  have hy0 : (y 0).val < 512 := idx2_lt0 y
  have e : ((cfg0.win 1).blk t).view.emb y = (ix2 (n1 := 4096) (⟨512 * k.val + (y 0).val, by have := k.isLt; omega⟩ : Fin 4096) (y 1) : S4096x4096.Idx) := by
    funext a; apply Fin.ext
    match a with
    | ⟨0, _⟩ =>
      have hb : (((cfg0.win 1).blk t).view.emb y 0).val = win0_1.index t (0 : Fin 2) * 512 + 1 * (y 0).val := rfl
      show (((cfg0.win 1).blk t).view.emb y 0).val = 512 * k.val + (y 0).val
      rw [hb, h0]; omega
    | ⟨1, _⟩ =>
      have hb : (((cfg0.win 1).blk t).view.emb y 1).val = win0_1.index t (1 : Fin 2) * 4096 + 1 * (y 1).val := rfl
      show (((cfg0.win 1).blk t).view.emb y 1).val = (y 1).val
      rw [hb, h1]; omega
  show V c (Pipeline.arrRef spec0 1) (((cfg0.win 1).blk t).view.emb y) = rowBlk (V c (Pipeline.arrRef spec0 1)) k y
  rw [e]; rfl

/-! ### Output window 10 (tower 1) -/

/-- Over the grid: the adjacency block tower 1's output was last computed from sits at the output's row block, and the output's block indices stay in range. -/
theorem hidx10 : ∀ t : Fin cfg0.N, win0_0.index (p1 t) (0 : Fin 2) = win0_10.index t (0 : Fin 2) ∧ win0_0.index (p1 t) (1 : Fin 2) = 0
    ∧ win0_10.index t (0 : Fin 2) < 8 ∧ win0_10.index t (1 : Fin 2) = 0 :=
  (by decide +kernel : ∀ t : Fin grid0.N, win0_0.index (p1 t) (0 : Fin 2) = win0_10.index t (0 : Fin 2) ∧ win0_0.index (p1 t) (1 : Fin 2) = 0
    ∧ win0_10.index t (0 : Fin 2) < 8 ∧ win0_10.index t (1 : Fin 2) = 0)

/-- Every row block is some writing-back point's. -/
theorem onto10 : ∀ q : Fin 8, ∃ t : Fin cfg0.N, (cfg0.win 10).flush t = true ∧ win0_10.index t = ![q.val, 0] :=
  (by decide +kernel : ∀ q : Fin 8, ∃ t : Fin grid0.N, win0_10.flush t = true ∧ win0_10.index t = ![q.val, 0])

/-- What a writing-back point writes is its block of `G0_10`. -/
theorem flushed10_eq (c : Dev nD) (t : Fin cfg0.N) :
    (dat0 V c).flushed 10 t = ((cfg0.win 10).blk t).view.read (Elt F) (G0_10 (V c (Pipeline.arrRef spec0 0)) (V c (Pipeline.arrRef spec0 2)) (V c (Pipeline.arrRef spec0 4)) (V c (Pipeline.arrRef spec0 6)) (V c (Pipeline.arrRef spec0 8))) := by
  show (cfg0.win 10).cut (grid0.coords t) ((dat0 V c).after 10 t) = _
  rw [after0_10]
  obtain ⟨e0, e1, e2, e3⟩ := hidx10 t
  funext y
  have hy0 : (y 0).val < 512 := (y 0).isLt
  have hb0 : (((cfg0.win 10).blk t).view.emb y 0).val = win0_10.index t (0 : Fin 2) * 512 + 1 * (y 0).val := rfl
  have hb1 : (((cfg0.win 10).blk t).view.emb y 1).val = win0_10.index t (1 : Fin 2) * 128 + 1 * (y 1).val := rfl
  show out0_10 (iblk0 V c 0 (p1 t)) (iblk0 V c 2 (p1 t)) (iblk0 V c 4 (p1 t)) (iblk0 V c 6 (p1 t)) (iblk0 V c 8 (p1 t)) ((cfg0.win 10).xinj (grid0.coords t) y)
    = G0_10 (V c (Pipeline.arrRef spec0 0)) (V c (Pipeline.arrRef spec0 2)) (V c (Pipeline.arrRef spec0 4)) (V c (Pipeline.arrRef spec0 6)) (V c (Pipeline.arrRef spec0 8)) (((cfg0.win 10).blk t).view.emb y)
  refine (congrFun (out0_10_eq _ _ _ _ _) _).trans ?_
  rw [blk0_eq V c (p1 t) ⟨win0_10.index t (0 : Fin 2), e2⟩ e0 e1, blkc2_eq V c (p1 t), blkc4_eq V c (p1 t), blkc6_eq V c (p1 t), blkc8_eq V c (p1 t)]
  refine (G0_10_at _ _ _ _ _ ⟨win0_10.index t (0 : Fin 2), e2⟩ ((cfg0.win 10).xinj (grid0.coords t) y) (((cfg0.win 10).blk t).view.emb y) ?_ ?_).symm
  · show (((cfg0.win 10).blk t).view.emb y 0).val = 512 * win0_10.index t (0 : Fin 2) + (y 0).val
    rw [hb0]; omega
  · show (((cfg0.win 10).blk t).view.emb y 1).val = (y 1).val
    rw [hb1, e3]; omega

/-- An index of the array is in point `t`'s block iff each coordinate is in the block's range on its axis. -/
theorem mem_blk10 (t : Fin cfg0.N) (i : S4096x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v8_0).slice (win0_10.rect t)).set ↔ _
  rw [View.set_slice_whole, Rect.mem_set_unit]
  exact Iff.rfl

/-- The writing-back points' blocks cover the array. -/
theorem cover10 (i : S4096x128.Idx) : ∃ t : Fin cfg0.N, (cfg0.win 10).flush t = true ∧ i ∈ ((cfg0.win 10).blk t).view.set := by
  have hi0 : (i 0).val < 4096 := idx2_lt0 i
  have hi1 : (i 1).val < 128 := idx2_lt1 i
  obtain ⟨t, hft, ht⟩ := onto10 ⟨(i 0).val / 512, by omega⟩
  have q0 : win0_10.index t (0 : Fin 2) = (i 0).val / 512 := congrFun ht 0
  have q1 : win0_10.index t (1 : Fin 2) = 0 := congrFun ht 1
  refine ⟨t, hft, (mem_blk10 t i).2 fun a => ?_⟩
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 128 ≤ (i 1).val ∧ (i 1).val < win0_10.index t (1 : Fin 2) * 128 + 128; omega

/-- THE ARRAY of output window 10 after the region's last write-back, as one function of the entry contents. -/
theorem final0_10 (c : Dev nD) : (dat0 V c).arrAt 10 cfg0.N = G0_10 (V c (Pipeline.arrRef spec0 0)) (V c (Pipeline.arrRef spec0 2)) (V c (Pipeline.arrRef spec0 4)) (V c (Pipeline.arrRef spec0 6)) (V c (Pipeline.arrRef spec0 8)) :=
  (dat0 V c).arrAt_eq_of_cover 10 _ (fun t _ => flushed10_eq V c t) (cover10)

/-! ### Output window 11 (tower 2) -/

/-- Over the grid: tower 2's adjacency block sits at its output's row block, and the output's block indices stay in range. -/
theorem hidx11 : ∀ t : Fin cfg0.N, win0_1.index t (0 : Fin 2) = win0_11.index t (0 : Fin 2) ∧ win0_1.index t (1 : Fin 2) = 0
    ∧ win0_11.index t (0 : Fin 2) < 8 ∧ win0_11.index t (1 : Fin 2) = 0 :=
  (by decide +kernel : ∀ t : Fin grid0.N, win0_1.index t (0 : Fin 2) = win0_11.index t (0 : Fin 2) ∧ win0_1.index t (1 : Fin 2) = 0
    ∧ win0_11.index t (0 : Fin 2) < 8 ∧ win0_11.index t (1 : Fin 2) = 0)

/-- Every row block is some writing-back point's. -/
theorem onto11 : ∀ q : Fin 8, ∃ t : Fin cfg0.N, (cfg0.win 11).flush t = true ∧ win0_11.index t = ![q.val, 0] :=
  (by decide +kernel : ∀ q : Fin 8, ∃ t : Fin grid0.N, win0_11.flush t = true ∧ win0_11.index t = ![q.val, 0])

/-- What a writing-back point writes is its block of `G0_11`. -/
theorem flushed11_eq (c : Dev nD) (t : Fin cfg0.N) :
    (dat0 V c).flushed 11 t = ((cfg0.win 11).blk t).view.read (Elt F) (G0_11 (V c (Pipeline.arrRef spec0 1)) (V c (Pipeline.arrRef spec0 3)) (V c (Pipeline.arrRef spec0 5)) (V c (Pipeline.arrRef spec0 7)) (V c (Pipeline.arrRef spec0 9))) := by
  show (cfg0.win 11).cut (grid0.coords t) ((dat0 V c).after 11 t) = _
  rw [after0_11]
  obtain ⟨e0, e1, e2, e3⟩ := hidx11 t
  funext y
  have hy0 : (y 0).val < 512 := (y 0).isLt
  have hb0 : (((cfg0.win 11).blk t).view.emb y 0).val = win0_11.index t (0 : Fin 2) * 512 + 1 * (y 0).val := rfl
  have hb1 : (((cfg0.win 11).blk t).view.emb y 1).val = win0_11.index t (1 : Fin 2) * 128 + 1 * (y 1).val := rfl
  show out0_11 (iblk0 V c 1 t) (iblk0 V c 3 t) (iblk0 V c 5 t) (iblk0 V c 7 t) (iblk0 V c 9 t) ((cfg0.win 11).xinj (grid0.coords t) y)
    = G0_11 (V c (Pipeline.arrRef spec0 1)) (V c (Pipeline.arrRef spec0 3)) (V c (Pipeline.arrRef spec0 5)) (V c (Pipeline.arrRef spec0 7)) (V c (Pipeline.arrRef spec0 9)) (((cfg0.win 11).blk t).view.emb y)
  refine (congrFun (out0_11_eq _ _ _ _ _) _).trans ?_
  rw [blk1_eq V c t ⟨win0_11.index t (0 : Fin 2), e2⟩ e0 e1, blkc3_eq V c t, blkc5_eq V c t, blkc7_eq V c t, blkc9_eq V c t]
  refine (G0_11_at _ _ _ _ _ ⟨win0_11.index t (0 : Fin 2), e2⟩ ((cfg0.win 11).xinj (grid0.coords t) y) (((cfg0.win 11).blk t).view.emb y) ?_ ?_).symm
  · show (((cfg0.win 11).blk t).view.emb y 0).val = 512 * win0_11.index t (0 : Fin 2) + (y 0).val
    rw [hb0]; omega
  · show (((cfg0.win 11).blk t).view.emb y 1).val = (y 1).val
    rw [hb1, e3]; omega

/-- An index of the array is in point `t`'s block iff each coordinate is in the block's range on its axis. -/
theorem mem_blk11 (t : Fin cfg0.N) (i : S4096x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v8_1).slice (win0_11.rect t)).set ↔ _
  rw [View.set_slice_whole, Rect.mem_set_unit]
  exact Iff.rfl

/-- The writing-back points' blocks cover the array. -/
theorem cover11 (i : S4096x128.Idx) : ∃ t : Fin cfg0.N, (cfg0.win 11).flush t = true ∧ i ∈ ((cfg0.win 11).blk t).view.set := by
  have hi0 : (i 0).val < 4096 := idx2_lt0 i
  have hi1 : (i 1).val < 128 := idx2_lt1 i
  obtain ⟨t, hft, ht⟩ := onto11 ⟨(i 0).val / 512, by omega⟩
  have q0 : win0_11.index t (0 : Fin 2) = (i 0).val / 512 := congrFun ht 0
  have q1 : win0_11.index t (1 : Fin 2) = 0 := congrFun ht 1
  refine ⟨t, hft, (mem_blk11 t i).2 fun a => ?_⟩
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 128 ≤ (i 1).val ∧ (i 1).val < win0_11.index t (1 : Fin 2) * 128 + 128; omega

/-- THE ARRAY of output window 11 after the region's last write-back, as one function of the entry contents. -/
theorem final0_11 (c : Dev nD) : (dat0 V c).arrAt 11 cfg0.N = G0_11 (V c (Pipeline.arrRef spec0 1)) (V c (Pipeline.arrRef spec0 3)) (V c (Pipeline.arrRef spec0 5)) (V c (Pipeline.arrRef spec0 7)) (V c (Pipeline.arrRef spec0 9)) :=
  (dat0 V c).arrAt_eq_of_cover 11 _ (fun t _ => flushed11_eq V c t) (cover11)

end Region

end Cert.KernelIdeal.Mid

end
-- ==== Proof.OutRun.lean ====
/-
  One grid point of the second graph-convolution layer's tiled program, as a statement about buffers.

  The program visits sixteen points: the first eight work for tower 1, the last eight for tower 2, and a point's work
  is the same for either — load a block of 512 rows of the tower's adjacency matrix, the tower's whole support array and
  its bias row; store the rows z = adj_blk · s2 + b2 into one output buffer and the same rows divided by their Euclidean
  norms into another. Exactly one of the two conditions (point < 8, point ≥ 8) holds at a point, so the body has two
  control cases, and in each the other tower's five buffers are not touched. Stated and proved here, once per case: what
  the body leaves in the two buffers it stores into, as a function of the three blocks it loads.
-/
import proofs.«134049_g16819091931673_cont_week2b_1393_5_alg».proof.Proof.Gen.KernelIdeal.Launch
import proofs.«134049_g16819091931673_cont_week2b_1393_5_alg».proof.Proof.Gen.KernelIdeal.Skeleton
import proofs.«134049_g16819091931673_cont_week2b_1393_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The layer's body on any staging memrefs: its two control cases -/

/-! ## The body's accesses: each whole buffer -/

abbrev rA : Rect S512x4096 := Rect.unit (s := S512x4096) ![0, 0] S512x4096.size inb_S512x4096_S512x4096_0_0
abbrev rS : Rect S4096x128 := Rect.unit (s := S4096x128) ![0, 0] S4096x128.size inb_S4096x128_S4096x128_0_0
abbrev rB : Rect S1x128 := Rect.unit (s := S1x128) ![0, 0] S1x128.size inb_S1x128_S1x128_0_0
abbrev rO : Rect S512x128 := Rect.unit (s := S512x128) ![0, 0] S512x128.size inb_S512x128_S512x128_0_0

/-! ## What a tower's point leaves in its two output buffers, from the blocks it loads -/

/-- The rows z = adj_blk·s2 + b2 of tower 1: the one store into the f32 output buffer, as pieces. -/
def out1_6 (xa : Vec F S512x4096 .f32) (xs : Vec F S4096x128 .bf16) (xb : Vec F S1x128 .f32) : Vec F S512x128 .f32 :=
  View.canon [⟨rO, k1_pay1 (View.ld xa rA) (View.ld xs rS) (View.ld xb rB)⟩]
/-- The normalized rows z/‖z‖ of tower 1, in bf16. -/
def out1_8 (xa : Vec F S512x4096 .f32) (xs : Vec F S4096x128 .bf16) (xb : Vec F S1x128 .f32) : Vec F S512x128 .bf16 :=
  View.canon [⟨rO, k1_pay2 (View.ld xa rA) (View.ld xs rS) (View.ld xb rB)⟩]
/-- The rows z of tower 2. -/
def out1_7 (xa : Vec F S512x4096 .f32) (xs : Vec F S4096x128 .bf16) (xb : Vec F S1x128 .f32) : Vec F S512x128 .f32 :=
  View.canon [⟨rO, k1_pay3 (View.ld xa rA) (View.ld xs rS) (View.ld xb rB)⟩]
/-- The normalized rows of tower 2, in bf16. -/
def out1_9 (xa : Vec F S512x4096 .f32) (xs : Vec F S4096x128 .bf16) (xb : Vec F S1x128 .f32) : Vec F S512x128 .bf16 :=
  View.canon [⟨rO, k1_pay4 (View.ld xa rA) (View.ld xs rS) (View.ld xb rB)⟩]

/-- One store of the whole buffer covers it. -/
theorem coverO32 (p : Vec F S512x128 .f32) (y : S512x128.Idx) :
    ∃ pc ∈ ([⟨rO, p⟩] : List (View.Piece (Elt F) S512x128 .f32)), y ∈ pc.1.set :=
  View.cover_of_tiled [⟨rO, p⟩] S512x128.size (by rfl) y
theorem coverO16 (p : Vec F S512x128 .bf16) (y : S512x128.Idx) :
    ∃ pc ∈ ([⟨rO, p⟩] : List (View.Piece (Elt F) S512x128 .bf16)), y ∈ pc.1.set :=
  View.cover_of_tiled [⟨rO, p⟩] S512x128.size (by rfl) y

/-! ## The body's triple, once per control case -/

set_option maxHeartbeats 4000000 in
/-- TOWER 1's points (the first condition holds, the second fails): on whole staging memrefs, the three inputs the
    tower loads at contents `xa`, `xs`, `xb` and its two outputs at anything, the body runs to the continuation holding
    the inputs as they were and the outputs at `out1_6`, `out1_8` of them. The other tower's five buffers are not touched. -/
theorem sound_kernel1_A (c : Dev nD) (E : Set ℕ) (i : grid1.Coords) (arg1 : Memref sig .tc .vmem S512x4096 .f32) (harg1 : arg1.IsWhole) (arg2 : Memref sig .tc .vmem S512x4096 .f32) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .bf16) (harg9 : arg9.IsWhole) (arg10 : Memref sig .tc .vmem S512x128 .bf16) (harg10 : arg10.IsWhole)
    (hc1 : k1_cond1 i = 1#1) (hc2 : ¬ k1_cond2 i = 1#1)
    (xa : Vec F S512x4096 .f32) (xs : Vec F S4096x128 .bf16) (xb : Vec F S1x128 .f32) (K : PUnit → sProp 𝕄) :
    iprop(owns (c : Thread nD τ) arg1 fullShare xa ∗ owns (c : Thread nD τ) arg3 fullShare xs ∗ owns (c : Thread nD τ) arg5 fullShare xb
        ∗ (∃ d, owns (c : Thread nD τ) arg7 fullShare d) ∗ (∃ d, owns (c : Thread nD τ) arg9 fullShare d)
        ∗ (iprop(owns (c : Thread nD τ) arg1 fullShare xa ∗ owns (c : Thread nD τ) arg3 fullShare xs ∗ owns (c : Thread nD τ) arg5 fullShare xb
            ∗ owns (c : Thread nD τ) arg7 fullShare (out1_6 xa xs xb) ∗ owns (c : Thread nD τ) arg9 fullShare (out1_8 xa xs xb)) -∗ K ⟨⟩))
      ⊢ wp frame (wpE (defs₀ (F := F)) Variants.none c none) E (cc1__out_body i arg1 harg1 arg2 harg2 arg3 harg3 arg4 harg4 arg5 harg5 arg6 harg6 arg7 harg7 arg8 harg8 arg9 harg9 arg10 harg10) K := by
  simp only [cc1__out_body_eq_skeleton]; unfold cc1__out_body_skel
  unfold owns
  iintro ⟨⟨%f0, %hf0, H0⟩, ⟨%f2, %hf2, H2⟩, ⟨%f4, %hf4, H4⟩, ⟨%d6, %f6, -, H6⟩, ⟨%d8, %f8, -, H8⟩, Hk⟩
  subst hf0; subst hf2; subst hf4
  sl_exec (disch := first | exact hc1 | exact hc2)
  sl_step
  iapply Hk
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [H6]
  · iexists _; isplitr
    swap; · iexact H6
    ipureintro
    exact View.read_writes_eq_canon _ _ _ (coverO32 _)
  iexists _; isplitr
  swap; · iexact H8
  ipureintro
  exact View.read_writes_eq_canon _ _ _ (coverO16 _)

set_option maxHeartbeats 4000000 in
/-- TOWER 2's points (the first condition fails, the second holds): the same, on the other tower's five buffers. -/
theorem sound_kernel1_B (c : Dev nD) (E : Set ℕ) (i : grid1.Coords) (arg1 : Memref sig .tc .vmem S512x4096 .f32) (harg1 : arg1.IsWhole) (arg2 : Memref sig .tc .vmem S512x4096 .f32) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .bf16) (harg9 : arg9.IsWhole) (arg10 : Memref sig .tc .vmem S512x128 .bf16) (harg10 : arg10.IsWhole)
    (hc1 : ¬ k1_cond1 i = 1#1) (hc2 : k1_cond2 i = 1#1)
    (xa : Vec F S512x4096 .f32) (xs : Vec F S4096x128 .bf16) (xb : Vec F S1x128 .f32) (K : PUnit → sProp 𝕄) :
    iprop(owns (c : Thread nD τ) arg2 fullShare xa ∗ owns (c : Thread nD τ) arg4 fullShare xs ∗ owns (c : Thread nD τ) arg6 fullShare xb
        ∗ (∃ d, owns (c : Thread nD τ) arg8 fullShare d) ∗ (∃ d, owns (c : Thread nD τ) arg10 fullShare d)
        ∗ (iprop(owns (c : Thread nD τ) arg2 fullShare xa ∗ owns (c : Thread nD τ) arg4 fullShare xs ∗ owns (c : Thread nD τ) arg6 fullShare xb
            ∗ owns (c : Thread nD τ) arg8 fullShare (out1_7 xa xs xb) ∗ owns (c : Thread nD τ) arg10 fullShare (out1_9 xa xs xb)) -∗ K ⟨⟩))
      ⊢ wp frame (wpE (defs₀ (F := F)) Variants.none c none) E (cc1__out_body i arg1 harg1 arg2 harg2 arg3 harg3 arg4 harg4 arg5 harg5 arg6 harg6 arg7 harg7 arg8 harg8 arg9 harg9 arg10 harg10) K := by
  simp only [cc1__out_body_eq_skeleton]; unfold cc1__out_body_skel
  unfold owns
  iintro ⟨⟨%f0, %hf0, H0⟩, ⟨%f2, %hf2, H2⟩, ⟨%f4, %hf4, H4⟩, ⟨%d6, %f6, -, H6⟩, ⟨%d8, %f8, -, H8⟩, Hk⟩
  subst hf0; subst hf2; subst hf4
  sl_exec (disch := first | exact hc1 | exact hc2)
  sl_step
  iapply Hk
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [H6]
  · iexists _; isplitr
    swap; · iexact H6
    ipureintro
    exact View.read_writes_eq_canon _ _ _ (coverO32 _)
  iexists _; isplitr
  swap; · iexact H8
  ipureintro
  exact View.read_writes_eq_canon _ _ _ (coverO16 _)

end Cert.KernelIdeal.Out

end
-- ==== Proof.Out.lean ====
/-
  The second graph-convolution layer of both towers as a pipeline over sixteen points: what it asks of its body, and
  what its arrays hold in the end.

  The adjacency windows and the output windows are parked while the other tower runs: tower 1's block index is
  min(t, 7), tower 2's is max(t − 8, 0). So tower 1's outputs are stored at points 0..7 and untouched at 8..15, where the
  block index stays 7: block 7 is written back only after the last point, and what is written there is what point 7
  left in the buffer, carried unchanged through the eight idle points. Tower 2's outputs are untouched at points 0..7
  (nothing is written back from them there) and stored and written back at 8..15. The inputs are only read. Everything
  is stated at the buffers' contents V when the layer is entered. The result: each input array is as it was, and each
  output array is, index by index, the point's payload over the row block the index lies in — row i₀ of an output
  depends on rows 512·(i₀ / 512) .. 512·(i₀ / 512) + 511 of the tower's adjacency, on the support array and on the bias row.
-/
import proofs.«134049_g16819091931673_cont_week2b_1393_5_alg».proof.Proof.Gen.KernelIdeal.Launch
import proofs.«134049_g16819091931673_cont_week2b_1393_5_alg».proof.Proof.Gen.KernelIdeal.Skeleton
import proofs.«134049_g16819091931673_cont_week2b_1393_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle
import Idealize.ShloMosaic.Lib.Pipeline.Value
import Idealize.ShloMosaic.Lib.ValueIdx
import proofs.«134049_g16819091931673_cont_week2b_1393_5_alg».proof.Proof.OutRun
set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: the parameter everything here is stated at
variable (V : (c : Dev nD) → (b : Ref sig .tc) → Buf (Elt F) ((c : Thread nD τ).loc b))

/-! # The second graph-convolution layer of both towers, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved: a parked adjacency block, a constant operand), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two control cases over the grid, and where the parked output windows are idle and written back -/

/-- The first tower's condition holds exactly at the first eight points, -/
theorem hcond1 : ∀ t : Fin cfg1.N, k1_cond1 (grid1.coords t) = 1#1 ↔ t.val < 8 :=
  (by decide +kernel : ∀ t : Fin grid1.N, k1_cond1 (grid1.coords t) = 1#1 ↔ t.val < 8)
/-- the second tower's exactly at the last eight. -/
theorem hcond2 : ∀ t : Fin cfg1.N, k1_cond2 (grid1.coords t) = 1#1 ↔ 8 ≤ t.val :=
  (by decide +kernel : ∀ t : Fin grid1.N, k1_cond2 (grid1.coords t) = 1#1 ↔ 8 ≤ t.val)

theorem hidle6 : ∀ t : Fin cfg1.N, cfg1.idle 6 (cfg1.grid.coords t) = decide (8 ≤ t.val) :=
  (by decide +kernel : ∀ t : Fin grid1.N, idle1 6 (grid1.coords t) = decide (8 ≤ t.val))
theorem hidle7 : ∀ t : Fin cfg1.N, cfg1.idle 7 (cfg1.grid.coords t) = decide (t.val < 8) :=
  (by decide +kernel : ∀ t : Fin grid1.N, idle1 7 (grid1.coords t) = decide (t.val < 8))
theorem hidle8 : ∀ t : Fin cfg1.N, cfg1.idle 8 (cfg1.grid.coords t) = decide (8 ≤ t.val) :=
  (by decide +kernel : ∀ t : Fin grid1.N, idle1 8 (grid1.coords t) = decide (8 ≤ t.val))
theorem hidle9 : ∀ t : Fin cfg1.N, cfg1.idle 9 (cfg1.grid.coords t) = decide (t.val < 8) :=
  (by decide +kernel : ∀ t : Fin grid1.N, idle1 9 (grid1.coords t) = decide (t.val < 8))

/-- Tower 1's output blocks (block index min(t, 7)) are written back after points 0..6 and, block 7, after the last point; -/
theorem hflush6 : ∀ t : Fin cfg1.N, (cfg1.win 6).flush t = decide (t.val < 7 ∨ t.val = 15) :=
  (by decide +kernel : ∀ t : Fin grid1.N, win1_6.flush t = decide (t.val < 7 ∨ t.val = 15))
theorem hflush8 : ∀ t : Fin cfg1.N, (cfg1.win 8).flush t = decide (t.val < 7 ∨ t.val = 15) :=
  (by decide +kernel : ∀ t : Fin grid1.N, win1_8.flush t = decide (t.val < 7 ∨ t.val = 15))
/-- tower 2's (block index max(t − 8, 0)) after points 8..15. -/
theorem hflush7 : ∀ t : Fin cfg1.N, (cfg1.win 7).flush t = decide (8 ≤ t.val) :=
  (by decide +kernel : ∀ t : Fin grid1.N, win1_7.flush t = decide (8 ≤ t.val))
theorem hflush9 : ∀ t : Fin cfg1.N, (cfg1.win 9).flush t = decide (8 ≤ t.val) :=
  (by decide +kernel : ∀ t : Fin grid1.N, win1_9.flush t = decide (8 ≤ t.val))

/-! ## The pipeline's proof data -/

/-- The point whose blocks tower 1's output buffers hold after point `t`: `t` itself while the tower runs, its last
    point (7) afterwards, when the buffers are idle. -/
def par1 (t : Fin cfg1.N) : Fin cfg1.N := if t.val < 8 then t else t1_7

theorem par1_of_lt (t : Fin cfg1.N) (h : t.val < 8) : par1 t = t := if_pos h
theorem par1_of_ge (t : Fin cfg1.N) (h : ¬ t.val < 8) : par1 t = t1_7 := if_neg h

/-- The proof data of the pipeline on core `c`: the arrays as the region finds them (`V`); after the body at point `t`
    each input's buffer at its block, tower 1's outputs at the rows (resp. normalized rows) of the blocks of point
    `par1 t`, tower 2's at those of point `t` (read only where the tower has run); the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 (par1 t)) (iblk1 V c 2 (par1 t)) (iblk1 V c 4 (par1 t))
    | ⟨7, _⟩ => out1_7 (iblk1 V c 1 t) (iblk1 V c 3 t) (iblk1 V c 5 t)
    | ⟨8, _⟩ => out1_8 (iblk1 V c 0 (par1 t)) (iblk1 V c 2 (par1 t)) (iblk1 V c 4 (par1 t))
    | ⟨9, _⟩ => out1_9 (iblk1 V c 1 t) (iblk1 V c 3 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 (par1 t)) (iblk1 V c 2 (par1 t)) (iblk1 V c 4 (par1 t)) := by dsimp only [dat1]
theorem after1_7 (c : Dev nD) (t : Fin cfg1.N) : (dat1 V c).after 7 t = out1_7 (iblk1 V c 1 t) (iblk1 V c 3 t) (iblk1 V c 5 t) := by dsimp only [dat1]
theorem after1_8 (c : Dev nD) (t : Fin cfg1.N) : (dat1 V c).after 8 t = out1_8 (iblk1 V c 0 (par1 t)) (iblk1 V c 2 (par1 t)) (iblk1 V c 4 (par1 t)) := by dsimp only [dat1]
theorem after1_9 (c : Dev nD) (t : Fin cfg1.N) : (dat1 V c).after 9 t = out1_9 (iblk1 V c 1 t) (iblk1 V c 3 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## Tower 1's output buffers through their idle points -/

/-- After point 8 begins, output window 6's buffer holds what tower 1's last point (7) left: point 7 stores, is not
    written back (the block index stays 7), and the window is uncut. -/
theorem before1_6_at8 (c : Dev nD) (d) : (dat1 V c).before 6 t1_8 d = (dat1 V c).after 6 t1_7 := by
  rw [(dat1 V c).before_of_pos 6 t1_8 (by decide) ((cfg1.win 6).fetch_out rfl _) d]
  have e : (⟨t1_8.val - 1, Nat.lt_of_le_of_lt (Nat.sub_le _ _) t1_8.isLt⟩ : Fin cfg1.N) = t1_7 := rfl
  rw [e, if_neg (by rw [hflush6]; decide)]
  unfold Dat.left
  have hi : cfg1.idle 6 (cfg1.grid.coords t1_7) = false := by rw [hidle6]; decide
  rw [hi]
  show (dat1 V c).kept 6 t1_7 d = _
  unfold Dat.kept
  rw [Pipeline.fill_of_clip_none (cfg := cfg1) 6 _ (fun _ => rfl) d ((dat1 V c).after 6 t1_7), Window.fill_cut]

/-- At the last point output window 6's buffer — idle since point 8, never written back in between — still holds
    what point 7 left, which is what the proof data states of the last point: what the final write-back writes. -/
theorem before1_6_last (c : Dev nD) (t : Fin cfg1.N) (h15 : t.val = 15) (d) : (dat1 V c).before 6 t d = (dat1 V c).after 6 t := by
  have ht : t = t1_15 := Fin.ext h15
  subst ht
  rw [(dat1 V c).before_idle_run 6 (fun u => (cfg1.win 6).fetch_out rfl u) d 7 t1_15 (by decide)
    (fun j h₁ h₂ => ⟨by rw [hidle6]; exact decide_eq_true (by have : t1_15.val = 15 := rfl; omega),
      by rw [hflush6]; exact decide_eq_false (by have : t1_15.val = 15 := rfl; omega)⟩)]
  have e : (⟨t1_15.val - 7, by have : t1_15.val = 15 := rfl; have := N_1; omega⟩ : Fin cfg1.N) = t1_8 := rfl
  rw [e, before1_6_at8, after1_6, after1_6, par1_of_lt t1_7 (by decide), par1_of_ge t1_15 (by decide)]

/-- After point 8 begins, output window 8's buffer holds what tower 1's last point (7) left: point 7 stores, is not
    written back (the block index stays 7), and the window is uncut. -/
theorem before1_8_at8 (c : Dev nD) (d) : (dat1 V c).before 8 t1_8 d = (dat1 V c).after 8 t1_7 := by
  rw [(dat1 V c).before_of_pos 8 t1_8 (by decide) ((cfg1.win 8).fetch_out rfl _) d]
  have e : (⟨t1_8.val - 1, Nat.lt_of_le_of_lt (Nat.sub_le _ _) t1_8.isLt⟩ : Fin cfg1.N) = t1_7 := rfl
  rw [e, if_neg (by rw [hflush8]; decide)]
  unfold Dat.left
  have hi : cfg1.idle 8 (cfg1.grid.coords t1_7) = false := by rw [hidle8]; decide
  rw [hi]
  show (dat1 V c).kept 8 t1_7 d = _
  unfold Dat.kept
  rw [Pipeline.fill_of_clip_none (cfg := cfg1) 8 _ (fun _ => rfl) d ((dat1 V c).after 8 t1_7), Window.fill_cut]

/-- At the last point output window 8's buffer — idle since point 8, never written back in between — still holds
    what point 7 left, which is what the proof data states of the last point: what the final write-back writes. -/
theorem before1_8_last (c : Dev nD) (t : Fin cfg1.N) (h15 : t.val = 15) (d) : (dat1 V c).before 8 t d = (dat1 V c).after 8 t := by
  have ht : t = t1_15 := Fin.ext h15
  subst ht
  rw [(dat1 V c).before_idle_run 8 (fun u => (cfg1.win 8).fetch_out rfl u) d 7 t1_15 (by decide)
    (fun j h₁ h₂ => ⟨by rw [hidle8]; exact decide_eq_true (by have : t1_15.val = 15 := rfl; omega),
      by rw [hflush8]; exact decide_eq_false (by have : t1_15.val = 15 := rfl; omega)⟩)]
  have e : (⟨t1_15.val - 7, by have : t1_15.val = 15 := rfl; have := N_1; omega⟩ : Fin cfg1.N) = t1_8 := rfl
  rw [e, before1_8_at8, after1_8, after1_8, par1_of_lt t1_7 (by decide), par1_of_ge t1_15 (by decide)]

/-! ## The body obligation's post, per window: its three shapes -/

/-- At a point live for the window the body leaves the stated contents; -/
theorem leavesExact_live (c : Dev nD) (w : Fin cfg1.W) (t : Fin cfg1.N) (hi : cfg1.idle w (cfg1.grid.coords t) = false) :
    (dat1 V c).leavesExact w t = owns (c : Thread nD τ) ((cfg1.win w).stage (cfg1.slots t w)) fullShare ((dat1 V c).after w t) := by
  unfold Dat.leavesExact; rw [hi]
/-- so it does at an idle point that writes the block back. -/
theorem leavesExact_flush (c : Dev nD) (w : Fin cfg1.W) (t : Fin cfg1.N) (hi : cfg1.idle w (cfg1.grid.coords t) = true) (hf : (cfg1.win w).flush t = true) :
    (dat1 V c).leavesExact w t = owns (c : Thread nD τ) ((cfg1.win w).stage (cfg1.slots t w)) fullShare ((dat1 V c).after w t) := by
  unfold Dat.leavesExact; rw [hi, hf]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 2000000 in
/-- The body at any point: the inputs' buffers hold their blocks; the conditions' closed forms say which tower the
    point belongs to; that tower's triple applies to its five buffers, the other tower's five pass through untouched
    — its outputs idle: handed back as found, or, at the last point, where tower 1's are written back, holding what
    point 7 left, which is what the proof data states there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    leavesExact_live V c 0 t rfl, leavesExact_live V c 1 t rfl, leavesExact_live V c 2 t rfl,
    leavesExact_live V c 3 t rfl, leavesExact_live V c 4 t rfl, leavesExact_live V c 5 t rfl,
    after1_0, after1_1, after1_2, after1_3, after1_4, after1_5]
  have hN : t.val < 16 := lt_of_lt_of_eq t.isLt (show cfg1.N = 16 from N_1)
  by_cases h8 : t.val < 8
  · -- a point of tower 1
    have hc1 : k1_cond1 (grid1.coords t) = 1#1 := (hcond1 t).mpr h8
    have hc2 : ¬ k1_cond2 (grid1.coords t) = 1#1 := fun h => by have := (hcond2 t).mp h; omega
    have hi6 : cfg1.idle 6 (cfg1.grid.coords t) = false := by rw [hidle6]; exact decide_eq_false (by omega)
    have hi8 : cfg1.idle 8 (cfg1.grid.coords t) = false := by rw [hidle8]; exact decide_eq_false (by omega)
    have hi7 : cfg1.idle 7 (cfg1.grid.coords t) = true := by rw [hidle7]; exact decide_eq_true h8
    have hi9 : cfg1.idle 9 (cfg1.grid.coords t) = true := by rw [hidle9]; exact decide_eq_true h8
    have hf7 : (cfg1.win 7).flush t = false := by rw [hflush7]; exact decide_eq_false (by omega)
    have hf9 : (cfg1.win 9).flush t = false := by rw [hflush9]; exact decide_eq_false (by omega)
    rw [leavesExact_live V c 6 t hi6, leavesExact_live V c 8 t hi8, Dat.leavesExact_idle _ 7 t hi7 hf7,
      Dat.leavesExact_idle _ 9 t hi9 hf9, after1_6, after1_8, par1_of_lt t h8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_A c Set.univ (grid1.coords t) _ _ _ _ _ _ _ _ _ _ _ _ _ _ _ _ _ _ _ _ hc1 hc2 (iblk1 V c 0 t) (iblk1 V c 2 t) (iblk1 V c 4 t) _)
    isplitl [H0]; · iexact H0
    isplitl [H2]; · iexact H2
    isplitl [H4]; · iexact H4
    isplitl [H6]; · iexists _; iexact H6
    isplitl [H8]; · iexists _; iexact H8
    iintro ⟨H0, H2, H4, H6, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iexists _; iexact H9
  · -- a point of tower 2
    have hc1 : ¬ k1_cond1 (grid1.coords t) = 1#1 := fun h => h8 ((hcond1 t).mp h)
    have hc2 : k1_cond2 (grid1.coords t) = 1#1 := (hcond2 t).mpr (by omega)
    have hi6 : cfg1.idle 6 (cfg1.grid.coords t) = true := by rw [hidle6]; exact decide_eq_true (by omega)
    have hi8 : cfg1.idle 8 (cfg1.grid.coords t) = true := by rw [hidle8]; exact decide_eq_true (by omega)
    have hi7 : cfg1.idle 7 (cfg1.grid.coords t) = false := by rw [hidle7]; exact decide_eq_false h8
    have hi9 : cfg1.idle 9 (cfg1.grid.coords t) = false := by rw [hidle9]; exact decide_eq_false h8
    rw [leavesExact_live V c 7 t hi7, leavesExact_live V c 9 t hi9, after1_7, after1_9]
    by_cases h15 : t.val = 15
    · -- the last point: tower 1's outputs, idle, are written back at what point 7 left
      have hf6 : (cfg1.win 6).flush t = true := by rw [hflush6]; exact decide_eq_true (.inr h15)
      have hf8 : (cfg1.win 8).flush t = true := by rw [hflush8]; exact decide_eq_true (.inr h15)
      rw [leavesExact_flush V c 6 t hi6 hf6, leavesExact_flush V c 8 t hi8 hf8]
      simp only [before1_6_last V c t h15, before1_8_last V c t h15]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel1_B c Set.univ (grid1.coords t) _ _ _ _ _ _ _ _ _ _ _ _ _ _ _ _ _ _ _ _ hc1 hc2 (iblk1 V c 1 t) (iblk1 V c 3 t) (iblk1 V c 5 t) _)
      isplitl [H1]; · iexact H1
      isplitl [H3]; · iexact H3
      isplitl [H5]; · iexact H5
      isplitl [H7]; · iexists _; iexact H7
      isplitl [H9]; · iexists _; iexact H9
      iintro ⟨H1, H3, H5, H7, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- points 8..14: tower 1's outputs are handed back as found
      have hf6 : (cfg1.win 6).flush t = false := by rw [hflush6]; exact decide_eq_false (by omega)
      have hf8 : (cfg1.win 8).flush t = false := by rw [hflush8]; exact decide_eq_false (by omega)
      rw [Dat.leavesExact_idle _ 6 t hi6 hf6, Dat.leavesExact_idle _ 8 t hi8 hf8]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel1_B c Set.univ (grid1.coords t) _ _ _ _ _ _ _ _ _ _ _ _ _ _ _ _ _ _ _ _ hc1 hc2 (iblk1 V c 1 t) (iblk1 V c 3 t) (iblk1 V c 5 t) _)
      isplitl [H1]; · iexact H1
      isplitl [H3]; · iexact H3
      isplitl [H5]; · iexact H5
      isplitl [H7]; · iexists _; iexact H7
      isplitl [H9]; · iexists _; iexact H9
      iintro ⟨H1, H3, H5, H7, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

/-! # The value of the region: each array after the last write-back, as one function of the entry contents -/

/-! ## The inputs are never written -/

theorem kept1_0 (c : Dev nD) : (dat1 V c).arrAt 0 cfg1.N = V c (Pipeline.arrRef spec1 0) :=
  ((dat1 V c).arrAt_in 0 rfl _).trans (A_eq1 V c 0)
theorem kept1_1 (c : Dev nD) : (dat1 V c).arrAt 1 cfg1.N = V c (Pipeline.arrRef spec1 1) :=
  ((dat1 V c).arrAt_in 1 rfl _).trans (A_eq1 V c 1)
theorem kept1_2 (c : Dev nD) : (dat1 V c).arrAt 2 cfg1.N = V c (Pipeline.arrRef spec1 2) :=
  ((dat1 V c).arrAt_in 2 rfl _).trans (A_eq1 V c 2)
theorem kept1_3 (c : Dev nD) : (dat1 V c).arrAt 3 cfg1.N = V c (Pipeline.arrRef spec1 3) :=
  ((dat1 V c).arrAt_in 3 rfl _).trans (A_eq1 V c 3)
theorem kept1_4 (c : Dev nD) : (dat1 V c).arrAt 4 cfg1.N = V c (Pipeline.arrRef spec1 4) :=
  ((dat1 V c).arrAt_in 4 rfl _).trans (A_eq1 V c 4)
theorem kept1_5 (c : Dev nD) : (dat1 V c).arrAt 5 cfg1.N = V c (Pipeline.arrRef spec1 5) :=
  ((dat1 V c).arrAt_in 5 rfl _).trans (A_eq1 V c 5)

/-! ## Rows of the arrays by block -/

open Idealize.ShloMosaic.ValueIdx (ix2)

theorem hz2 : (![0, 0] : Fin 2 → Nat) = fun _ => 0 := funext fun a => by fin_cases a <;> rfl

/-- A function of three arguments at equal arguments. -/
theorem congr3 {α β γ δ : Type} (f : α → β → γ → δ) {a a' : α} {b b' : β} {c c' : γ} (ha : a = a') (hb : b = b') (hc : c = c') :
    f a b c = f a' b' c' := by subst ha hb hc; rfl

/-- The rows 512k .. 512k + 511 of a 4096 × 4096 array: row block `k`. -/
def rowBlk (A : S4096x4096.Idx → Elt F .f32) (k : Fin 8) : Vec F S512x4096 .f32 :=
  fun y => A (ix2 ⟨512 * k.val + (y 0).val, by have := ValueIdx.idx2_lt0 y; have := k.isLt; omega⟩ (y 1 : Fin 4096))

/-- The row block a row of a 4096 × 128 array lies in, -/
def blkOf (i : S4096x128.Idx) : Fin 8 := ⟨(i 0).val / 512, by have := ValueIdx.idx2_lt0 i; omega⟩
/-- and its place inside the block. -/
def inBlk (i : S4096x128.Idx) : S512x128.Idx := ix2 ⟨(i 0).val % 512, Nat.mod_lt _ (by decide)⟩ (i 1 : Fin 128)

/-- An element of the array at row 512k + j₀, column j₁ is element (j₀, j₁) of the payload over row block k. -/
theorem at_block {α : Type} (P : Vec F S512x4096 .f32 → Vec F S4096x128 .bf16 → Vec F S1x128 .f32 → S512x128.Idx → α)
    (A0 : S4096x4096.Idx → Elt F .f32) (A2 : S4096x128.Idx → Elt F .bf16) (A4 : S1x128.Idx → Elt F .f32)
    (kk : Fin 8) (j : S512x128.Idx) (i : S4096x128.Idx)
    (hi0 : (i 0).val = kk.val * 512 + (j 0).val) (hi1 : (i 1).val = (j 1).val) :
    P (rowBlk A0 kk) A2 A4 j = P (rowBlk A0 (blkOf i)) A2 A4 (inBlk i) := by
  have hj0 : (j 0).val < 512 := ValueIdx.idx2_lt0 j
  have e1 : blkOf i = kk := Fin.ext (by show (i 0).val / 512 = kk.val; omega)
  have e2 : inBlk i = j := by
    funext a
    match a with
    | ⟨0, _⟩ => exact Fin.ext (by show (i 0).val % 512 = (j 0).val; omega)
    | ⟨1, _⟩ => exact Fin.ext hi1
  rw [e1, e2]

/-! ## Output window 6 -/

/-- The store's payload is the whole of what the body leaves: it loads and stores whole buffers. -/
theorem out1_6_eq (xa : Vec F S512x4096 .f32) (xs : Vec F S4096x128 .bf16) (xb : Vec F S1x128 .f32) : out1_6 xa xs xb = k1_pay1 xa xs xb := by
  unfold out1_6
  rw [View.canon_unit_zero hz2, View.ld_unit_zero (S := S512x4096) hz2, View.ld_unit_zero (S := S4096x128) hz2, View.ld_unit_zero (S := S1x128) hz2]

/-- What the window's array ends holding: at row i₀, column i₁, the payload of row block i₀ / 512 of the adjacency, of the
    whole support array and of the bias row, at (i₀ % 512, i₁). -/
def G1_6 (A0 : S4096x4096.Idx → Elt F .f32) (A2 : S4096x128.Idx → Elt F .bf16) (A4 : S1x128.Idx → Elt F .f32) : S4096x128.Idx → Elt F .f32 :=
  fun i => k1_pay1 (rowBlk A0 (blkOf i)) A2 A4 (inBlk i)

/-- The index maps, decided over the grid: the adjacency window the point reads sits at the output's row block,
    the constant operands at block 0, and the output's block indices stay in range. -/
theorem idx6 : ∀ t : Fin cfg1.N, win1_6.index t (1 : Fin 2) = 0 ∧ win1_6.index t (0 : Fin 2) ≤ 7
    ∧ win1_0.index (par1 t) (0 : Fin 2) = win1_6.index t (0 : Fin 2) ∧ win1_0.index (par1 t) (1 : Fin 2) = 0
    ∧ win1_2.index (par1 t) (0 : Fin 2) = 0 ∧ win1_2.index (par1 t) (1 : Fin 2) = 0
    ∧ win1_4.index (par1 t) (0 : Fin 2) = 0 ∧ win1_4.index (par1 t) (1 : Fin 2) = 0 :=
  (by decide +kernel : ∀ t : Fin grid1.N, _)

/-- Every row block is some writing-back point's. -/
theorem idx_onto6 : ∀ q : Fin 8, ∃ t : Fin cfg1.N, (cfg1.win 6).flush t = true ∧ win1_6.index t (0 : Fin 2) = q.val :=
  (by decide +kernel : ∀ q : Fin 8, ∃ t : Fin grid1.N, win1_6.flush t = true ∧ win1_6.index t (0 : Fin 2) = q.val)

/-- WHAT POINT `t` WRITES BACK is block `t` of `G1_6` of the arrays as the region finds them. -/
theorem flushed1_6_eq (c : Dev nD) (t : Fin cfg1.N) :
    (dat1 V c).flushed 6 t = ((cfg1.win 6).blk t).view.read (Elt F) (G1_6 (V c (Pipeline.arrRef spec1 0)) (V c (Pipeline.arrRef spec1 2)) (V c (Pipeline.arrRef spec1 4))) := by
  show (cfg1.win 6).cut (grid1.coords t) ((dat1 V c).after 6 t) = _
  rw [after1_6]
  obtain ⟨e1, e2, e3, e4, e5, e6, e7, e8⟩ := idx6 t
  have hA : (iblk1 V c 0 (par1 t) : Vec F S512x4096 .f32) = rowBlk (V c (Pipeline.arrRef spec1 0)) ⟨win1_6.index t (0 : Fin 2), by omega⟩ := by
    funext y
    show V c (Pipeline.arrRef spec1 0) (((cfg1.win 0).blk (par1 t)).view.emb y) = rowBlk (V c (Pipeline.arrRef spec1 0)) ⟨win1_6.index t (0 : Fin 2), by omega⟩ y
    unfold rowBlk
    refine congrArg (V c (Pipeline.arrRef spec1 0)) ?_
    funext a; apply Fin.ext
    match a with
    | ⟨0, _⟩ => show win1_0.index (par1 t) (0 : Fin 2) * 512 + 1 * (y 0).val = 512 * win1_6.index t (0 : Fin 2) + (y 0).val; omega
    | ⟨1, _⟩ => show win1_0.index (par1 t) (1 : Fin 2) * 4096 + 1 * (y 1).val = (y 1).val; omega
  have hS : (iblk1 V c 2 (par1 t) : Vec F S4096x128 .bf16) = V c (Pipeline.arrRef spec1 2) := by
    funext y
    show V c (Pipeline.arrRef spec1 2) (((cfg1.win 2).blk (par1 t)).view.emb y) = V c (Pipeline.arrRef spec1 2) y
    refine congrArg (V c (Pipeline.arrRef spec1 2)) ?_
    funext a; apply Fin.ext
    match a with
    | ⟨0, _⟩ => show win1_2.index (par1 t) (0 : Fin 2) * 4096 + 1 * (y 0).val = (y 0).val; omega
    | ⟨1, _⟩ => show win1_2.index (par1 t) (1 : Fin 2) * 128 + 1 * (y 1).val = (y 1).val; omega
  have hB : (iblk1 V c 4 (par1 t) : Vec F S1x128 .f32) = V c (Pipeline.arrRef spec1 4) := by
    funext y
    show V c (Pipeline.arrRef spec1 4) (((cfg1.win 4).blk (par1 t)).view.emb y) = V c (Pipeline.arrRef spec1 4) y
    refine congrArg (V c (Pipeline.arrRef spec1 4)) ?_
    funext a; apply Fin.ext
    match a with
    | ⟨0, _⟩ => show win1_4.index (par1 t) (0 : Fin 2) * 1 + 1 * (y 0).val = (y 0).val; omega
    | ⟨1, _⟩ => show win1_4.index (par1 t) (1 : Fin 2) * 128 + 1 * (y 1).val = (y 1).val; omega
  funext j
  show out1_6 (iblk1 V c 0 (par1 t)) (iblk1 V c 2 (par1 t)) (iblk1 V c 4 (par1 t)) j
    = G1_6 (V c (Pipeline.arrRef spec1 0)) (V c (Pipeline.arrRef spec1 2)) (V c (Pipeline.arrRef spec1 4)) (((cfg1.win 6).blk t).view.emb j)
  refine (congrFun (out1_6_eq (iblk1 V c 0 (par1 t)) (iblk1 V c 2 (par1 t)) (iblk1 V c 4 (par1 t))) j).trans ?_
  refine (congrFun (congr3 k1_pay1 hA hS hB) j).trans ?_
  exact at_block k1_pay1 (V c (Pipeline.arrRef spec1 0)) (V c (Pipeline.arrRef spec1 2)) (V c (Pipeline.arrRef spec1 4)) ⟨win1_6.index t (0 : Fin 2), by omega⟩ j (((cfg1.win 6).blk t).view.emb j)
    (by show win1_6.index t (0 : Fin 2) * 512 + 1 * (j 0).val = win1_6.index t (0 : Fin 2) * 512 + (j 0).val; omega)
    (by show win1_6.index t (1 : Fin 2) * 128 + 1 * (j 1).val = (j 1).val; omega)

/-- An index of the array is in point `t`'s block iff each coordinate is in the block's range on its axis. -/
theorem mem_blk6 (t : Fin cfg1.N) (i : S4096x128.Idx) :
    i ∈ ((cfg1.win 6).blk t).view.set ↔ ∀ a : Fin 2, win1_6.index t a * S512x128.size a ≤ (i a).val ∧ (i a).val < win1_6.index t a * S512x128.size a + S512x128.size a := by
  show i ∈ ((View.whole main_v11_0).slice (win1_6.rect t)).set ↔ _
  rw [View.set_slice_whole, Rect.mem_set_unit]
  exact Iff.rfl

/-- The writing-back points' blocks cover the array. -/
theorem cover1_6 (i : S4096x128.Idx) : ∃ t : Fin cfg1.N, (cfg1.win 6).flush t = true ∧ i ∈ ((cfg1.win 6).blk t).view.set := by
  have hi0 : (i 0).val < 4096 := ValueIdx.idx2_lt0 i
  have hi1 : (i 1).val < 128 := ValueIdx.idx2_lt1 i
  obtain ⟨t, hf, ht⟩ := idx_onto6 ⟨(i 0).val / 512, by omega⟩
  have q0 : win1_6.index t (0 : Fin 2) = (i 0).val / 512 := ht
  obtain ⟨e1, -⟩ := idx6 t
  refine ⟨t, hf, ?_⟩
  rw [mem_blk6]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 128 ≤ (i 1).val ∧ (i 1).val < win1_6.index t (1 : Fin 2) * 128 + 128; omega

/-- THE ARRAY after the region's last write-back: `G1_6` of the arrays as the region finds them. -/
theorem final1_6 (c : Dev nD) : (dat1 V c).arrAt 6 cfg1.N = G1_6 (V c (Pipeline.arrRef spec1 0)) (V c (Pipeline.arrRef spec1 2)) (V c (Pipeline.arrRef spec1 4)) :=
  (dat1 V c).arrAt_eq_of_cover 6 _ (fun t _ => flushed1_6_eq V c t) cover1_6

/-! ## Output window 8 -/

/-- The store's payload is the whole of what the body leaves: it loads and stores whole buffers. -/
theorem out1_8_eq (xa : Vec F S512x4096 .f32) (xs : Vec F S4096x128 .bf16) (xb : Vec F S1x128 .f32) : out1_8 xa xs xb = k1_pay2 xa xs xb := by
  unfold out1_8
  rw [View.canon_unit_zero hz2, View.ld_unit_zero (S := S512x4096) hz2, View.ld_unit_zero (S := S4096x128) hz2, View.ld_unit_zero (S := S1x128) hz2]

/-- What the window's array ends holding: at row i₀, column i₁, the payload of row block i₀ / 512 of the adjacency, of the
    whole support array and of the bias row, at (i₀ % 512, i₁). -/
def G1_8 (A0 : S4096x4096.Idx → Elt F .f32) (A2 : S4096x128.Idx → Elt F .bf16) (A4 : S1x128.Idx → Elt F .f32) : S4096x128.Idx → Elt F .bf16 :=
  fun i => k1_pay2 (rowBlk A0 (blkOf i)) A2 A4 (inBlk i)

/-- The index maps, decided over the grid: the adjacency window the point reads sits at the output's row block,
    the constant operands at block 0, and the output's block indices stay in range. -/
theorem idx8 : ∀ t : Fin cfg1.N, win1_8.index t (1 : Fin 2) = 0 ∧ win1_8.index t (0 : Fin 2) ≤ 7
    ∧ win1_0.index (par1 t) (0 : Fin 2) = win1_8.index t (0 : Fin 2) ∧ win1_0.index (par1 t) (1 : Fin 2) = 0
    ∧ win1_2.index (par1 t) (0 : Fin 2) = 0 ∧ win1_2.index (par1 t) (1 : Fin 2) = 0
    ∧ win1_4.index (par1 t) (0 : Fin 2) = 0 ∧ win1_4.index (par1 t) (1 : Fin 2) = 0 :=
  (by decide +kernel : ∀ t : Fin grid1.N, _)

/-- Every row block is some writing-back point's. -/
theorem idx_onto8 : ∀ q : Fin 8, ∃ t : Fin cfg1.N, (cfg1.win 8).flush t = true ∧ win1_8.index t (0 : Fin 2) = q.val :=
  (by decide +kernel : ∀ q : Fin 8, ∃ t : Fin grid1.N, win1_8.flush t = true ∧ win1_8.index t (0 : Fin 2) = q.val)

/-- WHAT POINT `t` WRITES BACK is block `t` of `G1_8` of the arrays as the region finds them. -/
theorem flushed1_8_eq (c : Dev nD) (t : Fin cfg1.N) :
    (dat1 V c).flushed 8 t = ((cfg1.win 8).blk t).view.read (Elt F) (G1_8 (V c (Pipeline.arrRef spec1 0)) (V c (Pipeline.arrRef spec1 2)) (V c (Pipeline.arrRef spec1 4))) := by
  show (cfg1.win 8).cut (grid1.coords t) ((dat1 V c).after 8 t) = _
  rw [after1_8]
  obtain ⟨e1, e2, e3, e4, e5, e6, e7, e8⟩ := idx8 t
  have hA : (iblk1 V c 0 (par1 t) : Vec F S512x4096 .f32) = rowBlk (V c (Pipeline.arrRef spec1 0)) ⟨win1_8.index t (0 : Fin 2), by omega⟩ := by
    funext y
    show V c (Pipeline.arrRef spec1 0) (((cfg1.win 0).blk (par1 t)).view.emb y) = rowBlk (V c (Pipeline.arrRef spec1 0)) ⟨win1_8.index t (0 : Fin 2), by omega⟩ y
    unfold rowBlk
    refine congrArg (V c (Pipeline.arrRef spec1 0)) ?_
    funext a; apply Fin.ext
    match a with
    | ⟨0, _⟩ => show win1_0.index (par1 t) (0 : Fin 2) * 512 + 1 * (y 0).val = 512 * win1_8.index t (0 : Fin 2) + (y 0).val; omega
    | ⟨1, _⟩ => show win1_0.index (par1 t) (1 : Fin 2) * 4096 + 1 * (y 1).val = (y 1).val; omega
  have hS : (iblk1 V c 2 (par1 t) : Vec F S4096x128 .bf16) = V c (Pipeline.arrRef spec1 2) := by
    funext y
    show V c (Pipeline.arrRef spec1 2) (((cfg1.win 2).blk (par1 t)).view.emb y) = V c (Pipeline.arrRef spec1 2) y
    refine congrArg (V c (Pipeline.arrRef spec1 2)) ?_
    funext a; apply Fin.ext
    match a with
    | ⟨0, _⟩ => show win1_2.index (par1 t) (0 : Fin 2) * 4096 + 1 * (y 0).val = (y 0).val; omega
    | ⟨1, _⟩ => show win1_2.index (par1 t) (1 : Fin 2) * 128 + 1 * (y 1).val = (y 1).val; omega
  have hB : (iblk1 V c 4 (par1 t) : Vec F S1x128 .f32) = V c (Pipeline.arrRef spec1 4) := by
    funext y
    show V c (Pipeline.arrRef spec1 4) (((cfg1.win 4).blk (par1 t)).view.emb y) = V c (Pipeline.arrRef spec1 4) y
    refine congrArg (V c (Pipeline.arrRef spec1 4)) ?_
    funext a; apply Fin.ext
    match a with
    | ⟨0, _⟩ => show win1_4.index (par1 t) (0 : Fin 2) * 1 + 1 * (y 0).val = (y 0).val; omega
    | ⟨1, _⟩ => show win1_4.index (par1 t) (1 : Fin 2) * 128 + 1 * (y 1).val = (y 1).val; omega
  funext j
  show out1_8 (iblk1 V c 0 (par1 t)) (iblk1 V c 2 (par1 t)) (iblk1 V c 4 (par1 t)) j
    = G1_8 (V c (Pipeline.arrRef spec1 0)) (V c (Pipeline.arrRef spec1 2)) (V c (Pipeline.arrRef spec1 4)) (((cfg1.win 8).blk t).view.emb j)
  refine (congrFun (out1_8_eq (iblk1 V c 0 (par1 t)) (iblk1 V c 2 (par1 t)) (iblk1 V c 4 (par1 t))) j).trans ?_
  refine (congrFun (congr3 k1_pay2 hA hS hB) j).trans ?_
  exact at_block k1_pay2 (V c (Pipeline.arrRef spec1 0)) (V c (Pipeline.arrRef spec1 2)) (V c (Pipeline.arrRef spec1 4)) ⟨win1_8.index t (0 : Fin 2), by omega⟩ j (((cfg1.win 8).blk t).view.emb j)
    (by show win1_8.index t (0 : Fin 2) * 512 + 1 * (j 0).val = win1_8.index t (0 : Fin 2) * 512 + (j 0).val; omega)
    (by show win1_8.index t (1 : Fin 2) * 128 + 1 * (j 1).val = (j 1).val; omega)

/-- An index of the array is in point `t`'s block iff each coordinate is in the block's range on its axis. -/
theorem mem_blk8 (t : Fin cfg1.N) (i : S4096x128.Idx) :
    i ∈ ((cfg1.win 8).blk t).view.set ↔ ∀ a : Fin 2, win1_8.index t a * S512x128.size a ≤ (i a).val ∧ (i a).val < win1_8.index t a * S512x128.size a + S512x128.size a := by
  show i ∈ ((View.whole main_v11_2).slice (win1_8.rect t)).set ↔ _
  rw [View.set_slice_whole, Rect.mem_set_unit]
  exact Iff.rfl

/-- The writing-back points' blocks cover the array. -/
theorem cover1_8 (i : S4096x128.Idx) : ∃ t : Fin cfg1.N, (cfg1.win 8).flush t = true ∧ i ∈ ((cfg1.win 8).blk t).view.set := by
  have hi0 : (i 0).val < 4096 := ValueIdx.idx2_lt0 i
  have hi1 : (i 1).val < 128 := ValueIdx.idx2_lt1 i
  obtain ⟨t, hf, ht⟩ := idx_onto8 ⟨(i 0).val / 512, by omega⟩
  have q0 : win1_8.index t (0 : Fin 2) = (i 0).val / 512 := ht
  obtain ⟨e1, -⟩ := idx8 t
  refine ⟨t, hf, ?_⟩
  rw [mem_blk8]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 128 ≤ (i 1).val ∧ (i 1).val < win1_8.index t (1 : Fin 2) * 128 + 128; omega

/-- THE ARRAY after the region's last write-back: `G1_8` of the arrays as the region finds them. -/
theorem final1_8 (c : Dev nD) : (dat1 V c).arrAt 8 cfg1.N = G1_8 (V c (Pipeline.arrRef spec1 0)) (V c (Pipeline.arrRef spec1 2)) (V c (Pipeline.arrRef spec1 4)) :=
  (dat1 V c).arrAt_eq_of_cover 8 _ (fun t _ => flushed1_8_eq V c t) cover1_8

/-! ## Output window 7 -/

/-- The store's payload is the whole of what the body leaves: it loads and stores whole buffers. -/
theorem out1_7_eq (xa : Vec F S512x4096 .f32) (xs : Vec F S4096x128 .bf16) (xb : Vec F S1x128 .f32) : out1_7 xa xs xb = k1_pay3 xa xs xb := by
  unfold out1_7
  rw [View.canon_unit_zero hz2, View.ld_unit_zero (S := S512x4096) hz2, View.ld_unit_zero (S := S4096x128) hz2, View.ld_unit_zero (S := S1x128) hz2]

/-- What the window's array ends holding: at row i₀, column i₁, the payload of row block i₀ / 512 of the adjacency, of the
    whole support array and of the bias row, at (i₀ % 512, i₁). -/
def G1_7 (A0 : S4096x4096.Idx → Elt F .f32) (A2 : S4096x128.Idx → Elt F .bf16) (A4 : S1x128.Idx → Elt F .f32) : S4096x128.Idx → Elt F .f32 :=
  fun i => k1_pay3 (rowBlk A0 (blkOf i)) A2 A4 (inBlk i)

/-- The index maps, decided over the grid: the adjacency window the point reads sits at the output's row block,
    the constant operands at block 0, and the output's block indices stay in range. -/
theorem idx7 : ∀ t : Fin cfg1.N, win1_7.index t (1 : Fin 2) = 0 ∧ win1_7.index t (0 : Fin 2) ≤ 7
    ∧ win1_1.index t (0 : Fin 2) = win1_7.index t (0 : Fin 2) ∧ win1_1.index t (1 : Fin 2) = 0
    ∧ win1_3.index t (0 : Fin 2) = 0 ∧ win1_3.index t (1 : Fin 2) = 0
    ∧ win1_5.index t (0 : Fin 2) = 0 ∧ win1_5.index t (1 : Fin 2) = 0 :=
  (by decide +kernel : ∀ t : Fin grid1.N, _)

/-- Every row block is some writing-back point's. -/
theorem idx_onto7 : ∀ q : Fin 8, ∃ t : Fin cfg1.N, (cfg1.win 7).flush t = true ∧ win1_7.index t (0 : Fin 2) = q.val :=
  (by decide +kernel : ∀ q : Fin 8, ∃ t : Fin grid1.N, win1_7.flush t = true ∧ win1_7.index t (0 : Fin 2) = q.val)

/-- WHAT POINT `t` WRITES BACK is block `t` of `G1_7` of the arrays as the region finds them. -/
theorem flushed1_7_eq (c : Dev nD) (t : Fin cfg1.N) :
    (dat1 V c).flushed 7 t = ((cfg1.win 7).blk t).view.read (Elt F) (G1_7 (V c (Pipeline.arrRef spec1 1)) (V c (Pipeline.arrRef spec1 3)) (V c (Pipeline.arrRef spec1 5))) := by
  show (cfg1.win 7).cut (grid1.coords t) ((dat1 V c).after 7 t) = _
  rw [after1_7]
  obtain ⟨e1, e2, e3, e4, e5, e6, e7, e8⟩ := idx7 t
  have hA : (iblk1 V c 1 t : Vec F S512x4096 .f32) = rowBlk (V c (Pipeline.arrRef spec1 1)) ⟨win1_7.index t (0 : Fin 2), by omega⟩ := by
    funext y
    show V c (Pipeline.arrRef spec1 1) (((cfg1.win 1).blk t).view.emb y) = rowBlk (V c (Pipeline.arrRef spec1 1)) ⟨win1_7.index t (0 : Fin 2), by omega⟩ y
    unfold rowBlk
    refine congrArg (V c (Pipeline.arrRef spec1 1)) ?_
    funext a; apply Fin.ext
    match a with
    | ⟨0, _⟩ => show win1_1.index t (0 : Fin 2) * 512 + 1 * (y 0).val = 512 * win1_7.index t (0 : Fin 2) + (y 0).val; omega
    | ⟨1, _⟩ => show win1_1.index t (1 : Fin 2) * 4096 + 1 * (y 1).val = (y 1).val; omega
  have hS : (iblk1 V c 3 t : Vec F S4096x128 .bf16) = V c (Pipeline.arrRef spec1 3) := by
    funext y
    show V c (Pipeline.arrRef spec1 3) (((cfg1.win 3).blk t).view.emb y) = V c (Pipeline.arrRef spec1 3) y
    refine congrArg (V c (Pipeline.arrRef spec1 3)) ?_
    funext a; apply Fin.ext
    match a with
    | ⟨0, _⟩ => show win1_3.index t (0 : Fin 2) * 4096 + 1 * (y 0).val = (y 0).val; omega
    | ⟨1, _⟩ => show win1_3.index t (1 : Fin 2) * 128 + 1 * (y 1).val = (y 1).val; omega
  have hB : (iblk1 V c 5 t : Vec F S1x128 .f32) = V c (Pipeline.arrRef spec1 5) := by
    funext y
    show V c (Pipeline.arrRef spec1 5) (((cfg1.win 5).blk t).view.emb y) = V c (Pipeline.arrRef spec1 5) y
    refine congrArg (V c (Pipeline.arrRef spec1 5)) ?_
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  funext j
  show out1_7 (iblk1 V c 1 t) (iblk1 V c 3 t) (iblk1 V c 5 t) j
    = G1_7 (V c (Pipeline.arrRef spec1 1)) (V c (Pipeline.arrRef spec1 3)) (V c (Pipeline.arrRef spec1 5)) (((cfg1.win 7).blk t).view.emb j)
  refine (congrFun (out1_7_eq (iblk1 V c 1 t) (iblk1 V c 3 t) (iblk1 V c 5 t)) j).trans ?_
  refine (congrFun (congr3 k1_pay3 hA hS hB) j).trans ?_
  exact at_block k1_pay3 (V c (Pipeline.arrRef spec1 1)) (V c (Pipeline.arrRef spec1 3)) (V c (Pipeline.arrRef spec1 5)) ⟨win1_7.index t (0 : Fin 2), by omega⟩ j (((cfg1.win 7).blk t).view.emb j)
    (by show win1_7.index t (0 : Fin 2) * 512 + 1 * (j 0).val = win1_7.index t (0 : Fin 2) * 512 + (j 0).val; omega)
    (by show win1_7.index t (1 : Fin 2) * 128 + 1 * (j 1).val = (j 1).val; omega)

/-- An index of the array is in point `t`'s block iff each coordinate is in the block's range on its axis. -/
theorem mem_blk7 (t : Fin cfg1.N) (i : S4096x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v11_1).slice (win1_7.rect t)).set ↔ _
  rw [View.set_slice_whole, Rect.mem_set_unit]
  exact Iff.rfl

/-- The writing-back points' blocks cover the array. -/
theorem cover1_7 (i : S4096x128.Idx) : ∃ t : Fin cfg1.N, (cfg1.win 7).flush t = true ∧ i ∈ ((cfg1.win 7).blk t).view.set := by
  have hi0 : (i 0).val < 4096 := ValueIdx.idx2_lt0 i
  have hi1 : (i 1).val < 128 := ValueIdx.idx2_lt1 i
  obtain ⟨t, hf, ht⟩ := idx_onto7 ⟨(i 0).val / 512, by omega⟩
  have q0 : win1_7.index t (0 : Fin 2) = (i 0).val / 512 := ht
  obtain ⟨e1, -⟩ := idx7 t
  refine ⟨t, hf, ?_⟩
  rw [mem_blk7]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 128 ≤ (i 1).val ∧ (i 1).val < win1_7.index t (1 : Fin 2) * 128 + 128; omega

/-- THE ARRAY after the region's last write-back: `G1_7` of the arrays as the region finds them. -/
theorem final1_7 (c : Dev nD) : (dat1 V c).arrAt 7 cfg1.N = G1_7 (V c (Pipeline.arrRef spec1 1)) (V c (Pipeline.arrRef spec1 3)) (V c (Pipeline.arrRef spec1 5)) :=
  (dat1 V c).arrAt_eq_of_cover 7 _ (fun t _ => flushed1_7_eq V c t) cover1_7

/-! ## Output window 9 -/

/-- The store's payload is the whole of what the body leaves: it loads and stores whole buffers. -/
theorem out1_9_eq (xa : Vec F S512x4096 .f32) (xs : Vec F S4096x128 .bf16) (xb : Vec F S1x128 .f32) : out1_9 xa xs xb = k1_pay4 xa xs xb := by
  unfold out1_9
  rw [View.canon_unit_zero hz2, View.ld_unit_zero (S := S512x4096) hz2, View.ld_unit_zero (S := S4096x128) hz2, View.ld_unit_zero (S := S1x128) hz2]

/-- What the window's array ends holding: at row i₀, column i₁, the payload of row block i₀ / 512 of the adjacency, of the
    whole support array and of the bias row, at (i₀ % 512, i₁). -/
def G1_9 (A0 : S4096x4096.Idx → Elt F .f32) (A2 : S4096x128.Idx → Elt F .bf16) (A4 : S1x128.Idx → Elt F .f32) : S4096x128.Idx → Elt F .bf16 :=
  fun i => k1_pay4 (rowBlk A0 (blkOf i)) A2 A4 (inBlk i)

/-- The index maps, decided over the grid: the adjacency window the point reads sits at the output's row block,
    the constant operands at block 0, and the output's block indices stay in range. -/
theorem idx9 : ∀ t : Fin cfg1.N, win1_9.index t (1 : Fin 2) = 0 ∧ win1_9.index t (0 : Fin 2) ≤ 7
    ∧ win1_1.index t (0 : Fin 2) = win1_9.index t (0 : Fin 2) ∧ win1_1.index t (1 : Fin 2) = 0
    ∧ win1_3.index t (0 : Fin 2) = 0 ∧ win1_3.index t (1 : Fin 2) = 0
    ∧ win1_5.index t (0 : Fin 2) = 0 ∧ win1_5.index t (1 : Fin 2) = 0 :=
  (by decide +kernel : ∀ t : Fin grid1.N, _)

/-- Every row block is some writing-back point's. -/
theorem idx_onto9 : ∀ q : Fin 8, ∃ t : Fin cfg1.N, (cfg1.win 9).flush t = true ∧ win1_9.index t (0 : Fin 2) = q.val :=
  (by decide +kernel : ∀ q : Fin 8, ∃ t : Fin grid1.N, win1_9.flush t = true ∧ win1_9.index t (0 : Fin 2) = q.val)

/-- WHAT POINT `t` WRITES BACK is block `t` of `G1_9` of the arrays as the region finds them. -/
theorem flushed1_9_eq (c : Dev nD) (t : Fin cfg1.N) :
    (dat1 V c).flushed 9 t = ((cfg1.win 9).blk t).view.read (Elt F) (G1_9 (V c (Pipeline.arrRef spec1 1)) (V c (Pipeline.arrRef spec1 3)) (V c (Pipeline.arrRef spec1 5))) := by
  show (cfg1.win 9).cut (grid1.coords t) ((dat1 V c).after 9 t) = _
  rw [after1_9]
  obtain ⟨e1, e2, e3, e4, e5, e6, e7, e8⟩ := idx9 t
  have hA : (iblk1 V c 1 t : Vec F S512x4096 .f32) = rowBlk (V c (Pipeline.arrRef spec1 1)) ⟨win1_9.index t (0 : Fin 2), by omega⟩ := by
    funext y
    show V c (Pipeline.arrRef spec1 1) (((cfg1.win 1).blk t).view.emb y) = rowBlk (V c (Pipeline.arrRef spec1 1)) ⟨win1_9.index t (0 : Fin 2), by omega⟩ y
    unfold rowBlk
    refine congrArg (V c (Pipeline.arrRef spec1 1)) ?_
    funext a; apply Fin.ext
    match a with
    | ⟨0, _⟩ => show win1_1.index t (0 : Fin 2) * 512 + 1 * (y 0).val = 512 * win1_9.index t (0 : Fin 2) + (y 0).val; omega
    | ⟨1, _⟩ => show win1_1.index t (1 : Fin 2) * 4096 + 1 * (y 1).val = (y 1).val; omega
  have hS : (iblk1 V c 3 t : Vec F S4096x128 .bf16) = V c (Pipeline.arrRef spec1 3) := by
    funext y
    show V c (Pipeline.arrRef spec1 3) (((cfg1.win 3).blk t).view.emb y) = V c (Pipeline.arrRef spec1 3) y
    refine congrArg (V c (Pipeline.arrRef spec1 3)) ?_
    funext a; apply Fin.ext
    match a with
    | ⟨0, _⟩ => show win1_3.index t (0 : Fin 2) * 4096 + 1 * (y 0).val = (y 0).val; omega
    | ⟨1, _⟩ => show win1_3.index t (1 : Fin 2) * 128 + 1 * (y 1).val = (y 1).val; omega
  have hB : (iblk1 V c 5 t : Vec F S1x128 .f32) = V c (Pipeline.arrRef spec1 5) := by
    funext y
    show V c (Pipeline.arrRef spec1 5) (((cfg1.win 5).blk t).view.emb y) = V c (Pipeline.arrRef spec1 5) y
    refine congrArg (V c (Pipeline.arrRef spec1 5)) ?_
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  funext j
  show out1_9 (iblk1 V c 1 t) (iblk1 V c 3 t) (iblk1 V c 5 t) j
    = G1_9 (V c (Pipeline.arrRef spec1 1)) (V c (Pipeline.arrRef spec1 3)) (V c (Pipeline.arrRef spec1 5)) (((cfg1.win 9).blk t).view.emb j)
  refine (congrFun (out1_9_eq (iblk1 V c 1 t) (iblk1 V c 3 t) (iblk1 V c 5 t)) j).trans ?_
  refine (congrFun (congr3 k1_pay4 hA hS hB) j).trans ?_
  exact at_block k1_pay4 (V c (Pipeline.arrRef spec1 1)) (V c (Pipeline.arrRef spec1 3)) (V c (Pipeline.arrRef spec1 5)) ⟨win1_9.index t (0 : Fin 2), by omega⟩ j (((cfg1.win 9).blk t).view.emb j)
    (by show win1_9.index t (0 : Fin 2) * 512 + 1 * (j 0).val = win1_9.index t (0 : Fin 2) * 512 + (j 0).val; omega)
    (by show win1_9.index t (1 : Fin 2) * 128 + 1 * (j 1).val = (j 1).val; omega)

/-- An index of the array is in point `t`'s block iff each coordinate is in the block's range on its axis. -/
theorem mem_blk9 (t : Fin cfg1.N) (i : S4096x128.Idx) :
    i ∈ ((cfg1.win 9).blk t).view.set ↔ ∀ a : Fin 2, win1_9.index t a * S512x128.size a ≤ (i a).val ∧ (i a).val < win1_9.index t a * S512x128.size a + S512x128.size a := by
  show i ∈ ((View.whole main_v11_3).slice (win1_9.rect t)).set ↔ _
  rw [View.set_slice_whole, Rect.mem_set_unit]
  exact Iff.rfl

/-- The writing-back points' blocks cover the array. -/
theorem cover1_9 (i : S4096x128.Idx) : ∃ t : Fin cfg1.N, (cfg1.win 9).flush t = true ∧ i ∈ ((cfg1.win 9).blk t).view.set := by
  have hi0 : (i 0).val < 4096 := ValueIdx.idx2_lt0 i
  have hi1 : (i 1).val < 128 := ValueIdx.idx2_lt1 i
  obtain ⟨t, hf, ht⟩ := idx_onto9 ⟨(i 0).val / 512, by omega⟩
  have q0 : win1_9.index t (0 : Fin 2) = (i 0).val / 512 := ht
  obtain ⟨e1, -⟩ := idx9 t
  refine ⟨t, hf, ?_⟩
  rw [mem_blk9]
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 128 ≤ (i 1).val ∧ (i 1).val < win1_9.index t (1 : Fin 2) * 128 + 128; omega

/-- THE ARRAY after the region's last write-back: `G1_9` of the arrays as the region finds them. -/
theorem final1_9 (c : Dev nD) : (dat1 V c).arrAt 9 cfg1.N = G1_9 (V c (Pipeline.arrRef spec1 1)) (V c (Pipeline.arrRef spec1 3)) (V c (Pipeline.arrRef spec1 5)) :=
  (dat1 V c).arrAt_eq_of_cover 9 _ (fun t _ => flushed1_9_eq V c t) cover1_9

end Cert.KernelIdeal.Out

end
-- ==== Proof.Loss.lean ====
/- The contrastive-loss region of @main (its third pipeline, a grid of eight points), at the contents `V` the
   TensorCore's buffers hold when the region is entered. At point `t` the body takes row block `t` (512 rows) of the
   first normalised array and of the weights and the whole second normalised array, and adds to a (1,1) accumulator,
   zeroed at the first point, the block's sum over its rows of log(row sum of similarities + ε) − log(weighted row sum).
   After point `t` the accumulator's staging buffer holds the fold `acc2 … t`: the step payload `k2_pay2` applied at row
   blocks 0 … t in turn, from the zero payload `k2_pay1`. The buffer is written back once, after the last point, so the
   (1,1) output array ends holding the fold after point 7, `G2_3` of the three input arrays (`final2_3`), and the three
   input arrays are unchanged (`kept2_0`, `kept2_1`, `kept2_2`). Stated here: the windows' blocks, the body's triple
   once per control case (the first point, every later point), the proof data `dat2`, the body obligation, that value.
   No arithmetic is opened: a block of the result is a payload of blocks of the inputs. -/
import proofs.«134049_g16819091931673_cont_week2b_1393_5_alg».proof.Proof.Gen.KernelIdeal.Launch
import proofs.«134049_g16819091931673_cont_week2b_1393_5_alg».proof.Proof.Gen.KernelIdeal.Skeleton
import proofs.«134049_g16819091931673_cont_week2b_1393_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional, from the grid coordinates: the point is the first. -/
abbrev cond2_0 (i : grid2.Coords) : Prop :=
  (Scalar.cmpi .ne (Scalar.extui (Scalar.cmpi .eq (BitVec.ofNat 32 (i 0).val) 0#32)) 0#32) = 1#1

/-- It holds at the first point only: decided over the eight points. -/
theorem hcond2_0 : ∀ t : Fin cfg2.N, cond2_0 (grid2.coords t) ↔ t.val % 8 = 0 :=
  (by decide +kernel : ∀ t : Fin grid2.N, cond2_0 (grid2.coords t) ↔ t.val % 8 = 0)

/-! ## The body's triple, once per control case -/

set_option maxHeartbeats 1000000 in
/-- FIRST POINT (the condition holds). On whole staging memrefs, the three inputs' at contents `x0 x1 x2` and the
    accumulator's at anything, the body runs to the continuation holding the inputs' as they were and the
    accumulator's with the pieces written (last first), which are the witness the run finds. -/
noncomputable def kernelRun2_A (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : cond2_0 i)
    (x0 : Vec F S512x128 .bf16) (x1 : Vec F S4096x128 .bf16) (x2 : Vec F S512x4096 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc2__loss_body i arg1 harg1 arg2 harg2 arg3 harg3 arg4 harg4) K } := by
  refine ⟨?_, fun E K => ?run⟩
  case run =>
    simp only [cc2__loss_body_eq_skeleton]; unfold cc2__loss_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- EVERY LATER POINT (the condition fails). The same, the accumulator's memref at the contents `xo3` the point
    before left: the body loads them and stores the step over them. -/
noncomputable def kernelRun2_B (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : ¬cond2_0 i)
    (x0 : Vec F S512x128 .bf16) (x1 : Vec F S4096x128 .bf16) (x2 : Vec F S512x4096 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare xo3
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc2__loss_body i arg1 harg1 arg2 harg2 arg3 harg3 arg4 harg4) K } := by
  refine ⟨?_, fun E K => ?run⟩
  case run =>
    simp only [cc2__loss_body_eq_skeleton]; unfold cc2__loss_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What each case leaves in the accumulator's staging buffer -/

/-- One staging buffer of the accumulator window, through which its contents are stated (the choice does not matter:
    pieces covering the buffer read back the same through any view of the shape). -/
abbrev VO2_3 : View sig .tc .vmem S1x1 .f32 := (Memref.whole cc2_stg3_0 : Memref sig .tc .vmem S1x1 .f32).view

/-- Each window's current staging memref at point `t`, spelled as the pipeline passes it, and its wholeness. -/
abbrev ms2_0 (t : Fin cfg2.N) : Memref sig .tc .vmem S512x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

/-- The first point's pieces tile the (1,1) buffer, so they cover it. -/
theorem cover2_A_3 (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : cond2_0 i)
    (x0 : Vec F S512x128 .bf16) (x1 : Vec F S4096x128 .bf16) (x2 : Vec F S512x4096 .f32) (y : S1x1.Idx) :
    ∃ pc ∈ (kernelRun2_A c i arg1 harg1 arg2 harg2 arg3 harg3 arg4 harg4 hc0 x0 x1 x2).1, y ∈ pc.1.set :=
  View.cover_of_tiledL (kernelRun2_A c i arg1 harg1 arg2 harg2 arg3 harg3 arg4 harg4 hc0 x0 x1 x2).1 S1x1.size (by sl_kernel_rfl) y

/-- What the first point leaves in the accumulator's staging buffer: its pieces read back over junk. -/
def out2_A_3 (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : cond2_0 i)
    (x0 : Vec F S512x128 .bf16) (x1 : Vec F S4096x128 .bf16) (x2 : Vec F S512x4096 .f32) : Vec F S1x1 .f32 :=
  VO2_3.read (Elt F) (VO2_3.writes (Elt F) VO2_3.junk (kernelRun2_A c i arg1 harg1 arg2 harg2 arg3 harg3 arg4 harg4 hc0 x0 x1 x2).1)

/-- A later point's pieces tile the (1,1) buffer, so they cover it. -/
theorem cover2_B_3 (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : ¬cond2_0 i)
    (x0 : Vec F S512x128 .bf16) (x1 : Vec F S4096x128 .bf16) (x2 : Vec F S512x4096 .f32) (xo3 : Vec F S1x1 .f32) (y : S1x1.Idx) :
    ∃ pc ∈ (kernelRun2_B c i arg1 harg1 arg2 harg2 arg3 harg3 arg4 harg4 hc0 x0 x1 x2 xo3).1, y ∈ pc.1.set :=
  View.cover_of_tiledL (kernelRun2_B c i arg1 harg1 arg2 harg2 arg3 harg3 arg4 harg4 hc0 x0 x1 x2 xo3).1 S1x1.size (by sl_kernel_rfl) y

/-- What a later point leaves in the accumulator's staging buffer: its pieces read back over junk. -/
def out2_B_3 (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : ¬cond2_0 i)
    (x0 : Vec F S512x128 .bf16) (x1 : Vec F S4096x128 .bf16) (x2 : Vec F S512x4096 .f32) (xo3 : Vec F S1x1 .f32) : Vec F S1x1 .f32 :=
  VO2_3.read (Elt F) (VO2_3.writes (Elt F) VO2_3.junk (kernelRun2_B c i arg1 harg1 arg2 harg2 arg3 harg3 arg4 harg4 hc0 x0 x1 x2 xo3).1)

/-! ## The windows' blocks, at the entry contents -/

section Region
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (fetched at the first point only: its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the accumulator's buffer holds after each point -/

/-- THE ACCUMULATION. What the accumulator's staging buffer holds after the body at position `n`: at the first point
    the first case's contents; at a later point the later case's, over what this leaves at `n - 1` (the buffer is not
    written back between). -/
def outsAt2 (c : Dev nD) : (n : ℕ) → n < cfg2.N → Vec F S1x1 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩)
      ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 8 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        ((hcond2_0 ⟨n + 1, hn⟩).mpr h0) (iblk2 V c 0 ⟨n + 1, hn⟩) (iblk2 V c 1 ⟨n + 1, hn⟩) (iblk2 V c 2 ⟨n + 1, hn⟩)
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        (fun h => h0 ((hcond2_0 ⟨n + 1, hn⟩).mp h)) (iblk2 V c 0 ⟨n + 1, hn⟩) (iblk2 V c 1 ⟨n + 1, hn⟩) (iblk2 V c 2 ⟨n + 1, hn⟩)
        (outsAt2 c n (Nat.lt_of_succ_lt hn))

/-- `outsAt2` at the first point: the first case's contents. -/
theorem outsAt2_A (c : Dev nD) (t : Fin cfg2.N) (h0 : t.val % 8 = 0) :
    outsAt2 V c t.val t.isLt = out2_A_3 c (grid2.coords t) (ms2_0 t) (hs2_0 t) (ms2_1 t) (hs2_1 t) (ms2_2 t) (hs2_2 t) (ms2_3 t) (hs2_3 t)
      ((hcond2_0 t).mpr h0) (iblk2 V c 0 t) (iblk2 V c 1 t) (iblk2 V c 2 t) := by
  obtain ⟨n, hn⟩ := t
  cases n with
  | zero => exact rfl
  | succ n => exact (dif_pos h0).trans rfl

/-- `outsAt2` at a later point: the later case's contents, over what the point before left. -/
theorem outsAt2_B (c : Dev nD) (t : Fin cfg2.N) (h0 : ¬t.val % 8 = 0) :
    outsAt2 V c t.val t.isLt = out2_B_3 c (grid2.coords t) (ms2_0 t) (hs2_0 t) (ms2_1 t) (hs2_1 t) (ms2_2 t) (hs2_2 t) (ms2_3 t) (hs2_3 t)
      (fun h => h0 ((hcond2_0 t).mp h)) (iblk2 V c 0 t) (iblk2 V c 1 t) (iblk2 V c 2 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the loss pipeline on core `c`: the arrays as the region finds them (`V`); after the body at
    point `t` each input's buffer at its block and the accumulator's at `outsAt2`; the invariant the scoped rest and
    the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At a later point the accumulator's staging buffer holds what the body left at the point before: the point is not
    the first, the buffer was not written back between (it is written back after the last point only), the window
    is live and uncut. -/
theorem before2_3_B (c : Dev nD) (t : Fin cfg2.N) (h0 : ¬t.val % 8 = 0) (d) :
    (dat2 V c).before 3 t d = (outsAt2 V c (t.val - 1) (Nat.lt_of_le_of_lt (Nat.sub_le _ _) t.isLt)) := by
  have hN : t.val < 8 := lt_of_lt_of_eq t.isLt (show cfg2.N = 8 from N_2)
  rw [Dat.before_out_kept _ 3 rfl t (by omega) (Bool.eq_false_iff.mpr fun h => by have := (flush2_3 _).mp h; dsimp only at this; omega)
    (fun _ => rfl) (fun _ _ => rfl)]
  dsimp only [dat2]

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
/-- The body at any point: the inputs' memrefs hold their blocks; the closed form says which case the point is in; at
    a later point the accumulator's memref holds what the point before left; so the case's run applies; the invariant
    passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 8 := lt_of_lt_of_eq t.isLt (show cfg2.N = 8 from N_2)
  by_cases h0 : t.val % 8 = 0
  · rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ ((hcond2_0 t).mpr h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _)
  · rw [outsAt2_B V c t h0]
    simp only [before2_3_B V c t h0]
    unfold out2_B_3
    iintro ⟨HΦ, Ho, ⟨%d0, H0⟩, ⟨%d1, H1⟩, ⟨%d2, H2⟩, ⟨%d3, H3⟩⟩
    iapply ((kernelRun2_B c (grid2.coords t) _ _ _ _ _ _ _ _ (fun h => h0 ((hcond2_0 t).mp h)) (iblk2 V c 0 t) (iblk2 V c 1 t) (iblk2 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The value: what each case leaves, through the skeleton's payloads -/

theorem hz2 : (![0, 0] : Fin 2 → Nat) = fun _ => 0 := funext fun a => by fin_cases a <;> rfl

/-- What the first point leaves in the accumulator's staging buffer, as a term: the zero payload stored, read back,
    and the step's payload over it and the three input blocks stored (the buffer's prior contents do not enter). -/
theorem out_A_3_eq (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : cond2_0 i)
    (x0 : Vec F S512x128 .bf16) (x1 : Vec F S4096x128 .bf16) (x2 : Vec F S512x4096 .f32) :
    out2_A_3 c i arg1 harg1 arg2 harg2 arg3 harg3 arg4 harg4 hc0 x0 x1 x2 = k2_pay2 x0 x1 x2 (k2_pay1 (F := F)) := by
  unfold out2_A_3
  rw [View.read_writes_eq_canon _ _ _ (cover2_A_3 c i arg1 harg1 arg2 harg2 arg3 harg3 arg4 harg4 hc0 x0 x1 x2)]
  unfold kernelRun2_A
  dsimp only
  try sl_unfold_words
  rw [View.canon_cons_unit_zero (S := S1x1) hz2, View.readCov_unit_zero (S := S1x1) _ hz2]
  simp only [View.readAt_eq_ld, harg1.read_unread, harg2.read_unread, harg3.read_unread, harg4.read_unread,
    View.ld_unit_zero (S := S1x1) hz2, View.ld_unit_zero (S := S512x128) hz2, View.ld_unit_zero (S := S4096x128) hz2,
    View.ld_unit_zero (S := S512x4096) hz2, shapeCast_self]

/-- What a later point leaves in the accumulator's staging buffer, as a term: the step's payload over the contents
    the point before left (`xo3`) and the three input blocks. -/
theorem out_B_3_eq (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : ¬cond2_0 i)
    (x0 : Vec F S512x128 .bf16) (x1 : Vec F S4096x128 .bf16) (x2 : Vec F S512x4096 .f32) (xo3 : Vec F S1x1 .f32) :
    out2_B_3 c i arg1 harg1 arg2 harg2 arg3 harg3 arg4 harg4 hc0 x0 x1 x2 xo3 = k2_pay2 x0 x1 x2 xo3 := by
  unfold out2_B_3
  rw [View.read_writes_eq_canon _ _ _ (cover2_B_3 c i arg1 harg1 arg2 harg2 arg3 harg3 arg4 harg4 hc0 x0 x1 x2 xo3)]
  unfold kernelRun2_B
  dsimp only
  try sl_unfold_words
  rw [View.canon_cons_unit_zero (S := S1x1) hz2]
  simp only [View.readAt_eq_ld, harg1.read_unread, harg2.read_unread, harg3.read_unread, harg4.read_unread,
    View.ld_unit_zero (S := S1x1) hz2, View.ld_unit_zero (S := S512x128) hz2, View.ld_unit_zero (S := S4096x128) hz2,
    View.ld_unit_zero (S := S512x4096) hz2, shapeCast_self]

/-! ## The input windows' blocks as rows of their arrays -/

open Idealize.ShloMosaic.ValueIdx in
/-- Rows `512·k … 512·k + 511` of an array of 4096 rows of 128. -/
def rows128 {α : Type} (A : S4096x128.Idx → α) (k : ℕ) (hk : k < 8) : S512x128.Idx → α :=
  fun y => A (ix2 ⟨512 * k + (y 0).val, by have := idx2_lt0 y; omega⟩ (y 1))

open Idealize.ShloMosaic.ValueIdx in
/-- Rows `512·k … 512·k + 511` of an array of 4096 rows of 4096. -/
def rows4096 {α : Type} (A : S4096x4096.Idx → α) (k : ℕ) (hk : k < 8) : S512x4096.Idx → α :=
  fun y => A (ix2 ⟨512 * k + (y 0).val, by have := idx2_lt0 y; omega⟩ (y 1))

/-- The printed index maps, decided over the eight points: window 0's and window 2's row-block index is the point,
    windows 1 and 3 stay at block (0, 0). -/
theorem idx_facts2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0) :=
  (by decide +kernel : ∀ t : Fin grid2.N, _)

open Idealize.ShloMosaic.ValueIdx in
/-- Window 0's block at point `t` is row block `t` of its array. -/
theorem iblk2_0_eq (c : Dev nD) (t : Fin cfg2.N) :
    iblk2 V c 0 t = rows128 (V c (Pipeline.arrRef spec2 0) : S4096x128.Idx → Elt F .bf16) t.val (lt_of_lt_of_eq t.isLt N_2) := by
  funext y
  obtain ⟨⟨e0, e1⟩, -⟩ := idx_facts2 t
  have hy0 : (y 0).val < 512 := (y 0).isLt
  have hy1 : (y 1).val < 128 := (y 1).isLt
  have hb0 : (((cfg2.win 0).blk t).view.emb y 0).val = win2_0.index t (0 : Fin 2) * 512 + 1 * (y 0).val := rfl
  have hb1 : (((cfg2.win 0).blk t).view.emb y 1).val = win2_0.index t (1 : Fin 2) * 128 + 1 * (y 1).val := rfl
  show (V c (Pipeline.arrRef spec2 0) : S4096x128.Idx → Elt F .bf16) (((cfg2.win 0).blk t).view.emb y)
    = (V c (Pipeline.arrRef spec2 0) : S4096x128.Idx → Elt F .bf16) (ix2 ⟨512 * t.val + (y 0).val, _⟩ (y 1))
  congr 1
  funext a; apply Fin.ext
  match a with
  | ⟨0, _⟩ => show (((cfg2.win 0).blk t).view.emb y 0).val = 512 * t.val + (y 0).val; rw [hb0, e0]; omega
  | ⟨1, _⟩ => show (((cfg2.win 0).blk t).view.emb y 1).val = (y 1).val; rw [hb1, e1]; omega

/-- Window 1's block at every point is its whole array. -/
theorem iblk2_1_eq (c : Dev nD) (t : Fin cfg2.N) :
    iblk2 V c 1 t = (V c (Pipeline.arrRef spec2 1) : S4096x128.Idx → Elt F .bf16) := by
  funext y
  obtain ⟨-, ⟨e0, e1⟩, -⟩ := idx_facts2 t
  have hy0 : (y 0).val < 4096 := (y 0).isLt
  have hy1 : (y 1).val < 128 := (y 1).isLt
  have hb0 : (((cfg2.win 1).blk t).view.emb y 0).val = win2_1.index t (0 : Fin 2) * 4096 + 1 * (y 0).val := rfl
  have hb1 : (((cfg2.win 1).blk t).view.emb y 1).val = win2_1.index t (1 : Fin 2) * 128 + 1 * (y 1).val := rfl
  show (V c (Pipeline.arrRef spec2 1) : S4096x128.Idx → Elt F .bf16) (((cfg2.win 1).blk t).view.emb y)
    = (V c (Pipeline.arrRef spec2 1) : S4096x128.Idx → Elt F .bf16) y
  congr 1
  funext a; apply Fin.ext
  match a with
  | ⟨0, _⟩ => show (((cfg2.win 1).blk t).view.emb y 0).val = (y 0).val; rw [hb0, e0]; omega
  | ⟨1, _⟩ => show (((cfg2.win 1).blk t).view.emb y 1).val = (y 1).val; rw [hb1, e1]; omega

open Idealize.ShloMosaic.ValueIdx in
/-- Window 2's block at point `t` is row block `t` of its array. -/
theorem iblk2_2_eq (c : Dev nD) (t : Fin cfg2.N) :
    iblk2 V c 2 t = rows4096 (V c (Pipeline.arrRef spec2 2) : S4096x4096.Idx → Elt F .f32) t.val (lt_of_lt_of_eq t.isLt N_2) := by
  funext y
  obtain ⟨-, -, ⟨e0, e1⟩, -⟩ := idx_facts2 t
  have hy0 : (y 0).val < 512 := (y 0).isLt
  have hy1 : (y 1).val < 4096 := (y 1).isLt
  have hb0 : (((cfg2.win 2).blk t).view.emb y 0).val = win2_2.index t (0 : Fin 2) * 512 + 1 * (y 0).val := rfl
  have hb1 : (((cfg2.win 2).blk t).view.emb y 1).val = win2_2.index t (1 : Fin 2) * 4096 + 1 * (y 1).val := rfl
  show (V c (Pipeline.arrRef spec2 2) : S4096x4096.Idx → Elt F .f32) (((cfg2.win 2).blk t).view.emb y)
    = (V c (Pipeline.arrRef spec2 2) : S4096x4096.Idx → Elt F .f32) (ix2 ⟨512 * t.val + (y 0).val, _⟩ (y 1))
  congr 1
  funext a; apply Fin.ext
  match a with
  | ⟨0, _⟩ => show (((cfg2.win 2).blk t).view.emb y 0).val = 512 * t.val + (y 0).val; rw [hb0, e0]; omega
  | ⟨1, _⟩ => show (((cfg2.win 2).blk t).view.emb y 1).val = (y 1).val; rw [hb1, e1]; omega

/-! ## The accumulator as a fold over the points -/

/-- THE FOLD. What the accumulator holds after point `n`, from the three arrays: at the first point the step's payload
    over the zero payload, at every later point the step's payload over what the point before left — each at row block
    `n` of the first and third arrays and the whole second. -/
def acc2 (Z1 : S4096x128.Idx → Elt F .bf16) (Z2 : S4096x128.Idx → Elt F .bf16) (C : S4096x4096.Idx → Elt F .f32) :
    (n : ℕ) → n < 8 → Vec F S1x1 .f32
  | 0, h => k2_pay2 (rows128 Z1 0 h) Z2 (rows4096 C 0 h) (k2_pay1 (F := F))
  | n + 1, h => k2_pay2 (rows128 Z1 (n + 1) h) Z2 (rows4096 C (n + 1) h) (acc2 Z1 Z2 C n (Nat.lt_of_succ_lt h))

/-- WHAT THE (1,1) OUTPUT ARRAY ENDS HOLDING, as a function of the three input arrays: the fold after the last point. -/
def G2_3 (Z1 : S4096x128.Idx → Elt F .bf16) (Z2 : S4096x128.Idx → Elt F .bf16) (C : S4096x4096.Idx → Elt F .f32) :
    S1x1.Idx → Elt F .f32 :=
  acc2 Z1 Z2 C 7 (by decide)

/-- The fold unrolled over the eight points. -/
theorem G2_3_unrolled (Z1 : S4096x128.Idx → Elt F .bf16) (Z2 : S4096x128.Idx → Elt F .bf16) (C : S4096x4096.Idx → Elt F .f32) :
    G2_3 Z1 Z2 C =
      k2_pay2 (rows128 Z1 7 (by decide)) Z2 (rows4096 C 7 (by decide))
        (k2_pay2 (rows128 Z1 6 (by decide)) Z2 (rows4096 C 6 (by decide))
          (k2_pay2 (rows128 Z1 5 (by decide)) Z2 (rows4096 C 5 (by decide))
            (k2_pay2 (rows128 Z1 4 (by decide)) Z2 (rows4096 C 4 (by decide))
              (k2_pay2 (rows128 Z1 3 (by decide)) Z2 (rows4096 C 3 (by decide))
                (k2_pay2 (rows128 Z1 2 (by decide)) Z2 (rows4096 C 2 (by decide))
                  (k2_pay2 (rows128 Z1 1 (by decide)) Z2 (rows4096 C 1 (by decide))
                    (k2_pay2 (rows128 Z1 0 (by decide)) Z2 (rows4096 C 0 (by decide)) (k2_pay1 (F := F))))))))) := rfl

/-- The step's payload respects equality of its four arguments (stated over variables of the literal vector types). -/
theorem k2_pay2_congr {a a' : Vec F S512x128 .bf16} {b b' : Vec F S4096x128 .bf16} {d d' : Vec F S512x4096 .f32}
    {e e' : Vec F S1x1 .f32} (ha : a = a') (hb : b = b') (hd : d = d') (he : e = e') :
    k2_pay2 a b d e = k2_pay2 a' b' d' e' := by subst ha; subst hb; subst hd; subst he; rfl

/-- WHAT THE ACCUMULATOR'S BUFFER HOLDS after point `n` is the fold at `n` of the region-entry arrays: by recursion on
    the point, the case by the closed form, each case's contents by its term, the blocks as rows. -/
theorem outsAt2_eq (c : Dev nD) : ∀ (n : ℕ) (h : n < cfg2.N),
    outsAt2 V c n h = acc2 (V c (Pipeline.arrRef spec2 0) : S4096x128.Idx → Elt F .bf16)
      (V c (Pipeline.arrRef spec2 1) : S4096x128.Idx → Elt F .bf16)
      (V c (Pipeline.arrRef spec2 2) : S4096x4096.Idx → Elt F .f32) n (lt_of_lt_of_eq h N_2)
  | 0, h =>
    ((outsAt2_A V c ⟨0, h⟩ (Nat.zero_mod _)).trans
      (out_A_3_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩)
        ((hcond2_0 ⟨0, h⟩).mpr (Nat.zero_mod _)) (iblk2 V c 0 ⟨0, h⟩) (iblk2 V c 1 ⟨0, h⟩) (iblk2 V c 2 ⟨0, h⟩))).trans
      (k2_pay2_congr (iblk2_0_eq V c ⟨0, h⟩) (iblk2_1_eq V c ⟨0, h⟩) (iblk2_2_eq V c ⟨0, h⟩) rfl)
  | n + 1, h => by
    have hN : n + 1 < 8 := lt_of_lt_of_eq h N_2
    have h0 : ¬(n + 1) % 8 = 0 := by omega
    exact ((outsAt2_B V c ⟨n + 1, h⟩ h0).trans
      (out_B_3_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩)
        (fun hc => h0 ((hcond2_0 ⟨n + 1, h⟩).mp hc)) (iblk2 V c 0 ⟨n + 1, h⟩) (iblk2 V c 1 ⟨n + 1, h⟩) (iblk2 V c 2 ⟨n + 1, h⟩)
        (outsAt2 V c n (Nat.lt_of_succ_lt h)))).trans
      (k2_pay2_congr (iblk2_0_eq V c ⟨n + 1, h⟩) (iblk2_1_eq V c ⟨n + 1, h⟩) (iblk2_2_eq V c ⟨n + 1, h⟩) (outsAt2_eq c n (Nat.lt_of_succ_lt h)))

/-! ## The output array after the region -/

/-- An index of the (1,1) array is in point `t`'s block iff each coordinate is in the block's range on its axis. -/
theorem mem_blk2_3 (t : Fin cfg2.N) (i : S1x1.Idx) :
    i ∈ ((cfg2.win 3).blk t).view.set ↔ ∀ a : Fin 2, win2_3.index t a * S1x1.size a ≤ (i a).val ∧ (i a).val < win2_3.index t a * S1x1.size a + S1x1.size a := by
  show i ∈ ((View.whole main_v12).slice (win2_3.rect t)).set ↔ _
  rw [View.set_slice_whole, Rect.mem_set_unit]
  exact Iff.rfl

/-- WHAT THE LAST POINT WRITES BACK is the one block of `G2_3`: the whole fold. -/
theorem flushed2_3_eq (c : Dev nD) (t : Fin cfg2.N) (hf : (cfg2.win 3).flush t = true) :
    (dat2 V c).flushed 3 t = ((cfg2.win 3).blk t).view.read (Elt F)
      (G2_3 (V c (Pipeline.arrRef spec2 0) : S4096x128.Idx → Elt F .bf16)
        (V c (Pipeline.arrRef spec2 1) : S4096x128.Idx → Elt F .bf16)
        (V c (Pipeline.arrRef spec2 2) : S4096x4096.Idx → Elt F .f32)) := by
  show (cfg2.win 3).cut (grid2.coords t) ((dat2 V c).after 3 t) = _
  rw [after2_3, outsAt2_eq]
  have hm : t.val % 8 = 7 := (flush2_3 t).mp hf
  have hN : t.val < 8 := lt_of_lt_of_eq t.isLt N_2
  have ht : t.val = 7 := by omega
  obtain ⟨-, -, -, ⟨e0, e1⟩⟩ := idx_facts2 t
  funext y
  have hy0 : (y 0).val < 1 := (y 0).isLt
  have hy1 : (y 1).val < 1 := (y 1).isLt
  have hb0 : (((cfg2.win 3).blk t).view.emb y 0).val = win2_3.index t (0 : Fin 2) * 1 + 1 * (y 0).val := rfl
  have hb1 : (((cfg2.win 3).blk t).view.emb y 1).val = win2_3.index t (1 : Fin 2) * 1 + 1 * (y 1).val := rfl
  have hl : ((cfg2.win 3).blk t).view.emb y = (cfg2.win 3).xinj (grid2.coords t) y := by
    funext a; apply Fin.ext
    match a with
    | ⟨0, _⟩ => show (((cfg2.win 3).blk t).view.emb y 0).val = (y 0).val; rw [hb0, e0]; omega
    | ⟨1, _⟩ => show (((cfg2.win 3).blk t).view.emb y 1).val = (y 1).val; rw [hb1, e1]; omega
  show acc2 _ _ _ t.val _ ((cfg2.win 3).xinj (grid2.coords t) y) = G2_3 _ _ _ (((cfg2.win 3).blk t).view.emb y)
  rw [hl]
  unfold G2_3
  have e : ∀ (n n' : ℕ) (h : n < 8) (h' : n' < 8), n = n' →
      acc2 (V c (Pipeline.arrRef spec2 0) : S4096x128.Idx → Elt F .bf16) (V c (Pipeline.arrRef spec2 1) : S4096x128.Idx → Elt F .bf16)
        (V c (Pipeline.arrRef spec2 2) : S4096x4096.Idx → Elt F .f32) n h
      = acc2 (V c (Pipeline.arrRef spec2 0) : S4096x128.Idx → Elt F .bf16) (V c (Pipeline.arrRef spec2 1) : S4096x128.Idx → Elt F .bf16)
        (V c (Pipeline.arrRef spec2 2) : S4096x4096.Idx → Elt F .f32) n' h' := by
    intro n n' h h' hn; subst hn; rfl
  exact congrFun (e _ _ _ _ ht) _

/-- THE (1,1) OUTPUT ARRAY after the region's last write-back: `G2_3` of the region-entry contents of the three
    input arrays (the one block, written back after the last point, is the whole array). -/
theorem final2_3 (c : Dev nD) : (dat2 V c).arrAt 3 cfg2.N
    = G2_3 (V c (Pipeline.arrRef spec2 0) : S4096x128.Idx → Elt F .bf16)
        (V c (Pipeline.arrRef spec2 1) : S4096x128.Idx → Elt F .bf16)
        (V c (Pipeline.arrRef spec2 2) : S4096x4096.Idx → Elt F .f32) :=
  (dat2 V c).arrAt_eq_of_cover 3 _ (fun t hf => flushed2_3_eq V c t hf) (fun i => by
    refine ⟨⟨7, by rw [show cfg2.N = 8 from N_2]; decide⟩, (flush2_3 _).mpr rfl, ?_⟩
    rw [mem_blk2_3]
    obtain ⟨-, -, -, ⟨e0, e1⟩⟩ := idx_facts2 ⟨7, by rw [show cfg2.N = 8 from N_2]; decide⟩
    have h0 : (i 0).val < 1 := (i 0).isLt
    have h1 : (i 1).val < 1 := (i 1).isLt
    intro a
    match a with
    | ⟨0, _⟩ => show win2_3.index _ (0 : Fin 2) * 1 ≤ (i 0).val ∧ (i 0).val < win2_3.index _ (0 : Fin 2) * 1 + 1; rw [e0]; omega
    | ⟨1, _⟩ => show win2_3.index _ (1 : Fin 2) * 1 ≤ (i 1).val ∧ (i 1).val < win2_3.index _ (1 : Fin 2) * 1 + 1; rw [e1]; omega)

/-! ## The input arrays are never written -/

theorem kept2_0 (c : Dev nD) : (dat2 V c).arrAt 0 cfg2.N = V c (Pipeline.arrRef spec2 0) :=
  ((dat2 V c).arrAt_in 0 rfl _).trans (A_eq2 V c 0)
theorem kept2_1 (c : Dev nD) : (dat2 V c).arrAt 1 cfg2.N = V c (Pipeline.arrRef spec2 1) :=
  ((dat2 V c).arrAt_in 1 rfl _).trans (A_eq2 V c 1)
theorem kept2_2 (c : Dev nD) : (dat2 V c).arrAt 2 cfg2.N = V c (Pipeline.arrRef spec2 2) :=
  ((dat2 V c).arrAt_in 2 rfl _).trans (A_eq2 V c 2)

/-! ## The proof data's other fields, and the axioms used -/

example (c : Dev nD) (t : Fin (cfg2.N + 1)) : (dat2 V c).Φ t = Pipeline.ΦA spec2 c := rfl
example (c : Dev nD) (w : Fin cfg2.W) : (dat2 V c).q w = fullShare := rfl
example (c : Dev nD) (t : Fin (cfg2.N + 1)) : (dat2 V c).owed t = 0 := rfl

/-- info: 'Cert.KernelIdeal.Loss.body_obligation2' depends on axioms: [propext, Classical.choice, Quot.sound] -/
#guard_msgs in #print axioms body_obligation2
/-- info: 'Cert.KernelIdeal.Loss.final2_3' depends on axioms: [propext, Classical.choice, Quot.sound] -/
#guard_msgs in #print axioms final2_3

end Region

end Cert.KernelIdeal.Loss

end
-- ==== Proof.KRun.lean ====
/-
  The three regions' halves put into the chain: the kernel program's run, and its frame, with the proof data of the
  hidden-layer region, the embedding region and the loss region.
-/
import proofs.«134049_g16819091931673_cont_week2b_1393_5_alg».proof.Proof.Ends
import proofs.«134049_g16819091931673_cont_week2b_1393_5_alg».proof.Proof.Mid
import proofs.«134049_g16819091931673_cont_week2b_1393_5_alg».proof.Proof.Out
import proofs.«134049_g16819091931673_cont_week2b_1393_5_alg».proof.Proof.Loss

set_option maxRecDepth 16384

noncomputable section

namespace Cert.KernelIdeal.KRun

open Cert.KernelIdeal Cert.KernelIdeal.Gen Cert.KernelIdeal.Chain
open Idealize.ShloMosaic Idealize.ShloMosaic.TcCoe
open Idealize.SL Idealize.SL.Sem

variable {F : FTy → Type} [FloatOps F]

/-- The hidden-layer region's half. -/
def half0 : Half F cfg0 where
  dat := fun V c => Mid.dat0 V c
  hA := fun V c w => Mid.A_eq0 V c w
  hΦ := fun _ _ _ => rfl
  hq := fun _ _ _ => rfl
  howed := fun _ _ _ => rfl
  hrec := fun _ _ _ => rfl
  hbody := fun V c => Mid.body_obligation0 V c
/-- The embedding region's half. -/
def half1 : Half F cfg1 where
  dat := fun V c => Out.dat1 V c
  hA := fun V c w => Out.A_eq1 V c w
  hΦ := fun _ _ _ => rfl
  hq := fun _ _ _ => rfl
  howed := fun _ _ _ => rfl
  hrec := fun _ _ _ => rfl
  hbody := fun V c => Out.body_obligation1 V c
/-- The loss region's half. -/
def half2 : Half F cfg2 where
  dat := fun V c => Loss.dat2 V c
  hA := fun V c w => Loss.A_eq2 V c w
  hΦ := fun _ _ _ => rfl
  hq := fun _ _ _ => rfl
  howed := fun _ _ _ => rfl
  hrec := fun _ _ _ => rfl
  hbody := fun V c => Loss.body_obligation2 V c

variable (m : (ℓ : Loc nD τ sig) → Buf (Elt F) ℓ) (ρ : Dev nD → PrngReg)

/-- The last boundary's contents with the three halves in place. -/
abbrev Wend : Dev nD → Valuation τ sig (Elt F) := W6 (half0 (F := F)) half1 half2 m ρ

/-- The kernel program's run: every weakly fair execution terminates, nothing faults, every unscoped buffer ends at `Wend`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Chain.run half0 half1 half2 m ρ

/-- The frame: the thirteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Chain.frame (half0 (F := F)) half1 half2 m ρ

end Cert.KernelIdeal.KRun

end
-- ==== Proof.ChainB.lean ====
/-
  The kernel program's run as a chain of segments. @main is: eight host operations (the bf16 copies of the features
  and weights, the two bias rows), the first kernel region (both towers' hidden layer), two host reshapes (the second
  layer's bias rows), the second region (both towers' embeddings and their normalized rows), the third region (the
  similarity loss accumulated over row blocks), and four host operations (the accumulator as a scalar, divided by the
  row count).  Given, per region, proof data stated at the buffer contents the region is entered with — the arrays as
  found, the class invariant, full shares, nothing owed, and the body obligation — this module folds the buffer
  contents through the six segments (`W0` … `W6`), states each region as a segment between two such boundaries, and
  runs the whole: every weakly fair execution terminates, nothing faults, and every unscoped buffer ends at `W6`.
  From that one post both the frame (the thirteen arguments end as launched) and the results' values are read.
-/
import proofs.«134049_g16819091931673_cont_week2b_1393_5_alg».proof.Proof.Gen.Kernel.Launch
import proofs.«134049_g16819091931673_cont_week2b_1393_5_alg».proof.Proof.Gen.Kernel.Skeleton
import proofs.«134049_g16819091931673_cont_week2b_1393_5_alg».proof.Proof.Gen.Kernel.Points
import proofs.«134049_g16819091931673_cont_week2b_1393_5_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chain

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core, as a region's proof data take them. -/
abbrev Vals (F : FTy → Type) : Type := (c : Dev nD) → (b : Ref sig .tc) → Buf (Elt F) ((c : Thread nD τ).loc b)

/-- One region's half of the certificate, at any entry contents: its proof data — the arrays as the region finds
    them, the class invariant (the scoped rest and the generator register), full shares, nothing owed — and the body
    obligation. -/
structure Half (F : FTy → Type) [FloatOps F] (cfg : Cfg sig Λ₀) where
  dat : Vals F → (c : Dev nD) → Dat τ (Elt F) Unit ℕ (UR sig nD τ) ℕ cfg c
  hA : ∀ V c w, (dat V c).A w = V c (Pipeline.arrRef (fun w => (cfg.win w).toWinSpec) w)
  hΦ : ∀ V c t, (dat V c).Φ t = Pipeline.ΦA (fun w => (cfg.win w).toWinSpec) c
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ

variable (H0 : Half F cfg0) (H1 : Half F cfg1) (H2 : Half F cfg2)
variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch: the first region's entry. -/
abbrev W1 : Dev nD → Valuation τ sig (Elt F) := fun c => StableHlo.after hostOps0 (W0 m ρ c)
abbrev V1 : Vals F := fun c b => W1 m ρ c b
/-- After the first region: its arrays at what its write-backs leave, every other buffer as entered. -/
def W2 (c : Dev nD) : Valuation τ sig (Elt F) :=
  Pipeline.withArrays spec0 c (W1 m ρ c) fun w => (H0.dat (V1 m ρ) c).arrAt w cfg0.N
theorem W2_arr (c : Dev nD) (w : Fin cfg0.W) :
    W2 H0 m ρ c (Proc.devRef .tc (Pipeline.arrRef spec0 w)) = (H0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H0 m ρ c (Proc.devRef .tc b) = W1 m ρ c (Proc.devRef .tc b) := by
  unfold W2; exact Pipeline.withArrays_of_ne spec0 c _ _ b hb
abbrev V2 : Vals F := fun c b => W2 H0 m ρ c b
theorem hF0 (c : Dev nD) (w : Fin cfg0.W) : (H0.dat (V1 m ρ) c).arrAt w cfg0.N = V2 H0 m ρ c (Pipeline.arrRef spec0 w) :=
  (W2_arr H0 m ρ c w).symm
theorem hrest0 (c : Dev nD) : ∀ b, b ∉ Finset.univ.image (Pipeline.arrRef spec0) → V2 H0 m ρ c b = V1 m ρ c b :=
  fun b hb => W2_of_ne H0 m ρ c b fun w e => hb (Finset.mem_image.mpr ⟨w, Finset.mem_univ _, e⟩)

/-- After the second host stretch: the second region's entry. -/
abbrev W3 : Dev nD → Valuation τ sig (Elt F) := fun c => StableHlo.after hostOps1 (W2 H0 m ρ c)
abbrev V3 : Vals F := fun c b => W3 H0 m ρ c b
/-- After the second region. -/
def W4 (c : Dev nD) : Valuation τ sig (Elt F) :=
  Pipeline.withArrays spec1 c (W3 H0 m ρ c) fun w => (H1.dat (V3 H0 m ρ) c).arrAt w cfg1.N
theorem W4_arr (c : Dev nD) (w : Fin cfg1.W) :
    W4 H0 H1 m ρ c (Proc.devRef .tc (Pipeline.arrRef spec1 w)) = (H1.dat (V3 H0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H0 H1 m ρ c (Proc.devRef .tc b) = W3 H0 m ρ c (Proc.devRef .tc b) := by
  unfold W4; exact Pipeline.withArrays_of_ne spec1 c _ _ b hb
abbrev V4 : Vals F := fun c b => W4 H0 H1 m ρ c b
theorem hF1 (c : Dev nD) (w : Fin cfg1.W) : (H1.dat (V3 H0 m ρ) c).arrAt w cfg1.N = V4 H0 H1 m ρ c (Pipeline.arrRef spec1 w) :=
  (W4_arr H0 H1 m ρ c w).symm
theorem hrest1 (c : Dev nD) : ∀ b, b ∉ Finset.univ.image (Pipeline.arrRef spec1) → V4 H0 H1 m ρ c b = V3 H0 m ρ c b :=
  fun b hb => W4_of_ne H0 H1 m ρ c b fun w e => hb (Finset.mem_image.mpr ⟨w, Finset.mem_univ _, e⟩)

/-- After the third region (entered at once from the second region's exit). -/
def W5 (c : Dev nD) : Valuation τ sig (Elt F) :=
  Pipeline.withArrays spec2 c (W4 H0 H1 m ρ c) fun w => (H2.dat (V4 H0 H1 m ρ) c).arrAt w cfg2.N
theorem W5_arr (c : Dev nD) (w : Fin cfg2.W) :
    W5 H0 H1 H2 m ρ c (Proc.devRef .tc (Pipeline.arrRef spec2 w)) = (H2.dat (V4 H0 H1 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 H0 H1 H2 m ρ c (Proc.devRef .tc b) = W4 H0 H1 m ρ c (Proc.devRef .tc b) := by
  unfold W5; exact Pipeline.withArrays_of_ne spec2 c _ _ b hb
abbrev V5 : Vals F := fun c b => W5 H0 H1 H2 m ρ c b
theorem hF2 (c : Dev nD) (w : Fin cfg2.W) : (H2.dat (V4 H0 H1 m ρ) c).arrAt w cfg2.N = V5 H0 H1 H2 m ρ c (Pipeline.arrRef spec2 w) :=
  (W5_arr H0 H1 H2 m ρ c w).symm
theorem hrest2 (c : Dev nD) : ∀ b, b ∉ Finset.univ.image (Pipeline.arrRef spec2) → V5 H0 H1 H2 m ρ c b = V4 H0 H1 m ρ c b :=
  fun b hb => W5_of_ne H0 H1 H2 m ρ c b fun w e => hb (Finset.mem_image.mpr ⟨w, Finset.mem_univ _, e⟩)

/-- After the last host stretch: the end. -/
abbrev W6 : Dev nD → Valuation τ sig (Elt F) := fun c => StableHlo.after hostOps3 (W5 H0 H1 H2 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => H0.dat (V1 m ρ) c
  | ⟨1, _⟩ => fun c => H1.dat (V3 H0 m ρ) c
  | ⟨2, _⟩ => fun c => H2.dat (V4 H0 H1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 between its two boundaries: its arrays are split out of the unscoped buffers at entry and put back at
    what its write-backs leave at exit; the generator register goes into the class invariant and comes back; nothing
    is owed; the kernel has no semaphore of its own. -/
def reg0 : Pipeline.RegionSeg (pcfgs (F := F)) adm (pdats H0 H1 H2 m ρ) () defs₀ 𝒱₀ L lv 0 where
  win := launch0.win.to₀
  block_pos := launch0.block_pos
  stage_whole := launch0.stage_whole
  K := PEmpty
  osem k := k.elim
  ho := Pipeline.OwnSemFacts.none _
  hbody c := (H0.hbody (V1 m ρ) c).loose
  hwaits := Pipeline.hwaits_of_owed_zero _ _ _ _ L lv 0 fun c t => H0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 H0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H0 H1 H2 m ρ) launch0.win launch0.arr_whole c
      ((pdats H0 H1 H2 m ρ 0 c).share_full fun w => H0.hq (V1 m ρ) c w) (V1 m ρ c) fun w => H0.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _; left
        rw [show (pdats H0 H1 H2 m ρ 0 c).recorded 0 = Set.univ from H0.hrec (V1 m ρ) c 0]; trivial
      rw [show (pdats H0 H1 H2 m ρ 0 c).owed 0 = 0 from H0.howed (V1 m ρ) c 0]
      iexact HO
    isplitl [Hp]; · iexact Hp
    iexact Hrest
  hin c := by
    rw [show (pdats H0 H1 H2 m ρ 0 c).Φ 0 = Pipeline.ΦA spec0 c from H0.hΦ (V1 m ρ) c 0]; unfold Pipeline.ΦA
    iintro ⟨Hp, -, Hr⟩
    isplitl [Hr]; · iexact Hr
    iexact Hp
  hout c := by
    rw [Pipeline.ownSems0_none, show (pdats H0 H1 H2 m ρ 0 c).Φ (Fin.last _) = Pipeline.ΦA spec0 c from H0.hΦ (V1 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 m ρ) ((pdats H0 H1 H2 m ρ 0 c).share_full fun w => H0.hq (V1 m ρ) c w)
      (V1 m ρ c) (V2 H0 m ρ c) ((pdats H0 H1 H2 m ρ 0 c).arrAt · cfg0.N) (hF0 H0 m ρ c) (hrest0 H0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H0 H1 H2 m ρ 0 c).owed (Fin.last _) = 0 from H0.howed (V1 m ρ) c _]
    iexact HO

set_option backward.isDefEq.respectTransparency.types false in
/-- Region 1 between its two boundaries: its arrays are split out of the unscoped buffers at entry and put back at
    what its write-backs leave at exit; the generator register goes into the class invariant and comes back; nothing
    is owed; the kernel has no semaphore of its own. -/
def reg1 : Pipeline.RegionSeg (pcfgs (F := F)) adm (pdats H0 H1 H2 m ρ) () defs₀ 𝒱₀ L lv 1 where
  win := launch1.win.to₀
  block_pos := launch1.block_pos
  stage_whole := launch1.stage_whole
  K := PEmpty
  osem k := k.elim
  ho := Pipeline.OwnSemFacts.none _
  hbody c := (H1.hbody (V3 H0 m ρ) c).loose
  hwaits := Pipeline.hwaits_of_owed_zero _ _ _ _ L lv 1 fun c t => H1.howed (V3 H0 m ρ) c t
  pre c := iprop(StableHlo.held (c : Thread nD τ) (Pipeline.ucRefs τ sig) (W3 H0 m ρ c) ∗ R c)
  post c := iprop(StableHlo.held (c : Thread nD τ) (Pipeline.ucRefs τ sig) (W4 H0 H1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 H0 m ρ c)
  hentry c := by
    rw [Pipeline.ownSems0_none]
    have hsplit := Pipeline.arrays_of_unscopedBufs (p := 1) (pcfgs (F := F)) adm (pdats H0 H1 H2 m ρ) launch1.win launch1.arr_whole c
      ((pdats H0 H1 H2 m ρ 1 c).share_full fun w => H1.hq (V3 H0 m ρ) c w) (V3 H0 m ρ c) fun w => H1.hA (V3 H0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _; left
        rw [show (pdats H0 H1 H2 m ρ 1 c).recorded 0 = Set.univ from H1.hrec (V3 H0 m ρ) c 0]; trivial
      rw [show (pdats H0 H1 H2 m ρ 1 c).owed 0 = 0 from H1.howed (V3 H0 m ρ) c 0]
      iexact HO
    isplitl [Hp]; · iexact Hp
    iexact Hrest
  hin c := by
    rw [show (pdats H0 H1 H2 m ρ 1 c).Φ 0 = Pipeline.ΦA spec1 c from H1.hΦ (V3 H0 m ρ) c 0]; unfold Pipeline.ΦA
    iintro ⟨Hp, -, Hr⟩
    isplitl [Hr]; · iexact Hr
    iexact Hp
  hout c := by
    rw [Pipeline.ownSems0_none, show (pdats H0 H1 H2 m ρ 1 c).Φ (Fin.last _) = Pipeline.ΦA spec1 c from H1.hΦ (V3 H0 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 m ρ) ((pdats H0 H1 H2 m ρ 1 c).share_full fun w => H1.hq (V3 H0 m ρ) c w)
      (V3 H0 m ρ c) (V4 H0 H1 m ρ c) ((pdats H0 H1 H2 m ρ 1 c).arrAt · cfg1.N) (hF1 H0 H1 m ρ c) (hrest1 H0 H1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H0 H1 H2 m ρ 1 c).owed (Fin.last _) = 0 from H1.howed (V3 H0 m ρ) c _]
    iexact HO

set_option backward.isDefEq.respectTransparency.types false in
/-- Region 2 between its two boundaries: its arrays are split out of the unscoped buffers at entry and put back at
    what its write-backs leave at exit; the generator register goes into the class invariant and comes back; nothing
    is owed; the kernel has no semaphore of its own. -/
def reg2 : Pipeline.RegionSeg (pcfgs (F := F)) adm (pdats H0 H1 H2 m ρ) () defs₀ 𝒱₀ L lv 2 where
  win := launch2.win.to₀
  block_pos := launch2.block_pos
  stage_whole := launch2.stage_whole
  K := PEmpty
  osem k := k.elim
  ho := Pipeline.OwnSemFacts.none _
  hbody c := (H2.hbody (V4 H0 H1 m ρ) c).loose
  hwaits := Pipeline.hwaits_of_owed_zero _ _ _ _ L lv 2 fun c t => H2.howed (V4 H0 H1 m ρ) c t
  pre c := iprop(StableHlo.held (c : Thread nD τ) (Pipeline.ucRefs τ sig) (W4 H0 H1 m ρ c) ∗ R c)
  post c := iprop(StableHlo.held (c : Thread nD τ) (Pipeline.ucRefs τ sig) (W5 H0 H1 H2 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 H0 H1 m ρ c)
  hentry c := by
    rw [Pipeline.ownSems0_none]
    have hsplit := Pipeline.arrays_of_unscopedBufs (p := 2) (pcfgs (F := F)) adm (pdats H0 H1 H2 m ρ) launch2.win launch2.arr_whole c
      ((pdats H0 H1 H2 m ρ 2 c).share_full fun w => H2.hq (V4 H0 H1 m ρ) c w) (V4 H0 H1 m ρ c) fun w => H2.hA (V4 H0 H1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _; left
        rw [show (pdats H0 H1 H2 m ρ 2 c).recorded 0 = Set.univ from H2.hrec (V4 H0 H1 m ρ) c 0]; trivial
      rw [show (pdats H0 H1 H2 m ρ 2 c).owed 0 = 0 from H2.howed (V4 H0 H1 m ρ) c 0]
      iexact HO
    isplitl [Hp]; · iexact Hp
    iexact Hrest
  hin c := by
    rw [show (pdats H0 H1 H2 m ρ 2 c).Φ 0 = Pipeline.ΦA spec2 c from H2.hΦ (V4 H0 H1 m ρ) c 0]; unfold Pipeline.ΦA
    iintro ⟨Hp, -, Hr⟩
    isplitl [Hr]; · iexact Hr
    iexact Hp
  hout c := by
    rw [Pipeline.ownSems0_none, show (pdats H0 H1 H2 m ρ 2 c).Φ (Fin.last _) = Pipeline.ΦA spec2 c from H2.hΦ (V4 H0 H1 m ρ) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 m ρ) ((pdats H0 H1 H2 m ρ 2 c).share_full fun w => H2.hq (V4 H0 H1 m ρ) c w)
      (V4 H0 H1 m ρ c) (V5 H0 H1 H2 m ρ c) ((pdats H0 H1 H2 m ρ 2 c).arrAt · cfg2.N) (hF2 H0 H1 H2 m ρ c) (hrest2 H0 H1 H2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H0 H1 H2 m ρ 2 c).owed (Fin.last _) = 0 from H2.howed (V4 H0 H1 m ρ) c _]
    iexact HO

/-! ## @main as segments, and the launch -/

/-- @main's six segments in order. -/
abbrev segs : List (Pipeline.Seg (pcfgs (F := F)) adm (pdats H0 H1 H2 m ρ) () defs₀ 𝒱₀ L lv) :=
  [ .host (hseg hostOps0 hostOps0_sub hostOps0_fresh (W0 m ρ)),
    .region (reg0 H0 H1 H2 m ρ),
    .host (hseg hostOps1 hostOps1_sub hostOps1_fresh (W2 H0 m ρ)),
    .region (reg1 H0 H1 H2 m ρ),
    .region (reg2 H0 H1 H2 m ρ),
    .host (hseg hostOps3 hostOps3_sub hostOps3_fresh (W5 H0 H1 H2 m ρ)) ]
/-- @main is the run of the segments. -/
theorem main_run (c : Dev nD) : main (F := F) c = Pipeline.Seg.run (segs H0 H1 H2 m ρ) := (main_chain c).trans (by chain_rfl)

/-- The last thread state without the `owes`: every unscoped buffer at the last boundary's contents. -/
abbrev Tₙ (c : Dev nD) : sProp 𝕄 := iprop(StableHlo.held (c : Thread nD τ) (Pipeline.ucRefs τ sig) (W6 H0 H1 H2 m ρ c) ∗ ∃ r, prngReg c r)

set_option backward.isDefEq.respectTransparency.types false in
/-- THE RUN: from any memory with zero counters every weakly fair execution of @main terminates, nothing faulting,
    and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 H0 H1 H2 m ρ c b) :=
  Pipeline.θ_run_regions_kit (pcfgs (F := F)) adm (pdats H0 H1 H2 m ρ) () cellOf_inj emb₁ defs₀ 𝒱₀ L lv m ρ main (segs H0 H1 H2 m ρ)
    (fun c Q => by rw [main_run H0 H1 H2 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H0 H1 H2 m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 H0 H1 H2 m ρ c) ∗ R c) ⊢ iprop(Tₙ H0 H1 H2 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 H0 H1 H2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 H0 H1 H2 m ρ c) s')
      isplitl [Hh] <;> iassumption)
    (hQ := fun s h c => h c)

/-! ## Reading a boundary back

    A host stretch leaves every buffer it does not write as it was; a region leaves every buffer that is not one of
    its OUTPUT arrays as it was (an input array is read through its window and never written back; any other buffer
    bypasses the region). -/

theorem W1_keep (c : Dev nD) (r : Ref sig .tc) (h : r ∉ hostOps0_W) : W1 m ρ c r = W0 m ρ c r :=
  StableHlo.after_of_writes_sub hostOps0 _ hostOps0_writes h
theorem W3_keep (c : Dev nD) (r : Ref sig .tc) (h : r ∉ hostOps1_W) : W3 H0 m ρ c r = W2 H0 m ρ c r :=
  StableHlo.after_of_writes_sub hostOps1 _ hostOps1_writes h
theorem W6_keep (c : Dev nD) (r : Ref sig .tc) (h : r ∉ hostOps3_W) : W6 H0 H1 H2 m ρ c r = W5 H0 H1 H2 m ρ c r :=
  StableHlo.after_of_writes_sub hostOps3 _ hostOps3_writes h

theorem W2_keep (c : Dev nD) (b : Ref sig .tc) (hb : ∀ w, Pipeline.arrRef spec0 w = b → (cfg0.win w).isOut = false) :
    W2 H0 m ρ c (Proc.devRef .tc b) = W1 m ρ c (Proc.devRef .tc b) := by
  by_cases h : ∃ w, Pipeline.arrRef spec0 w = b
  · obtain ⟨w, rfl⟩ := h
    exact (W2_arr H0 m ρ c w).trans (((H0.dat (V1 m ρ) c).arrAt_in w (hb w rfl) _).trans (H0.hA (V1 m ρ) c w))
  · exact W2_of_ne H0 m ρ c b fun w e => h ⟨w, e⟩
theorem W4_keep (c : Dev nD) (b : Ref sig .tc) (hb : ∀ w, Pipeline.arrRef spec1 w = b → (cfg1.win w).isOut = false) :
    W4 H0 H1 m ρ c (Proc.devRef .tc b) = W3 H0 m ρ c (Proc.devRef .tc b) := by
  by_cases h : ∃ w, Pipeline.arrRef spec1 w = b
  · obtain ⟨w, rfl⟩ := h
    exact (W4_arr H0 H1 m ρ c w).trans (((H1.dat (V3 H0 m ρ) c).arrAt_in w (hb w rfl) _).trans (H1.hA (V3 H0 m ρ) c w))
  · exact W4_of_ne H0 H1 m ρ c b fun w e => h ⟨w, e⟩
theorem W5_keep (c : Dev nD) (b : Ref sig .tc) (hb : ∀ w, Pipeline.arrRef spec2 w = b → (cfg2.win w).isOut = false) :
    W5 H0 H1 H2 m ρ c (Proc.devRef .tc b) = W4 H0 H1 m ρ c (Proc.devRef .tc b) := by
  by_cases h : ∃ w, Pipeline.arrRef spec2 w = b
  · obtain ⟨w, rfl⟩ := h
    exact (W5_arr H0 H1 H2 m ρ c w).trans (((H2.dat (V4 H0 H1 m ρ) c).arrAt_in w (hb w rfl) _).trans (H2.hA (V4 H0 H1 m ρ) c w))
  · exact W5_of_ne H0 H1 H2 m ρ c b fun w e => h ⟨w, e⟩

/-- A buffer that no host stretch writes and that is no region's output array ends as launched. -/
theorem W6_launch (c : Dev nD) (r : Ref sig .tc) (h0 : r ∉ hostOps0_W) (h1 : r ∉ hostOps1_W) (h3 : r ∉ hostOps3_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false) :
    W6 H0 H1 H2 m ρ c (Proc.devRef .tc r) = m ((c : Thread nD τ).loc r) :=
  (W6_keep H0 H1 H2 m ρ c r h3).trans <| (W5_keep H0 H1 H2 m ρ c r k2).trans <| (W4_keep H0 H1 m ρ c r k1).trans <|
    (W3_keep H0 m ρ c r h1).trans <| (W2_keep H0 m ρ c r k0).trans <| (W1_keep m ρ c r h0).trans rfl

theorem W6_main_arg0 (c : Dev nD) : W6 H0 H1 H2 m ρ c (Proc.devRef .tc main_arg0) = m ((c : Thread nD τ).loc main_arg0) :=
  W6_launch H0 H1 H2 m ρ c main_arg0 (by decide) (by decide) (by decide) (by decide) (by decide) (by decide)
theorem W6_main_arg1 (c : Dev nD) : W6 H0 H1 H2 m ρ c (Proc.devRef .tc main_arg1) = m ((c : Thread nD τ).loc main_arg1) :=
  W6_launch H0 H1 H2 m ρ c main_arg1 (by decide) (by decide) (by decide) (by decide) (by decide) (by decide)
theorem W6_main_arg2 (c : Dev nD) : W6 H0 H1 H2 m ρ c (Proc.devRef .tc main_arg2) = m ((c : Thread nD τ).loc main_arg2) :=
  W6_launch H0 H1 H2 m ρ c main_arg2 (by decide) (by decide) (by decide) (by decide) (by decide) (by decide)
theorem W6_main_arg3 (c : Dev nD) : W6 H0 H1 H2 m ρ c (Proc.devRef .tc main_arg3) = m ((c : Thread nD τ).loc main_arg3) :=
  W6_launch H0 H1 H2 m ρ c main_arg3 (by decide) (by decide) (by decide) (by decide) (by decide) (by decide)
theorem W6_main_arg4 (c : Dev nD) : W6 H0 H1 H2 m ρ c (Proc.devRef .tc main_arg4) = m ((c : Thread nD τ).loc main_arg4) :=
  W6_launch H0 H1 H2 m ρ c main_arg4 (by decide) (by decide) (by decide) (by decide) (by decide) (by decide)
theorem W6_main_arg5 (c : Dev nD) : W6 H0 H1 H2 m ρ c (Proc.devRef .tc main_arg5) = m ((c : Thread nD τ).loc main_arg5) :=
  W6_launch H0 H1 H2 m ρ c main_arg5 (by decide) (by decide) (by decide) (by decide) (by decide) (by decide)
theorem W6_main_arg6 (c : Dev nD) : W6 H0 H1 H2 m ρ c (Proc.devRef .tc main_arg6) = m ((c : Thread nD τ).loc main_arg6) :=
  W6_launch H0 H1 H2 m ρ c main_arg6 (by decide) (by decide) (by decide) (by decide) (by decide) (by decide)
theorem W6_main_arg7 (c : Dev nD) : W6 H0 H1 H2 m ρ c (Proc.devRef .tc main_arg7) = m ((c : Thread nD τ).loc main_arg7) :=
  W6_launch H0 H1 H2 m ρ c main_arg7 (by decide) (by decide) (by decide) (by decide) (by decide) (by decide)
theorem W6_main_arg8 (c : Dev nD) : W6 H0 H1 H2 m ρ c (Proc.devRef .tc main_arg8) = m ((c : Thread nD τ).loc main_arg8) :=
  W6_launch H0 H1 H2 m ρ c main_arg8 (by decide) (by decide) (by decide) (by decide) (by decide) (by decide)
theorem W6_main_arg9 (c : Dev nD) : W6 H0 H1 H2 m ρ c (Proc.devRef .tc main_arg9) = m ((c : Thread nD τ).loc main_arg9) :=
  W6_launch H0 H1 H2 m ρ c main_arg9 (by decide) (by decide) (by decide) (by decide) (by decide) (by decide)
theorem W6_main_arg10 (c : Dev nD) : W6 H0 H1 H2 m ρ c (Proc.devRef .tc main_arg10) = m ((c : Thread nD τ).loc main_arg10) :=
  W6_launch H0 H1 H2 m ρ c main_arg10 (by decide) (by decide) (by decide) (by decide) (by decide) (by decide)
theorem W6_main_arg11 (c : Dev nD) : W6 H0 H1 H2 m ρ c (Proc.devRef .tc main_arg11) = m ((c : Thread nD τ).loc main_arg11) :=
  W6_launch H0 H1 H2 m ρ c main_arg11 (by decide) (by decide) (by decide) (by decide) (by decide) (by decide)
theorem W6_main_arg12 (c : Dev nD) : W6 H0 H1 H2 m ρ c (Proc.devRef .tc main_arg12) = m ((c : Thread nD τ).loc main_arg12) :=
  W6_launch H0 H1 H2 m ρ c main_arg12 (by decide) (by decide) (by decide) (by decide) (by decide) (by decide)

include H0 H1 H2 in
/-- THE FRAME, off the run: the thirteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 H0 H1 H2 m ρ c),
     (h c _ (mem_uc main_arg1 (by decide))).trans (W6_main_arg1 H0 H1 H2 m ρ c),
     (h c _ (mem_uc main_arg2 (by decide))).trans (W6_main_arg2 H0 H1 H2 m ρ c),
     (h c _ (mem_uc main_arg3 (by decide))).trans (W6_main_arg3 H0 H1 H2 m ρ c),
     (h c _ (mem_uc main_arg4 (by decide))).trans (W6_main_arg4 H0 H1 H2 m ρ c),
     (h c _ (mem_uc main_arg5 (by decide))).trans (W6_main_arg5 H0 H1 H2 m ρ c),
     (h c _ (mem_uc main_arg6 (by decide))).trans (W6_main_arg6 H0 H1 H2 m ρ c),
     (h c _ (mem_uc main_arg7 (by decide))).trans (W6_main_arg7 H0 H1 H2 m ρ c),
     (h c _ (mem_uc main_arg8 (by decide))).trans (W6_main_arg8 H0 H1 H2 m ρ c),
     (h c _ (mem_uc main_arg9 (by decide))).trans (W6_main_arg9 H0 H1 H2 m ρ c),
     (h c _ (mem_uc main_arg10 (by decide))).trans (W6_main_arg10 H0 H1 H2 m ρ c),
     (h c _ (mem_uc main_arg11 (by decide))).trans (W6_main_arg11 H0 H1 H2 m ρ c),
     (h c _ (mem_uc main_arg12 (by decide))).trans (W6_main_arg12 H0 H1 H2 m ρ c)⟩)
    (run H0 H1 H2 m ρ)

end Cert.Kernel.Chain

end
-- ==== Proof.MidB.lean ====
/-
  Region 0 of the two-tower graph convolution: the hidden layer, one block of rows per grid point.

  The grid has 16 points. At a point i < 8 the body takes rows 512·i … 512·i + 511 of the first adjacency matrix (a
  block) and stores relu((block·x₁)·W₁₁ + b₁₁)·W₁₂ whole into the first output's buffer; at a point i ≥ 8 it does the same
  for the second tower on block i − 8 of the second adjacency matrix. A row of the result depends on that row of the
  adjacency alone. The inactive tower's windows are parked: the first output's block index stays 7 through the last
  eight points, where the body stores nothing into it, so its buffer is handed back as found and block 7, stored at
  point 7, is written back only after the last point, as point 7 left it; the second output's index stays 0 through the first eight points,
  where nothing is written back. So each output array ends as one function of the entry contents — row block k is the
  tower's payload of row block k of its adjacency and the tower's four whole operands — and the inputs end unchanged.
-/
import proofs.«134049_g16819091931673_cont_week2b_1393_5_alg».proof.Proof.Gen.Kernel.Launch
import proofs.«134049_g16819091931673_cont_week2b_1393_5_alg».proof.Proof.Gen.Kernel.Skeleton
import proofs.«134049_g16819091931673_cont_week2b_1393_5_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.ValueIdx
import Idealize.ShloMosaic.Lib.Ring
import Idealize.ShloMosaic.Lib.Tactic

set_option maxRecDepth 16384

noncomputable section

namespace Cert.Kernel.Mid

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)

variable {F : FTy → Type} [FloatOps F]

local notation "𝕄" => MT nD τ sig Unit (Elt F) ℕ (UR sig nD τ) ℕ

/-! # The body of region 0 (`cc0__mid_body`) on whole staging memrefs, one triple per tower -/

/-! ## The body's accesses: every load and the store take the whole buffer -/

abbrev rA : Rect S512x4096 := Rect.unit (s := S512x4096) ![0, 0] S512x4096.size inb_S512x4096_S512x4096_0_0
abbrev rX : Rect S4096x256 := Rect.unit (s := S4096x256) ![0, 0] S4096x256.size inb_S4096x256_S4096x256_0_0
abbrev rW1 : Rect S256x256 := Rect.unit (s := S256x256) ![0, 0] S256x256.size inb_S256x256_S256x256_0_0
abbrev rB : Rect S1x256 := Rect.unit (s := S1x256) ![0, 0] S1x256.size inb_S1x256_S1x256_0_0
abbrev rW2 : Rect S256x128 := Rect.unit (s := S256x128) ![0, 0] S256x128.size inb_S256x128_S256x128_0_0
abbrev rO : Rect S512x128 := Rect.unit (s := S512x128) ![0, 0] S512x128.size inb_S512x128_S512x128_0_0

/-! ## What a tower's branch leaves in its output window's buffer -/

/-- Tower 1's output buffer after the body, from the tower's input blocks: its one store, the whole buffer. -/
def out0_10 (x0 : Vec F S512x4096 .f32) (x2 : Vec F S4096x256 .bf16) (x4 : Vec F S256x256 .bf16) (x6 : Vec F S1x256 .f32) (x8 : Vec F S256x128 .bf16) : Vec F S512x128 .bf16 :=
  View.canon [⟨rO, k0_pay1 (View.ld x0 rA) (View.ld x2 rX) (View.ld x4 rW1) (View.ld x6 rB) (View.ld x8 rW2)⟩]

/-- Tower 2's, likewise. -/
def out0_11 (x0 : Vec F S512x4096 .f32) (x2 : Vec F S4096x256 .bf16) (x4 : Vec F S256x256 .bf16) (x6 : Vec F S1x256 .f32) (x8 : Vec F S256x128 .bf16) : Vec F S512x128 .bf16 :=
  View.canon [⟨rO, k0_pay2 (View.ld x0 rA) (View.ld x2 rX) (View.ld x4 rW1) (View.ld x6 rB) (View.ld x8 rW2)⟩]

/-- The one store covers the buffer. -/
theorem coverO (p0 : Vec F S512x128 .bf16) (y : S512x128.Idx) :
    ∃ pc ∈ ([⟨rO, p0⟩] : List (View.Piece (Elt F) S512x128 .bf16)), y ∈ pc.1.set :=
  View.cover_of_tiled [⟨rO, p0⟩] S512x128.size (by rfl) y

/-! ## The body's triple, per tower -/

set_option maxHeartbeats 4000000 in
/-- The body at a point of tower 1 (its branch taken, the other not): on whole staging memrefs, the tower's five inputs at
    read contents and its output at anything, it runs to the continuation holding the inputs as they were and the output at
    `out0_10` of them; the other tower's memrefs are not touched. -/
theorem sound_kernel0_t1 (c : Dev nD) (E : Set ℕ) (i : grid0.Coords) (h1 : k0_cond1 i = 1#1) (h2 : ¬ k0_cond2 i = 1#1)
    (arg1 : Memref sig .tc .vmem S512x4096 .f32) (harg1 : arg1.IsWhole) (arg2 : Memref sig .tc .vmem S512x4096 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S256x128 .bf16) (harg9 : arg9.IsWhole) (arg10 : Memref sig .tc .vmem S256x128 .bf16) (harg10 : arg10.IsWhole) (arg11 : Memref sig .tc .vmem S512x128 .bf16) (harg11 : arg11.IsWhole) (arg12 : Memref sig .tc .vmem S512x128 .bf16) (harg12 : arg12.IsWhole)
    (x0 : Vec F S512x4096 .f32) (x2 : Vec F S4096x256 .bf16) (x4 : Vec F S256x256 .bf16) (x6 : Vec F S1x256 .f32) (x8 : Vec F S256x128 .bf16) (K : PUnit → sProp 𝕄) :
    iprop(owns (c : Thread nD τ) arg1 fullShare x0 ∗ owns (c : Thread nD τ) arg3 fullShare x2 ∗ owns (c : Thread nD τ) arg5 fullShare x4 ∗ owns (c : Thread nD τ) arg7 fullShare x6 ∗ owns (c : Thread nD τ) arg9 fullShare x8 ∗ (∃ d, owns (c : Thread nD τ) arg11 fullShare d)
        ∗ (iprop(owns (c : Thread nD τ) arg1 fullShare x0 ∗ owns (c : Thread nD τ) arg3 fullShare x2 ∗ owns (c : Thread nD τ) arg5 fullShare x4 ∗ owns (c : Thread nD τ) arg7 fullShare x6 ∗ owns (c : Thread nD τ) arg9 fullShare x8 ∗ owns (c : Thread nD τ) arg11 fullShare (out0_10 x0 x2 x4 x6 x8)) -∗ K ⟨⟩))
      ⊢ wp frame (wpE (defs₀ (F := F)) Variants.none c none) E (cc0__mid_body i arg1 harg1 arg2 harg2 arg3 harg3 arg4 harg4 arg5 harg5 arg6 harg6 arg7 harg7 arg8 harg8 arg9 harg9 arg10 harg10 arg11 harg11 arg12 harg12) K := by
  simp only [cc0__mid_body_eq_skeleton]; unfold cc0__mid_body_skel
  unfold owns
  iintro ⟨⟨%f0, %hf0, H0⟩, ⟨%f2, %hf2, H2⟩, ⟨%f4, %hf4, H4⟩, ⟨%f6, %hf6, H6⟩, ⟨%f8, %hf8, H8⟩, ⟨%d10, %f10, -, H10⟩, Hk⟩
  subst hf0; subst hf2; subst hf4; subst hf6; subst hf8
  sl_exec (disch := first | exact h1 | exact h2)
  sl_step
  iapply Hk
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [H6]
  · iexists f6; isplitr; · ipureintro; rfl
    iexact H6
  isplitl [H8]
  · iexists f8; isplitr; · ipureintro; rfl
    iexact H8
  iexists _; isplitr
  swap; · iexact H10
  ipureintro
  exact View.read_writes_eq_canon _ _ _ (coverO _)

set_option maxHeartbeats 4000000 in
/-- The body at a point of tower 2 (its branch taken, the other not): on whole staging memrefs, the tower's five inputs at
    read contents and its output at anything, it runs to the continuation holding the inputs as they were and the output at
    `out0_11` of them; the other tower's memrefs are not touched. -/
theorem sound_kernel0_t2 (c : Dev nD) (E : Set ℕ) (i : grid0.Coords) (h1 : ¬ k0_cond1 i = 1#1) (h2 : k0_cond2 i = 1#1)
    (arg1 : Memref sig .tc .vmem S512x4096 .f32) (harg1 : arg1.IsWhole) (arg2 : Memref sig .tc .vmem S512x4096 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S256x128 .bf16) (harg9 : arg9.IsWhole) (arg10 : Memref sig .tc .vmem S256x128 .bf16) (harg10 : arg10.IsWhole) (arg11 : Memref sig .tc .vmem S512x128 .bf16) (harg11 : arg11.IsWhole) (arg12 : Memref sig .tc .vmem S512x128 .bf16) (harg12 : arg12.IsWhole)
    (x0 : Vec F S512x4096 .f32) (x2 : Vec F S4096x256 .bf16) (x4 : Vec F S256x256 .bf16) (x6 : Vec F S1x256 .f32) (x8 : Vec F S256x128 .bf16) (K : PUnit → sProp 𝕄) :
    iprop(owns (c : Thread nD τ) arg2 fullShare x0 ∗ owns (c : Thread nD τ) arg4 fullShare x2 ∗ owns (c : Thread nD τ) arg6 fullShare x4 ∗ owns (c : Thread nD τ) arg8 fullShare x6 ∗ owns (c : Thread nD τ) arg10 fullShare x8 ∗ (∃ d, owns (c : Thread nD τ) arg12 fullShare d)
        ∗ (iprop(owns (c : Thread nD τ) arg2 fullShare x0 ∗ owns (c : Thread nD τ) arg4 fullShare x2 ∗ owns (c : Thread nD τ) arg6 fullShare x4 ∗ owns (c : Thread nD τ) arg8 fullShare x6 ∗ owns (c : Thread nD τ) arg10 fullShare x8 ∗ owns (c : Thread nD τ) arg12 fullShare (out0_11 x0 x2 x4 x6 x8)) -∗ K ⟨⟩))
      ⊢ wp frame (wpE (defs₀ (F := F)) Variants.none c none) E (cc0__mid_body i arg1 harg1 arg2 harg2 arg3 harg3 arg4 harg4 arg5 harg5 arg6 harg6 arg7 harg7 arg8 harg8 arg9 harg9 arg10 harg10 arg11 harg11 arg12 harg12) K := by
  simp only [cc0__mid_body_eq_skeleton]; unfold cc0__mid_body_skel
  unfold owns
  iintro ⟨⟨%f0, %hf0, H0⟩, ⟨%f2, %hf2, H2⟩, ⟨%f4, %hf4, H4⟩, ⟨%f6, %hf6, H6⟩, ⟨%f8, %hf8, H8⟩, ⟨%d10, %f10, -, H10⟩, Hk⟩
  subst hf0; subst hf2; subst hf4; subst hf6; subst hf8
  sl_exec (disch := first | exact h1 | exact h2)
  sl_step
  iapply Hk
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [H6]
  · iexists f6; isplitr; · ipureintro; rfl
    iexact H6
  isplitl [H8]
  · iexists f8; isplitr; · ipureintro; rfl
    iexact H8
  iexists _; isplitr
  swap; · iexact H10
  ipureintro
  exact View.read_writes_eq_canon _ _ _ (coverO _)

/-! ## The closed forms of the result arrays (no arithmetic opened: block `k` of a result is the tower's payload of the
    inputs' blocks at `k`) -/

/-- The offset of a whole-buffer access is zero on both axes. -/
theorem hz2 : (![0, 0] : Fin 2 → Nat) = fun _ => 0 := funext fun a => by fin_cases a <;> rfl

/-- A tower's one store takes the whole buffer and its loads whole buffers: what it leaves is the payload itself. -/
theorem out0_10_eq (x0 : Vec F S512x4096 .f32) (x2 : Vec F S4096x256 .bf16) (x4 : Vec F S256x256 .bf16) (x6 : Vec F S1x256 .f32) (x8 : Vec F S256x128 .bf16) :
    out0_10 x0 x2 x4 x6 x8 = k0_pay1 x0 x2 x4 x6 x8 := by
  unfold out0_10
  rw [View.canon_unit_zero hz2]
  simp only [View.ld_unit_zero (S := S512x4096) hz2, View.ld_unit_zero (S := S4096x256) hz2, View.ld_unit_zero (S := S256x256) hz2,
    View.ld_unit_zero (S := S1x256) hz2, View.ld_unit_zero (S := S256x128) hz2]
/-- Tower 2's likewise. -/
theorem out0_11_eq (x0 : Vec F S512x4096 .f32) (x2 : Vec F S4096x256 .bf16) (x4 : Vec F S256x256 .bf16) (x6 : Vec F S1x256 .f32) (x8 : Vec F S256x128 .bf16) :
    out0_11 x0 x2 x4 x6 x8 = k0_pay2 x0 x2 x4 x6 x8 := by
  unfold out0_11
  rw [View.canon_unit_zero hz2]
  simp only [View.ld_unit_zero (S := S512x4096) hz2, View.ld_unit_zero (S := S4096x256) hz2, View.ld_unit_zero (S := S256x256) hz2,
    View.ld_unit_zero (S := S1x256) hz2, View.ld_unit_zero (S := S256x128) hz2]

/-- Row block `k` of a 4096×4096 array: its rows 512·k … 512·k + 511. -/
def rowBlk (A : S4096x4096.Idx → Elt F .f32) (k : Fin 8) : Vec F S512x4096 .f32 :=
  fun y => A (ix2 (n1 := 4096) (⟨512 * k.val + (y 0).val, by have := k.isLt; have := idx2_lt0 y; omega⟩ : Fin 4096) (y 1))

/-- What output window 10's array ends holding, index by index: row `r` lies in row block `r / 512`, whose 512 rows are
    tower 1's payload of that row block of the adjacency array and the tower's four whole operands. -/
def G0_10 (adj : S4096x4096.Idx → Elt F .f32) (x : Vec F S4096x256 .bf16) (w1 : Vec F S256x256 .bf16) (b : Vec F S1x256 .f32) (w2 : Vec F S256x128 .bf16) :
    Vec F S4096x128 .bf16 := fun i =>
  k0_pay1 (rowBlk adj ⟨(i 0).val / 512, by have := idx2_lt0 i; omega⟩) x w1 b w2 (ix2 (⟨(i 0).val % 512, Nat.mod_lt _ (by decide)⟩ : Fin 512) (i 1))

/-- Read at an index of row block `k`. -/
theorem G0_10_at (adj : S4096x4096.Idx → Elt F .f32) (x : Vec F S4096x256 .bf16) (w1 : Vec F S256x256 .bf16) (b : Vec F S1x256 .f32) (w2 : Vec F S256x128 .bf16)
    (k : Fin 8) (y : S512x128.Idx) (i : S4096x128.Idx) (h0 : (i 0).val = 512 * k.val + (y 0).val) (h1 : (i 1).val = (y 1).val) :
    G0_10 adj x w1 b w2 i = k0_pay1 (rowBlk adj k) x w1 b w2 y := by
  have hy0 : (y 0).val < 512 := idx2_lt0 y
  have hi0 : (i 0).val < 4096 := idx2_lt0 i
  have ek : (⟨(i 0).val / 512, by omega⟩ : Fin 8) = k := Fin.ext (by show (i 0).val / 512 = k.val; omega)
  have el : (ix2 (⟨(i 0).val % 512, Nat.mod_lt _ (by decide)⟩ : Fin 512) (i 1) : S512x128.Idx) = y := by
    funext a; apply Fin.ext
    match a with
    | ⟨0, _⟩ => show (i 0).val % 512 = (y 0).val; omega
    | ⟨1, _⟩ => exact h1
  exact congrArg₂ (fun k' y' => k0_pay1 (rowBlk adj k') x w1 b w2 y') ek el

/-- What output window 11's array ends holding, index by index: row `r` lies in row block `r / 512`, whose 512 rows are
    tower 2's payload of that row block of the adjacency array and the tower's four whole operands. -/
def G0_11 (adj : S4096x4096.Idx → Elt F .f32) (x : Vec F S4096x256 .bf16) (w1 : Vec F S256x256 .bf16) (b : Vec F S1x256 .f32) (w2 : Vec F S256x128 .bf16) :
    Vec F S4096x128 .bf16 := fun i =>
  k0_pay2 (rowBlk adj ⟨(i 0).val / 512, by have := idx2_lt0 i; omega⟩) x w1 b w2 (ix2 (⟨(i 0).val % 512, Nat.mod_lt _ (by decide)⟩ : Fin 512) (i 1))

/-- Read at an index of row block `k`. -/
theorem G0_11_at (adj : S4096x4096.Idx → Elt F .f32) (x : Vec F S4096x256 .bf16) (w1 : Vec F S256x256 .bf16) (b : Vec F S1x256 .f32) (w2 : Vec F S256x128 .bf16)
    (k : Fin 8) (y : S512x128.Idx) (i : S4096x128.Idx) (h0 : (i 0).val = 512 * k.val + (y 0).val) (h1 : (i 1).val = (y 1).val) :
    G0_11 adj x w1 b w2 i = k0_pay2 (rowBlk adj k) x w1 b w2 y := by
  have hy0 : (y 0).val < 512 := idx2_lt0 y
  have hi0 : (i 0).val < 4096 := idx2_lt0 i
  have ek : (⟨(i 0).val / 512, by omega⟩ : Fin 8) = k := Fin.ext (by show (i 0).val / 512 = k.val; omega)
  have el : (ix2 (⟨(i 0).val % 512, Nat.mod_lt _ (by decide)⟩ : Fin 512) (i 1) : S512x128.Idx) = y := by
    funext a; apply Fin.ext
    match a with
    | ⟨0, _⟩ => show (i 0).val % 512 = (y 0).val; omega
    | ⟨1, _⟩ => exact h1
  exact congrArg₂ (fun k' y' => k0_pay2 (rowBlk adj k') x w1 b w2 y') ek el

section Region
-- the TensorCore's buffer contents when the region is entered
variable (V : (c : Dev nD) → (b : Ref sig .tc) → Buf (Elt F) ((c : Thread nD τ).loc b))

/-! # Region 0 at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's buffer holds its block at every point, fetched there or not: unfetched, the block index has not moved. -/
/-- Input window 0's buffer holds its block at every point, for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, for any proof data over the entry contents whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, for any proof data over the entry contents whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's buffer holds its block at every point, for any proof data over the entry contents whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's buffer holds its block at every point, for any proof data over the entry contents whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's buffer holds its block at every point, for any proof data over the entry contents whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's buffer holds its block at every point, for any proof data over the entry contents whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's buffer holds its block at every point, for any proof data over the entry contents whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's buffer holds its block at every point, for any proof data over the entry contents whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's buffer holds its block at every point, for any proof data over the entry contents whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The two towers over the grid -/

/-- Tower 1's branch is taken exactly at the first eight points, -/
theorem hcond1 : ∀ t : Fin cfg0.N, k0_cond1 (grid0.coords t) = 1#1 ↔ t.val < 8 :=
  (by decide +kernel : ∀ t : Fin grid0.N, k0_cond1 (grid0.coords t) = 1#1 ↔ t.val < 8)
/-- tower 2's exactly at the last eight. -/
theorem hcond2 : ∀ t : Fin cfg0.N, k0_cond2 (grid0.coords t) = 1#1 ↔ 8 ≤ t.val :=
  (by decide +kernel : ∀ t : Fin grid0.N, k0_cond2 (grid0.coords t) = 1#1 ↔ 8 ≤ t.val)
/-- Output window 10 is idle exactly at tower 2's points, -/
theorem idle10 : ∀ t : Fin cfg0.N, cfg0.idle 10 (cfg0.grid.coords t) = decide (8 ≤ t.val) :=
  (by decide +kernel : ∀ t : Fin grid0.N, idle0 10 (grid0.coords t) = decide (8 ≤ t.val))
/-- output window 11 exactly at tower 1's. -/
theorem idle11 : ∀ t : Fin cfg0.N, cfg0.idle 11 (cfg0.grid.coords t) = decide (t.val < 8) :=
  (by decide +kernel : ∀ t : Fin grid0.N, idle0 11 (grid0.coords t) = decide (t.val < 8))
/-- Output window 11's block index first moves after point 8: no point of tower 1 writes it back. -/
theorem flush11_lt : ∀ t : Fin cfg0.N, t.val < 8 → (cfg0.win 11).flush t = false :=
  (by decide +kernel : ∀ t : Fin grid0.N, t.val < 8 → win0_11.flush t = false)
/-- Output window 10's buffer holds nothing the body stored up to point 7 and after the last point only: from point 8 on
    it holds tower 1's last block, not yet written back. -/
theorem fresh10 (n : ℕ) (hn : n ≤ cfg0.N) : cfg0.fresh 10 n = (decide (n ≤ 7) || decide (16 ≤ n)) :=
  Pipeline.Cfg.fresh_tab cfg0 10 (fun n => decide (n ≤ 7) || decide (16 ≤ n)) (by decide)
    (by decide +kernel : ∀ t : Fin grid0.N, (decide (t.val + 1 ≤ 7) || decide (16 ≤ t.val + 1))
        = (win0_10.flush t || (idle0 10 (grid0.coords t) && (decide (t.val ≤ 7) || decide (16 ≤ t.val))))) n hn

/-- The point whose blocks tower 1's output buffer was last computed from: the point itself among the first eight, point 7
    after them. -/
def p1 (t : Fin cfg0.N) : Fin cfg0.N := if t.val < 8 then t else t0_7

/-- Among the first eight points it is the point itself, -/
theorem p1_lt (t : Fin cfg0.N) (h : t.val < 8) : p1 t = t := by unfold p1; rw [if_pos h]
/-- after them it is point 7, -/
theorem p1_ge (t : Fin cfg0.N) (h : 8 ≤ t.val) : p1 t = t0_7 := by unfold p1; rw [if_neg (by omega)]
/-- and from point 8 on it is what it was at the point before. -/
theorem p1_pred (t : Fin cfg0.N) (h : 8 ≤ t.val) (h' : t.val - 1 < cfg0.N) : p1 ⟨t.val - 1, h'⟩ = p1 t := by
  rw [p1_ge t h]
  by_cases h9 : 9 ≤ t.val
  · exact p1_ge _ (by show 8 ≤ t.val - 1; omega)
  · rw [p1_lt _ (by show t.val - 1 < 8; omega)]; apply Fin.ext; show t.val - 1 = 7; omega

/-! ## The pipeline's proof data -/

/-- The proof data of region 0 on core `c`: the arrays as the region finds them; after the body at point `t` each input's
    buffer at its block, tower 2's output at its payload of tower 2's blocks at `t`, tower 1's output at its payload of
    tower 1's blocks at `p1 t` (carried unchanged through tower 2's points to the last write-back); the invariant that nothing else is touched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 (p1 t)) (iblk0 V c 2 (p1 t)) (iblk0 V c 4 (p1 t)) (iblk0 V c 6 (p1 t)) (iblk0 V c 8 (p1 t))
    | ⟨11, _⟩ => out0_11 (iblk0 V c 1 t) (iblk0 V c 3 t) (iblk0 V c 5 t) (iblk0 V c 7 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The body leaves input window 0's block in place. -/
theorem after0_0 (c : Dev nD) (t : Fin cfg0.N) : (dat0 V c).after 0 t = iblk0 V c 0 t := by dsimp only [dat0]
/-- The body leaves input window 1's block in place. -/
theorem after0_1 (c : Dev nD) (t : Fin cfg0.N) : (dat0 V c).after 1 t = iblk0 V c 1 t := by dsimp only [dat0]
/-- The body leaves input window 2's block in place. -/
theorem after0_2 (c : Dev nD) (t : Fin cfg0.N) : (dat0 V c).after 2 t = iblk0 V c 2 t := by dsimp only [dat0]
/-- The body leaves input window 3's block in place. -/
theorem after0_3 (c : Dev nD) (t : Fin cfg0.N) : (dat0 V c).after 3 t = iblk0 V c 3 t := by dsimp only [dat0]
/-- The body leaves input window 4's block in place. -/
theorem after0_4 (c : Dev nD) (t : Fin cfg0.N) : (dat0 V c).after 4 t = iblk0 V c 4 t := by dsimp only [dat0]
/-- The body leaves input window 5's block in place. -/
theorem after0_5 (c : Dev nD) (t : Fin cfg0.N) : (dat0 V c).after 5 t = iblk0 V c 5 t := by dsimp only [dat0]
/-- The body leaves input window 6's block in place. -/
theorem after0_6 (c : Dev nD) (t : Fin cfg0.N) : (dat0 V c).after 6 t = iblk0 V c 6 t := by dsimp only [dat0]
/-- The body leaves input window 7's block in place. -/
theorem after0_7 (c : Dev nD) (t : Fin cfg0.N) : (dat0 V c).after 7 t = iblk0 V c 7 t := by dsimp only [dat0]
/-- The body leaves input window 8's block in place. -/
theorem after0_8 (c : Dev nD) (t : Fin cfg0.N) : (dat0 V c).after 8 t = iblk0 V c 8 t := by dsimp only [dat0]
/-- The body leaves input window 9's block in place. -/
theorem after0_9 (c : Dev nD) (t : Fin cfg0.N) : (dat0 V c).after 9 t = iblk0 V c 9 t := by dsimp only [dat0]
/-- Tower 1's output after point `t`: its payload of tower 1's blocks at `p1 t`. -/
theorem after0_10 (c : Dev nD) (t : Fin cfg0.N) : (dat0 V c).after 10 t
    = out0_10 (iblk0 V c 0 (p1 t)) (iblk0 V c 2 (p1 t)) (iblk0 V c 4 (p1 t)) (iblk0 V c 6 (p1 t)) (iblk0 V c 8 (p1 t)) := by dsimp only [dat0]
/-- Tower 2's output after point `t`: its payload of tower 2's blocks at `t`. -/
theorem after0_11 (c : Dev nD) (t : Fin cfg0.N) : (dat0 V c).after 11 t
    = out0_11 (iblk0 V c 1 t) (iblk0 V c 3 t) (iblk0 V c 5 t) (iblk0 V c 7 t) (iblk0 V c 9 t) := by dsimp only [dat0]

/-- Input window 0's buffer holds its block when the body runs at `t`. -/
theorem before0_0 (c : Dev nD) (t : Fin cfg0.N) (d) : (dat0 V c).before 0 t d = iblk0 V c 0 t :=
  before0_0_of V (dat0 V c) (A_eq0 V c 0) (after0_0 V c) t d
/-- Input window 1's buffer holds its block when the body runs at `t`. -/
theorem before0_1 (c : Dev nD) (t : Fin cfg0.N) (d) : (dat0 V c).before 1 t d = iblk0 V c 1 t :=
  before0_1_of V (dat0 V c) (A_eq0 V c 1) (after0_1 V c) t d
/-- Input window 2's buffer holds its block when the body runs at `t`. -/
theorem before0_2 (c : Dev nD) (t : Fin cfg0.N) (d) : (dat0 V c).before 2 t d = iblk0 V c 2 t :=
  before0_2_of V (dat0 V c) (A_eq0 V c 2) (after0_2 V c) t d
/-- Input window 3's buffer holds its block when the body runs at `t`. -/
theorem before0_3 (c : Dev nD) (t : Fin cfg0.N) (d) : (dat0 V c).before 3 t d = iblk0 V c 3 t :=
  before0_3_of V (dat0 V c) (A_eq0 V c 3) (after0_3 V c) t d
/-- Input window 4's buffer holds its block when the body runs at `t`. -/
theorem before0_4 (c : Dev nD) (t : Fin cfg0.N) (d) : (dat0 V c).before 4 t d = iblk0 V c 4 t :=
  before0_4_of V (dat0 V c) (A_eq0 V c 4) (after0_4 V c) t d
/-- Input window 5's buffer holds its block when the body runs at `t`. -/
theorem before0_5 (c : Dev nD) (t : Fin cfg0.N) (d) : (dat0 V c).before 5 t d = iblk0 V c 5 t :=
  before0_5_of V (dat0 V c) (A_eq0 V c 5) (after0_5 V c) t d
/-- Input window 6's buffer holds its block when the body runs at `t`. -/
theorem before0_6 (c : Dev nD) (t : Fin cfg0.N) (d) : (dat0 V c).before 6 t d = iblk0 V c 6 t :=
  before0_6_of V (dat0 V c) (A_eq0 V c 6) (after0_6 V c) t d
/-- Input window 7's buffer holds its block when the body runs at `t`. -/
theorem before0_7 (c : Dev nD) (t : Fin cfg0.N) (d) : (dat0 V c).before 7 t d = iblk0 V c 7 t :=
  before0_7_of V (dat0 V c) (A_eq0 V c 7) (after0_7 V c) t d
/-- Input window 8's buffer holds its block when the body runs at `t`. -/
theorem before0_8 (c : Dev nD) (t : Fin cfg0.N) (d) : (dat0 V c).before 8 t d = iblk0 V c 8 t :=
  before0_8_of V (dat0 V c) (A_eq0 V c 8) (after0_8 V c) t d
/-- Input window 9's buffer holds its block when the body runs at `t`. -/
theorem before0_9 (c : Dev nD) (t : Fin cfg0.N) (d) : (dat0 V c).before 9 t d = iblk0 V c 9 t :=
  before0_9_of V (dat0 V c) (A_eq0 V c 9) (after0_9 V c) t d

/-- Tower 1's output buffer is carried through tower 2's points: there `after` is the previous point's. -/
theorem carry10 (c : Dev nD) (t : Fin cfg0.N) (h8 : 8 ≤ t.val) (h' : t.val - 1 < cfg0.N) :
    (dat0 V c).after 10 t = (dat0 V c).after 10 ⟨t.val - 1, h'⟩ := by
  rw [after0_10, after0_10, p1_pred t h8 h']

/-- What tower 1's output buffer holds when the body runs at `t`: nothing stated where nothing was stored since the last
    write-back, else what the point before left. -/
theorem before0_10 (c : Dev nD) (t : Fin cfg0.N) (d) :
    (dat0 V c).before 10 t d = if cfg0.fresh 10 t.val then d else (dat0 V c).after 10 ⟨t.val - 1, by omega⟩ :=
  (dat0 V c).before_out_traj 10 rfl (fun _ _ => rfl)
    (fun t ht hi hfr => carry10 V c t (by have := idle10 t; rw [this] at hi; exact of_decide_eq_true hi) _) t.val t rfl d

/-- At tower 2's points it holds tower 1's last block, as `after` there says. -/
theorem before0_10_ge (c : Dev nD) (t : Fin cfg0.N) (h8 : 8 ≤ t.val) (d) : (dat0 V c).before 10 t d = (dat0 V c).after 10 t := by
  have hN : t.val < 16 := lt_of_lt_of_eq t.isLt N_0
  have hfr : cfg0.fresh 10 t.val = false := by
    rw [fresh10 t.val (le_of_lt t.isLt)]
    rw [decide_eq_false (by omega : ¬ t.val ≤ 7), decide_eq_false (by omega : ¬ 16 ≤ t.val)]; rfl
  rw [before0_10, hfr, if_neg Bool.false_ne_true]
  exact (carry10 V c t h8 _).symm

/-! ## The body obligation, at a generic point -/

/-- Where output window 10 is live the body leaves it at `after`, -/
theorem leaves10_live (c : Dev nD) (t : Fin cfg0.N) (h : cfg0.idle 10 (cfg0.grid.coords t) = false) :
    (dat0 V c).leavesExact 10 t = owns (c : Thread nD τ) (st0_10 t) fullShare ((dat0 V c).after 10 t) := by
  unfold Dat.leavesExact; rw [h]
/-- and output window 11 likewise; -/
theorem leaves11_live (c : Dev nD) (t : Fin cfg0.N) (h : cfg0.idle 11 (cfg0.grid.coords t) = false) :
    (dat0 V c).leavesExact 11 t = owns (c : Thread nD τ) (st0_11 t) fullShare ((dat0 V c).after 11 t) := by
  unfold Dat.leavesExact; rw [h]
/-- so too where window 10 is written back, idle there or not. -/
theorem leaves10_flush (c : Dev nD) (t : Fin cfg0.N) (h : (cfg0.win 10).flush t = true) :
    (dat0 V c).leavesExact 10 t = owns (c : Thread nD τ) (st0_10 t) fullShare ((dat0 V c).after 10 t) := by
  unfold Dat.leavesExact; rw [h]; cases cfg0.idle 10 (cfg0.grid.coords t) <;> rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: each input's buffer at its block, each output's at what the body leaves there — where the output
    is idle and not written back, as it was found. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ (dat0 V c).leavesExact 10 t
    ∗ (dat0 V c).leavesExact 11 t)

set_option maxHeartbeats 4000000 in
/-- The body at any point: at one of the first eight, tower 1's triple, tower 2's output handed back as found; at one of the
    last eight, tower 2's triple, tower 1's output handed back as found — at its last block where the point writes it back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases ht : t.val < 8
  · have h1 : k0_cond1 (grid0.coords t) = 1#1 := (hcond1 t).mpr ht
    have h2 : ¬ k0_cond2 (grid0.coords t) = 1#1 := fun h => absurd ((hcond2 t).mp h) (by omega)
    rw [leaves10_live V c t (by rw [idle10]; exact decide_eq_false (by omega)),
      (dat0 V c).leavesExact_idle 11 t (by rw [idle11]; exact decide_eq_true ht) (flush11_lt t ht),
      after0_10, p1_lt t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    iapply (sound_kernel0_t1 c Set.univ (grid0.coords t) h1 h2 _ _ _ _ _ _ _ _ _ _ _ _ _ _ _ _ _ _ _ _ _ _ _ _ (iblk0 V c 0 t) (iblk0 V c 2 t) (iblk0 V c 4 t) (iblk0 V c 6 t) (iblk0 V c 8 t) _)
    isplitl [H0]; · iexact H0
    isplitl [H2]; · iexact H2
    isplitl [H4]; · iexact H4
    isplitl [H6]; · iexact H6
    isplitl [H8]; · iexact H8
    isplitl [H10]; · iexists _; iexact H10
    iintro ⟨H0, H2, H4, H6, H8, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have ht8 : 8 ≤ t.val := by omega
    have h1 : ¬ k0_cond1 (grid0.coords t) = 1#1 := fun h => absurd ((hcond1 t).mp h) ht
    have h2 : k0_cond2 (grid0.coords t) = 1#1 := (hcond2 t).mpr ht8
    rw [leaves11_live V c t (by rw [idle11]; exact decide_eq_false ht), after0_11]
    cases hf : (cfg0.win 10).flush t
    · rw [(dat0 V c).leavesExact_idle 10 t (by rw [idle10]; exact decide_eq_true ht8) hf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%d11, H11⟩⟩
      iapply (sound_kernel0_t2 c Set.univ (grid0.coords t) h1 h2 _ _ _ _ _ _ _ _ _ _ _ _ _ _ _ _ _ _ _ _ _ _ _ _ (iblk0 V c 1 t) (iblk0 V c 3 t) (iblk0 V c 5 t) (iblk0 V c 7 t) (iblk0 V c 9 t) _)
      isplitl [H1]; · iexact H1
      isplitl [H3]; · iexact H3
      isplitl [H5]; · iexact H5
      isplitl [H7]; · iexact H7
      isplitl [H9]; · iexact H9
      isplitl [H11]; · iexists _; iexact H11
      iintro ⟨H1, H3, H5, H7, H9, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [leaves10_flush V c t hf]
      simp only [before0_10_ge V c t ht8]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel0_t2 c Set.univ (grid0.coords t) h1 h2 _ _ _ _ _ _ _ _ _ _ _ _ _ _ _ _ _ _ _ _ _ _ _ _ (iblk0 V c 1 t) (iblk0 V c 3 t) (iblk0 V c 5 t) (iblk0 V c 7 t) (iblk0 V c 9 t) _)
      isplitl [H1]; · iexact H1
      isplitl [H3]; · iexact H3
      isplitl [H5]; · iexact H5
      isplitl [H7]; · iexact H7
      isplitl [H9]; · iexact H9
      isplitl [H11]; · iexists _; iexact H11
      iintro ⟨H1, H3, H5, H7, H9, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the region -/

/-! The input arrays are never written back. -/
/-- Input window 0's array is as the region found it. -/
theorem kept0_0 (c : Dev nD) : (dat0 V c).arrAt 0 cfg0.N = V c (Pipeline.arrRef spec0 0) :=
  ((dat0 V c).arrAt_in 0 rfl _).trans (A_eq0 V c 0)
/-- Input window 1's array is as the region found it. -/
theorem kept0_1 (c : Dev nD) : (dat0 V c).arrAt 1 cfg0.N = V c (Pipeline.arrRef spec0 1) :=
  ((dat0 V c).arrAt_in 1 rfl _).trans (A_eq0 V c 1)
/-- Input window 2's array is as the region found it. -/
theorem kept0_2 (c : Dev nD) : (dat0 V c).arrAt 2 cfg0.N = V c (Pipeline.arrRef spec0 2) :=
  ((dat0 V c).arrAt_in 2 rfl _).trans (A_eq0 V c 2)
/-- Input window 3's array is as the region found it. -/
theorem kept0_3 (c : Dev nD) : (dat0 V c).arrAt 3 cfg0.N = V c (Pipeline.arrRef spec0 3) :=
  ((dat0 V c).arrAt_in 3 rfl _).trans (A_eq0 V c 3)
/-- Input window 4's array is as the region found it. -/
theorem kept0_4 (c : Dev nD) : (dat0 V c).arrAt 4 cfg0.N = V c (Pipeline.arrRef spec0 4) :=
  ((dat0 V c).arrAt_in 4 rfl _).trans (A_eq0 V c 4)
/-- Input window 5's array is as the region found it. -/
theorem kept0_5 (c : Dev nD) : (dat0 V c).arrAt 5 cfg0.N = V c (Pipeline.arrRef spec0 5) :=
  ((dat0 V c).arrAt_in 5 rfl _).trans (A_eq0 V c 5)
/-- Input window 6's array is as the region found it. -/
theorem kept0_6 (c : Dev nD) : (dat0 V c).arrAt 6 cfg0.N = V c (Pipeline.arrRef spec0 6) :=
  ((dat0 V c).arrAt_in 6 rfl _).trans (A_eq0 V c 6)
/-- Input window 7's array is as the region found it. -/
theorem kept0_7 (c : Dev nD) : (dat0 V c).arrAt 7 cfg0.N = V c (Pipeline.arrRef spec0 7) :=
  ((dat0 V c).arrAt_in 7 rfl _).trans (A_eq0 V c 7)
/-- Input window 8's array is as the region found it. -/
theorem kept0_8 (c : Dev nD) : (dat0 V c).arrAt 8 cfg0.N = V c (Pipeline.arrRef spec0 8) :=
  ((dat0 V c).arrAt_in 8 rfl _).trans (A_eq0 V c 8)
/-- Input window 9's array is as the region found it. -/
theorem kept0_9 (c : Dev nD) : (dat0 V c).arrAt 9 cfg0.N = V c (Pipeline.arrRef spec0 9) :=
  ((dat0 V c).arrAt_in 9 rfl _).trans (A_eq0 V c 9)

/-- Window 2's block index is (0, 0) at every point. -/
theorem idxc_2 : ∀ t : Fin cfg0.N, win0_2.index t = ![0, 0] :=
  (by decide +kernel : ∀ t : Fin grid0.N, win0_2.index t = ![0, 0])
/-- Window 3's block index is (0, 0) at every point. -/
theorem idxc_3 : ∀ t : Fin cfg0.N, win0_3.index t = ![0, 0] :=
  (by decide +kernel : ∀ t : Fin grid0.N, win0_3.index t = ![0, 0])
/-- Window 4's block index is (0, 0) at every point. -/
theorem idxc_4 : ∀ t : Fin cfg0.N, win0_4.index t = ![0, 0] :=
  (by decide +kernel : ∀ t : Fin grid0.N, win0_4.index t = ![0, 0])
/-- Window 5's block index is (0, 0) at every point. -/
theorem idxc_5 : ∀ t : Fin cfg0.N, win0_5.index t = ![0, 0] :=
  (by decide +kernel : ∀ t : Fin grid0.N, win0_5.index t = ![0, 0])
/-- Window 6's block index is (0, 0) at every point. -/
theorem idxc_6 : ∀ t : Fin cfg0.N, win0_6.index t = ![0, 0] :=
  (by decide +kernel : ∀ t : Fin grid0.N, win0_6.index t = ![0, 0])
/-- Window 7's block index is (0, 0) at every point. -/
theorem idxc_7 : ∀ t : Fin cfg0.N, win0_7.index t = ![0, 0] :=
  (by decide +kernel : ∀ t : Fin grid0.N, win0_7.index t = ![0, 0])
/-- Window 8's block index is (0, 0) at every point. -/
theorem idxc_8 : ∀ t : Fin cfg0.N, win0_8.index t = ![0, 0] :=
  (by decide +kernel : ∀ t : Fin grid0.N, win0_8.index t = ![0, 0])
/-- Window 9's block index is (0, 0) at every point. -/
theorem idxc_9 : ∀ t : Fin cfg0.N, win0_9.index t = ![0, 0] :=
  (by decide +kernel : ∀ t : Fin grid0.N, win0_9.index t = ![0, 0])
/-- Window 2's block is its whole array at every point. -/
theorem blkc2_eq (c : Dev nD) (t : Fin cfg0.N) : (iblk0 V c 2 t : Vec F S4096x256 .bf16) = V c (Pipeline.arrRef spec0 2) := by
  funext y
  have hi := idxc_2 t
  have i0 : win0_2.index t (0 : Fin 2) = 0 := congrFun hi 0
  have i1 : win0_2.index t (1 : Fin 2) = 0 := congrFun hi 1
  have e : ((cfg0.win 2).blk t).view.emb y = y := by
    funext a; apply Fin.ext
    match a with
    | ⟨0, _⟩ =>
      have hb : (((cfg0.win 2).blk t).view.emb y 0).val = win0_2.index t (0 : Fin 2) * 4096 + 1 * (y 0).val := rfl
      show (((cfg0.win 2).blk t).view.emb y 0).val = (y 0).val
      rw [hb, i0]; omega
    | ⟨1, _⟩ =>
      have hb : (((cfg0.win 2).blk t).view.emb y 1).val = win0_2.index t (1 : Fin 2) * 256 + 1 * (y 1).val := rfl
      show (((cfg0.win 2).blk t).view.emb y 1).val = (y 1).val
      rw [hb, i1]; omega
  show V c (Pipeline.arrRef spec0 2) (((cfg0.win 2).blk t).view.emb y) = V c (Pipeline.arrRef spec0 2) y
  rw [e]
/-- Window 3's block is its whole array at every point. -/
theorem blkc3_eq (c : Dev nD) (t : Fin cfg0.N) : (iblk0 V c 3 t : Vec F S4096x256 .bf16) = V c (Pipeline.arrRef spec0 3) := by
  funext y
  have hi := idxc_3 t
  have i0 : win0_3.index t (0 : Fin 2) = 0 := congrFun hi 0
  have i1 : win0_3.index t (1 : Fin 2) = 0 := congrFun hi 1
  have e : ((cfg0.win 3).blk t).view.emb y = y := by
    funext a; apply Fin.ext
    match a with
    | ⟨0, _⟩ =>
      have hb : (((cfg0.win 3).blk t).view.emb y 0).val = win0_3.index t (0 : Fin 2) * 4096 + 1 * (y 0).val := rfl
      show (((cfg0.win 3).blk t).view.emb y 0).val = (y 0).val
      rw [hb, i0]; omega
    | ⟨1, _⟩ =>
      have hb : (((cfg0.win 3).blk t).view.emb y 1).val = win0_3.index t (1 : Fin 2) * 256 + 1 * (y 1).val := rfl
      show (((cfg0.win 3).blk t).view.emb y 1).val = (y 1).val
      rw [hb, i1]; omega
  show V c (Pipeline.arrRef spec0 3) (((cfg0.win 3).blk t).view.emb y) = V c (Pipeline.arrRef spec0 3) y
  rw [e]
/-- Window 4's block is its whole array at every point. -/
theorem blkc4_eq (c : Dev nD) (t : Fin cfg0.N) : (iblk0 V c 4 t : Vec F S256x256 .bf16) = V c (Pipeline.arrRef spec0 4) := by
  funext y
  have hi := idxc_4 t
  have i0 : win0_4.index t (0 : Fin 2) = 0 := congrFun hi 0
  have i1 : win0_4.index t (1 : Fin 2) = 0 := congrFun hi 1
  have e : ((cfg0.win 4).blk t).view.emb y = y := by
    funext a; apply Fin.ext
    match a with
    | ⟨0, _⟩ =>
      have hb : (((cfg0.win 4).blk t).view.emb y 0).val = win0_4.index t (0 : Fin 2) * 256 + 1 * (y 0).val := rfl
      show (((cfg0.win 4).blk t).view.emb y 0).val = (y 0).val
      rw [hb, i0]; omega
    | ⟨1, _⟩ =>
      have hb : (((cfg0.win 4).blk t).view.emb y 1).val = win0_4.index t (1 : Fin 2) * 256 + 1 * (y 1).val := rfl
      show (((cfg0.win 4).blk t).view.emb y 1).val = (y 1).val
      rw [hb, i1]; omega
  show V c (Pipeline.arrRef spec0 4) (((cfg0.win 4).blk t).view.emb y) = V c (Pipeline.arrRef spec0 4) y
  rw [e]
/-- Window 5's block is its whole array at every point. -/
theorem blkc5_eq (c : Dev nD) (t : Fin cfg0.N) : (iblk0 V c 5 t : Vec F S256x256 .bf16) = V c (Pipeline.arrRef spec0 5) := by
  funext y
  have hi := idxc_5 t
  have i0 : win0_5.index t (0 : Fin 2) = 0 := congrFun hi 0
  have i1 : win0_5.index t (1 : Fin 2) = 0 := congrFun hi 1
  have e : ((cfg0.win 5).blk t).view.emb y = y := by
    funext a; apply Fin.ext
    match a with
    | ⟨0, _⟩ =>
      have hb : (((cfg0.win 5).blk t).view.emb y 0).val = win0_5.index t (0 : Fin 2) * 256 + 1 * (y 0).val := rfl
      show (((cfg0.win 5).blk t).view.emb y 0).val = (y 0).val
      rw [hb, i0]; omega
    | ⟨1, _⟩ =>
      have hb : (((cfg0.win 5).blk t).view.emb y 1).val = win0_5.index t (1 : Fin 2) * 256 + 1 * (y 1).val := rfl
      show (((cfg0.win 5).blk t).view.emb y 1).val = (y 1).val
      rw [hb, i1]; omega
  show V c (Pipeline.arrRef spec0 5) (((cfg0.win 5).blk t).view.emb y) = V c (Pipeline.arrRef spec0 5) y
  rw [e]
/-- Window 6's block is its whole array at every point. -/
theorem blkc6_eq (c : Dev nD) (t : Fin cfg0.N) : (iblk0 V c 6 t : Vec F S1x256 .f32) = V c (Pipeline.arrRef spec0 6) := by
  funext y
  have hi := idxc_6 t
  have i0 : win0_6.index t (0 : Fin 2) = 0 := congrFun hi 0
  have i1 : win0_6.index t (1 : Fin 2) = 0 := congrFun hi 1
  have e : ((cfg0.win 6).blk t).view.emb y = y := by
    funext a; apply Fin.ext
    match a with
    | ⟨0, _⟩ =>
      have hb : (((cfg0.win 6).blk t).view.emb y 0).val = win0_6.index t (0 : Fin 2) * 1 + 1 * (y 0).val := rfl
      show (((cfg0.win 6).blk t).view.emb y 0).val = (y 0).val
      rw [hb, i0]; omega
    | ⟨1, _⟩ =>
      have hb : (((cfg0.win 6).blk t).view.emb y 1).val = win0_6.index t (1 : Fin 2) * 256 + 1 * (y 1).val := rfl
      show (((cfg0.win 6).blk t).view.emb y 1).val = (y 1).val
      rw [hb, i1]; omega
  show V c (Pipeline.arrRef spec0 6) (((cfg0.win 6).blk t).view.emb y) = V c (Pipeline.arrRef spec0 6) y
  rw [e]
/-- Window 7's block is its whole array at every point. -/
theorem blkc7_eq (c : Dev nD) (t : Fin cfg0.N) : (iblk0 V c 7 t : Vec F S1x256 .f32) = V c (Pipeline.arrRef spec0 7) := by
  funext y
  have hi := idxc_7 t
  have i0 : win0_7.index t (0 : Fin 2) = 0 := congrFun hi 0
  have i1 : win0_7.index t (1 : Fin 2) = 0 := congrFun hi 1
  have e : ((cfg0.win 7).blk t).view.emb y = y := by
    funext a; apply Fin.ext
    match a with
    | ⟨0, _⟩ =>
      have hb : (((cfg0.win 7).blk t).view.emb y 0).val = win0_7.index t (0 : Fin 2) * 1 + 1 * (y 0).val := rfl
      show (((cfg0.win 7).blk t).view.emb y 0).val = (y 0).val
      rw [hb, i0]; omega
    | ⟨1, _⟩ =>
      have hb : (((cfg0.win 7).blk t).view.emb y 1).val = win0_7.index t (1 : Fin 2) * 256 + 1 * (y 1).val := rfl
      show (((cfg0.win 7).blk t).view.emb y 1).val = (y 1).val
      rw [hb, i1]; omega
  show V c (Pipeline.arrRef spec0 7) (((cfg0.win 7).blk t).view.emb y) = V c (Pipeline.arrRef spec0 7) y
  rw [e]
/-- Window 8's block is its whole array at every point. -/
theorem blkc8_eq (c : Dev nD) (t : Fin cfg0.N) : (iblk0 V c 8 t : Vec F S256x128 .bf16) = V c (Pipeline.arrRef spec0 8) := by
  funext y
  have hi := idxc_8 t
  have i0 : win0_8.index t (0 : Fin 2) = 0 := congrFun hi 0
  have i1 : win0_8.index t (1 : Fin 2) = 0 := congrFun hi 1
  have e : ((cfg0.win 8).blk t).view.emb y = y := by
    funext a; apply Fin.ext
    match a with
    | ⟨0, _⟩ =>
      have hb : (((cfg0.win 8).blk t).view.emb y 0).val = win0_8.index t (0 : Fin 2) * 256 + 1 * (y 0).val := rfl
      show (((cfg0.win 8).blk t).view.emb y 0).val = (y 0).val
      rw [hb, i0]; omega
    | ⟨1, _⟩ =>
      have hb : (((cfg0.win 8).blk t).view.emb y 1).val = win0_8.index t (1 : Fin 2) * 128 + 1 * (y 1).val := rfl
      show (((cfg0.win 8).blk t).view.emb y 1).val = (y 1).val
      rw [hb, i1]; omega
  show V c (Pipeline.arrRef spec0 8) (((cfg0.win 8).blk t).view.emb y) = V c (Pipeline.arrRef spec0 8) y
  rw [e]
/-- Window 9's block is its whole array at every point. -/
theorem blkc9_eq (c : Dev nD) (t : Fin cfg0.N) : (iblk0 V c 9 t : Vec F S256x128 .bf16) = V c (Pipeline.arrRef spec0 9) := by
  funext y
  have hi := idxc_9 t
  have i0 : win0_9.index t (0 : Fin 2) = 0 := congrFun hi 0
  have i1 : win0_9.index t (1 : Fin 2) = 0 := congrFun hi 1
  have e : ((cfg0.win 9).blk t).view.emb y = y := by
    funext a; apply Fin.ext
    match a with
    | ⟨0, _⟩ =>
      have hb : (((cfg0.win 9).blk t).view.emb y 0).val = win0_9.index t (0 : Fin 2) * 256 + 1 * (y 0).val := rfl
      show (((cfg0.win 9).blk t).view.emb y 0).val = (y 0).val
      rw [hb, i0]; omega
    | ⟨1, _⟩ =>
      have hb : (((cfg0.win 9).blk t).view.emb y 1).val = win0_9.index t (1 : Fin 2) * 128 + 1 * (y 1).val := rfl
      show (((cfg0.win 9).blk t).view.emb y 1).val = (y 1).val
      rw [hb, i1]; omega
  show V c (Pipeline.arrRef spec0 9) (((cfg0.win 9).blk t).view.emb y) = V c (Pipeline.arrRef spec0 9) y
  rw [e]

/-- Adjacency window 0's block at a point of block index (k, 0) is row block k of its array. -/
theorem blk0_eq (c : Dev nD) (t : Fin cfg0.N) (k : Fin 8) (h0 : win0_0.index t (0 : Fin 2) = k.val) (h1 : win0_0.index t (1 : Fin 2) = 0) :
    (iblk0 V c 0 t : Vec F S512x4096 .f32) = rowBlk (V c (Pipeline.arrRef spec0 0)) k := by
  funext y
  have hy0 : (y 0).val < 512 := idx2_lt0 y
  have e : ((cfg0.win 0).blk t).view.emb y = (ix2 (n1 := 4096) (⟨512 * k.val + (y 0).val, by have := k.isLt; omega⟩ : Fin 4096) (y 1) : S4096x4096.Idx) := by
    funext a; apply Fin.ext
    match a with
    | ⟨0, _⟩ =>
      have hb : (((cfg0.win 0).blk t).view.emb y 0).val = win0_0.index t (0 : Fin 2) * 512 + 1 * (y 0).val := rfl
      show (((cfg0.win 0).blk t).view.emb y 0).val = 512 * k.val + (y 0).val
      rw [hb, h0]; omega
    | ⟨1, _⟩ =>
      have hb : (((cfg0.win 0).blk t).view.emb y 1).val = win0_0.index t (1 : Fin 2) * 4096 + 1 * (y 1).val := rfl
      show (((cfg0.win 0).blk t).view.emb y 1).val = (y 1).val
      rw [hb, h1]; omega
  show V c (Pipeline.arrRef spec0 0) (((cfg0.win 0).blk t).view.emb y) = rowBlk (V c (Pipeline.arrRef spec0 0)) k y
  rw [e]; rfl
/-- Adjacency window 1's block at a point of block index (k, 0) is row block k of its array. -/
theorem blk1_eq (c : Dev nD) (t : Fin cfg0.N) (k : Fin 8) (h0 : win0_1.index t (0 : Fin 2) = k.val) (h1 : win0_1.index t (1 : Fin 2) = 0) :
    (iblk0 V c 1 t : Vec F S512x4096 .f32) = rowBlk (V c (Pipeline.arrRef spec0 1)) k := by
  funext y
  have hy0 : (y 0).val < 512 := idx2_lt0 y
  have e : ((cfg0.win 1).blk t).view.emb y = (ix2 (n1 := 4096) (⟨512 * k.val + (y 0).val, by have := k.isLt; omega⟩ : Fin 4096) (y 1) : S4096x4096.Idx) := by
    funext a; apply Fin.ext
    match a with
    | ⟨0, _⟩ =>
      have hb : (((cfg0.win 1).blk t).view.emb y 0).val = win0_1.index t (0 : Fin 2) * 512 + 1 * (y 0).val := rfl
      show (((cfg0.win 1).blk t).view.emb y 0).val = 512 * k.val + (y 0).val
      rw [hb, h0]; omega
    | ⟨1, _⟩ =>
      have hb : (((cfg0.win 1).blk t).view.emb y 1).val = win0_1.index t (1 : Fin 2) * 4096 + 1 * (y 1).val := rfl
      show (((cfg0.win 1).blk t).view.emb y 1).val = (y 1).val
      rw [hb, h1]; omega
  show V c (Pipeline.arrRef spec0 1) (((cfg0.win 1).blk t).view.emb y) = rowBlk (V c (Pipeline.arrRef spec0 1)) k y
  rw [e]; rfl

/-! ### Output window 10 (tower 1) -/

/-- Over the grid: the adjacency block tower 1's output was last computed from sits at the output's row block, and the output's block indices stay in range. -/
theorem hidx10 : ∀ t : Fin cfg0.N, win0_0.index (p1 t) (0 : Fin 2) = win0_10.index t (0 : Fin 2) ∧ win0_0.index (p1 t) (1 : Fin 2) = 0
    ∧ win0_10.index t (0 : Fin 2) < 8 ∧ win0_10.index t (1 : Fin 2) = 0 :=
  (by decide +kernel : ∀ t : Fin grid0.N, win0_0.index (p1 t) (0 : Fin 2) = win0_10.index t (0 : Fin 2) ∧ win0_0.index (p1 t) (1 : Fin 2) = 0
    ∧ win0_10.index t (0 : Fin 2) < 8 ∧ win0_10.index t (1 : Fin 2) = 0)

/-- Every row block is some writing-back point's. -/
theorem onto10 : ∀ q : Fin 8, ∃ t : Fin cfg0.N, (cfg0.win 10).flush t = true ∧ win0_10.index t = ![q.val, 0] :=
  (by decide +kernel : ∀ q : Fin 8, ∃ t : Fin grid0.N, win0_10.flush t = true ∧ win0_10.index t = ![q.val, 0])

/-- What a writing-back point writes is its block of `G0_10`. -/
theorem flushed10_eq (c : Dev nD) (t : Fin cfg0.N) :
    (dat0 V c).flushed 10 t = ((cfg0.win 10).blk t).view.read (Elt F) (G0_10 (V c (Pipeline.arrRef spec0 0)) (V c (Pipeline.arrRef spec0 2)) (V c (Pipeline.arrRef spec0 4)) (V c (Pipeline.arrRef spec0 6)) (V c (Pipeline.arrRef spec0 8))) := by
  show (cfg0.win 10).cut (grid0.coords t) ((dat0 V c).after 10 t) = _
  rw [after0_10]
  obtain ⟨e0, e1, e2, e3⟩ := hidx10 t
  funext y
  have hy0 : (y 0).val < 512 := (y 0).isLt
  have hb0 : (((cfg0.win 10).blk t).view.emb y 0).val = win0_10.index t (0 : Fin 2) * 512 + 1 * (y 0).val := rfl
  have hb1 : (((cfg0.win 10).blk t).view.emb y 1).val = win0_10.index t (1 : Fin 2) * 128 + 1 * (y 1).val := rfl
  show out0_10 (iblk0 V c 0 (p1 t)) (iblk0 V c 2 (p1 t)) (iblk0 V c 4 (p1 t)) (iblk0 V c 6 (p1 t)) (iblk0 V c 8 (p1 t)) ((cfg0.win 10).xinj (grid0.coords t) y)
    = G0_10 (V c (Pipeline.arrRef spec0 0)) (V c (Pipeline.arrRef spec0 2)) (V c (Pipeline.arrRef spec0 4)) (V c (Pipeline.arrRef spec0 6)) (V c (Pipeline.arrRef spec0 8)) (((cfg0.win 10).blk t).view.emb y)
  refine (congrFun (out0_10_eq _ _ _ _ _) _).trans ?_
  rw [blk0_eq V c (p1 t) ⟨win0_10.index t (0 : Fin 2), e2⟩ e0 e1, blkc2_eq V c (p1 t), blkc4_eq V c (p1 t), blkc6_eq V c (p1 t), blkc8_eq V c (p1 t)]
  refine (G0_10_at _ _ _ _ _ ⟨win0_10.index t (0 : Fin 2), e2⟩ ((cfg0.win 10).xinj (grid0.coords t) y) (((cfg0.win 10).blk t).view.emb y) ?_ ?_).symm
  · show (((cfg0.win 10).blk t).view.emb y 0).val = 512 * win0_10.index t (0 : Fin 2) + (y 0).val
    rw [hb0]; omega
  · show (((cfg0.win 10).blk t).view.emb y 1).val = (y 1).val
    rw [hb1, e3]; omega

/-- An index of the array is in point `t`'s block iff each coordinate is in the block's range on its axis. -/
theorem mem_blk10 (t : Fin cfg0.N) (i : S4096x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v8_0).slice (win0_10.rect t)).set ↔ _
  rw [View.set_slice_whole, Rect.mem_set_unit]
  exact Iff.rfl

/-- The writing-back points' blocks cover the array. -/
theorem cover10 (i : S4096x128.Idx) : ∃ t : Fin cfg0.N, (cfg0.win 10).flush t = true ∧ i ∈ ((cfg0.win 10).blk t).view.set := by
  have hi0 : (i 0).val < 4096 := idx2_lt0 i
  have hi1 : (i 1).val < 128 := idx2_lt1 i
  obtain ⟨t, hft, ht⟩ := onto10 ⟨(i 0).val / 512, by omega⟩
  have q0 : win0_10.index t (0 : Fin 2) = (i 0).val / 512 := congrFun ht 0
  have q1 : win0_10.index t (1 : Fin 2) = 0 := congrFun ht 1
  refine ⟨t, hft, (mem_blk10 t i).2 fun a => ?_⟩
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 128 ≤ (i 1).val ∧ (i 1).val < win0_10.index t (1 : Fin 2) * 128 + 128; omega

/-- THE ARRAY of output window 10 after the region's last write-back, as one function of the entry contents. -/
theorem final0_10 (c : Dev nD) : (dat0 V c).arrAt 10 cfg0.N = G0_10 (V c (Pipeline.arrRef spec0 0)) (V c (Pipeline.arrRef spec0 2)) (V c (Pipeline.arrRef spec0 4)) (V c (Pipeline.arrRef spec0 6)) (V c (Pipeline.arrRef spec0 8)) :=
  (dat0 V c).arrAt_eq_of_cover 10 _ (fun t _ => flushed10_eq V c t) (cover10)

/-! ### Output window 11 (tower 2) -/

/-- Over the grid: tower 2's adjacency block sits at its output's row block, and the output's block indices stay in range. -/
theorem hidx11 : ∀ t : Fin cfg0.N, win0_1.index t (0 : Fin 2) = win0_11.index t (0 : Fin 2) ∧ win0_1.index t (1 : Fin 2) = 0
    ∧ win0_11.index t (0 : Fin 2) < 8 ∧ win0_11.index t (1 : Fin 2) = 0 :=
  (by decide +kernel : ∀ t : Fin grid0.N, win0_1.index t (0 : Fin 2) = win0_11.index t (0 : Fin 2) ∧ win0_1.index t (1 : Fin 2) = 0
    ∧ win0_11.index t (0 : Fin 2) < 8 ∧ win0_11.index t (1 : Fin 2) = 0)

/-- Every row block is some writing-back point's. -/
theorem onto11 : ∀ q : Fin 8, ∃ t : Fin cfg0.N, (cfg0.win 11).flush t = true ∧ win0_11.index t = ![q.val, 0] :=
  (by decide +kernel : ∀ q : Fin 8, ∃ t : Fin grid0.N, win0_11.flush t = true ∧ win0_11.index t = ![q.val, 0])

/-- What a writing-back point writes is its block of `G0_11`. -/
theorem flushed11_eq (c : Dev nD) (t : Fin cfg0.N) :
    (dat0 V c).flushed 11 t = ((cfg0.win 11).blk t).view.read (Elt F) (G0_11 (V c (Pipeline.arrRef spec0 1)) (V c (Pipeline.arrRef spec0 3)) (V c (Pipeline.arrRef spec0 5)) (V c (Pipeline.arrRef spec0 7)) (V c (Pipeline.arrRef spec0 9))) := by
  show (cfg0.win 11).cut (grid0.coords t) ((dat0 V c).after 11 t) = _
  rw [after0_11]
  obtain ⟨e0, e1, e2, e3⟩ := hidx11 t
  funext y
  have hy0 : (y 0).val < 512 := (y 0).isLt
  have hb0 : (((cfg0.win 11).blk t).view.emb y 0).val = win0_11.index t (0 : Fin 2) * 512 + 1 * (y 0).val := rfl
  have hb1 : (((cfg0.win 11).blk t).view.emb y 1).val = win0_11.index t (1 : Fin 2) * 128 + 1 * (y 1).val := rfl
  show out0_11 (iblk0 V c 1 t) (iblk0 V c 3 t) (iblk0 V c 5 t) (iblk0 V c 7 t) (iblk0 V c 9 t) ((cfg0.win 11).xinj (grid0.coords t) y)
    = G0_11 (V c (Pipeline.arrRef spec0 1)) (V c (Pipeline.arrRef spec0 3)) (V c (Pipeline.arrRef spec0 5)) (V c (Pipeline.arrRef spec0 7)) (V c (Pipeline.arrRef spec0 9)) (((cfg0.win 11).blk t).view.emb y)
  refine (congrFun (out0_11_eq _ _ _ _ _) _).trans ?_
  rw [blk1_eq V c t ⟨win0_11.index t (0 : Fin 2), e2⟩ e0 e1, blkc3_eq V c t, blkc5_eq V c t, blkc7_eq V c t, blkc9_eq V c t]
  refine (G0_11_at _ _ _ _ _ ⟨win0_11.index t (0 : Fin 2), e2⟩ ((cfg0.win 11).xinj (grid0.coords t) y) (((cfg0.win 11).blk t).view.emb y) ?_ ?_).symm
  · show (((cfg0.win 11).blk t).view.emb y 0).val = 512 * win0_11.index t (0 : Fin 2) + (y 0).val
    rw [hb0]; omega
  · show (((cfg0.win 11).blk t).view.emb y 1).val = (y 1).val
    rw [hb1, e3]; omega

/-- An index of the array is in point `t`'s block iff each coordinate is in the block's range on its axis. -/
theorem mem_blk11 (t : Fin cfg0.N) (i : S4096x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v8_1).slice (win0_11.rect t)).set ↔ _
  rw [View.set_slice_whole, Rect.mem_set_unit]
  exact Iff.rfl

/-- The writing-back points' blocks cover the array. -/
theorem cover11 (i : S4096x128.Idx) : ∃ t : Fin cfg0.N, (cfg0.win 11).flush t = true ∧ i ∈ ((cfg0.win 11).blk t).view.set := by
  have hi0 : (i 0).val < 4096 := idx2_lt0 i
  have hi1 : (i 1).val < 128 := idx2_lt1 i
  obtain ⟨t, hft, ht⟩ := onto11 ⟨(i 0).val / 512, by omega⟩
  have q0 : win0_11.index t (0 : Fin 2) = (i 0).val / 512 := congrFun ht 0
  have q1 : win0_11.index t (1 : Fin 2) = 0 := congrFun ht 1
  refine ⟨t, hft, (mem_blk11 t i).2 fun a => ?_⟩
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 128 ≤ (i 1).val ∧ (i 1).val < win0_11.index t (1 : Fin 2) * 128 + 128; omega

/-- THE ARRAY of output window 11 after the region's last write-back, as one function of the entry contents. -/
theorem final0_11 (c : Dev nD) : (dat0 V c).arrAt 11 cfg0.N = G0_11 (V c (Pipeline.arrRef spec0 1)) (V c (Pipeline.arrRef spec0 3)) (V c (Pipeline.arrRef spec0 5)) (V c (Pipeline.arrRef spec0 7)) (V c (Pipeline.arrRef spec0 9)) :=
  (dat0 V c).arrAt_eq_of_cover 11 _ (fun t _ => flushed11_eq V c t) (cover11)

end Region

end Cert.Kernel.Mid

end
-- ==== Proof.OutRunB.lean ====
/-
  One grid point of the second graph-convolution layer's tiled program, as a statement about buffers.

  The program visits sixteen points: the first eight work for tower 1, the last eight for tower 2, and a point's work
  is the same for either — load a block of 512 rows of the tower's adjacency matrix, the tower's whole support array and
  its bias row; store the rows z = adj_blk · s2 + b2 into one output buffer and the same rows divided by their Euclidean
  norms into another. Exactly one of the two conditions (point < 8, point ≥ 8) holds at a point, so the body has two
  control cases, and in each the other tower's five buffers are not touched. Stated and proved here, once per case: what
  the body leaves in the two buffers it stores into, as a function of the three blocks it loads.
-/
import proofs.«134049_g16819091931673_cont_week2b_1393_5_alg».proof.Proof.Gen.Kernel.Launch
import proofs.«134049_g16819091931673_cont_week2b_1393_5_alg».proof.Proof.Gen.Kernel.Skeleton
import proofs.«134049_g16819091931673_cont_week2b_1393_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The layer's body on any staging memrefs: its two control cases -/

/-! ## The body's accesses: each whole buffer -/

abbrev rA : Rect S512x4096 := Rect.unit (s := S512x4096) ![0, 0] S512x4096.size inb_S512x4096_S512x4096_0_0
abbrev rS : Rect S4096x128 := Rect.unit (s := S4096x128) ![0, 0] S4096x128.size inb_S4096x128_S4096x128_0_0
abbrev rB : Rect S1x128 := Rect.unit (s := S1x128) ![0, 0] S1x128.size inb_S1x128_S1x128_0_0
abbrev rO : Rect S512x128 := Rect.unit (s := S512x128) ![0, 0] S512x128.size inb_S512x128_S512x128_0_0

/-! ## What a tower's point leaves in its two output buffers, from the blocks it loads -/

/-- The rows z = adj_blk·s2 + b2 of tower 1: the one store into the f32 output buffer, as pieces. -/
def out1_6 (xa : Vec F S512x4096 .f32) (xs : Vec F S4096x128 .bf16) (xb : Vec F S1x128 .f32) : Vec F S512x128 .f32 :=
  View.canon [⟨rO, k1_pay1 (View.ld xa rA) (View.ld xs rS) (View.ld xb rB)⟩]
/-- The normalized rows z/‖z‖ of tower 1, in bf16. -/
def out1_8 (xa : Vec F S512x4096 .f32) (xs : Vec F S4096x128 .bf16) (xb : Vec F S1x128 .f32) : Vec F S512x128 .bf16 :=
  View.canon [⟨rO, k1_pay2 (View.ld xa rA) (View.ld xs rS) (View.ld xb rB)⟩]
/-- The rows z of tower 2. -/
def out1_7 (xa : Vec F S512x4096 .f32) (xs : Vec F S4096x128 .bf16) (xb : Vec F S1x128 .f32) : Vec F S512x128 .f32 :=
  View.canon [⟨rO, k1_pay3 (View.ld xa rA) (View.ld xs rS) (View.ld xb rB)⟩]
/-- The normalized rows of tower 2, in bf16. -/
def out1_9 (xa : Vec F S512x4096 .f32) (xs : Vec F S4096x128 .bf16) (xb : Vec F S1x128 .f32) : Vec F S512x128 .bf16 :=
  View.canon [⟨rO, k1_pay4 (View.ld xa rA) (View.ld xs rS) (View.ld xb rB)⟩]

/-- One store of the whole buffer covers it. -/
theorem coverO32 (p : Vec F S512x128 .f32) (y : S512x128.Idx) :
    ∃ pc ∈ ([⟨rO, p⟩] : List (View.Piece (Elt F) S512x128 .f32)), y ∈ pc.1.set :=
  View.cover_of_tiled [⟨rO, p⟩] S512x128.size (by rfl) y
theorem coverO16 (p : Vec F S512x128 .bf16) (y : S512x128.Idx) :
    ∃ pc ∈ ([⟨rO, p⟩] : List (View.Piece (Elt F) S512x128 .bf16)), y ∈ pc.1.set :=
  View.cover_of_tiled [⟨rO, p⟩] S512x128.size (by rfl) y

/-! ## The body's triple, once per control case -/

set_option maxHeartbeats 4000000 in
/-- TOWER 1's points (the first condition holds, the second fails): on whole staging memrefs, the three inputs the
    tower loads at contents `xa`, `xs`, `xb` and its two outputs at anything, the body runs to the continuation holding
    the inputs as they were and the outputs at `out1_6`, `out1_8` of them. The other tower's five buffers are not touched. -/
theorem sound_kernel1_A (c : Dev nD) (E : Set ℕ) (i : grid1.Coords) (arg1 : Memref sig .tc .vmem S512x4096 .f32) (harg1 : arg1.IsWhole) (arg2 : Memref sig .tc .vmem S512x4096 .f32) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .bf16) (harg9 : arg9.IsWhole) (arg10 : Memref sig .tc .vmem S512x128 .bf16) (harg10 : arg10.IsWhole)
    (hc1 : k1_cond1 i = 1#1) (hc2 : ¬ k1_cond2 i = 1#1)
    (xa : Vec F S512x4096 .f32) (xs : Vec F S4096x128 .bf16) (xb : Vec F S1x128 .f32) (K : PUnit → sProp 𝕄) :
    iprop(owns (c : Thread nD τ) arg1 fullShare xa ∗ owns (c : Thread nD τ) arg3 fullShare xs ∗ owns (c : Thread nD τ) arg5 fullShare xb
        ∗ (∃ d, owns (c : Thread nD τ) arg7 fullShare d) ∗ (∃ d, owns (c : Thread nD τ) arg9 fullShare d)
        ∗ (iprop(owns (c : Thread nD τ) arg1 fullShare xa ∗ owns (c : Thread nD τ) arg3 fullShare xs ∗ owns (c : Thread nD τ) arg5 fullShare xb
            ∗ owns (c : Thread nD τ) arg7 fullShare (out1_6 xa xs xb) ∗ owns (c : Thread nD τ) arg9 fullShare (out1_8 xa xs xb)) -∗ K ⟨⟩))
      ⊢ wp frame (wpE (defs₀ (F := F)) Variants.none c none) E (cc1__out_body i arg1 harg1 arg2 harg2 arg3 harg3 arg4 harg4 arg5 harg5 arg6 harg6 arg7 harg7 arg8 harg8 arg9 harg9 arg10 harg10) K := by
  simp only [cc1__out_body_eq_skeleton]; unfold cc1__out_body_skel
  unfold owns
  iintro ⟨⟨%f0, %hf0, H0⟩, ⟨%f2, %hf2, H2⟩, ⟨%f4, %hf4, H4⟩, ⟨%d6, %f6, -, H6⟩, ⟨%d8, %f8, -, H8⟩, Hk⟩
  subst hf0; subst hf2; subst hf4
  sl_exec (disch := first | exact hc1 | exact hc2)
  sl_step
  iapply Hk
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [H6]
  · iexists _; isplitr
    swap; · iexact H6
    ipureintro
    exact View.read_writes_eq_canon _ _ _ (coverO32 _)
  iexists _; isplitr
  swap; · iexact H8
  ipureintro
  exact View.read_writes_eq_canon _ _ _ (coverO16 _)

set_option maxHeartbeats 4000000 in
/-- TOWER 2's points (the first condition fails, the second holds): the same, on the other tower's five buffers. -/
theorem sound_kernel1_B (c : Dev nD) (E : Set ℕ) (i : grid1.Coords) (arg1 : Memref sig .tc .vmem S512x4096 .f32) (harg1 : arg1.IsWhole) (arg2 : Memref sig .tc .vmem S512x4096 .f32) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .bf16) (harg9 : arg9.IsWhole) (arg10 : Memref sig .tc .vmem S512x128 .bf16) (harg10 : arg10.IsWhole)
    (hc1 : ¬ k1_cond1 i = 1#1) (hc2 : k1_cond2 i = 1#1)
    (xa : Vec F S512x4096 .f32) (xs : Vec F S4096x128 .bf16) (xb : Vec F S1x128 .f32) (K : PUnit → sProp 𝕄) :
    iprop(owns (c : Thread nD τ) arg2 fullShare xa ∗ owns (c : Thread nD τ) arg4 fullShare xs ∗ owns (c : Thread nD τ) arg6 fullShare xb
        ∗ (∃ d, owns (c : Thread nD τ) arg8 fullShare d) ∗ (∃ d, owns (c : Thread nD τ) arg10 fullShare d)
        ∗ (iprop(owns (c : Thread nD τ) arg2 fullShare xa ∗ owns (c : Thread nD τ) arg4 fullShare xs ∗ owns (c : Thread nD τ) arg6 fullShare xb
            ∗ owns (c : Thread nD τ) arg8 fullShare (out1_7 xa xs xb) ∗ owns (c : Thread nD τ) arg10 fullShare (out1_9 xa xs xb)) -∗ K ⟨⟩))
      ⊢ wp frame (wpE (defs₀ (F := F)) Variants.none c none) E (cc1__out_body i arg1 harg1 arg2 harg2 arg3 harg3 arg4 harg4 arg5 harg5 arg6 harg6 arg7 harg7 arg8 harg8 arg9 harg9 arg10 harg10) K := by
  simp only [cc1__out_body_eq_skeleton]; unfold cc1__out_body_skel
  unfold owns
  iintro ⟨⟨%f0, %hf0, H0⟩, ⟨%f2, %hf2, H2⟩, ⟨%f4, %hf4, H4⟩, ⟨%d6, %f6, -, H6⟩, ⟨%d8, %f8, -, H8⟩, Hk⟩
  subst hf0; subst hf2; subst hf4
  sl_exec (disch := first | exact hc1 | exact hc2)
  sl_step
  iapply Hk
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [H6]
  · iexists _; isplitr
    swap; · iexact H6
    ipureintro
    exact View.read_writes_eq_canon _ _ _ (coverO32 _)
  iexists _; isplitr
  swap; · iexact H8
  ipureintro
  exact View.read_writes_eq_canon _ _ _ (coverO16 _)

end Cert.Kernel.Out

end
-- ==== Proof.OutB.lean ====
/-
  The second graph-convolution layer of both towers as a pipeline over sixteen points: what it asks of its body, and
  what its arrays hold in the end.

  The adjacency windows and the output windows are parked while the other tower runs: tower 1's block index is
  min(t, 7), tower 2's is max(t − 8, 0). So tower 1's outputs are stored at points 0..7 and untouched at 8..15, where the
  block index stays 7: block 7 is written back only after the last point, and what is written there is what point 7
  left in the buffer, carried unchanged through the eight idle points. Tower 2's outputs are untouched at points 0..7
  (nothing is written back from them there) and stored and written back at 8..15. The inputs are only read. Everything
  is stated at the buffers' contents V when the layer is entered. The result: each input array is as it was, and each
  output array is, index by index, the point's payload over the row block the index lies in — row i₀ of an output
  depends on rows 512·(i₀ / 512) .. 512·(i₀ / 512) + 511 of the tower's adjacency, on the support array and on the bias row.
-/
import proofs.«134049_g16819091931673_cont_week2b_1393_5_alg».proof.Proof.Gen.Kernel.Launch
import proofs.«134049_g16819091931673_cont_week2b_1393_5_alg».proof.Proof.Gen.Kernel.Skeleton
import proofs.«134049_g16819091931673_cont_week2b_1393_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle
import Idealize.ShloMosaic.Lib.Pipeline.Value
import Idealize.ShloMosaic.Lib.ValueIdx
import proofs.«134049_g16819091931673_cont_week2b_1393_5_alg».proof.Proof.OutRunB
set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: the parameter everything here is stated at
variable (V : (c : Dev nD) → (b : Ref sig .tc) → Buf (Elt F) ((c : Thread nD τ).loc b))

/-! # The second graph-convolution layer of both towers, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved: a parked adjacency block, a constant operand), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two control cases over the grid, and where the parked output windows are idle and written back -/

/-- The first tower's condition holds exactly at the first eight points, -/
theorem hcond1 : ∀ t : Fin cfg1.N, k1_cond1 (grid1.coords t) = 1#1 ↔ t.val < 8 :=
  (by decide +kernel : ∀ t : Fin grid1.N, k1_cond1 (grid1.coords t) = 1#1 ↔ t.val < 8)
/-- the second tower's exactly at the last eight. -/
theorem hcond2 : ∀ t : Fin cfg1.N, k1_cond2 (grid1.coords t) = 1#1 ↔ 8 ≤ t.val :=
  (by decide +kernel : ∀ t : Fin grid1.N, k1_cond2 (grid1.coords t) = 1#1 ↔ 8 ≤ t.val)

theorem hidle6 : ∀ t : Fin cfg1.N, cfg1.idle 6 (cfg1.grid.coords t) = decide (8 ≤ t.val) :=
  (by decide +kernel : ∀ t : Fin grid1.N, idle1 6 (grid1.coords t) = decide (8 ≤ t.val))
theorem hidle7 : ∀ t : Fin cfg1.N, cfg1.idle 7 (cfg1.grid.coords t) = decide (t.val < 8) :=
  (by decide +kernel : ∀ t : Fin grid1.N, idle1 7 (grid1.coords t) = decide (t.val < 8))
theorem hidle8 : ∀ t : Fin cfg1.N, cfg1.idle 8 (cfg1.grid.coords t) = decide (8 ≤ t.val) :=
  (by decide +kernel : ∀ t : Fin grid1.N, idle1 8 (grid1.coords t) = decide (8 ≤ t.val))
theorem hidle9 : ∀ t : Fin cfg1.N, cfg1.idle 9 (cfg1.grid.coords t) = decide (t.val < 8) :=
  (by decide +kernel : ∀ t : Fin grid1.N, idle1 9 (grid1.coords t) = decide (t.val < 8))

/-- Tower 1's output blocks (block index min(t, 7)) are written back after points 0..6 and, block 7, after the last point; -/
theorem hflush6 : ∀ t : Fin cfg1.N, (cfg1.win 6).flush t = decide (t.val < 7 ∨ t.val = 15) :=
  (by decide +kernel : ∀ t : Fin grid1.N, win1_6.flush t = decide (t.val < 7 ∨ t.val = 15))
theorem hflush8 : ∀ t : Fin cfg1.N, (cfg1.win 8).flush t = decide (t.val < 7 ∨ t.val = 15) :=
  (by decide +kernel : ∀ t : Fin grid1.N, win1_8.flush t = decide (t.val < 7 ∨ t.val = 15))
/-- tower 2's (block index max(t − 8, 0)) after points 8..15. -/
theorem hflush7 : ∀ t : Fin cfg1.N, (cfg1.win 7).flush t = decide (8 ≤ t.val) :=
  (by decide +kernel : ∀ t : Fin grid1.N, win1_7.flush t = decide (8 ≤ t.val))
theorem hflush9 : ∀ t : Fin cfg1.N, (cfg1.win 9).flush t = decide (8 ≤ t.val) :=
  (by decide +kernel : ∀ t : Fin grid1.N, win1_9.flush t = decide (8 ≤ t.val))

/-! ## The pipeline's proof data -/

/-- The point whose blocks tower 1's output buffers hold after point `t`: `t` itself while the tower runs, its last
    point (7) afterwards, when the buffers are idle. -/
def par1 (t : Fin cfg1.N) : Fin cfg1.N := if t.val < 8 then t else t1_7

theorem par1_of_lt (t : Fin cfg1.N) (h : t.val < 8) : par1 t = t := if_pos h
theorem par1_of_ge (t : Fin cfg1.N) (h : ¬ t.val < 8) : par1 t = t1_7 := if_neg h

/-- The proof data of the pipeline on core `c`: the arrays as the region finds them (`V`); after the body at point `t`
    each input's buffer at its block, tower 1's outputs at the rows (resp. normalized rows) of the blocks of point
    `par1 t`, tower 2's at those of point `t` (read only where the tower has run); the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 (par1 t)) (iblk1 V c 2 (par1 t)) (iblk1 V c 4 (par1 t))
    | ⟨7, _⟩ => out1_7 (iblk1 V c 1 t) (iblk1 V c 3 t) (iblk1 V c 5 t)
    | ⟨8, _⟩ => out1_8 (iblk1 V c 0 (par1 t)) (iblk1 V c 2 (par1 t)) (iblk1 V c 4 (par1 t))
    | ⟨9, _⟩ => out1_9 (iblk1 V c 1 t) (iblk1 V c 3 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 (par1 t)) (iblk1 V c 2 (par1 t)) (iblk1 V c 4 (par1 t)) := by dsimp only [dat1]
theorem after1_7 (c : Dev nD) (t : Fin cfg1.N) : (dat1 V c).after 7 t = out1_7 (iblk1 V c 1 t) (iblk1 V c 3 t) (iblk1 V c 5 t) := by dsimp only [dat1]
theorem after1_8 (c : Dev nD) (t : Fin cfg1.N) : (dat1 V c).after 8 t = out1_8 (iblk1 V c 0 (par1 t)) (iblk1 V c 2 (par1 t)) (iblk1 V c 4 (par1 t)) := by dsimp only [dat1]
theorem after1_9 (c : Dev nD) (t : Fin cfg1.N) : (dat1 V c).after 9 t = out1_9 (iblk1 V c 1 t) (iblk1 V c 3 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## Tower 1's output buffers through their idle points -/

/-- After point 8 begins, output window 6's buffer holds what tower 1's last point (7) left: point 7 stores, is not
    written back (the block index stays 7), and the window is uncut. -/
theorem before1_6_at8 (c : Dev nD) (d) : (dat1 V c).before 6 t1_8 d = (dat1 V c).after 6 t1_7 := by
  rw [(dat1 V c).before_of_pos 6 t1_8 (by decide) ((cfg1.win 6).fetch_out rfl _) d]
  have e : (⟨t1_8.val - 1, Nat.lt_of_le_of_lt (Nat.sub_le _ _) t1_8.isLt⟩ : Fin cfg1.N) = t1_7 := rfl
  rw [e, if_neg (by rw [hflush6]; decide)]
  unfold Dat.left
  have hi : cfg1.idle 6 (cfg1.grid.coords t1_7) = false := by rw [hidle6]; decide
  rw [hi]
  show (dat1 V c).kept 6 t1_7 d = _
  unfold Dat.kept
  rw [Pipeline.fill_of_clip_none (cfg := cfg1) 6 _ (fun _ => rfl) d ((dat1 V c).after 6 t1_7), Window.fill_cut]

/-- At the last point output window 6's buffer — idle since point 8, never written back in between — still holds
    what point 7 left, which is what the proof data states of the last point: what the final write-back writes. -/
theorem before1_6_last (c : Dev nD) (t : Fin cfg1.N) (h15 : t.val = 15) (d) : (dat1 V c).before 6 t d = (dat1 V c).after 6 t := by
  have ht : t = t1_15 := Fin.ext h15
  subst ht
  rw [(dat1 V c).before_idle_run 6 (fun u => (cfg1.win 6).fetch_out rfl u) d 7 t1_15 (by decide)
    (fun j h₁ h₂ => ⟨by rw [hidle6]; exact decide_eq_true (by have : t1_15.val = 15 := rfl; omega),
      by rw [hflush6]; exact decide_eq_false (by have : t1_15.val = 15 := rfl; omega)⟩)]
  have e : (⟨t1_15.val - 7, by have : t1_15.val = 15 := rfl; have := N_1; omega⟩ : Fin cfg1.N) = t1_8 := rfl
  rw [e, before1_6_at8, after1_6, after1_6, par1_of_lt t1_7 (by decide), par1_of_ge t1_15 (by decide)]

/-- After point 8 begins, output window 8's buffer holds what tower 1's last point (7) left: point 7 stores, is not
    written back (the block index stays 7), and the window is uncut. -/
theorem before1_8_at8 (c : Dev nD) (d) : (dat1 V c).before 8 t1_8 d = (dat1 V c).after 8 t1_7 := by
  rw [(dat1 V c).before_of_pos 8 t1_8 (by decide) ((cfg1.win 8).fetch_out rfl _) d]
  have e : (⟨t1_8.val - 1, Nat.lt_of_le_of_lt (Nat.sub_le _ _) t1_8.isLt⟩ : Fin cfg1.N) = t1_7 := rfl
  rw [e, if_neg (by rw [hflush8]; decide)]
  unfold Dat.left
  have hi : cfg1.idle 8 (cfg1.grid.coords t1_7) = false := by rw [hidle8]; decide
  rw [hi]
  show (dat1 V c).kept 8 t1_7 d = _
  unfold Dat.kept
  rw [Pipeline.fill_of_clip_none (cfg := cfg1) 8 _ (fun _ => rfl) d ((dat1 V c).after 8 t1_7), Window.fill_cut]

/-- At the last point output window 8's buffer — idle since point 8, never written back in between — still holds
    what point 7 left, which is what the proof data states of the last point: what the final write-back writes. -/
theorem before1_8_last (c : Dev nD) (t : Fin cfg1.N) (h15 : t.val = 15) (d) : (dat1 V c).before 8 t d = (dat1 V c).after 8 t := by
  have ht : t = t1_15 := Fin.ext h15
  subst ht
  rw [(dat1 V c).before_idle_run 8 (fun u => (cfg1.win 8).fetch_out rfl u) d 7 t1_15 (by decide)
    (fun j h₁ h₂ => ⟨by rw [hidle8]; exact decide_eq_true (by have : t1_15.val = 15 := rfl; omega),
      by rw [hflush8]; exact decide_eq_false (by have : t1_15.val = 15 := rfl; omega)⟩)]
  have e : (⟨t1_15.val - 7, by have : t1_15.val = 15 := rfl; have := N_1; omega⟩ : Fin cfg1.N) = t1_8 := rfl
  rw [e, before1_8_at8, after1_8, after1_8, par1_of_lt t1_7 (by decide), par1_of_ge t1_15 (by decide)]

/-! ## The body obligation's post, per window: its three shapes -/

/-- At a point live for the window the body leaves the stated contents; -/
theorem leavesExact_live (c : Dev nD) (w : Fin cfg1.W) (t : Fin cfg1.N) (hi : cfg1.idle w (cfg1.grid.coords t) = false) :
    (dat1 V c).leavesExact w t = owns (c : Thread nD τ) ((cfg1.win w).stage (cfg1.slots t w)) fullShare ((dat1 V c).after w t) := by
  unfold Dat.leavesExact; rw [hi]
/-- so it does at an idle point that writes the block back. -/
theorem leavesExact_flush (c : Dev nD) (w : Fin cfg1.W) (t : Fin cfg1.N) (hi : cfg1.idle w (cfg1.grid.coords t) = true) (hf : (cfg1.win w).flush t = true) :
    (dat1 V c).leavesExact w t = owns (c : Thread nD τ) ((cfg1.win w).stage (cfg1.slots t w)) fullShare ((dat1 V c).after w t) := by
  unfold Dat.leavesExact; rw [hi, hf]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 2000000 in
/-- The body at any point: the inputs' buffers hold their blocks; the conditions' closed forms say which tower the
    point belongs to; that tower's triple applies to its five buffers, the other tower's five pass through untouched
    — its outputs idle: handed back as found, or, at the last point, where tower 1's are written back, holding what
    point 7 left, which is what the proof data states there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    leavesExact_live V c 0 t rfl, leavesExact_live V c 1 t rfl, leavesExact_live V c 2 t rfl,
    leavesExact_live V c 3 t rfl, leavesExact_live V c 4 t rfl, leavesExact_live V c 5 t rfl,
    after1_0, after1_1, after1_2, after1_3, after1_4, after1_5]
  have hN : t.val < 16 := lt_of_lt_of_eq t.isLt (show cfg1.N = 16 from N_1)
  by_cases h8 : t.val < 8
  · -- a point of tower 1
    have hc1 : k1_cond1 (grid1.coords t) = 1#1 := (hcond1 t).mpr h8
    have hc2 : ¬ k1_cond2 (grid1.coords t) = 1#1 := fun h => by have := (hcond2 t).mp h; omega
    have hi6 : cfg1.idle 6 (cfg1.grid.coords t) = false := by rw [hidle6]; exact decide_eq_false (by omega)
    have hi8 : cfg1.idle 8 (cfg1.grid.coords t) = false := by rw [hidle8]; exact decide_eq_false (by omega)
    have hi7 : cfg1.idle 7 (cfg1.grid.coords t) = true := by rw [hidle7]; exact decide_eq_true h8
    have hi9 : cfg1.idle 9 (cfg1.grid.coords t) = true := by rw [hidle9]; exact decide_eq_true h8
    have hf7 : (cfg1.win 7).flush t = false := by rw [hflush7]; exact decide_eq_false (by omega)
    have hf9 : (cfg1.win 9).flush t = false := by rw [hflush9]; exact decide_eq_false (by omega)
    rw [leavesExact_live V c 6 t hi6, leavesExact_live V c 8 t hi8, Dat.leavesExact_idle _ 7 t hi7 hf7,
      Dat.leavesExact_idle _ 9 t hi9 hf9, after1_6, after1_8, par1_of_lt t h8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_A c Set.univ (grid1.coords t) _ _ _ _ _ _ _ _ _ _ _ _ _ _ _ _ _ _ _ _ hc1 hc2 (iblk1 V c 0 t) (iblk1 V c 2 t) (iblk1 V c 4 t) _)
    isplitl [H0]; · iexact H0
    isplitl [H2]; · iexact H2
    isplitl [H4]; · iexact H4
    isplitl [H6]; · iexists _; iexact H6
    isplitl [H8]; · iexists _; iexact H8
    iintro ⟨H0, H2, H4, H6, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iexists _; iexact H9
  · -- a point of tower 2
    have hc1 : ¬ k1_cond1 (grid1.coords t) = 1#1 := fun h => h8 ((hcond1 t).mp h)
    have hc2 : k1_cond2 (grid1.coords t) = 1#1 := (hcond2 t).mpr (by omega)
    have hi6 : cfg1.idle 6 (cfg1.grid.coords t) = true := by rw [hidle6]; exact decide_eq_true (by omega)
    have hi8 : cfg1.idle 8 (cfg1.grid.coords t) = true := by rw [hidle8]; exact decide_eq_true (by omega)
    have hi7 : cfg1.idle 7 (cfg1.grid.coords t) = false := by rw [hidle7]; exact decide_eq_false h8
    have hi9 : cfg1.idle 9 (cfg1.grid.coords t) = false := by rw [hidle9]; exact decide_eq_false h8
    rw [leavesExact_live V c 7 t hi7, leavesExact_live V c 9 t hi9, after1_7, after1_9]
    by_cases h15 : t.val = 15
    · -- the last point: tower 1's outputs, idle, are written back at what point 7 left
      have hf6 : (cfg1.win 6).flush t = true := by rw [hflush6]; exact decide_eq_true (.inr h15)
      have hf8 : (cfg1.win 8).flush t = true := by rw [hflush8]; exact decide_eq_true (.inr h15)
      rw [leavesExact_flush V c 6 t hi6 hf6, leavesExact_flush V c 8 t hi8 hf8]
      simp only [before1_6_last V c t h15, before1_8_last V c t h15]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel1_B c Set.univ (grid1.coords t) _ _ _ _ _ _ _ _ _ _ _ _ _ _ _ _ _ _ _ _ hc1 hc2 (iblk1 V c 1 t) (iblk1 V c 3 t) (iblk1 V c 5 t) _)
      isplitl [H1]; · iexact H1
      isplitl [H3]; · iexact H3
      isplitl [H5]; · iexact H5
      isplitl [H7]; · iexists _; iexact H7
      isplitl [H9]; · iexists _; iexact H9
      iintro ⟨H1, H3, H5, H7, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- points 8..14: tower 1's outputs are handed back as found
      have hf6 : (cfg1.win 6).flush t = false := by rw [hflush6]; exact decide_eq_false (by omega)
      have hf8 : (cfg1.win 8).flush t = false := by rw [hflush8]; exact decide_eq_false (by omega)
      rw [Dat.leavesExact_idle _ 6 t hi6 hf6, Dat.leavesExact_idle _ 8 t hi8 hf8]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel1_B c Set.univ (grid1.coords t) _ _ _ _ _ _ _ _ _ _ _ _ _ _ _ _ _ _ _ _ hc1 hc2 (iblk1 V c 1 t) (iblk1 V c 3 t) (iblk1 V c 5 t) _)
      isplitl [H1]; · iexact H1
      isplitl [H3]; · iexact H3
      isplitl [H5]; · iexact H5
      isplitl [H7]; · iexists _; iexact H7
      isplitl [H9]; · iexists _; iexact H9
      iintro ⟨H1, H3, H5, H7, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

/-! # The value of the region: each array after the last write-back, as one function of the entry contents -/

/-! ## The inputs are never written -/

theorem kept1_0 (c : Dev nD) : (dat1 V c).arrAt 0 cfg1.N = V c (Pipeline.arrRef spec1 0) :=
  ((dat1 V c).arrAt_in 0 rfl _).trans (A_eq1 V c 0)
theorem kept1_1 (c : Dev nD) : (dat1 V c).arrAt 1 cfg1.N = V c (Pipeline.arrRef spec1 1) :=
  ((dat1 V c).arrAt_in 1 rfl _).trans (A_eq1 V c 1)
theorem kept1_2 (c : Dev nD) : (dat1 V c).arrAt 2 cfg1.N = V c (Pipeline.arrRef spec1 2) :=
  ((dat1 V c).arrAt_in 2 rfl _).trans (A_eq1 V c 2)
theorem kept1_3 (c : Dev nD) : (dat1 V c).arrAt 3 cfg1.N = V c (Pipeline.arrRef spec1 3) :=
  ((dat1 V c).arrAt_in 3 rfl _).trans (A_eq1 V c 3)
theorem kept1_4 (c : Dev nD) : (dat1 V c).arrAt 4 cfg1.N = V c (Pipeline.arrRef spec1 4) :=
  ((dat1 V c).arrAt_in 4 rfl _).trans (A_eq1 V c 4)
theorem kept1_5 (c : Dev nD) : (dat1 V c).arrAt 5 cfg1.N = V c (Pipeline.arrRef spec1 5) :=
  ((dat1 V c).arrAt_in 5 rfl _).trans (A_eq1 V c 5)

/-! ## Rows of the arrays by block -/

open Idealize.ShloMosaic.ValueIdx (ix2)

theorem hz2 : (![0, 0] : Fin 2 → Nat) = fun _ => 0 := funext fun a => by fin_cases a <;> rfl

/-- A function of three arguments at equal arguments. -/
theorem congr3 {α β γ δ : Type} (f : α → β → γ → δ) {a a' : α} {b b' : β} {c c' : γ} (ha : a = a') (hb : b = b') (hc : c = c') :
    f a b c = f a' b' c' := by subst ha hb hc; rfl

/-- The rows 512k .. 512k + 511 of a 4096 × 4096 array: row block `k`. -/
def rowBlk (A : S4096x4096.Idx → Elt F .f32) (k : Fin 8) : Vec F S512x4096 .f32 :=
  fun y => A (ix2 ⟨512 * k.val + (y 0).val, by have := ValueIdx.idx2_lt0 y; have := k.isLt; omega⟩ (y 1 : Fin 4096))

/-- The row block a row of a 4096 × 128 array lies in, -/
def blkOf (i : S4096x128.Idx) : Fin 8 := ⟨(i 0).val / 512, by have := ValueIdx.idx2_lt0 i; omega⟩
/-- and its place inside the block. -/
def inBlk (i : S4096x128.Idx) : S512x128.Idx := ix2 ⟨(i 0).val % 512, Nat.mod_lt _ (by decide)⟩ (i 1 : Fin 128)

/-- An element of the array at row 512k + j₀, column j₁ is element (j₀, j₁) of the payload over row block k. -/
theorem at_block {α : Type} (P : Vec F S512x4096 .f32 → Vec F S4096x128 .bf16 → Vec F S1x128 .f32 → S512x128.Idx → α)
    (A0 : S4096x4096.Idx → Elt F .f32) (A2 : S4096x128.Idx → Elt F .bf16) (A4 : S1x128.Idx → Elt F .f32)
    (kk : Fin 8) (j : S512x128.Idx) (i : S4096x128.Idx)
    (hi0 : (i 0).val = kk.val * 512 + (j 0).val) (hi1 : (i 1).val = (j 1).val) :
    P (rowBlk A0 kk) A2 A4 j = P (rowBlk A0 (blkOf i)) A2 A4 (inBlk i) := by
  have hj0 : (j 0).val < 512 := ValueIdx.idx2_lt0 j
  have e1 : blkOf i = kk := Fin.ext (by show (i 0).val / 512 = kk.val; omega)
  have e2 : inBlk i = j := by
    funext a
    match a with
    | ⟨0, _⟩ => exact Fin.ext (by show (i 0).val % 512 = (j 0).val; omega)
    | ⟨1, _⟩ => exact Fin.ext hi1
  rw [e1, e2]

/-! ## Output window 6 -/

/-- The store's payload is the whole of what the body leaves: it loads and stores whole buffers. -/
theorem out1_6_eq (xa : Vec F S512x4096 .f32) (xs : Vec F S4096x128 .bf16) (xb : Vec F S1x128 .f32) : out1_6 xa xs xb = k1_pay1 xa xs xb := by
  unfold out1_6
  rw [View.canon_unit_zero hz2, View.ld_unit_zero (S := S512x4096) hz2, View.ld_unit_zero (S := S4096x128) hz2, View.ld_unit_zero (S := S1x128) hz2]

/-- What the window's array ends holding: at row i₀, column i₁, the payload of row block i₀ / 512 of the adjacency, of the
    whole support array and of the bias row, at (i₀ % 512, i₁). -/
def G1_6 (A0 : S4096x4096.Idx → Elt F .f32) (A2 : S4096x128.Idx → Elt F .bf16) (A4 : S1x128.Idx → Elt F .f32) : S4096x128.Idx → Elt F .f32 :=
  fun i => k1_pay1 (rowBlk A0 (blkOf i)) A2 A4 (inBlk i)

/-- The index maps, decided over the grid: the adjacency window the point reads sits at the output's row block,
    the constant operands at block 0, and the output's block indices stay in range. -/
theorem idx6 : ∀ t : Fin cfg1.N, win1_6.index t (1 : Fin 2) = 0 ∧ win1_6.index t (0 : Fin 2) ≤ 7
    ∧ win1_0.index (par1 t) (0 : Fin 2) = win1_6.index t (0 : Fin 2) ∧ win1_0.index (par1 t) (1 : Fin 2) = 0
    ∧ win1_2.index (par1 t) (0 : Fin 2) = 0 ∧ win1_2.index (par1 t) (1 : Fin 2) = 0
    ∧ win1_4.index (par1 t) (0 : Fin 2) = 0 ∧ win1_4.index (par1 t) (1 : Fin 2) = 0 :=
  (by decide +kernel : ∀ t : Fin grid1.N, _)

/-- Every row block is some writing-back point's. -/
theorem idx_onto6 : ∀ q : Fin 8, ∃ t : Fin cfg1.N, (cfg1.win 6).flush t = true ∧ win1_6.index t (0 : Fin 2) = q.val :=
  (by decide +kernel : ∀ q : Fin 8, ∃ t : Fin grid1.N, win1_6.flush t = true ∧ win1_6.index t (0 : Fin 2) = q.val)

/-- WHAT POINT `t` WRITES BACK is block `t` of `G1_6` of the arrays as the region finds them. -/
theorem flushed1_6_eq (c : Dev nD) (t : Fin cfg1.N) :
    (dat1 V c).flushed 6 t = ((cfg1.win 6).blk t).view.read (Elt F) (G1_6 (V c (Pipeline.arrRef spec1 0)) (V c (Pipeline.arrRef spec1 2)) (V c (Pipeline.arrRef spec1 4))) := by
  show (cfg1.win 6).cut (grid1.coords t) ((dat1 V c).after 6 t) = _
  rw [after1_6]
  obtain ⟨e1, e2, e3, e4, e5, e6, e7, e8⟩ := idx6 t
  have hA : (iblk1 V c 0 (par1 t) : Vec F S512x4096 .f32) = rowBlk (V c (Pipeline.arrRef spec1 0)) ⟨win1_6.index t (0 : Fin 2), by omega⟩ := by
    funext y
    show V c (Pipeline.arrRef spec1 0) (((cfg1.win 0).blk (par1 t)).view.emb y) = rowBlk (V c (Pipeline.arrRef spec1 0)) ⟨win1_6.index t (0 : Fin 2), by omega⟩ y
    unfold rowBlk
    refine congrArg (V c (Pipeline.arrRef spec1 0)) ?_
    funext a; apply Fin.ext
    match a with
    | ⟨0, _⟩ => show win1_0.index (par1 t) (0 : Fin 2) * 512 + 1 * (y 0).val = 512 * win1_6.index t (0 : Fin 2) + (y 0).val; omega
    | ⟨1, _⟩ => show win1_0.index (par1 t) (1 : Fin 2) * 4096 + 1 * (y 1).val = (y 1).val; omega
  have hS : (iblk1 V c 2 (par1 t) : Vec F S4096x128 .bf16) = V c (Pipeline.arrRef spec1 2) := by
    funext y
    show V c (Pipeline.arrRef spec1 2) (((cfg1.win 2).blk (par1 t)).view.emb y) = V c (Pipeline.arrRef spec1 2) y
    refine congrArg (V c (Pipeline.arrRef spec1 2)) ?_
    funext a; apply Fin.ext
    match a with
    | ⟨0, _⟩ => show win1_2.index (par1 t) (0 : Fin 2) * 4096 + 1 * (y 0).val = (y 0).val; omega
    | ⟨1, _⟩ => show win1_2.index (par1 t) (1 : Fin 2) * 128 + 1 * (y 1).val = (y 1).val; omega
  have hB : (iblk1 V c 4 (par1 t) : Vec F S1x128 .f32) = V c (Pipeline.arrRef spec1 4) := by
    funext y
    show V c (Pipeline.arrRef spec1 4) (((cfg1.win 4).blk (par1 t)).view.emb y) = V c (Pipeline.arrRef spec1 4) y
    refine congrArg (V c (Pipeline.arrRef spec1 4)) ?_
    funext a; apply Fin.ext
    match a with
    | ⟨0, _⟩ => show win1_4.index (par1 t) (0 : Fin 2) * 1 + 1 * (y 0).val = (y 0).val; omega
    | ⟨1, _⟩ => show win1_4.index (par1 t) (1 : Fin 2) * 128 + 1 * (y 1).val = (y 1).val; omega
  funext j
  show out1_6 (iblk1 V c 0 (par1 t)) (iblk1 V c 2 (par1 t)) (iblk1 V c 4 (par1 t)) j
    = G1_6 (V c (Pipeline.arrRef spec1 0)) (V c (Pipeline.arrRef spec1 2)) (V c (Pipeline.arrRef spec1 4)) (((cfg1.win 6).blk t).view.emb j)
  refine (congrFun (out1_6_eq (iblk1 V c 0 (par1 t)) (iblk1 V c 2 (par1 t)) (iblk1 V c 4 (par1 t))) j).trans ?_
  refine (congrFun (congr3 k1_pay1 hA hS hB) j).trans ?_
  exact at_block k1_pay1 (V c (Pipeline.arrRef spec1 0)) (V c (Pipeline.arrRef spec1 2)) (V c (Pipeline.arrRef spec1 4)) ⟨win1_6.index t (0 : Fin 2), by omega⟩ j (((cfg1.win 6).blk t).view.emb j)
    (by show win1_6.index t (0 : Fin 2) * 512 + 1 * (j 0).val = win1_6.index t (0 : Fin 2) * 512 + (j 0).val; omega)
    (by show win1_6.index t (1 : Fin 2) * 128 + 1 * (j 1).val = (j 1).val; omega)

/-- An index of the array is in point `t`'s block iff each coordinate is in the block's range on its axis. -/
theorem mem_blk6 (t : Fin cfg1.N) (i : S4096x128.Idx) :
    i ∈ ((cfg1.win 6).blk t).view.set ↔ ∀ a : Fin 2, win1_6.index t a * S512x128.size a ≤ (i a).val ∧ (i a).val < win1_6.index t a * S512x128.size a + S512x128.size a := by
  show i ∈ ((View.whole main_v11_0).slice (win1_6.rect t)).set ↔ _
  rw [View.set_slice_whole, Rect.mem_set_unit]
  exact Iff.rfl

/-- The writing-back points' blocks cover the array. -/
theorem cover1_6 (i : S4096x128.Idx) : ∃ t : Fin cfg1.N, (cfg1.win 6).flush t = true ∧ i ∈ ((cfg1.win 6).blk t).view.set := by
  have hi0 : (i 0).val < 4096 := ValueIdx.idx2_lt0 i
  have hi1 : (i 1).val < 128 := ValueIdx.idx2_lt1 i
  obtain ⟨t, hf, ht⟩ := idx_onto6 ⟨(i 0).val / 512, by omega⟩
  have q0 : win1_6.index t (0 : Fin 2) = (i 0).val / 512 := ht
  obtain ⟨e1, -⟩ := idx6 t
  refine ⟨t, hf, ?_⟩
  rw [mem_blk6]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 128 ≤ (i 1).val ∧ (i 1).val < win1_6.index t (1 : Fin 2) * 128 + 128; omega

/-- THE ARRAY after the region's last write-back: `G1_6` of the arrays as the region finds them. -/
theorem final1_6 (c : Dev nD) : (dat1 V c).arrAt 6 cfg1.N = G1_6 (V c (Pipeline.arrRef spec1 0)) (V c (Pipeline.arrRef spec1 2)) (V c (Pipeline.arrRef spec1 4)) :=
  (dat1 V c).arrAt_eq_of_cover 6 _ (fun t _ => flushed1_6_eq V c t) cover1_6

/-! ## Output window 8 -/

/-- The store's payload is the whole of what the body leaves: it loads and stores whole buffers. -/
theorem out1_8_eq (xa : Vec F S512x4096 .f32) (xs : Vec F S4096x128 .bf16) (xb : Vec F S1x128 .f32) : out1_8 xa xs xb = k1_pay2 xa xs xb := by
  unfold out1_8
  rw [View.canon_unit_zero hz2, View.ld_unit_zero (S := S512x4096) hz2, View.ld_unit_zero (S := S4096x128) hz2, View.ld_unit_zero (S := S1x128) hz2]

/-- What the window's array ends holding: at row i₀, column i₁, the payload of row block i₀ / 512 of the adjacency, of the
    whole support array and of the bias row, at (i₀ % 512, i₁). -/
def G1_8 (A0 : S4096x4096.Idx → Elt F .f32) (A2 : S4096x128.Idx → Elt F .bf16) (A4 : S1x128.Idx → Elt F .f32) : S4096x128.Idx → Elt F .bf16 :=
  fun i => k1_pay2 (rowBlk A0 (blkOf i)) A2 A4 (inBlk i)

/-- The index maps, decided over the grid: the adjacency window the point reads sits at the output's row block,
    the constant operands at block 0, and the output's block indices stay in range. -/
theorem idx8 : ∀ t : Fin cfg1.N, win1_8.index t (1 : Fin 2) = 0 ∧ win1_8.index t (0 : Fin 2) ≤ 7
    ∧ win1_0.index (par1 t) (0 : Fin 2) = win1_8.index t (0 : Fin 2) ∧ win1_0.index (par1 t) (1 : Fin 2) = 0
    ∧ win1_2.index (par1 t) (0 : Fin 2) = 0 ∧ win1_2.index (par1 t) (1 : Fin 2) = 0
    ∧ win1_4.index (par1 t) (0 : Fin 2) = 0 ∧ win1_4.index (par1 t) (1 : Fin 2) = 0 :=
  (by decide +kernel : ∀ t : Fin grid1.N, _)

/-- Every row block is some writing-back point's. -/
theorem idx_onto8 : ∀ q : Fin 8, ∃ t : Fin cfg1.N, (cfg1.win 8).flush t = true ∧ win1_8.index t (0 : Fin 2) = q.val :=
  (by decide +kernel : ∀ q : Fin 8, ∃ t : Fin grid1.N, win1_8.flush t = true ∧ win1_8.index t (0 : Fin 2) = q.val)

/-- WHAT POINT `t` WRITES BACK is block `t` of `G1_8` of the arrays as the region finds them. -/
theorem flushed1_8_eq (c : Dev nD) (t : Fin cfg1.N) :
    (dat1 V c).flushed 8 t = ((cfg1.win 8).blk t).view.read (Elt F) (G1_8 (V c (Pipeline.arrRef spec1 0)) (V c (Pipeline.arrRef spec1 2)) (V c (Pipeline.arrRef spec1 4))) := by
  show (cfg1.win 8).cut (grid1.coords t) ((dat1 V c).after 8 t) = _
  rw [after1_8]
  obtain ⟨e1, e2, e3, e4, e5, e6, e7, e8⟩ := idx8 t
  have hA : (iblk1 V c 0 (par1 t) : Vec F S512x4096 .f32) = rowBlk (V c (Pipeline.arrRef spec1 0)) ⟨win1_8.index t (0 : Fin 2), by omega⟩ := by
    funext y
    show V c (Pipeline.arrRef spec1 0) (((cfg1.win 0).blk (par1 t)).view.emb y) = rowBlk (V c (Pipeline.arrRef spec1 0)) ⟨win1_8.index t (0 : Fin 2), by omega⟩ y
    unfold rowBlk
    refine congrArg (V c (Pipeline.arrRef spec1 0)) ?_
    funext a; apply Fin.ext
    match a with
    | ⟨0, _⟩ => show win1_0.index (par1 t) (0 : Fin 2) * 512 + 1 * (y 0).val = 512 * win1_8.index t (0 : Fin 2) + (y 0).val; omega
    | ⟨1, _⟩ => show win1_0.index (par1 t) (1 : Fin 2) * 4096 + 1 * (y 1).val = (y 1).val; omega
  have hS : (iblk1 V c 2 (par1 t) : Vec F S4096x128 .bf16) = V c (Pipeline.arrRef spec1 2) := by
    funext y
    show V c (Pipeline.arrRef spec1 2) (((cfg1.win 2).blk (par1 t)).view.emb y) = V c (Pipeline.arrRef spec1 2) y
    refine congrArg (V c (Pipeline.arrRef spec1 2)) ?_
    funext a; apply Fin.ext
    match a with
    | ⟨0, _⟩ => show win1_2.index (par1 t) (0 : Fin 2) * 4096 + 1 * (y 0).val = (y 0).val; omega
    | ⟨1, _⟩ => show win1_2.index (par1 t) (1 : Fin 2) * 128 + 1 * (y 1).val = (y 1).val; omega
  have hB : (iblk1 V c 4 (par1 t) : Vec F S1x128 .f32) = V c (Pipeline.arrRef spec1 4) := by
    funext y
    show V c (Pipeline.arrRef spec1 4) (((cfg1.win 4).blk (par1 t)).view.emb y) = V c (Pipeline.arrRef spec1 4) y
    refine congrArg (V c (Pipeline.arrRef spec1 4)) ?_
    funext a; apply Fin.ext
    match a with
    | ⟨0, _⟩ => show win1_4.index (par1 t) (0 : Fin 2) * 1 + 1 * (y 0).val = (y 0).val; omega
    | ⟨1, _⟩ => show win1_4.index (par1 t) (1 : Fin 2) * 128 + 1 * (y 1).val = (y 1).val; omega
  funext j
  show out1_8 (iblk1 V c 0 (par1 t)) (iblk1 V c 2 (par1 t)) (iblk1 V c 4 (par1 t)) j
    = G1_8 (V c (Pipeline.arrRef spec1 0)) (V c (Pipeline.arrRef spec1 2)) (V c (Pipeline.arrRef spec1 4)) (((cfg1.win 8).blk t).view.emb j)
  refine (congrFun (out1_8_eq (iblk1 V c 0 (par1 t)) (iblk1 V c 2 (par1 t)) (iblk1 V c 4 (par1 t))) j).trans ?_
  refine (congrFun (congr3 k1_pay2 hA hS hB) j).trans ?_
  exact at_block k1_pay2 (V c (Pipeline.arrRef spec1 0)) (V c (Pipeline.arrRef spec1 2)) (V c (Pipeline.arrRef spec1 4)) ⟨win1_8.index t (0 : Fin 2), by omega⟩ j (((cfg1.win 8).blk t).view.emb j)
    (by show win1_8.index t (0 : Fin 2) * 512 + 1 * (j 0).val = win1_8.index t (0 : Fin 2) * 512 + (j 0).val; omega)
    (by show win1_8.index t (1 : Fin 2) * 128 + 1 * (j 1).val = (j 1).val; omega)

/-- An index of the array is in point `t`'s block iff each coordinate is in the block's range on its axis. -/
theorem mem_blk8 (t : Fin cfg1.N) (i : S4096x128.Idx) :
    i ∈ ((cfg1.win 8).blk t).view.set ↔ ∀ a : Fin 2, win1_8.index t a * S512x128.size a ≤ (i a).val ∧ (i a).val < win1_8.index t a * S512x128.size a + S512x128.size a := by
  show i ∈ ((View.whole main_v11_2).slice (win1_8.rect t)).set ↔ _
  rw [View.set_slice_whole, Rect.mem_set_unit]
  exact Iff.rfl

/-- The writing-back points' blocks cover the array. -/
theorem cover1_8 (i : S4096x128.Idx) : ∃ t : Fin cfg1.N, (cfg1.win 8).flush t = true ∧ i ∈ ((cfg1.win 8).blk t).view.set := by
  have hi0 : (i 0).val < 4096 := ValueIdx.idx2_lt0 i
  have hi1 : (i 1).val < 128 := ValueIdx.idx2_lt1 i
  obtain ⟨t, hf, ht⟩ := idx_onto8 ⟨(i 0).val / 512, by omega⟩
  have q0 : win1_8.index t (0 : Fin 2) = (i 0).val / 512 := ht
  obtain ⟨e1, -⟩ := idx8 t
  refine ⟨t, hf, ?_⟩
  rw [mem_blk8]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 128 ≤ (i 1).val ∧ (i 1).val < win1_8.index t (1 : Fin 2) * 128 + 128; omega

/-- THE ARRAY after the region's last write-back: `G1_8` of the arrays as the region finds them. -/
theorem final1_8 (c : Dev nD) : (dat1 V c).arrAt 8 cfg1.N = G1_8 (V c (Pipeline.arrRef spec1 0)) (V c (Pipeline.arrRef spec1 2)) (V c (Pipeline.arrRef spec1 4)) :=
  (dat1 V c).arrAt_eq_of_cover 8 _ (fun t _ => flushed1_8_eq V c t) cover1_8

/-! ## Output window 7 -/

/-- The store's payload is the whole of what the body leaves: it loads and stores whole buffers. -/
theorem out1_7_eq (xa : Vec F S512x4096 .f32) (xs : Vec F S4096x128 .bf16) (xb : Vec F S1x128 .f32) : out1_7 xa xs xb = k1_pay3 xa xs xb := by
  unfold out1_7
  rw [View.canon_unit_zero hz2, View.ld_unit_zero (S := S512x4096) hz2, View.ld_unit_zero (S := S4096x128) hz2, View.ld_unit_zero (S := S1x128) hz2]

/-- What the window's array ends holding: at row i₀, column i₁, the payload of row block i₀ / 512 of the adjacency, of the
    whole support array and of the bias row, at (i₀ % 512, i₁). -/
def G1_7 (A0 : S4096x4096.Idx → Elt F .f32) (A2 : S4096x128.Idx → Elt F .bf16) (A4 : S1x128.Idx → Elt F .f32) : S4096x128.Idx → Elt F .f32 :=
  fun i => k1_pay3 (rowBlk A0 (blkOf i)) A2 A4 (inBlk i)

/-- The index maps, decided over the grid: the adjacency window the point reads sits at the output's row block,
    the constant operands at block 0, and the output's block indices stay in range. -/
theorem idx7 : ∀ t : Fin cfg1.N, win1_7.index t (1 : Fin 2) = 0 ∧ win1_7.index t (0 : Fin 2) ≤ 7
    ∧ win1_1.index t (0 : Fin 2) = win1_7.index t (0 : Fin 2) ∧ win1_1.index t (1 : Fin 2) = 0
    ∧ win1_3.index t (0 : Fin 2) = 0 ∧ win1_3.index t (1 : Fin 2) = 0
    ∧ win1_5.index t (0 : Fin 2) = 0 ∧ win1_5.index t (1 : Fin 2) = 0 :=
  (by decide +kernel : ∀ t : Fin grid1.N, _)

/-- Every row block is some writing-back point's. -/
theorem idx_onto7 : ∀ q : Fin 8, ∃ t : Fin cfg1.N, (cfg1.win 7).flush t = true ∧ win1_7.index t (0 : Fin 2) = q.val :=
  (by decide +kernel : ∀ q : Fin 8, ∃ t : Fin grid1.N, win1_7.flush t = true ∧ win1_7.index t (0 : Fin 2) = q.val)

/-- WHAT POINT `t` WRITES BACK is block `t` of `G1_7` of the arrays as the region finds them. -/
theorem flushed1_7_eq (c : Dev nD) (t : Fin cfg1.N) :
    (dat1 V c).flushed 7 t = ((cfg1.win 7).blk t).view.read (Elt F) (G1_7 (V c (Pipeline.arrRef spec1 1)) (V c (Pipeline.arrRef spec1 3)) (V c (Pipeline.arrRef spec1 5))) := by
  show (cfg1.win 7).cut (grid1.coords t) ((dat1 V c).after 7 t) = _
  rw [after1_7]
  obtain ⟨e1, e2, e3, e4, e5, e6, e7, e8⟩ := idx7 t
  have hA : (iblk1 V c 1 t : Vec F S512x4096 .f32) = rowBlk (V c (Pipeline.arrRef spec1 1)) ⟨win1_7.index t (0 : Fin 2), by omega⟩ := by
    funext y
    show V c (Pipeline.arrRef spec1 1) (((cfg1.win 1).blk t).view.emb y) = rowBlk (V c (Pipeline.arrRef spec1 1)) ⟨win1_7.index t (0 : Fin 2), by omega⟩ y
    unfold rowBlk
    refine congrArg (V c (Pipeline.arrRef spec1 1)) ?_
    funext a; apply Fin.ext
    match a with
    | ⟨0, _⟩ => show win1_1.index t (0 : Fin 2) * 512 + 1 * (y 0).val = 512 * win1_7.index t (0 : Fin 2) + (y 0).val; omega
    | ⟨1, _⟩ => show win1_1.index t (1 : Fin 2) * 4096 + 1 * (y 1).val = (y 1).val; omega
  have hS : (iblk1 V c 3 t : Vec F S4096x128 .bf16) = V c (Pipeline.arrRef spec1 3) := by
    funext y
    show V c (Pipeline.arrRef spec1 3) (((cfg1.win 3).blk t).view.emb y) = V c (Pipeline.arrRef spec1 3) y
    refine congrArg (V c (Pipeline.arrRef spec1 3)) ?_
    funext a; apply Fin.ext
    match a with
    | ⟨0, _⟩ => show win1_3.index t (0 : Fin 2) * 4096 + 1 * (y 0).val = (y 0).val; omega
    | ⟨1, _⟩ => show win1_3.index t (1 : Fin 2) * 128 + 1 * (y 1).val = (y 1).val; omega
  have hB : (iblk1 V c 5 t : Vec F S1x128 .f32) = V c (Pipeline.arrRef spec1 5) := by
    funext y
    show V c (Pipeline.arrRef spec1 5) (((cfg1.win 5).blk t).view.emb y) = V c (Pipeline.arrRef spec1 5) y
    refine congrArg (V c (Pipeline.arrRef spec1 5)) ?_
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  funext j
  show out1_7 (iblk1 V c 1 t) (iblk1 V c 3 t) (iblk1 V c 5 t) j
    = G1_7 (V c (Pipeline.arrRef spec1 1)) (V c (Pipeline.arrRef spec1 3)) (V c (Pipeline.arrRef spec1 5)) (((cfg1.win 7).blk t).view.emb j)
  refine (congrFun (out1_7_eq (iblk1 V c 1 t) (iblk1 V c 3 t) (iblk1 V c 5 t)) j).trans ?_
  refine (congrFun (congr3 k1_pay3 hA hS hB) j).trans ?_
  exact at_block k1_pay3 (V c (Pipeline.arrRef spec1 1)) (V c (Pipeline.arrRef spec1 3)) (V c (Pipeline.arrRef spec1 5)) ⟨win1_7.index t (0 : Fin 2), by omega⟩ j (((cfg1.win 7).blk t).view.emb j)
    (by show win1_7.index t (0 : Fin 2) * 512 + 1 * (j 0).val = win1_7.index t (0 : Fin 2) * 512 + (j 0).val; omega)
    (by show win1_7.index t (1 : Fin 2) * 128 + 1 * (j 1).val = (j 1).val; omega)

/-- An index of the array is in point `t`'s block iff each coordinate is in the block's range on its axis. -/
theorem mem_blk7 (t : Fin cfg1.N) (i : S4096x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v11_1).slice (win1_7.rect t)).set ↔ _
  rw [View.set_slice_whole, Rect.mem_set_unit]
  exact Iff.rfl

/-- The writing-back points' blocks cover the array. -/
theorem cover1_7 (i : S4096x128.Idx) : ∃ t : Fin cfg1.N, (cfg1.win 7).flush t = true ∧ i ∈ ((cfg1.win 7).blk t).view.set := by
  have hi0 : (i 0).val < 4096 := ValueIdx.idx2_lt0 i
  have hi1 : (i 1).val < 128 := ValueIdx.idx2_lt1 i
  obtain ⟨t, hf, ht⟩ := idx_onto7 ⟨(i 0).val / 512, by omega⟩
  have q0 : win1_7.index t (0 : Fin 2) = (i 0).val / 512 := ht
  obtain ⟨e1, -⟩ := idx7 t
  refine ⟨t, hf, ?_⟩
  rw [mem_blk7]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 128 ≤ (i 1).val ∧ (i 1).val < win1_7.index t (1 : Fin 2) * 128 + 128; omega

/-- THE ARRAY after the region's last write-back: `G1_7` of the arrays as the region finds them. -/
theorem final1_7 (c : Dev nD) : (dat1 V c).arrAt 7 cfg1.N = G1_7 (V c (Pipeline.arrRef spec1 1)) (V c (Pipeline.arrRef spec1 3)) (V c (Pipeline.arrRef spec1 5)) :=
  (dat1 V c).arrAt_eq_of_cover 7 _ (fun t _ => flushed1_7_eq V c t) cover1_7

/-! ## Output window 9 -/

/-- The store's payload is the whole of what the body leaves: it loads and stores whole buffers. -/
theorem out1_9_eq (xa : Vec F S512x4096 .f32) (xs : Vec F S4096x128 .bf16) (xb : Vec F S1x128 .f32) : out1_9 xa xs xb = k1_pay4 xa xs xb := by
  unfold out1_9
  rw [View.canon_unit_zero hz2, View.ld_unit_zero (S := S512x4096) hz2, View.ld_unit_zero (S := S4096x128) hz2, View.ld_unit_zero (S := S1x128) hz2]

/-- What the window's array ends holding: at row i₀, column i₁, the payload of row block i₀ / 512 of the adjacency, of the
    whole support array and of the bias row, at (i₀ % 512, i₁). -/
def G1_9 (A0 : S4096x4096.Idx → Elt F .f32) (A2 : S4096x128.Idx → Elt F .bf16) (A4 : S1x128.Idx → Elt F .f32) : S4096x128.Idx → Elt F .bf16 :=
  fun i => k1_pay4 (rowBlk A0 (blkOf i)) A2 A4 (inBlk i)

/-- The index maps, decided over the grid: the adjacency window the point reads sits at the output's row block,
    the constant operands at block 0, and the output's block indices stay in range. -/
theorem idx9 : ∀ t : Fin cfg1.N, win1_9.index t (1 : Fin 2) = 0 ∧ win1_9.index t (0 : Fin 2) ≤ 7
    ∧ win1_1.index t (0 : Fin 2) = win1_9.index t (0 : Fin 2) ∧ win1_1.index t (1 : Fin 2) = 0
    ∧ win1_3.index t (0 : Fin 2) = 0 ∧ win1_3.index t (1 : Fin 2) = 0
    ∧ win1_5.index t (0 : Fin 2) = 0 ∧ win1_5.index t (1 : Fin 2) = 0 :=
  (by decide +kernel : ∀ t : Fin grid1.N, _)

/-- Every row block is some writing-back point's. -/
theorem idx_onto9 : ∀ q : Fin 8, ∃ t : Fin cfg1.N, (cfg1.win 9).flush t = true ∧ win1_9.index t (0 : Fin 2) = q.val :=
  (by decide +kernel : ∀ q : Fin 8, ∃ t : Fin grid1.N, win1_9.flush t = true ∧ win1_9.index t (0 : Fin 2) = q.val)

/-- WHAT POINT `t` WRITES BACK is block `t` of `G1_9` of the arrays as the region finds them. -/
theorem flushed1_9_eq (c : Dev nD) (t : Fin cfg1.N) :
    (dat1 V c).flushed 9 t = ((cfg1.win 9).blk t).view.read (Elt F) (G1_9 (V c (Pipeline.arrRef spec1 1)) (V c (Pipeline.arrRef spec1 3)) (V c (Pipeline.arrRef spec1 5))) := by
  show (cfg1.win 9).cut (grid1.coords t) ((dat1 V c).after 9 t) = _
  rw [after1_9]
  obtain ⟨e1, e2, e3, e4, e5, e6, e7, e8⟩ := idx9 t
  have hA : (iblk1 V c 1 t : Vec F S512x4096 .f32) = rowBlk (V c (Pipeline.arrRef spec1 1)) ⟨win1_9.index t (0 : Fin 2), by omega⟩ := by
    funext y
    show V c (Pipeline.arrRef spec1 1) (((cfg1.win 1).blk t).view.emb y) = rowBlk (V c (Pipeline.arrRef spec1 1)) ⟨win1_9.index t (0 : Fin 2), by omega⟩ y
    unfold rowBlk
    refine congrArg (V c (Pipeline.arrRef spec1 1)) ?_
    funext a; apply Fin.ext
    match a with
    | ⟨0, _⟩ => show win1_1.index t (0 : Fin 2) * 512 + 1 * (y 0).val = 512 * win1_9.index t (0 : Fin 2) + (y 0).val; omega
    | ⟨1, _⟩ => show win1_1.index t (1 : Fin 2) * 4096 + 1 * (y 1).val = (y 1).val; omega
  have hS : (iblk1 V c 3 t : Vec F S4096x128 .bf16) = V c (Pipeline.arrRef spec1 3) := by
    funext y
    show V c (Pipeline.arrRef spec1 3) (((cfg1.win 3).blk t).view.emb y) = V c (Pipeline.arrRef spec1 3) y
    refine congrArg (V c (Pipeline.arrRef spec1 3)) ?_
    funext a; apply Fin.ext
    match a with
    | ⟨0, _⟩ => show win1_3.index t (0 : Fin 2) * 4096 + 1 * (y 0).val = (y 0).val; omega
    | ⟨1, _⟩ => show win1_3.index t (1 : Fin 2) * 128 + 1 * (y 1).val = (y 1).val; omega
  have hB : (iblk1 V c 5 t : Vec F S1x128 .f32) = V c (Pipeline.arrRef spec1 5) := by
    funext y
    show V c (Pipeline.arrRef spec1 5) (((cfg1.win 5).blk t).view.emb y) = V c (Pipeline.arrRef spec1 5) y
    refine congrArg (V c (Pipeline.arrRef spec1 5)) ?_
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  funext j
  show out1_9 (iblk1 V c 1 t) (iblk1 V c 3 t) (iblk1 V c 5 t) j
    = G1_9 (V c (Pipeline.arrRef spec1 1)) (V c (Pipeline.arrRef spec1 3)) (V c (Pipeline.arrRef spec1 5)) (((cfg1.win 9).blk t).view.emb j)
  refine (congrFun (out1_9_eq (iblk1 V c 1 t) (iblk1 V c 3 t) (iblk1 V c 5 t)) j).trans ?_
  refine (congrFun (congr3 k1_pay4 hA hS hB) j).trans ?_
  exact at_block k1_pay4 (V c (Pipeline.arrRef spec1 1)) (V c (Pipeline.arrRef spec1 3)) (V c (Pipeline.arrRef spec1 5)) ⟨win1_9.index t (0 : Fin 2), by omega⟩ j (((cfg1.win 9).blk t).view.emb j)
    (by show win1_9.index t (0 : Fin 2) * 512 + 1 * (j 0).val = win1_9.index t (0 : Fin 2) * 512 + (j 0).val; omega)
    (by show win1_9.index t (1 : Fin 2) * 128 + 1 * (j 1).val = (j 1).val; omega)

/-- An index of the array is in point `t`'s block iff each coordinate is in the block's range on its axis. -/
theorem mem_blk9 (t : Fin cfg1.N) (i : S4096x128.Idx) :
    i ∈ ((cfg1.win 9).blk t).view.set ↔ ∀ a : Fin 2, win1_9.index t a * S512x128.size a ≤ (i a).val ∧ (i a).val < win1_9.index t a * S512x128.size a + S512x128.size a := by
  show i ∈ ((View.whole main_v11_3).slice (win1_9.rect t)).set ↔ _
  rw [View.set_slice_whole, Rect.mem_set_unit]
  exact Iff.rfl

/-- The writing-back points' blocks cover the array. -/
theorem cover1_9 (i : S4096x128.Idx) : ∃ t : Fin cfg1.N, (cfg1.win 9).flush t = true ∧ i ∈ ((cfg1.win 9).blk t).view.set := by
  have hi0 : (i 0).val < 4096 := ValueIdx.idx2_lt0 i
  have hi1 : (i 1).val < 128 := ValueIdx.idx2_lt1 i
  obtain ⟨t, hf, ht⟩ := idx_onto9 ⟨(i 0).val / 512, by omega⟩
  have q0 : win1_9.index t (0 : Fin 2) = (i 0).val / 512 := ht
  obtain ⟨e1, -⟩ := idx9 t
  refine ⟨t, hf, ?_⟩
  rw [mem_blk9]
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 128 ≤ (i 1).val ∧ (i 1).val < win1_9.index t (1 : Fin 2) * 128 + 128; omega

/-- THE ARRAY after the region's last write-back: `G1_9` of the arrays as the region finds them. -/
theorem final1_9 (c : Dev nD) : (dat1 V c).arrAt 9 cfg1.N = G1_9 (V c (Pipeline.arrRef spec1 1)) (V c (Pipeline.arrRef spec1 3)) (V c (Pipeline.arrRef spec1 5)) :=
  (dat1 V c).arrAt_eq_of_cover 9 _ (fun t _ => flushed1_9_eq V c t) cover1_9

end Cert.Kernel.Out

end
-- ==== Proof.LossB.lean ====
/- The contrastive-loss region of @main (its third pipeline, a grid of eight points), at the contents `V` the
   TensorCore's buffers hold when the region is entered. At point `t` the body takes row block `t` (512 rows) of the
   first normalised array and of the weights and the whole second normalised array, and adds to a (1,1) accumulator,
   zeroed at the first point, the block's sum over its rows of log(row sum of similarities + ε) − log(weighted row sum).
   After point `t` the accumulator's staging buffer holds the fold `acc2 … t`: the step payload `k2_pay2` applied at row
   blocks 0 … t in turn, from the zero payload `k2_pay1`. The buffer is written back once, after the last point, so the
   (1,1) output array ends holding the fold after point 7, `G2_3` of the three input arrays (`final2_3`), and the three
   input arrays are unchanged (`kept2_0`, `kept2_1`, `kept2_2`). Stated here: the windows' blocks, the body's triple
   once per control case (the first point, every later point), the proof data `dat2`, the body obligation, that value.
   No arithmetic is opened: a block of the result is a payload of blocks of the inputs. -/
import proofs.«134049_g16819091931673_cont_week2b_1393_5_alg».proof.Proof.Gen.Kernel.Launch
import proofs.«134049_g16819091931673_cont_week2b_1393_5_alg».proof.Proof.Gen.Kernel.Skeleton
import proofs.«134049_g16819091931673_cont_week2b_1393_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional, from the grid coordinates: the point is the first. -/
abbrev cond2_0 (i : grid2.Coords) : Prop :=
  (Scalar.cmpi .ne (Scalar.extui (Scalar.cmpi .eq (BitVec.ofNat 32 (i 0).val) 0#32)) 0#32) = 1#1

/-- It holds at the first point only: decided over the eight points. -/
theorem hcond2_0 : ∀ t : Fin cfg2.N, cond2_0 (grid2.coords t) ↔ t.val % 8 = 0 :=
  (by decide +kernel : ∀ t : Fin grid2.N, cond2_0 (grid2.coords t) ↔ t.val % 8 = 0)

/-! ## The body's triple, once per control case -/

set_option maxHeartbeats 1000000 in
/-- FIRST POINT (the condition holds). On whole staging memrefs, the three inputs' at contents `x0 x1 x2` and the
    accumulator's at anything, the body runs to the continuation holding the inputs' as they were and the
    accumulator's with the pieces written (last first), which are the witness the run finds. -/
noncomputable def kernelRun2_A (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : cond2_0 i)
    (x0 : Vec F S512x128 .bf16) (x1 : Vec F S4096x128 .bf16) (x2 : Vec F S512x4096 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc2__loss_body i arg1 harg1 arg2 harg2 arg3 harg3 arg4 harg4) K } := by
  refine ⟨?_, fun E K => ?run⟩
  case run =>
    simp only [cc2__loss_body_eq_skeleton]; unfold cc2__loss_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- EVERY LATER POINT (the condition fails). The same, the accumulator's memref at the contents `xo3` the point
    before left: the body loads them and stores the step over them. -/
noncomputable def kernelRun2_B (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : ¬cond2_0 i)
    (x0 : Vec F S512x128 .bf16) (x1 : Vec F S4096x128 .bf16) (x2 : Vec F S512x4096 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare xo3
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc2__loss_body i arg1 harg1 arg2 harg2 arg3 harg3 arg4 harg4) K } := by
  refine ⟨?_, fun E K => ?run⟩
  case run =>
    simp only [cc2__loss_body_eq_skeleton]; unfold cc2__loss_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What each case leaves in the accumulator's staging buffer -/

/-- One staging buffer of the accumulator window, through which its contents are stated (the choice does not matter:
    pieces covering the buffer read back the same through any view of the shape). -/
abbrev VO2_3 : View sig .tc .vmem S1x1 .f32 := (Memref.whole cc2_stg3_0 : Memref sig .tc .vmem S1x1 .f32).view

/-- Each window's current staging memref at point `t`, spelled as the pipeline passes it, and its wholeness. -/
abbrev ms2_0 (t : Fin cfg2.N) : Memref sig .tc .vmem S512x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

/-- The first point's pieces tile the (1,1) buffer, so they cover it. -/
theorem cover2_A_3 (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : cond2_0 i)
    (x0 : Vec F S512x128 .bf16) (x1 : Vec F S4096x128 .bf16) (x2 : Vec F S512x4096 .f32) (y : S1x1.Idx) :
    ∃ pc ∈ (kernelRun2_A c i arg1 harg1 arg2 harg2 arg3 harg3 arg4 harg4 hc0 x0 x1 x2).1, y ∈ pc.1.set :=
  View.cover_of_tiledL (kernelRun2_A c i arg1 harg1 arg2 harg2 arg3 harg3 arg4 harg4 hc0 x0 x1 x2).1 S1x1.size (by sl_kernel_rfl) y

/-- What the first point leaves in the accumulator's staging buffer: its pieces read back over junk. -/
def out2_A_3 (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : cond2_0 i)
    (x0 : Vec F S512x128 .bf16) (x1 : Vec F S4096x128 .bf16) (x2 : Vec F S512x4096 .f32) : Vec F S1x1 .f32 :=
  VO2_3.read (Elt F) (VO2_3.writes (Elt F) VO2_3.junk (kernelRun2_A c i arg1 harg1 arg2 harg2 arg3 harg3 arg4 harg4 hc0 x0 x1 x2).1)

/-- A later point's pieces tile the (1,1) buffer, so they cover it. -/
theorem cover2_B_3 (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : ¬cond2_0 i)
    (x0 : Vec F S512x128 .bf16) (x1 : Vec F S4096x128 .bf16) (x2 : Vec F S512x4096 .f32) (xo3 : Vec F S1x1 .f32) (y : S1x1.Idx) :
    ∃ pc ∈ (kernelRun2_B c i arg1 harg1 arg2 harg2 arg3 harg3 arg4 harg4 hc0 x0 x1 x2 xo3).1, y ∈ pc.1.set :=
  View.cover_of_tiledL (kernelRun2_B c i arg1 harg1 arg2 harg2 arg3 harg3 arg4 harg4 hc0 x0 x1 x2 xo3).1 S1x1.size (by sl_kernel_rfl) y

/-- What a later point leaves in the accumulator's staging buffer: its pieces read back over junk. -/
def out2_B_3 (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : ¬cond2_0 i)
    (x0 : Vec F S512x128 .bf16) (x1 : Vec F S4096x128 .bf16) (x2 : Vec F S512x4096 .f32) (xo3 : Vec F S1x1 .f32) : Vec F S1x1 .f32 :=
  VO2_3.read (Elt F) (VO2_3.writes (Elt F) VO2_3.junk (kernelRun2_B c i arg1 harg1 arg2 harg2 arg3 harg3 arg4 harg4 hc0 x0 x1 x2 xo3).1)

/-! ## The windows' blocks, at the entry contents -/

section Region
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (fetched at the first point only: its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the accumulator's buffer holds after each point -/

/-- THE ACCUMULATION. What the accumulator's staging buffer holds after the body at position `n`: at the first point
    the first case's contents; at a later point the later case's, over what this leaves at `n - 1` (the buffer is not
    written back between). -/
def outsAt2 (c : Dev nD) : (n : ℕ) → n < cfg2.N → Vec F S1x1 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩)
      ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 8 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        ((hcond2_0 ⟨n + 1, hn⟩).mpr h0) (iblk2 V c 0 ⟨n + 1, hn⟩) (iblk2 V c 1 ⟨n + 1, hn⟩) (iblk2 V c 2 ⟨n + 1, hn⟩)
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        (fun h => h0 ((hcond2_0 ⟨n + 1, hn⟩).mp h)) (iblk2 V c 0 ⟨n + 1, hn⟩) (iblk2 V c 1 ⟨n + 1, hn⟩) (iblk2 V c 2 ⟨n + 1, hn⟩)
        (outsAt2 c n (Nat.lt_of_succ_lt hn))

/-- `outsAt2` at the first point: the first case's contents. -/
theorem outsAt2_A (c : Dev nD) (t : Fin cfg2.N) (h0 : t.val % 8 = 0) :
    outsAt2 V c t.val t.isLt = out2_A_3 c (grid2.coords t) (ms2_0 t) (hs2_0 t) (ms2_1 t) (hs2_1 t) (ms2_2 t) (hs2_2 t) (ms2_3 t) (hs2_3 t)
      ((hcond2_0 t).mpr h0) (iblk2 V c 0 t) (iblk2 V c 1 t) (iblk2 V c 2 t) := by
  obtain ⟨n, hn⟩ := t
  cases n with
  | zero => exact rfl
  | succ n => exact (dif_pos h0).trans rfl

/-- `outsAt2` at a later point: the later case's contents, over what the point before left. -/
theorem outsAt2_B (c : Dev nD) (t : Fin cfg2.N) (h0 : ¬t.val % 8 = 0) :
    outsAt2 V c t.val t.isLt = out2_B_3 c (grid2.coords t) (ms2_0 t) (hs2_0 t) (ms2_1 t) (hs2_1 t) (ms2_2 t) (hs2_2 t) (ms2_3 t) (hs2_3 t)
      (fun h => h0 ((hcond2_0 t).mp h)) (iblk2 V c 0 t) (iblk2 V c 1 t) (iblk2 V c 2 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the loss pipeline on core `c`: the arrays as the region finds them (`V`); after the body at
    point `t` each input's buffer at its block and the accumulator's at `outsAt2`; the invariant the scoped rest and
    the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At a later point the accumulator's staging buffer holds what the body left at the point before: the point is not
    the first, the buffer was not written back between (it is written back after the last point only), the window
    is live and uncut. -/
theorem before2_3_B (c : Dev nD) (t : Fin cfg2.N) (h0 : ¬t.val % 8 = 0) (d) :
    (dat2 V c).before 3 t d = (outsAt2 V c (t.val - 1) (Nat.lt_of_le_of_lt (Nat.sub_le _ _) t.isLt)) := by
  have hN : t.val < 8 := lt_of_lt_of_eq t.isLt (show cfg2.N = 8 from N_2)
  rw [Dat.before_out_kept _ 3 rfl t (by omega) (Bool.eq_false_iff.mpr fun h => by have := (flush2_3 _).mp h; dsimp only at this; omega)
    (fun _ => rfl) (fun _ _ => rfl)]
  dsimp only [dat2]

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
/-- The body at any point: the inputs' memrefs hold their blocks; the closed form says which case the point is in; at
    a later point the accumulator's memref holds what the point before left; so the case's run applies; the invariant
    passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 8 := lt_of_lt_of_eq t.isLt (show cfg2.N = 8 from N_2)
  by_cases h0 : t.val % 8 = 0
  · rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ ((hcond2_0 t).mpr h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _)
  · rw [outsAt2_B V c t h0]
    simp only [before2_3_B V c t h0]
    unfold out2_B_3
    iintro ⟨HΦ, Ho, ⟨%d0, H0⟩, ⟨%d1, H1⟩, ⟨%d2, H2⟩, ⟨%d3, H3⟩⟩
    iapply ((kernelRun2_B c (grid2.coords t) _ _ _ _ _ _ _ _ (fun h => h0 ((hcond2_0 t).mp h)) (iblk2 V c 0 t) (iblk2 V c 1 t) (iblk2 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The value: what each case leaves, through the skeleton's payloads -/

theorem hz2 : (![0, 0] : Fin 2 → Nat) = fun _ => 0 := funext fun a => by fin_cases a <;> rfl

/-- What the first point leaves in the accumulator's staging buffer, as a term: the zero payload stored, read back,
    and the step's payload over it and the three input blocks stored (the buffer's prior contents do not enter). -/
theorem out_A_3_eq (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : cond2_0 i)
    (x0 : Vec F S512x128 .bf16) (x1 : Vec F S4096x128 .bf16) (x2 : Vec F S512x4096 .f32) :
    out2_A_3 c i arg1 harg1 arg2 harg2 arg3 harg3 arg4 harg4 hc0 x0 x1 x2 = k2_pay2 x0 x1 x2 (k2_pay1 (F := F)) := by
  unfold out2_A_3
  rw [View.read_writes_eq_canon _ _ _ (cover2_A_3 c i arg1 harg1 arg2 harg2 arg3 harg3 arg4 harg4 hc0 x0 x1 x2)]
  unfold kernelRun2_A
  dsimp only
  try sl_unfold_words
  rw [View.canon_cons_unit_zero (S := S1x1) hz2, View.readCov_unit_zero (S := S1x1) _ hz2]
  simp only [View.readAt_eq_ld, harg1.read_unread, harg2.read_unread, harg3.read_unread, harg4.read_unread,
    View.ld_unit_zero (S := S1x1) hz2, View.ld_unit_zero (S := S512x128) hz2, View.ld_unit_zero (S := S4096x128) hz2,
    View.ld_unit_zero (S := S512x4096) hz2, shapeCast_self]

/-- What a later point leaves in the accumulator's staging buffer, as a term: the step's payload over the contents
    the point before left (`xo3`) and the three input blocks. -/
theorem out_B_3_eq (c : Dev nD) (i : grid2.Coords)
    (arg1 : Memref sig .tc .vmem S512x128 .bf16) (harg1 : arg1.IsWhole)
    (arg2 : Memref sig .tc .vmem S4096x128 .bf16) (harg2 : arg2.IsWhole)
    (arg3 : Memref sig .tc .vmem S512x4096 .f32) (harg3 : arg3.IsWhole)
    (arg4 : Memref sig .tc .vmem S1x1 .f32) (harg4 : arg4.IsWhole) (hc0 : ¬cond2_0 i)
    (x0 : Vec F S512x128 .bf16) (x1 : Vec F S4096x128 .bf16) (x2 : Vec F S512x4096 .f32) (xo3 : Vec F S1x1 .f32) :
    out2_B_3 c i arg1 harg1 arg2 harg2 arg3 harg3 arg4 harg4 hc0 x0 x1 x2 xo3 = k2_pay2 x0 x1 x2 xo3 := by
  unfold out2_B_3
  rw [View.read_writes_eq_canon _ _ _ (cover2_B_3 c i arg1 harg1 arg2 harg2 arg3 harg3 arg4 harg4 hc0 x0 x1 x2 xo3)]
  unfold kernelRun2_B
  dsimp only
  try sl_unfold_words
  rw [View.canon_cons_unit_zero (S := S1x1) hz2]
  simp only [View.readAt_eq_ld, harg1.read_unread, harg2.read_unread, harg3.read_unread, harg4.read_unread,
    View.ld_unit_zero (S := S1x1) hz2, View.ld_unit_zero (S := S512x128) hz2, View.ld_unit_zero (S := S4096x128) hz2,
    View.ld_unit_zero (S := S512x4096) hz2, shapeCast_self]

/-! ## The input windows' blocks as rows of their arrays -/

open Idealize.ShloMosaic.ValueIdx in
/-- Rows `512·k … 512·k + 511` of an array of 4096 rows of 128. -/
def rows128 {α : Type} (A : S4096x128.Idx → α) (k : ℕ) (hk : k < 8) : S512x128.Idx → α :=
  fun y => A (ix2 ⟨512 * k + (y 0).val, by have := idx2_lt0 y; omega⟩ (y 1))

open Idealize.ShloMosaic.ValueIdx in
/-- Rows `512·k … 512·k + 511` of an array of 4096 rows of 4096. -/
def rows4096 {α : Type} (A : S4096x4096.Idx → α) (k : ℕ) (hk : k < 8) : S512x4096.Idx → α :=
  fun y => A (ix2 ⟨512 * k + (y 0).val, by have := idx2_lt0 y; omega⟩ (y 1))

/-- The printed index maps, decided over the eight points: window 0's and window 2's row-block index is the point,
    windows 1 and 3 stay at block (0, 0). -/
theorem idx_facts2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0) :=
  (by decide +kernel : ∀ t : Fin grid2.N, _)

open Idealize.ShloMosaic.ValueIdx in
/-- Window 0's block at point `t` is row block `t` of its array. -/
theorem iblk2_0_eq (c : Dev nD) (t : Fin cfg2.N) :
    iblk2 V c 0 t = rows128 (V c (Pipeline.arrRef spec2 0) : S4096x128.Idx → Elt F .bf16) t.val (lt_of_lt_of_eq t.isLt N_2) := by
  funext y
  obtain ⟨⟨e0, e1⟩, -⟩ := idx_facts2 t
  have hy0 : (y 0).val < 512 := (y 0).isLt
  have hy1 : (y 1).val < 128 := (y 1).isLt
  have hb0 : (((cfg2.win 0).blk t).view.emb y 0).val = win2_0.index t (0 : Fin 2) * 512 + 1 * (y 0).val := rfl
  have hb1 : (((cfg2.win 0).blk t).view.emb y 1).val = win2_0.index t (1 : Fin 2) * 128 + 1 * (y 1).val := rfl
  show (V c (Pipeline.arrRef spec2 0) : S4096x128.Idx → Elt F .bf16) (((cfg2.win 0).blk t).view.emb y)
    = (V c (Pipeline.arrRef spec2 0) : S4096x128.Idx → Elt F .bf16) (ix2 ⟨512 * t.val + (y 0).val, _⟩ (y 1))
  congr 1
  funext a; apply Fin.ext
  match a with
  | ⟨0, _⟩ => show (((cfg2.win 0).blk t).view.emb y 0).val = 512 * t.val + (y 0).val; rw [hb0, e0]; omega
  | ⟨1, _⟩ => show (((cfg2.win 0).blk t).view.emb y 1).val = (y 1).val; rw [hb1, e1]; omega

/-- Window 1's block at every point is its whole array. -/
theorem iblk2_1_eq (c : Dev nD) (t : Fin cfg2.N) :
    iblk2 V c 1 t = (V c (Pipeline.arrRef spec2 1) : S4096x128.Idx → Elt F .bf16) := by
  funext y
  obtain ⟨-, ⟨e0, e1⟩, -⟩ := idx_facts2 t
  have hy0 : (y 0).val < 4096 := (y 0).isLt
  have hy1 : (y 1).val < 128 := (y 1).isLt
  have hb0 : (((cfg2.win 1).blk t).view.emb y 0).val = win2_1.index t (0 : Fin 2) * 4096 + 1 * (y 0).val := rfl
  have hb1 : (((cfg2.win 1).blk t).view.emb y 1).val = win2_1.index t (1 : Fin 2) * 128 + 1 * (y 1).val := rfl
  show (V c (Pipeline.arrRef spec2 1) : S4096x128.Idx → Elt F .bf16) (((cfg2.win 1).blk t).view.emb y)
    = (V c (Pipeline.arrRef spec2 1) : S4096x128.Idx → Elt F .bf16) y
  congr 1
  funext a; apply Fin.ext
  match a with
  | ⟨0, _⟩ => show (((cfg2.win 1).blk t).view.emb y 0).val = (y 0).val; rw [hb0, e0]; omega
  | ⟨1, _⟩ => show (((cfg2.win 1).blk t).view.emb y 1).val = (y 1).val; rw [hb1, e1]; omega

open Idealize.ShloMosaic.ValueIdx in
/-- Window 2's block at point `t` is row block `t` of its array. -/
theorem iblk2_2_eq (c : Dev nD) (t : Fin cfg2.N) :
    iblk2 V c 2 t = rows4096 (V c (Pipeline.arrRef spec2 2) : S4096x4096.Idx → Elt F .f32) t.val (lt_of_lt_of_eq t.isLt N_2) := by
  funext y
  obtain ⟨-, -, ⟨e0, e1⟩, -⟩ := idx_facts2 t
  have hy0 : (y 0).val < 512 := (y 0).isLt
  have hy1 : (y 1).val < 4096 := (y 1).isLt
  have hb0 : (((cfg2.win 2).blk t).view.emb y 0).val = win2_2.index t (0 : Fin 2) * 512 + 1 * (y 0).val := rfl
  have hb1 : (((cfg2.win 2).blk t).view.emb y 1).val = win2_2.index t (1 : Fin 2) * 4096 + 1 * (y 1).val := rfl
  show (V c (Pipeline.arrRef spec2 2) : S4096x4096.Idx → Elt F .f32) (((cfg2.win 2).blk t).view.emb y)
    = (V c (Pipeline.arrRef spec2 2) : S4096x4096.Idx → Elt F .f32) (ix2 ⟨512 * t.val + (y 0).val, _⟩ (y 1))
  congr 1
  funext a; apply Fin.ext
  match a with
  | ⟨0, _⟩ => show (((cfg2.win 2).blk t).view.emb y 0).val = 512 * t.val + (y 0).val; rw [hb0, e0]; omega
  | ⟨1, _⟩ => show (((cfg2.win 2).blk t).view.emb y 1).val = (y 1).val; rw [hb1, e1]; omega

/-! ## The accumulator as a fold over the points -/

/-- THE FOLD. What the accumulator holds after point `n`, from the three arrays: at the first point the step's payload
    over the zero payload, at every later point the step's payload over what the point before left — each at row block
    `n` of the first and third arrays and the whole second. -/
def acc2 (Z1 : S4096x128.Idx → Elt F .bf16) (Z2 : S4096x128.Idx → Elt F .bf16) (C : S4096x4096.Idx → Elt F .f32) :
    (n : ℕ) → n < 8 → Vec F S1x1 .f32
  | 0, h => k2_pay2 (rows128 Z1 0 h) Z2 (rows4096 C 0 h) (k2_pay1 (F := F))
  | n + 1, h => k2_pay2 (rows128 Z1 (n + 1) h) Z2 (rows4096 C (n + 1) h) (acc2 Z1 Z2 C n (Nat.lt_of_succ_lt h))

/-- WHAT THE (1,1) OUTPUT ARRAY ENDS HOLDING, as a function of the three input arrays: the fold after the last point. -/
def G2_3 (Z1 : S4096x128.Idx → Elt F .bf16) (Z2 : S4096x128.Idx → Elt F .bf16) (C : S4096x4096.Idx → Elt F .f32) :
    S1x1.Idx → Elt F .f32 :=
  acc2 Z1 Z2 C 7 (by decide)

/-- The fold unrolled over the eight points. -/
theorem G2_3_unrolled (Z1 : S4096x128.Idx → Elt F .bf16) (Z2 : S4096x128.Idx → Elt F .bf16) (C : S4096x4096.Idx → Elt F .f32) :
    G2_3 Z1 Z2 C =
      k2_pay2 (rows128 Z1 7 (by decide)) Z2 (rows4096 C 7 (by decide))
        (k2_pay2 (rows128 Z1 6 (by decide)) Z2 (rows4096 C 6 (by decide))
          (k2_pay2 (rows128 Z1 5 (by decide)) Z2 (rows4096 C 5 (by decide))
            (k2_pay2 (rows128 Z1 4 (by decide)) Z2 (rows4096 C 4 (by decide))
              (k2_pay2 (rows128 Z1 3 (by decide)) Z2 (rows4096 C 3 (by decide))
                (k2_pay2 (rows128 Z1 2 (by decide)) Z2 (rows4096 C 2 (by decide))
                  (k2_pay2 (rows128 Z1 1 (by decide)) Z2 (rows4096 C 1 (by decide))
                    (k2_pay2 (rows128 Z1 0 (by decide)) Z2 (rows4096 C 0 (by decide)) (k2_pay1 (F := F))))))))) := rfl

/-- The step's payload respects equality of its four arguments (stated over variables of the literal vector types). -/
theorem k2_pay2_congr {a a' : Vec F S512x128 .bf16} {b b' : Vec F S4096x128 .bf16} {d d' : Vec F S512x4096 .f32}
    {e e' : Vec F S1x1 .f32} (ha : a = a') (hb : b = b') (hd : d = d') (he : e = e') :
    k2_pay2 a b d e = k2_pay2 a' b' d' e' := by subst ha; subst hb; subst hd; subst he; rfl

/-- WHAT THE ACCUMULATOR'S BUFFER HOLDS after point `n` is the fold at `n` of the region-entry arrays: by recursion on
    the point, the case by the closed form, each case's contents by its term, the blocks as rows. -/
theorem outsAt2_eq (c : Dev nD) : ∀ (n : ℕ) (h : n < cfg2.N),
    outsAt2 V c n h = acc2 (V c (Pipeline.arrRef spec2 0) : S4096x128.Idx → Elt F .bf16)
      (V c (Pipeline.arrRef spec2 1) : S4096x128.Idx → Elt F .bf16)
      (V c (Pipeline.arrRef spec2 2) : S4096x4096.Idx → Elt F .f32) n (lt_of_lt_of_eq h N_2)
  | 0, h =>
    ((outsAt2_A V c ⟨0, h⟩ (Nat.zero_mod _)).trans
      (out_A_3_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩)
        ((hcond2_0 ⟨0, h⟩).mpr (Nat.zero_mod _)) (iblk2 V c 0 ⟨0, h⟩) (iblk2 V c 1 ⟨0, h⟩) (iblk2 V c 2 ⟨0, h⟩))).trans
      (k2_pay2_congr (iblk2_0_eq V c ⟨0, h⟩) (iblk2_1_eq V c ⟨0, h⟩) (iblk2_2_eq V c ⟨0, h⟩) rfl)
  | n + 1, h => by
    have hN : n + 1 < 8 := lt_of_lt_of_eq h N_2
    have h0 : ¬(n + 1) % 8 = 0 := by omega
    exact ((outsAt2_B V c ⟨n + 1, h⟩ h0).trans
      (out_B_3_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩)
        (fun hc => h0 ((hcond2_0 ⟨n + 1, h⟩).mp hc)) (iblk2 V c 0 ⟨n + 1, h⟩) (iblk2 V c 1 ⟨n + 1, h⟩) (iblk2 V c 2 ⟨n + 1, h⟩)
        (outsAt2 V c n (Nat.lt_of_succ_lt h)))).trans
      (k2_pay2_congr (iblk2_0_eq V c ⟨n + 1, h⟩) (iblk2_1_eq V c ⟨n + 1, h⟩) (iblk2_2_eq V c ⟨n + 1, h⟩) (outsAt2_eq c n (Nat.lt_of_succ_lt h)))

/-! ## The output array after the region -/

/-- An index of the (1,1) array is in point `t`'s block iff each coordinate is in the block's range on its axis. -/
theorem mem_blk2_3 (t : Fin cfg2.N) (i : S1x1.Idx) :
    i ∈ ((cfg2.win 3).blk t).view.set ↔ ∀ a : Fin 2, win2_3.index t a * S1x1.size a ≤ (i a).val ∧ (i a).val < win2_3.index t a * S1x1.size a + S1x1.size a := by
  show i ∈ ((View.whole main_v12).slice (win2_3.rect t)).set ↔ _
  rw [View.set_slice_whole, Rect.mem_set_unit]
  exact Iff.rfl

/-- WHAT THE LAST POINT WRITES BACK is the one block of `G2_3`: the whole fold. -/
theorem flushed2_3_eq (c : Dev nD) (t : Fin cfg2.N) (hf : (cfg2.win 3).flush t = true) :
    (dat2 V c).flushed 3 t = ((cfg2.win 3).blk t).view.read (Elt F)
      (G2_3 (V c (Pipeline.arrRef spec2 0) : S4096x128.Idx → Elt F .bf16)
        (V c (Pipeline.arrRef spec2 1) : S4096x128.Idx → Elt F .bf16)
        (V c (Pipeline.arrRef spec2 2) : S4096x4096.Idx → Elt F .f32)) := by
  show (cfg2.win 3).cut (grid2.coords t) ((dat2 V c).after 3 t) = _
  rw [after2_3, outsAt2_eq]
  have hm : t.val % 8 = 7 := (flush2_3 t).mp hf
  have hN : t.val < 8 := lt_of_lt_of_eq t.isLt N_2
  have ht : t.val = 7 := by omega
  obtain ⟨-, -, -, ⟨e0, e1⟩⟩ := idx_facts2 t
  funext y
  have hy0 : (y 0).val < 1 := (y 0).isLt
  have hy1 : (y 1).val < 1 := (y 1).isLt
  have hb0 : (((cfg2.win 3).blk t).view.emb y 0).val = win2_3.index t (0 : Fin 2) * 1 + 1 * (y 0).val := rfl
  have hb1 : (((cfg2.win 3).blk t).view.emb y 1).val = win2_3.index t (1 : Fin 2) * 1 + 1 * (y 1).val := rfl
  have hl : ((cfg2.win 3).blk t).view.emb y = (cfg2.win 3).xinj (grid2.coords t) y := by
    funext a; apply Fin.ext
    match a with
    | ⟨0, _⟩ => show (((cfg2.win 3).blk t).view.emb y 0).val = (y 0).val; rw [hb0, e0]; omega
    | ⟨1, _⟩ => show (((cfg2.win 3).blk t).view.emb y 1).val = (y 1).val; rw [hb1, e1]; omega
  show acc2 _ _ _ t.val _ ((cfg2.win 3).xinj (grid2.coords t) y) = G2_3 _ _ _ (((cfg2.win 3).blk t).view.emb y)
  rw [hl]
  unfold G2_3
  have e : ∀ (n n' : ℕ) (h : n < 8) (h' : n' < 8), n = n' →
      acc2 (V c (Pipeline.arrRef spec2 0) : S4096x128.Idx → Elt F .bf16) (V c (Pipeline.arrRef spec2 1) : S4096x128.Idx → Elt F .bf16)
        (V c (Pipeline.arrRef spec2 2) : S4096x4096.Idx → Elt F .f32) n h
      = acc2 (V c (Pipeline.arrRef spec2 0) : S4096x128.Idx → Elt F .bf16) (V c (Pipeline.arrRef spec2 1) : S4096x128.Idx → Elt F .bf16)
        (V c (Pipeline.arrRef spec2 2) : S4096x4096.Idx → Elt F .f32) n' h' := by
    intro n n' h h' hn; subst hn; rfl
  exact congrFun (e _ _ _ _ ht) _

/-- THE (1,1) OUTPUT ARRAY after the region's last write-back: `G2_3` of the region-entry contents of the three
    input arrays (the one block, written back after the last point, is the whole array). -/
theorem final2_3 (c : Dev nD) : (dat2 V c).arrAt 3 cfg2.N
    = G2_3 (V c (Pipeline.arrRef spec2 0) : S4096x128.Idx → Elt F .bf16)
        (V c (Pipeline.arrRef spec2 1) : S4096x128.Idx → Elt F .bf16)
        (V c (Pipeline.arrRef spec2 2) : S4096x4096.Idx → Elt F .f32) :=
  (dat2 V c).arrAt_eq_of_cover 3 _ (fun t hf => flushed2_3_eq V c t hf) (fun i => by
    refine ⟨⟨7, by rw [show cfg2.N = 8 from N_2]; decide⟩, (flush2_3 _).mpr rfl, ?_⟩
    rw [mem_blk2_3]
    obtain ⟨-, -, -, ⟨e0, e1⟩⟩ := idx_facts2 ⟨7, by rw [show cfg2.N = 8 from N_2]; decide⟩
    have h0 : (i 0).val < 1 := (i 0).isLt
    have h1 : (i 1).val < 1 := (i 1).isLt
    intro a
    match a with
    | ⟨0, _⟩ => show win2_3.index _ (0 : Fin 2) * 1 ≤ (i 0).val ∧ (i 0).val < win2_3.index _ (0 : Fin 2) * 1 + 1; rw [e0]; omega
    | ⟨1, _⟩ => show win2_3.index _ (1 : Fin 2) * 1 ≤ (i 1).val ∧ (i 1).val < win2_3.index _ (1 : Fin 2) * 1 + 1; rw [e1]; omega)

/-! ## The input arrays are never written -/

theorem kept2_0 (c : Dev nD) : (dat2 V c).arrAt 0 cfg2.N = V c (Pipeline.arrRef spec2 0) :=
  ((dat2 V c).arrAt_in 0 rfl _).trans (A_eq2 V c 0)
theorem kept2_1 (c : Dev nD) : (dat2 V c).arrAt 1 cfg2.N = V c (Pipeline.arrRef spec2 1) :=
  ((dat2 V c).arrAt_in 1 rfl _).trans (A_eq2 V c 1)
theorem kept2_2 (c : Dev nD) : (dat2 V c).arrAt 2 cfg2.N = V c (Pipeline.arrRef spec2 2) :=
  ((dat2 V c).arrAt_in 2 rfl _).trans (A_eq2 V c 2)

/-! ## The proof data's other fields, and the axioms used -/

example (c : Dev nD) (t : Fin (cfg2.N + 1)) : (dat2 V c).Φ t = Pipeline.ΦA spec2 c := rfl
example (c : Dev nD) (w : Fin cfg2.W) : (dat2 V c).q w = fullShare := rfl
example (c : Dev nD) (t : Fin (cfg2.N + 1)) : (dat2 V c).owed t = 0 := rfl

/-- info: 'Cert.Kernel.Loss.body_obligation2' depends on axioms: [propext, Classical.choice, Quot.sound] -/
#guard_msgs in #print axioms body_obligation2
/-- info: 'Cert.Kernel.Loss.final2_3' depends on axioms: [propext, Classical.choice, Quot.sound] -/
#guard_msgs in #print axioms final2_3

end Region

end Cert.Kernel.Loss

end
-- ==== Proof.KRunB.lean ====
/-
  The three regions' halves put into the chain for the program as printed: its run, and its frame, with the proof data of the
  hidden-layer region, the embedding region and the loss region.
-/
import proofs.«134049_g16819091931673_cont_week2b_1393_5_alg».proof.Proof.ChainB
import proofs.«134049_g16819091931673_cont_week2b_1393_5_alg».proof.Proof.MidB
import proofs.«134049_g16819091931673_cont_week2b_1393_5_alg».proof.Proof.OutB
import proofs.«134049_g16819091931673_cont_week2b_1393_5_alg».proof.Proof.LossB

set_option maxRecDepth 16384

noncomputable section

namespace Cert.Kernel.KRun

open Cert.Kernel Cert.Kernel.Gen Cert.Kernel.Chain
open Idealize.ShloMosaic Idealize.ShloMosaic.TcCoe
open Idealize.SL Idealize.SL.Sem

variable {F : FTy → Type} [FloatOps F]

/-- The hidden-layer region's half. -/
def half0 : Half F cfg0 where
  dat := fun V c => Mid.dat0 V c
  hA := fun V c w => Mid.A_eq0 V c w
  hΦ := fun _ _ _ => rfl
  hq := fun _ _ _ => rfl
  howed := fun _ _ _ => rfl
  hrec := fun _ _ _ => rfl
  hbody := fun V c => Mid.body_obligation0 V c
/-- The embedding region's half. -/
def half1 : Half F cfg1 where
  dat := fun V c => Out.dat1 V c
  hA := fun V c w => Out.A_eq1 V c w
  hΦ := fun _ _ _ => rfl
  hq := fun _ _ _ => rfl
  howed := fun _ _ _ => rfl
  hrec := fun _ _ _ => rfl
  hbody := fun V c => Out.body_obligation1 V c
/-- The loss region's half. -/
def half2 : Half F cfg2 where
  dat := fun V c => Loss.dat2 V c
  hA := fun V c w => Loss.A_eq2 V c w
  hΦ := fun _ _ _ => rfl
  hq := fun _ _ _ => rfl
  howed := fun _ _ _ => rfl
  hrec := fun _ _ _ => rfl
  hbody := fun V c => Loss.body_obligation2 V c

variable (m : (ℓ : Loc nD τ sig) → Buf (Elt F) ℓ) (ρ : Dev nD → PrngReg)

/-- The last boundary's contents with the three halves in place. -/
abbrev Wend : Dev nD → Valuation τ sig (Elt F) := W6 (half0 (F := F)) half1 half2 m ρ

/-- The kernel program's run: every weakly fair execution terminates, nothing faults, every unscoped buffer ends at `Wend`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Chain.run half0 half1 half2 m ρ

/-- The frame: the thirteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Chain.frame (half0 (F := F)) half1 half2 m ρ

end Cert.Kernel.KRun

end
-- ==== Proof.KVal.lean ====
/-
  The kernel program's three results as functions of the thirteen argument arrays, read off the run's last boundary:
  each region's output arrays are its whole-array functions of the arrays it was entered with, and those are followed
  back through the boundaries — the second region's hidden operand is the first region's output, the third region's
  normalized rows are the second region's — to the launch contents and the host stretches' bf16 copies and bias rows.
-/
import proofs.«134049_g16819091931673_cont_week2b_1393_5_alg».proof.Proof.KRun

set_option maxRecDepth 16384

noncomputable section

namespace Cert.KernelIdeal.KVal

open Cert.KernelIdeal Cert.KernelIdeal.Gen Cert.KernelIdeal.Chain Cert.KernelIdeal.KRun
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The first tower's hidden operand of the second layer, s₂ = relu((adj₁·x₁)·W₁₁ + b₁₁)·W₁₂ in bf16, of the launch contents. -/
def s21 (c : Dev nD) : Vec F S4096x128 .bf16 :=
  Mid.G0_10 (m ((c : Thread nD τ).loc main_arg1)) (truncf .bf16 (m ((c : Thread nD τ).loc main_arg0)) bitsLt_bf16_f32)
    (truncf .bf16 (m ((c : Thread nD τ).loc main_arg5)) bitsLt_bf16_f32)
    (shapeCast S1x256 (m ((c : Thread nD τ).loc main_arg6)) shapeCasts_S256_S1x256)
    (truncf .bf16 (m ((c : Thread nD τ).loc main_arg7)) bitsLt_bf16_f32)
/-- The second tower's. -/
def s22 (c : Dev nD) : Vec F S4096x128 .bf16 :=
  Mid.G0_11 (m ((c : Thread nD τ).loc main_arg3)) (truncf .bf16 (m ((c : Thread nD τ).loc main_arg2)) bitsLt_bf16_f32)
    (truncf .bf16 (m ((c : Thread nD τ).loc main_arg9)) bitsLt_bf16_f32)
    (shapeCast S1x256 (m ((c : Thread nD τ).loc main_arg10)) shapeCasts_S256_S1x256)
    (truncf .bf16 (m ((c : Thread nD τ).loc main_arg11)) bitsLt_bf16_f32)

theorem V3_s21_eq (c : Dev nD) : V3 (half0 (F := F)) m ρ c main_v8_0 = s21 m c := by
  refine (V3_s21 half0 m ρ c).trans ?_
  refine (Mid.final0_10 (V1 m ρ) c).trans ?_
  unfold s21
  rw [show V1 m ρ c (Pipeline.arrRef spec0 0) = m ((c : Thread nD τ).loc main_arg1) from V1_launch m ρ c main_arg1 (by decide),
    show V1 m ρ c (Pipeline.arrRef spec0 2) = _ from V1_x1 m ρ c, show V1 m ρ c (Pipeline.arrRef spec0 4) = _ from V1_w11 m ρ c,
    show V1 m ρ c (Pipeline.arrRef spec0 6) = _ from V1_b11 m ρ c, show V1 m ρ c (Pipeline.arrRef spec0 8) = _ from V1_w12 m ρ c]
theorem V3_s22_eq (c : Dev nD) : V3 (half0 (F := F)) m ρ c main_v8_1 = s22 m c := by
  refine (V3_s22 half0 m ρ c).trans ?_
  refine (Mid.final0_11 (V1 m ρ) c).trans ?_
  unfold s22
  rw [show V1 m ρ c (Pipeline.arrRef spec0 1) = m ((c : Thread nD τ).loc main_arg3) from V1_launch m ρ c main_arg3 (by decide),
    show V1 m ρ c (Pipeline.arrRef spec0 3) = _ from V1_x2 m ρ c, show V1 m ρ c (Pipeline.arrRef spec0 5) = _ from V1_w21 m ρ c,
    show V1 m ρ c (Pipeline.arrRef spec0 7) = _ from V1_b21 m ρ c, show V1 m ρ c (Pipeline.arrRef spec0 9) = _ from V1_w22 m ρ c]

/-- The second layer's bias rows. -/
abbrev b12row (c : Dev nD) : Vec F S1x128 .f32 := shapeCast S1x128 (m ((c : Thread nD τ).loc main_arg8)) shapeCasts_S128_S1x128
abbrev b22row (c : Dev nD) : Vec F S1x128 .f32 := shapeCast S1x128 (m ((c : Thread nD τ).loc main_arg12)) shapeCasts_S128_S1x128

theorem V3_adj1 (c : Dev nD) : V3 (half0 (F := F)) m ρ c main_arg1 = m ((c : Thread nD τ).loc main_arg1) :=
  V3_launch half0 m ρ c main_arg1 (by decide) (by decide) (by decide)
theorem V3_adj2 (c : Dev nD) : V3 (half0 (F := F)) m ρ c main_arg3 = m ((c : Thread nD τ).loc main_arg3) :=
  V3_launch half0 m ρ c main_arg3 (by decide) (by decide) (by decide)

/-- The first result: the first tower's embedding. -/
theorem z1_eq (c : Dev nD) : Wend m ρ c (Proc.devRef .tc main_v11_0)
    = Out.G1_6 (m ((c : Thread nD τ).loc main_arg1)) (s21 m c) (b12row m c) := by
  refine (W6_z1 half0 half1 half2 m ρ c).trans ?_
  refine (Out.final1_6 (V3 half0 m ρ) c).trans ?_
  rw [show V3 (half0 (F := F)) m ρ c (Pipeline.arrRef spec1 0) = _ from V3_adj1 m ρ c,
    show V3 (half0 (F := F)) m ρ c (Pipeline.arrRef spec1 2) = _ from V3_s21_eq m ρ c,
    show V3 (half0 (F := F)) m ρ c (Pipeline.arrRef spec1 4) = _ from V3_b12 half0 m ρ c]
/-- The second result: the second tower's embedding. -/
theorem z2_eq (c : Dev nD) : Wend m ρ c (Proc.devRef .tc main_v11_1)
    = Out.G1_7 (m ((c : Thread nD τ).loc main_arg3)) (s22 m c) (b22row m c) := by
  refine (W6_z2 half0 half1 half2 m ρ c).trans ?_
  refine (Out.final1_7 (V3 half0 m ρ) c).trans ?_
  rw [show V3 (half0 (F := F)) m ρ c (Pipeline.arrRef spec1 1) = _ from V3_adj2 m ρ c,
    show V3 (half0 (F := F)) m ρ c (Pipeline.arrRef spec1 3) = _ from V3_s22_eq m ρ c,
    show V3 (half0 (F := F)) m ρ c (Pipeline.arrRef spec1 5) = _ from V3_b22 half0 m ρ c]

/-- The two towers' normalized rows, as the third region is entered with them. -/
theorem zn1_eq (c : Dev nD) : V4 (half0 (F := F)) half1 m ρ c main_v11_2
    = Out.G1_8 (m ((c : Thread nD τ).loc main_arg1)) (s21 m c) (b12row m c) := by
  refine (V4_zn1 half0 half1 m ρ c).trans ?_
  refine (Out.final1_8 (V3 half0 m ρ) c).trans ?_
  rw [show V3 (half0 (F := F)) m ρ c (Pipeline.arrRef spec1 0) = _ from V3_adj1 m ρ c,
    show V3 (half0 (F := F)) m ρ c (Pipeline.arrRef spec1 2) = _ from V3_s21_eq m ρ c,
    show V3 (half0 (F := F)) m ρ c (Pipeline.arrRef spec1 4) = _ from V3_b12 half0 m ρ c]
theorem zn2_eq (c : Dev nD) : V4 (half0 (F := F)) half1 m ρ c main_v11_3
    = Out.G1_9 (m ((c : Thread nD τ).loc main_arg3)) (s22 m c) (b22row m c) := by
  refine (V4_zn2 half0 half1 m ρ c).trans ?_
  refine (Out.final1_9 (V3 half0 m ρ) c).trans ?_
  rw [show V3 (half0 (F := F)) m ρ c (Pipeline.arrRef spec1 1) = _ from V3_adj2 m ρ c,
    show V3 (half0 (F := F)) m ρ c (Pipeline.arrRef spec1 3) = _ from V3_s22_eq m ρ c,
    show V3 (half0 (F := F)) m ρ c (Pipeline.arrRef spec1 5) = _ from V3_b22 half0 m ρ c]

/-- The third result: the accumulated loss as a scalar, divided by the row count. -/
theorem loss_eq (c : Dev nD) : Wend m ρ c (Proc.devRef .tc main_v15)
    = shapeCast S_ (Host.divf (shapeCast S_ (Loss.G2_3 (Out.G1_8 (m ((c : Thread nD τ).loc main_arg1)) (s21 m c) (b12row m c))
        (Out.G1_9 (m ((c : Thread nD τ).loc main_arg3)) (s22 m c) (b22row m c)) (m ((c : Thread nD τ).loc main_arg4))) shapeCasts_S1x1_S_)
        (constant S_ .f32 0x45800000#32)) shapeCasts_S_S_ := by
  refine (W6_loss half0 half1 half2 m ρ c).trans ?_
  rw [show (half2.dat (V4 (half0 (F := F)) half1 m ρ) c).arrAt 3 cfg2.N = _ from Loss.final2_3 (V4 half0 half1 m ρ) c,
    show V4 (half0 (F := F)) half1 m ρ c (Pipeline.arrRef spec2 0) = _ from zn1_eq m ρ c,
    show V4 (half0 (F := F)) half1 m ρ c (Pipeline.arrRef spec2 1) = _ from zn2_eq m ρ c,
    show V4 (half0 (F := F)) half1 m ρ c (Pipeline.arrRef spec2 2) = _ from V4_clm half0 half1 m ρ c]

end Cert.KernelIdeal.KVal

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibMlpRows.lean ====
/-
  A perceptron stage on a block of rows, at the extended reals.

    dense stage with rectifier:   max (U·W + B) 0
    dense stage without:          U·W + B
    two stages with a residual:   mlp A X W₁ B₁ W₂ B₂ = max ((max ((A + X)·W₁ + B₁) 0)·W₂ + B₂) 0
    output projection:            proj X W B = X·W + B

  with each bias held as one row [1,N] that is added to every row. Row r of any of these depends on row r of the
  left factor alone. So a tiled program that runs the stage on a block of rows (any choice of rows, given by a map
  `row` from the block's row numbers to the matrix's), through the identity casts, the row broadcast, the narrowing
  of the left factor's format and the product accumulated into a zero block that such a program prints, gets that
  block of rows of the whole-array function (`denseRelu_rows`, `denseBias_rows`, `mlp_rows`, `proj_rows`). The
  host spells the same functions with `dot_general` and `broadcast_in_dim`, making the bias row from a bias vector
  by a broadcast where the tiled program's caller reshapes it (`hostDenseRelu`, `hostDenseBias`), and a right factor
  narrowed to another float format is the same factor (`dot_truncf_rhs`). Nothing of real arithmetic is used beyond
  0 + x = x, so every statement holds at the infinities too. Generic in all extents and in the factors' formats.
-/
import proofs.«134049_g16819091931673_cont_week2b_1393_5_alg».proof.Proof.LibRowBlockDot
import proofs.«134049_g16819091931673_cont_week2b_1393_5_alg».proof.Proof.LibBiasRows

noncomputable section

namespace Cert.LibMlpRows

open Idealize.ShloMosaic Idealize.ShloMosaic.ValueIdx Cert.LibRowBlockDot Cert.LibBiasRows

variable {M m K H N : Nat} {φ φ₁ φ₂ ψ ψ₁ ψ₂ : FTy}

/-! ## The whole-array functions -/

/-- Two dense stages with bias rows and rectifiers, on the sum of an aggregate and the features. -/
def mlp (A X : FVec Ideal ⟨2, ![M, K]⟩ .f32) (W1 : FVec Ideal ⟨2, ![K, H]⟩ φ₁) (B1 : FVec Ideal ⟨2, ![1, H]⟩ .f32)
    (W2 : FVec Ideal ⟨2, ![H, N]⟩ φ₂) (B2 : FVec Ideal ⟨2, ![1, N]⟩ .f32) : FVec Ideal ⟨2, ![M, N]⟩ .f32 :=
  biasRelu (Host.dotGeneral (DotDims.plain M H N) none
    (biasRelu (Host.dotGeneral (DotDims.plain M K H) none (addf A X) W1) B1) W2) B2

/-- One dense stage with a bias row and no rectifier. -/
def proj (X : FVec Ideal ⟨2, ![M, K]⟩ φ₁) (W : FVec Ideal ⟨2, ![K, N]⟩ φ₂) (B : FVec Ideal ⟨2, ![1, N]⟩ .f32) :
    FVec Ideal ⟨2, ![M, N]⟩ .f32 :=
  biasOnly (Host.dotGeneral (DotDims.plain M K N) none X W) B

/-! ## One stage on a block of rows -/

/-- A dense stage with rectifier on a block of rows `u` of `U` is that block of rows of the whole stage. -/
theorem denseRelu_rows (row : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (row r) c)) (hw : ∀ c q, w (ix2 c q) = W (ix2 c q))
    (hb : ∀ q, b (ix2 (0 : Fin 1) q) = B (ix2 (0 : Fin 1) q))
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩) (r : Fin m) (q : Fin N) :
    maximumf (addf (matmul (DotDims.plain m K N) none u (shapeCast ⟨2, ![K, N]⟩ w hsw)
          (constant (F := Ideal) ⟨2, ![m, N]⟩ .f32 0x00000000#32))
        (broadcastTo ⟨2, ![m, N]⟩ (shapeCast ⟨2, ![1, N]⟩ b hsb) hbc))
      (broadcast ⟨2, ![m, N]⟩ (Scalar.ofBits (F := Ideal) .f32 0x00000000#32)) (ix2 r q)
      = biasRelu (Host.dotGeneral (DotDims.plain M K N) none U W) B (ix2 (row r) q) := by
  rw [biasRelu_ix2, maximumf_apply, addf_apply, broadcast_apply, broadcastTo_1b_ab_apply, shapeCast_self b hsb, hb,
    matmul_rowBlock_apply none none U W u (shapeCast ⟨2, ![K, N]⟩ w hsw) row hu
      (fun c q => by rw [shapeCast_self, hw]) r q]
  rfl

/-- A dense stage without rectifier on a block of rows `u` of `U` is that block of rows of the whole stage. -/
theorem denseBias_rows (row : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (row r) c)) (hw : ∀ c q, w (ix2 c q) = W (ix2 c q))
    (hb : ∀ q, b (ix2 (0 : Fin 1) q) = B (ix2 (0 : Fin 1) q))
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩) (r : Fin m) (q : Fin N) :
    addf (matmul (DotDims.plain m K N) none u (shapeCast ⟨2, ![K, N]⟩ w hsw)
          (constant (F := Ideal) ⟨2, ![m, N]⟩ .f32 0x00000000#32))
        (broadcastTo ⟨2, ![m, N]⟩ (shapeCast ⟨2, ![1, N]⟩ b hsb) hbc) (ix2 r q)
      = biasOnly (Host.dotGeneral (DotDims.plain M K N) none U W) B (ix2 (row r) q) := by
  rw [biasOnly_ix2, addf_apply, broadcastTo_1b_ab_apply, shapeCast_self b hsb, hb,
    matmul_rowBlock_apply none none U W u (shapeCast ⟨2, ![K, N]⟩ w hsw) row hu
      (fun c q => by rw [shapeCast_self, hw]) r q]

/-! ## The two-stage block and the projection block -/

/-- The two dense stages and their rectifiers on a block of rows, the left factor of each product narrowed to bf16
    first, applied to a block `s` whose entries are those rows of the residual sum `A + X`, is that block of rows of
    `mlp`. -/
theorem mlp_rows (row : Fin m → Fin M)
    (A X : FVec Ideal ⟨2, ![M, K]⟩ .f32) (W1 : FVec Ideal ⟨2, ![K, H]⟩ φ₁) (B1 : FVec Ideal ⟨2, ![1, H]⟩ .f32)
    (W2 : FVec Ideal ⟨2, ![H, N]⟩ φ₂) (B2 : FVec Ideal ⟨2, ![1, N]⟩ .f32)
    (s : FVec Ideal ⟨2, ![m, K]⟩ .f32) (w1 : FVec Ideal ⟨2, ![K, H]⟩ ψ₁) (b1 : FVec Ideal ⟨2, ![1, H]⟩ .f32)
    (w2 : FVec Ideal ⟨2, ![H, N]⟩ ψ₂) (b2 : FVec Ideal ⟨2, ![1, N]⟩ .f32)
    (hs : ∀ r c, s (ix2 r c) = addf A X (ix2 (row r) c))
    (hw1 : ∀ c q, w1 (ix2 c q) = W1 (ix2 c q)) (hb1 : ∀ q, b1 (ix2 (0 : Fin 1) q) = B1 (ix2 (0 : Fin 1) q))
    (hw2 : ∀ c q, w2 (ix2 c q) = W2 (ix2 c q)) (hb2 : ∀ q, b2 (ix2 (0 : Fin 1) q) = B2 (ix2 (0 : Fin 1) q))
    (hsw1 : (⟨2, ![K, H]⟩ : Shape).ShapeCasts ⟨2, ![K, H]⟩) (hsb1 : (⟨2, ![1, H]⟩ : Shape).ShapeCasts ⟨2, ![1, H]⟩)
    (hbc1 : (⟨2, ![1, H]⟩ : Shape).Broadcasts ⟨2, ![m, H]⟩)
    (hsw2 : (⟨2, ![H, N]⟩ : Shape).ShapeCasts ⟨2, ![H, N]⟩) (hsb2 : (⟨2, ![1, N]⟩ : Shape).ShapeCasts ⟨2, ![1, N]⟩)
    (hbc2 : (⟨2, ![1, N]⟩ : Shape).Broadcasts ⟨2, ![m, N]⟩)
    (hlt : FTy.bf16.bits < FTy.f32.bits)
    (j : (⟨2, ![m, N]⟩ : Shape).Idx) (i : (⟨2, ![M, N]⟩ : Shape).Idx)
    (h0 : (i 0).val = (row (j 0)).val) (h1 : (i 1).val = (j 1).val) :
    maximumf (addf (matmul (DotDims.plain m H N) none
          (truncf .bf16 (maximumf (addf (matmul (DotDims.plain m K H) none
                (truncf .bf16 s hlt) (shapeCast ⟨2, ![K, H]⟩ w1 hsw1)
                (constant (F := Ideal) ⟨2, ![m, H]⟩ .f32 0x00000000#32))
              (broadcastTo ⟨2, ![m, H]⟩ (shapeCast ⟨2, ![1, H]⟩ b1 hsb1) hbc1))
            (broadcast ⟨2, ![m, H]⟩ (Scalar.ofBits (F := Ideal) .f32 0x00000000#32))) hlt)
          (shapeCast ⟨2, ![H, N]⟩ w2 hsw2) (constant (F := Ideal) ⟨2, ![m, N]⟩ .f32 0x00000000#32))
        (broadcastTo ⟨2, ![m, N]⟩ (shapeCast ⟨2, ![1, N]⟩ b2 hsb2) hbc2))
      (broadcast ⟨2, ![m, N]⟩ (Scalar.ofBits (F := Ideal) .f32 0x00000000#32)) j
      = mlp A X W1 B1 W2 B2 i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  exact denseRelu_rows row _ W2 B2 _ w2 b2
    (fun r c => (truncf_apply _ hlt (ix2 r c)).trans
      (denseRelu_rows row (addf A X) W1 B1 _ w1 b1
        (fun r c => (truncf_apply s hlt (ix2 r c)).trans (hs r c))
        hw1 hb1 hsw1 hsb1 hbc1 r c))
    hw2 hb2 hsw2 hsb2 hbc2 p q

/-- The output projection on a block of rows, its left factor narrowed to bf16 first, is that block of rows of
    `proj`. -/
theorem proj_rows (row : Fin m → Fin M)
    (X : FVec Ideal ⟨2, ![M, K]⟩ .f32) (W : FVec Ideal ⟨2, ![K, N]⟩ φ₂) (B : FVec Ideal ⟨2, ![1, N]⟩ .f32)
    (x : FVec Ideal ⟨2, ![m, K]⟩ .f32) (w : FVec Ideal ⟨2, ![K, N]⟩ ψ₂) (b : FVec Ideal ⟨2, ![1, N]⟩ .f32)
    (hx : ∀ r c, x (ix2 r c) = X (ix2 (row r) c))
    (hw : ∀ c q, w (ix2 c q) = W (ix2 c q)) (hb : ∀ q, b (ix2 (0 : Fin 1) q) = B (ix2 (0 : Fin 1) q))
    (hsx : (⟨2, ![m, K]⟩ : Shape).ShapeCasts ⟨2, ![m, K]⟩)
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩)
    (hlt : FTy.bf16.bits < FTy.f32.bits)
    (j : (⟨2, ![m, N]⟩ : Shape).Idx) (i : (⟨2, ![M, N]⟩ : Shape).Idx)
    (h0 : (i 0).val = (row (j 0)).val) (h1 : (i 1).val = (j 1).val) :
    addf (matmul (DotDims.plain m K N) none (truncf .bf16 (shapeCast ⟨2, ![m, K]⟩ x hsx) hlt)
          (shapeCast ⟨2, ![K, N]⟩ w hsw) (constant (F := Ideal) ⟨2, ![m, N]⟩ .f32 0x00000000#32))
        (broadcastTo ⟨2, ![m, N]⟩ (shapeCast ⟨2, ![1, N]⟩ b hsb) hbc) j
      = proj X W B i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  exact denseBias_rows row X W B _ w b
    (fun r c => by rw [truncf_apply, shapeCast_self, hx]) hw hb hsw hsb hbc p q

/-! ## The host's spelling -/

/-- A right factor narrowed to bf16 is the same factor. -/
theorem dot_truncf_rhs (prec prec' : Option ContractPrecision) (U : FVec Ideal ⟨2, ![M, K]⟩ φ₁)
    (W : FVec Ideal ⟨2, ![K, N]⟩ .f32) (hlt : FTy.bf16.bits < FTy.f32.bits) :
    Host.dotGeneral (DotDims.plain M K N) prec U (truncf .bf16 W hlt) = Host.dotGeneral (DotDims.plain M K N) prec' U W := by
  funext i
  obtain ⟨r, q, rfl⟩ : ∃ (r : Fin M) (q : Fin N), i = ix2 r q := ⟨i 0, i 1, eq_ix2 i⟩
  rw [StackMember.dotGeneral_plain_apply, StackMember.dotGeneral_plain_apply]
  rfl

/-- The host's dense stage with rectifier, its bias a vector broadcast to a row and then over the rows, is the
    stage with the bias vector reshaped to a row. -/
theorem hostDenseRelu (Y : FVec Ideal ⟨2, ![M, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hz : (⟨0, ![]⟩ : Shape).BroadcastsInDim ⟨2, ![M, N]⟩ (![] : Fin 0 → Fin 2))
    (hc : (⟨1, ![N]⟩ : Shape).ShapeCasts ⟨2, ![1, N]⟩) :
    maximumf (addf Y (broadcastInDim ⟨2, ![M, N]⟩ ![0, 1] h2 (broadcastInDim ⟨2, ![1, N]⟩ ![1] h1 bv)))
        (broadcastInDim ⟨2, ![M, N]⟩ ![] hz (constant (F := Ideal) ⟨0, ![]⟩ .f32 0x00000000#32))
      = biasRelu Y (shapeCast ⟨2, ![1, N]⟩ bv hc) := by
  rw [hostBiasRelu, castRow_eq bv hc h1]

/-- The host's dense stage without rectifier, its bias a vector broadcast to a row and then over the rows. -/
theorem hostDenseBias (Y : FVec Ideal ⟨2, ![M, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf Y (broadcastInDim ⟨2, ![M, N]⟩ ![0, 1] h2 (broadcastInDim ⟨2, ![1, N]⟩ ![1] h1 bv))
      = biasOnly Y (shapeCast ⟨2, ![1, N]⟩ bv hc) := by
  rw [hostBiasOnly, castRow_eq bv hc h1]

end Cert.LibMlpRows

end
-- ==== Proof.MidIdeal.lean ====
/-
  The hidden layer's payload at the extended reals, entry by entry. On a block of 512 rows of the adjacency matrix a
  tower computes relu((blk·x)·W₁ + b₁)·W₂, every product accumulated from zero and every format change the identity.
  A matrix product, a bias row added to every row and a rectifier each treat the rows independently: when the block
  is row block k, row r of the block's result is row 512·k + r of the same composition of the whole adjacency matrix.
-/
import proofs.«134049_g16819091931673_cont_week2b_1393_5_alg».proof.Proof.Gen.KernelIdeal.Skeleton
import proofs.«134049_g16819091931673_cont_week2b_1393_5_alg».proof.Proof.LibRowBlockDot
import proofs.«134049_g16819091931673_cont_week2b_1393_5_alg».proof.Proof.LibBiasRows
import proofs.«134049_g16819091931673_cont_week2b_1393_5_alg».proof.Proof.LibMlpRows

set_option maxRecDepth 16384

noncomputable section

namespace Cert.KernelIdeal.MidIdeal

open Idealize.ShloMosaic Idealize.ShloMosaic.ValueIdx
open Cert.KernelIdeal Cert.KernelIdeal.Gen
open Cert.LibRowBlockDot Cert.LibBiasRows Cert.LibMlpRows

/-! # The hidden layer's payloads at the extended reals, index by index

  On a block of 512 rows of the adjacency matrix a tower computes relu((blk·x)·W₁ + b₁)·W₂. Each of the three products
  and the bias stage treat the rows independently, so row r of the block's result is row 512·k + r of the same function
  of the whole adjacency matrix. -/

/-- Row `r` of row block `k`. -/
def rowOf (k : Fin 8) (r : Fin 512) : Fin 4096 := ⟨512 * k.val + r.val, by omega⟩

/-- Row `r` of tower 1's payload on row block `k` of the adjacency is row 512·k + r of the hidden layer of the whole arrays. -/
theorem mid_rows1 (adj : FVec Ideal S4096x4096 .f32) (x : FVec Ideal S4096x256 .bf16) (w1 : FVec Ideal S256x256 .bf16)
    (b1 : FVec Ideal S1x256 .f32) (w2 : FVec Ideal S256x128 .bf16) (blk : FVec Ideal S512x4096 .f32) (k : Fin 8)
    (hblk : ∀ (r : Fin 512) (j : Fin 4096), blk (ix2 r j) = adj (ix2 (⟨512 * k.val + r.val, by omega⟩ : Fin 4096) j))
    (r : Fin 512) (q : Fin 128) :
    k0_pay1 (F := Ideal) blk x w1 b1 w2 (ix2 r q)
      = Host.dotGeneral (F := Ideal) (DotDims.plain 4096 256 128) none
          (biasRelu (Host.dotGeneral (F := Ideal) (DotDims.plain 4096 256 256) none
            (Host.dotGeneral (F := Ideal) (DotDims.plain 4096 4096 256) none adj x) w1) b1) w2
          (ix2 (⟨512 * k.val + r.val, by omega⟩ : Fin 4096) q) := by
  -- the first product on the row block: those rows of adj·x
  have h1 : ∀ (a : Fin 512) (c : Fin 256),
      truncf (F := Ideal) .bf16 (matmul (F := Ideal) dot_S512x4096_S4096x256_S512x256_1_0_0_1_n_n none (truncf (F := Ideal) .bf16 blk bitsLt_bf16_f32)
          (shapeCast S4096x256 x shapeCasts_S4096x256_S4096x256) (constant (F := Ideal) S512x256 .f32 0x00000000#32)) bitsLt_bf16_f32 (ix2 a c)
        = Host.dotGeneral (F := Ideal) (DotDims.plain 4096 4096 256) none adj x (ix2 (rowOf k a) c) := fun a c =>
    (truncf_apply _ bitsLt_bf16_f32 (ix2 a c)).trans
      (matmul_rowBlock_apply (M := 4096) (m := 512) (K := 4096) (N := 256) none none adj x _ _ (rowOf k)
        (fun a c => (truncf_apply blk bitsLt_bf16_f32 (ix2 a c)).trans (hblk a c))
        (fun c b => by rw [shapeCast_self]) a c)
  -- the dense stage with bias and rectifier on it: those rows of the whole stage
  have h2 : ∀ (a : Fin 512) (c : Fin 256), _ = biasRelu (Host.dotGeneral (F := Ideal) (DotDims.plain 4096 256 256) none
        (Host.dotGeneral (F := Ideal) (DotDims.plain 4096 4096 256) none adj x) w1) b1 (ix2 (rowOf k a) c) := fun a c =>
    (truncf_apply _ bitsLt_bf16_f32 (ix2 a c)).trans
      (denseRelu_rows (M := 4096) (m := 512) (K := 256) (N := 256) (rowOf k) (Host.dotGeneral (F := Ideal) (DotDims.plain 4096 4096 256) none adj x) w1 b1 _ w1 b1
        h1 (fun _ _ => rfl) (fun _ => rfl) shapeCasts_S256x256_S256x256 shapeCasts_S1x256_S1x256 broadcasts_S1x256_S512x256 a c)
  -- the last product
  unfold k0_pay1
  exact (truncf_apply _ bitsLt_bf16_f32 (ix2 r q)).trans
    (matmul_rowBlock_apply (M := 4096) (m := 512) (K := 256) (N := 128) none none _ w2 _ _ (rowOf k) h2
      (fun c b => by rw [shapeCast_self]) r q)

/-- Tower 2's payload likewise. -/
theorem mid_rows2 (adj : FVec Ideal S4096x4096 .f32) (x : FVec Ideal S4096x256 .bf16) (w1 : FVec Ideal S256x256 .bf16)
    (b1 : FVec Ideal S1x256 .f32) (w2 : FVec Ideal S256x128 .bf16) (blk : FVec Ideal S512x4096 .f32) (k : Fin 8)
    (hblk : ∀ (r : Fin 512) (j : Fin 4096), blk (ix2 r j) = adj (ix2 (⟨512 * k.val + r.val, by omega⟩ : Fin 4096) j))
    (r : Fin 512) (q : Fin 128) :
    k0_pay2 (F := Ideal) blk x w1 b1 w2 (ix2 r q)
      = Host.dotGeneral (F := Ideal) (DotDims.plain 4096 256 128) none
          (biasRelu (Host.dotGeneral (F := Ideal) (DotDims.plain 4096 256 256) none
            (Host.dotGeneral (F := Ideal) (DotDims.plain 4096 4096 256) none adj x) w1) b1) w2
          (ix2 (⟨512 * k.val + r.val, by omega⟩ : Fin 4096) q) := by
  -- the first product on the row block: those rows of adj·x
  have h1 : ∀ (a : Fin 512) (c : Fin 256),
      truncf (F := Ideal) .bf16 (matmul (F := Ideal) dot_S512x4096_S4096x256_S512x256_1_0_0_1_n_n none (truncf (F := Ideal) .bf16 blk bitsLt_bf16_f32)
          (shapeCast S4096x256 x shapeCasts_S4096x256_S4096x256) (constant (F := Ideal) S512x256 .f32 0x00000000#32)) bitsLt_bf16_f32 (ix2 a c)
        = Host.dotGeneral (F := Ideal) (DotDims.plain 4096 4096 256) none adj x (ix2 (rowOf k a) c) := fun a c =>
    (truncf_apply _ bitsLt_bf16_f32 (ix2 a c)).trans
      (matmul_rowBlock_apply (M := 4096) (m := 512) (K := 4096) (N := 256) none none adj x _ _ (rowOf k)
        (fun a c => (truncf_apply blk bitsLt_bf16_f32 (ix2 a c)).trans (hblk a c))
        (fun c b => by rw [shapeCast_self]) a c)
  -- the dense stage with bias and rectifier on it: those rows of the whole stage
  have h2 : ∀ (a : Fin 512) (c : Fin 256), _ = biasRelu (Host.dotGeneral (F := Ideal) (DotDims.plain 4096 256 256) none
        (Host.dotGeneral (F := Ideal) (DotDims.plain 4096 4096 256) none adj x) w1) b1 (ix2 (rowOf k a) c) := fun a c =>
    (truncf_apply _ bitsLt_bf16_f32 (ix2 a c)).trans
      (denseRelu_rows (M := 4096) (m := 512) (K := 256) (N := 256) (rowOf k) (Host.dotGeneral (F := Ideal) (DotDims.plain 4096 4096 256) none adj x) w1 b1 _ w1 b1
        h1 (fun _ _ => rfl) (fun _ => rfl) shapeCasts_S256x256_S256x256 shapeCasts_S1x256_S1x256 broadcasts_S1x256_S512x256 a c)
  -- the last product
  unfold k0_pay2
  exact (truncf_apply _ bitsLt_bf16_f32 (ix2 r q)).trans
    (matmul_rowBlock_apply (M := 4096) (m := 512) (K := 256) (N := 128) none none _ w2 _ _ (rowOf k) h2
      (fun c b => by rw [shapeCast_self]) r q)

end Cert.KernelIdeal.MidIdeal

end
-- ==== Proof.MidWhole.lean ====
/-
  The hidden-layer arrays at the extended reals as whole-array functions. Row a of a result array lies in row block
  a / 512 at place a % 512; there the tower's payload is that row of relu((adj·x)·W₁ + b₁)·W₂ computed from the whole
  adjacency matrix; and 512·(a / 512) + a % 512 = a. So each result array is that function of its tower's operands.
-/
import proofs.«134049_g16819091931673_cont_week2b_1393_5_alg».proof.Proof.Mid
import proofs.«134049_g16819091931673_cont_week2b_1393_5_alg».proof.Proof.MidIdeal

set_option maxRecDepth 16384

noncomputable section

namespace Cert.KernelIdeal.MidIdeal

open Idealize.ShloMosaic Idealize.ShloMosaic.ValueIdx
open Cert.KernelIdeal Cert.KernelIdeal.Gen Cert.KernelIdeal.Mid
open Cert.LibRowBlockDot Cert.LibBiasRows Cert.LibMlpRows

/-! # The region's result arrays at the extended reals, as whole-array functions

  Every row of a result array lies in one row block, and on a row block the tower's payload is that block of rows of the
  hidden layer of the whole adjacency matrix: so the array is the hidden layer, relu((adj·x)·W₁ + b₁)·W₂. -/

/-- The hidden layer of one tower as a function of whole arrays, in the kernel's association (adj·x)·W₁. -/
def hidden (adj : FVec Ideal S4096x4096 .f32) (x : FVec Ideal S4096x256 .bf16) (w1 : FVec Ideal S256x256 .bf16)
    (b1 : FVec Ideal S1x256 .f32) (w2 : FVec Ideal S256x128 .bf16) : FVec Ideal S4096x128 .f32 :=
  Host.dotGeneral (F := Ideal) (DotDims.plain 4096 256 128) none
    (biasRelu (Host.dotGeneral (F := Ideal) (DotDims.plain 4096 256 256) none
      (Host.dotGeneral (F := Ideal) (DotDims.plain 4096 4096 256) none adj x) w1) b1) w2

/-- Row block `k` of an array, at row `r` and column `j`, is the array at row 512·k + r. -/
theorem rowBlk_apply (A : FVec Ideal S4096x4096 .f32) (k : Fin 8) (r : Fin 512) (j : Fin 4096) :
    rowBlk (F := Ideal) A k (ix2 r j) = A (ix2 (⟨512 * k.val + r.val, by omega⟩ : Fin 4096) j) := rfl

set_option maxHeartbeats 1000000 in
/-- Tower 1's result array is the hidden layer of its operands. -/
theorem G0_10_hidden (adj : FVec Ideal S4096x4096 .f32) (x : FVec Ideal S4096x256 .bf16) (w1 : FVec Ideal S256x256 .bf16)
    (b1 : FVec Ideal S1x256 .f32) (w2 : FVec Ideal S256x128 .bf16) :
    G0_10 (F := Ideal) adj x w1 b1 w2 = hidden adj x w1 b1 w2 := by
  funext i
  obtain ⟨a, q, rfl⟩ : ∃ (a : Fin 4096) (q : Fin 128), i = ix2 a q := ⟨i 0, i 1, eq_ix2 i⟩
  have ha : a.val < 4096 := a.isLt
  have hk : a.val / 512 < 8 := by omega
  have hr : a.val % 512 < 512 := Nat.mod_lt _ (by decide)
  have e1 : G0_10 (F := Ideal) adj x w1 b1 w2 (ix2 a q)
      = k0_pay1 (F := Ideal) (rowBlk (F := Ideal) adj ⟨a.val / 512, hk⟩) x w1 b1 w2 (ix2 (⟨a.val % 512, hr⟩ : Fin 512) q) :=
    G0_10_at (F := Ideal) adj x w1 b1 w2 ⟨a.val / 512, hk⟩ (ix2 (⟨a.val % 512, hr⟩ : Fin 512) q) (ix2 a q)
      (by show a.val = 512 * (a.val / 512) + a.val % 512; omega) rfl
  have e2 := mid_rows1 adj x w1 b1 w2 (rowBlk (F := Ideal) adj ⟨a.val / 512, hk⟩) ⟨a.val / 512, hk⟩ (fun r j => rowBlk_apply adj ⟨a.val / 512, hk⟩ r j)
    ⟨a.val % 512, hr⟩ q
  have e3 : (⟨512 * (a.val / 512) + a.val % 512, by omega⟩ : Fin 4096) = a := Fin.ext (Nat.div_add_mod a.val 512)
  rw [e1, e2]
  unfold hidden
  exact congrArg (fun a' => Host.dotGeneral (F := Ideal) (DotDims.plain 4096 256 128) none
    (biasRelu (Host.dotGeneral (F := Ideal) (DotDims.plain 4096 256 256) none
      (Host.dotGeneral (F := Ideal) (DotDims.plain 4096 4096 256) none adj x) w1) b1) w2 (ix2 a' q)) e3

set_option maxHeartbeats 1000000 in
/-- Tower 2's result array is the hidden layer of its operands. -/
theorem G0_11_hidden (adj : FVec Ideal S4096x4096 .f32) (x : FVec Ideal S4096x256 .bf16) (w1 : FVec Ideal S256x256 .bf16)
    (b1 : FVec Ideal S1x256 .f32) (w2 : FVec Ideal S256x128 .bf16) :
    G0_11 (F := Ideal) adj x w1 b1 w2 = hidden adj x w1 b1 w2 := by
  funext i
  obtain ⟨a, q, rfl⟩ : ∃ (a : Fin 4096) (q : Fin 128), i = ix2 a q := ⟨i 0, i 1, eq_ix2 i⟩
  have ha : a.val < 4096 := a.isLt
  have hk : a.val / 512 < 8 := by omega
  have hr : a.val % 512 < 512 := Nat.mod_lt _ (by decide)
  have e1 : G0_11 (F := Ideal) adj x w1 b1 w2 (ix2 a q)
      = k0_pay2 (F := Ideal) (rowBlk (F := Ideal) adj ⟨a.val / 512, hk⟩) x w1 b1 w2 (ix2 (⟨a.val % 512, hr⟩ : Fin 512) q) :=
    G0_11_at (F := Ideal) adj x w1 b1 w2 ⟨a.val / 512, hk⟩ (ix2 (⟨a.val % 512, hr⟩ : Fin 512) q) (ix2 a q)
      (by show a.val = 512 * (a.val / 512) + a.val % 512; omega) rfl
  have e2 := mid_rows2 adj x w1 b1 w2 (rowBlk (F := Ideal) adj ⟨a.val / 512, hk⟩) ⟨a.val / 512, hk⟩ (fun r j => rowBlk_apply adj ⟨a.val / 512, hk⟩ r j)
    ⟨a.val % 512, hr⟩ q
  have e3 : (⟨512 * (a.val / 512) + a.val % 512, by omega⟩ : Fin 4096) = a := Fin.ext (Nat.div_add_mod a.val 512)
  rw [e1, e2]
  unfold hidden
  exact congrArg (fun a' => Host.dotGeneral (F := Ideal) (DotDims.plain 4096 256 128) none
    (biasRelu (Host.dotGeneral (F := Ideal) (DotDims.plain 4096 256 256) none
      (Host.dotGeneral (F := Ideal) (DotDims.plain 4096 4096 256) none adj x) w1) b1) w2 (ix2 a' q)) e3

end Cert.KernelIdeal.MidIdeal

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.OutIdeal.lean ====
/-
  The second graph-convolution layer on a block of rows, at the extended reals.

  With exact arithmetic the narrowing of a float format is the identity, a product accumulated into a zero block is the
  plain sum of products, and a lane sum from zero is the plain sum. Row r of adj · s2 + b2 depends on row r of adj alone,
  so the rows a point computes from rows 512k .. 512k + 511 of the adjacency are those rows of the whole-array layer; and
  the Euclidean norm of a row is a function of that row alone, so the normalized rows are those rows of the layer, each
  divided by the root of its own sum of squares. Sums and products are only read entry by entry, so the statements hold
  at the infinities too.
-/
import proofs.«134049_g16819091931673_cont_week2b_1393_5_alg».proof.Proof.Gen.KernelIdeal.Skeleton
import proofs.«134049_g16819091931673_cont_week2b_1393_5_alg».proof.Proof.LibMlpRows
import proofs.«134049_g16819091931673_cont_week2b_1393_5_alg».proof.Proof.LibKeepdims

set_option maxRecDepth 16384

noncomputable section

namespace Cert.KernelIdeal.OutIdeal

open Cert.KernelIdeal Cert.KernelIdeal.Gen
open Idealize.ShloMosaic Idealize.ShloMosaic.ValueIdx
open Cert.LibBiasRows Cert.LibMlpRows
open scoped BigOperators

/-! # The second graph-convolution layer on a block of rows, at the extended reals

  Z = adj · s2 + b2 (the bias a row added to every row) and its rows divided by their Euclidean norms. A block of 512
  rows of adj gives those 512 rows of Z, and — the norm of a row being a function of that row alone — those rows of
  the normalized array. -/

/-- The layer on whole arrays: the product with the support array, plus the bias row. -/
abbrev layer (adj : FVec Ideal S4096x4096 .f32) (s2 : FVec Ideal S4096x128 .bf16) (b2 : FVec Ideal S1x128 .f32) :
    FVec Ideal S4096x128 .f32 :=
  biasOnly (Host.dotGeneral (F := Ideal) (DotDims.plain 4096 4096 128) none adj s2) b2

/-! ## The normalization of a block, at an index -/

/-- The square root of a vector, at an index. -/
theorem sqrt_apply' {s : Shape} {φ : FTy} (a : FVec Ideal s φ) (i : s.Idx) : sqrt a i = Ideal.sqrt (a i) := rfl

/-- Rows divided by the square root of their sums of squares — the lane sum, the cast to a column and the broadcast
    back, as a tiled program spells it —, at row r and column q: the entry over the root of the row's sum of squares. -/
theorem normalize_apply {a b : ℕ} (P : FVec Ideal ⟨2, ![a, b]⟩ .f32)
    (hr : (⟨2, ![a, b]⟩ : Shape).Reduces [(1 : Fin 2)] ⟨1, ![a]⟩) (hφ) (hacc)
    (hc : (⟨1, ![a]⟩ : Shape).ShapeCasts ⟨2, ![a, 1]⟩) (hb : (⟨2, ![a, 1]⟩ : Shape).Broadcasts ⟨2, ![a, b]⟩)
    (hlt : FTy.bf16.bits < FTy.f32.bits) (r : Fin a) (q : Fin b) :
    (truncf .bf16 (divf P (broadcastTo ⟨2, ![a, b]⟩ (sqrt (shapeCast ⟨2, ![a, 1]⟩
        (multiReduction (F := Ideal) .add [(1 : Fin 2)] ⟨1, ![a]⟩ (mulf P P) 0x00000000#32 hr hφ hacc) hc)) hb)) hlt
        : FVec Ideal ⟨2, ![a, b]⟩ .bf16) (ix2 r q)
      = Ideal.div (P (ix2 r q)) (Ideal.sqrt (∑ k : Fin b, P (ix2 r k) * P (ix2 r k))) := by
  refine (truncf_apply _ hlt (ix2 r q)).trans ?_
  refine (divf_apply _ _ (ix2 r q)).trans ?_
  refine congrArg (Ideal.div (P (ix2 r q))) ?_
  refine (broadcastTo_a1_ab_apply _ hb r q).trans ?_
  refine (sqrt_apply' _ (ix2 r (0 : Fin 1))).trans ?_
  refine congrArg Ideal.sqrt ?_
  refine (shapeCast_a_a1_apply _ hc r (0 : Fin 1)).trans ?_
  refine (multiReduction_add_row (mulf P P) 0x00000000#32 hr hφ hacc r).trans ?_
  exact Finset.sum_congr rfl fun k _ => mulf_apply P P (ix2 r k)

/-! ## Tower 1 -/

/-- The rows the tower's point computes from row block k of the adjacency are rows 512k .. 512k + 511 of the layer. -/
theorem out_rows1 (adj : FVec Ideal S4096x4096 .f32) (s2 : FVec Ideal S4096x128 .bf16) (b2 : FVec Ideal S1x128 .f32)
    (blk : FVec Ideal S512x4096 .f32) (k : Fin 8)
    (hblk : ∀ (r : Fin 512) (j : Fin 4096), blk (ix2 r j) = adj (ix2 ⟨512 * k.val + r.val, by omega⟩ j))
    (r : Fin 512) (q : Fin 128) :
    k1_pay1 (F := Ideal) blk s2 b2 (ix2 r q) = layer adj s2 b2 (ix2 ⟨512 * k.val + r.val, by omega⟩ q) := by
  unfold k1_pay1
  exact denseBias_rows (fun r : Fin 512 => (⟨512 * k.val + r.val, by omega⟩ : Fin 4096)) adj s2 b2
    (truncf .bf16 blk Facts₀.bitsLt_bf16_f32) s2 b2
    (fun r c => (truncf_apply (ψ := .bf16) blk Facts₀.bitsLt_bf16_f32 (ix2 r c)).trans (hblk r c)) (fun _ _ => rfl) (fun _ => rfl) _ _ _ r q

/-- The normalized rows the point computes are those rows of the layer, each over the root of its sum of squares. -/
theorem outn_rows1 (adj : FVec Ideal S4096x4096 .f32) (s2 : FVec Ideal S4096x128 .bf16) (b2 : FVec Ideal S1x128 .f32)
    (blk : FVec Ideal S512x4096 .f32) (k : Fin 8)
    (hblk : ∀ (r : Fin 512) (j : Fin 4096), blk (ix2 r j) = adj (ix2 ⟨512 * k.val + r.val, by omega⟩ j))
    (r : Fin 512) (q : Fin 128) :
    k1_pay2 (F := Ideal) blk s2 b2 (ix2 r q)
      = Ideal.div (layer adj s2 b2 (ix2 ⟨512 * k.val + r.val, by omega⟩ q))
          (Ideal.sqrt (0 + ∑ q' : Fin 128, layer adj s2 b2 (ix2 ⟨512 * k.val + r.val, by omega⟩ q')
            * layer adj s2 b2 (ix2 ⟨512 * k.val + r.val, by omega⟩ q'))) := by
  have hP : ∀ q' : Fin 128, k1_pay1 (F := Ideal) blk s2 b2 (ix2 r q') = layer adj s2 b2 (ix2 ⟨512 * k.val + r.val, by omega⟩ q') :=
    fun q' => out_rows1 adj s2 b2 blk k hblk r q'
  unfold k1_pay2
  refine (normalize_apply (k1_pay1 (F := Ideal) blk s2 b2) _ _ _ _ _ _ r q).trans ?_
  rw [zero_add, hP q]
  exact congrArg (fun x => Ideal.div _ (Ideal.sqrt x)) (Finset.sum_congr rfl fun q' _ => by rw [hP q'])

/-! ## Tower 2 -/

/-- The rows the tower's point computes from row block k of the adjacency are rows 512k .. 512k + 511 of the layer. -/
theorem out_rows2 (adj : FVec Ideal S4096x4096 .f32) (s2 : FVec Ideal S4096x128 .bf16) (b2 : FVec Ideal S1x128 .f32)
    (blk : FVec Ideal S512x4096 .f32) (k : Fin 8)
    (hblk : ∀ (r : Fin 512) (j : Fin 4096), blk (ix2 r j) = adj (ix2 ⟨512 * k.val + r.val, by omega⟩ j))
    (r : Fin 512) (q : Fin 128) :
    k1_pay3 (F := Ideal) blk s2 b2 (ix2 r q) = layer adj s2 b2 (ix2 ⟨512 * k.val + r.val, by omega⟩ q) := by
  unfold k1_pay3
  exact denseBias_rows (fun r : Fin 512 => (⟨512 * k.val + r.val, by omega⟩ : Fin 4096)) adj s2 b2
    (truncf .bf16 blk Facts₀.bitsLt_bf16_f32) s2 b2
    (fun r c => (truncf_apply (ψ := .bf16) blk Facts₀.bitsLt_bf16_f32 (ix2 r c)).trans (hblk r c)) (fun _ _ => rfl) (fun _ => rfl) _ _ _ r q

/-- The normalized rows the point computes are those rows of the layer, each over the root of its sum of squares. -/
theorem outn_rows2 (adj : FVec Ideal S4096x4096 .f32) (s2 : FVec Ideal S4096x128 .bf16) (b2 : FVec Ideal S1x128 .f32)
    (blk : FVec Ideal S512x4096 .f32) (k : Fin 8)
    (hblk : ∀ (r : Fin 512) (j : Fin 4096), blk (ix2 r j) = adj (ix2 ⟨512 * k.val + r.val, by omega⟩ j))
    (r : Fin 512) (q : Fin 128) :
    k1_pay4 (F := Ideal) blk s2 b2 (ix2 r q)
      = Ideal.div (layer adj s2 b2 (ix2 ⟨512 * k.val + r.val, by omega⟩ q))
          (Ideal.sqrt (0 + ∑ q' : Fin 128, layer adj s2 b2 (ix2 ⟨512 * k.val + r.val, by omega⟩ q')
            * layer adj s2 b2 (ix2 ⟨512 * k.val + r.val, by omega⟩ q'))) := by
  have hP : ∀ q' : Fin 128, k1_pay3 (F := Ideal) blk s2 b2 (ix2 r q') = layer adj s2 b2 (ix2 ⟨512 * k.val + r.val, by omega⟩ q') :=
    fun q' => out_rows2 adj s2 b2 blk k hblk r q'
  unfold k1_pay4
  refine (normalize_apply (k1_pay3 (F := Ideal) blk s2 b2) _ _ _ _ _ _ r q).trans ?_
  rw [zero_add, hP q]
  exact congrArg (fun x => Ideal.div _ (Ideal.sqrt x)) (Finset.sum_congr rfl fun q' _ => by rw [hP q'])

end Cert.KernelIdeal.OutIdeal

end
-- ==== Proof.OutIdealWhole.lean ====
/-
  The layer's four output arrays at the extended reals, as functions of whole arrays.

  An output array is assembled from row blocks: entry (i₀, i₁) is the point's payload over row block i₀ / 512 at
  (i₀ % 512, i₁). Since 512·(i₀ / 512) + i₀ % 512 = i₀, the block-of-rows statements glue: each tower's first output is
  adj · s2 + b2 itself, and its second is that array with every row divided by the root of the row's sum of squares.
-/
import proofs.«134049_g16819091931673_cont_week2b_1393_5_alg».proof.Proof.Out
import proofs.«134049_g16819091931673_cont_week2b_1393_5_alg».proof.Proof.OutIdeal

set_option maxRecDepth 16384

noncomputable section

namespace Cert.KernelIdeal.OutIdeal

open Cert.KernelIdeal Cert.KernelIdeal.Gen Cert.KernelIdeal.Out
open Idealize.ShloMosaic Idealize.ShloMosaic.ValueIdx
open scoped BigOperators

/-! # The region's four output arrays at the extended reals, as whole-array functions of its inputs -/

/-- Row block k of an array, at row r and column j, is the array at row 512k + r. -/
theorem rowBlk_ix2 (adj : FVec Ideal S4096x4096 .f32) (k : Fin 8) (r : Fin 512) (j : Fin 4096) :
    rowBlk (F := Ideal) adj k (ix2 r j) = adj (ix2 ⟨512 * k.val + r.val, by omega⟩ j) := rfl

/-- A row's block and its place inside the block give the row back. -/
theorem row_of_blk (i : S4096x128.Idx) :
    (ix2 (⟨512 * (blkOf i).val + (i 0).val % 512, by have := ValueIdx.idx2_lt0 i; omega⟩ : Fin 4096) (i 1 : Fin 128) : S4096x128.Idx) = i := by
  funext a
  match a with
  | ⟨0, _⟩ => exact Fin.ext (by show 512 * ((i 0).val / 512) + (i 0).val % 512 = (i 0).val; omega)
  | ⟨1, _⟩ => rfl

/-- The layer's rows over the roots of their sums of squares. -/
def layerNormed (adj : FVec Ideal S4096x4096 .f32) (s2 : FVec Ideal S4096x128 .bf16) (b2 : FVec Ideal S1x128 .f32) :
    S4096x128.Idx → Ideal .bf16 :=
  fun i => Ideal.div (layer adj s2 b2 i)
    (Ideal.sqrt (0 + ∑ q' : Fin 128, layer adj s2 b2 (ix2 (i 0 : Fin 4096) q') * layer adj s2 b2 (ix2 (i 0 : Fin 4096) q')))

/-- Tower 1's output array is the layer. -/
theorem G1_6_ideal (adj : FVec Ideal S4096x4096 .f32) (s2 : FVec Ideal S4096x128 .bf16) (b2 : FVec Ideal S1x128 .f32) :
    G1_6 (F := Ideal) adj s2 b2 = layer adj s2 b2 := by
  funext i
  refine (out_rows1 adj s2 b2 (rowBlk (F := Ideal) adj (blkOf i)) (blkOf i) (rowBlk_ix2 adj (blkOf i))
    ⟨(i 0).val % 512, Nat.mod_lt _ (by decide)⟩ (i 1 : Fin 128)).trans ?_
  exact congrArg (layer adj s2 b2) (row_of_blk i)

/-- Tower 2's output array is the layer. -/
theorem G1_7_ideal (adj : FVec Ideal S4096x4096 .f32) (s2 : FVec Ideal S4096x128 .bf16) (b2 : FVec Ideal S1x128 .f32) :
    G1_7 (F := Ideal) adj s2 b2 = layer adj s2 b2 := by
  funext i
  refine (out_rows2 adj s2 b2 (rowBlk (F := Ideal) adj (blkOf i)) (blkOf i) (rowBlk_ix2 adj (blkOf i))
    ⟨(i 0).val % 512, Nat.mod_lt _ (by decide)⟩ (i 1 : Fin 128)).trans ?_
  exact congrArg (layer adj s2 b2) (row_of_blk i)

/-- Tower 1's normalized output array is the layer's rows, normalized. -/
theorem G1_8_ideal (adj : FVec Ideal S4096x4096 .f32) (s2 : FVec Ideal S4096x128 .bf16) (b2 : FVec Ideal S1x128 .f32) :
    G1_8 (F := Ideal) adj s2 b2 = layerNormed adj s2 b2 := by
  funext i
  have e := row_of_blk i
  have e0 : (⟨512 * (blkOf i).val + (i 0).val % 512, by have := ValueIdx.idx2_lt0 i; omega⟩ : Fin 4096) = (i 0 : Fin 4096) :=
    Fin.ext (by show 512 * ((i 0).val / 512) + (i 0).val % 512 = (i 0).val; omega)
  refine (outn_rows1 adj s2 b2 (rowBlk (F := Ideal) adj (blkOf i)) (blkOf i) (rowBlk_ix2 adj (blkOf i))
    ⟨(i 0).val % 512, Nat.mod_lt _ (by decide)⟩ (i 1 : Fin 128)).trans ?_
  unfold layerNormed
  rw [e, e0]

/-- Tower 2's normalized output array is the layer's rows, normalized. -/
theorem G1_9_ideal (adj : FVec Ideal S4096x4096 .f32) (s2 : FVec Ideal S4096x128 .bf16) (b2 : FVec Ideal S1x128 .f32) :
    G1_9 (F := Ideal) adj s2 b2 = layerNormed adj s2 b2 := by
  funext i
  have e := row_of_blk i
  have e0 : (⟨512 * (blkOf i).val + (i 0).val % 512, by have := ValueIdx.idx2_lt0 i; omega⟩ : Fin 4096) = (i 0 : Fin 4096) :=
    Fin.ext (by show 512 * ((i 0).val / 512) + (i 0).val % 512 = (i 0).val; omega)
  refine (outn_rows2 adj s2 b2 (rowBlk (F := Ideal) adj (blkOf i)) (blkOf i) (rowBlk_ix2 adj (blkOf i))
    ⟨(i 0).val % 512, Nat.mod_lt _ (by decide)⟩ (i 1 : Fin 128)).trans ?_
  unfold layerNormed
  rw [e, e0]

end Cert.KernelIdeal.OutIdeal

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibChainAssoc.lean ====
/-
  Reassociating a chain of two matrix products on the extended reals.

  (A·G)·Bᵀ and A·(G·Bᵀ) are the same matrix when every entry is a real number: entry by entry both are the double sum
  Σ_j Σ_k A(r,j)·G(j,k)·B(c,k).  On the extended reals this needs the entries real — a product distributes over a sum only
  away from the infinities — and with real entries it is the identity in ℝ carried across the coercion.
-/
import proofs.«134049_g16819091931673_cont_week2b_1393_5_alg».proof.Proof.LibRealClosed

noncomputable section

open scoped BigOperators

namespace Cert.LibChainAssoc

open Cert.LibRealClosed

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries, Σ_k (Σ_j a_j·g_jk)·b_k = Σ_j a_j·(Σ_k g_jk·b_k): one row of (A·G)·Bᵀ against A·(G·Bᵀ). -/
theorem sum_chain_assoc {J K : Type*} [Fintype J] [Fintype K] (a : J → EReal) (g : J → K → EReal) (b : K → EReal)
    (ha : ∀ j, IsReal (a j)) (hg : ∀ j k, IsReal (g j k)) (hb : ∀ k, IsReal (b k)) :
    ∑ k, (∑ j, a j * g j k) * b k = ∑ j, a j * ∑ k, g j k * b k := by
  choose a' ha' using ha
  choose g' hg' using hg
  choose b' hb' using hb
  have hL : ∑ k, (∑ j, a j * g j k) * b k = ((∑ k, (∑ j, a' j * g' j k) * b' k : ℝ) : EReal) := by
    rw [coe_sum]
    refine Finset.sum_congr rfl fun k _ => ?_
    rw [EReal.coe_mul, coe_sum, hb']
    congr 1
    refine Finset.sum_congr rfl fun j _ => ?_
    rw [EReal.coe_mul, ha', hg']
  have hR : ∑ j, a j * ∑ k, g j k * b k = ((∑ j, a' j * ∑ k, g' j k * b' k : ℝ) : EReal) := by
    rw [coe_sum]
    refine Finset.sum_congr rfl fun j _ => ?_
    rw [EReal.coe_mul, coe_sum, ha']
    congr 1
    refine Finset.sum_congr rfl fun k _ => ?_
    rw [EReal.coe_mul, hg', hb']
  rw [hL, hR]
  congr 1
  simp only [Finset.sum_mul, Finset.mul_sum]
  rw [Finset.sum_comm]
  exact Finset.sum_congr rfl fun j _ => Finset.sum_congr rfl fun k _ => mul_assoc _ _ _

end Cert.LibChainAssoc

end
-- ==== Proof.ZEq.lean ====
/-
  The two-layer graph convolution in the two programs' associations. The kernel forms (adj·x)·W₁ in its first layer
  and the reference adj·(x·W₁); on arrays whose entries are real numbers the two products agree entry by entry
  (a finite double sum reordered), and the rest of the layer — the bias row, the rectifier, the second layer's two
  products and its bias — is the same composition on both sides, the reference's spelt with broadcasts of the bias
  vector and a zero splat.
-/
import proofs.«134049_g16819091931673_cont_week2b_1393_5_alg».proof.Proof.Gen.ReferenceIdeal
import proofs.«134049_g16819091931673_cont_week2b_1393_5_alg».proof.Proof.LibMlpRows
import proofs.«134049_g16819091931673_cont_week2b_1393_5_alg».proof.Proof.LibHostReads
import proofs.«134049_g16819091931673_cont_week2b_1393_5_alg».proof.Proof.LibChainAssoc
import proofs.«134049_g16819091931673_cont_week2b_1393_5_alg».proof.Proof.LibRealClosed

noncomputable section

namespace Cert.ZEq

open Idealize.ShloMosaic Idealize.ShloMosaic.ValueIdx
open Cert.LibRealClosed Cert.LibBiasRows Cert.LibMlpRows Cert.LibHostReads Cert.LibChainAssoc
open Cert.ReferenceIdeal Cert.ReferenceIdeal.Facts₀

/-- A plain product of plain products, reassociated: (A·X)·W = A·(X·W) on real entries. -/
theorem dot_assoc {M J K N : Nat} (A : FVec Ideal ⟨2, ![M, J]⟩ .f32) (X : FVec Ideal ⟨2, ![J, K]⟩ .f32)
    (W : FVec Ideal ⟨2, ![K, N]⟩ .f32) (hA : AllReal A) (hX : AllReal X) (hW : AllReal W) :
    Host.dotGeneral (F := Ideal) (DotDims.plain M K N) none (Host.dotGeneral (F := Ideal) (DotDims.plain M J K) none A X) W
      = Host.dotGeneral (F := Ideal) (DotDims.plain M J N) none A (Host.dotGeneral (F := Ideal) (DotDims.plain J K N) none X W) := by
  funext i
  obtain ⟨a, b, rfl⟩ : ∃ (a : Fin M) (b : Fin N), i = ix2 a b := ⟨i 0, i 1, eq_ix2 i⟩
  rw [dot_apply _ rfl, dot_apply _ rfl]
  simp only [dot_apply _ rfl]
  exact sum_chain_assoc (fun j => A (ix2 a j)) (fun j c => X (ix2 j c)) (fun c => W (ix2 c b))
    (fun j => hA _) (fun j c => hX _) (fun c => hW _)

/-- The kernel's association of the two-layer convolution, with the biases as rows. -/
def gcnK (adj : FVec Ideal S4096x4096 .f32) (x : FVec Ideal S4096x256 .f32) (W1 : FVec Ideal S256x256 .f32)
    (b1 : FVec Ideal S1x256 .f32) (W2 : FVec Ideal S256x128 .f32) (b2 : FVec Ideal S1x128 .f32) : FVec Ideal S4096x128 .f32 :=
  biasOnly (Host.dotGeneral (F := Ideal) (DotDims.plain 4096 4096 128) none adj
    (Host.dotGeneral (F := Ideal) (DotDims.plain 4096 256 128) none
      (biasRelu (Host.dotGeneral (F := Ideal) (DotDims.plain 4096 256 256) none
        (Host.dotGeneral (F := Ideal) (DotDims.plain 4096 4096 256) none adj x) W1) b1) W2)) b2

/-- The reference's composition, as its run states it. -/
def gcnR (adj : FVec Ideal S4096x4096 .f32) (x : FVec Ideal S4096x256 .f32) (W1 : FVec Ideal S256x256 .f32)
    (bv1 : FVec Ideal S256 .f32) (W2 : FVec Ideal S256x128 .f32) (bv2 : FVec Ideal S128 .f32) : FVec Ideal S4096x128 .f32 :=
  addf (Host.dotGeneral dot_S4096x4096_S4096x128_S4096x128_1_0_0_1_n_n none adj (Host.dotGeneral dot_S4096x256_S256x128_S4096x128_1_0_0_1_n_n none (maximumf (addf (Host.dotGeneral dot_S4096x4096_S4096x256_S4096x256_1_0_0_1_n_n none adj (Host.dotGeneral dot_S4096x256_S256x256_S4096x256_1_0_0_1_n_n none x W1)) (broadcastInDim S4096x256 ![0, 1] bcast_S1x256_S4096x256_0_1 (broadcastInDim S1x256 ![1] bcast_S256_S1x256_1 bv1))) (broadcastInDim S4096x256 ![] bcast_S_S4096x256 (constant S_ .f32 0x00000000#32))) W2)) (broadcastInDim S4096x128 ![0, 1] bcast_S1x128_S4096x128_0_1 (broadcastInDim S1x128 ![1] bcast_S128_S1x128_1 bv2))

/-- On real entries the kernel's association, with each bias vector viewed as a row, is the reference's composition. -/
theorem gcn_eq (adj : FVec Ideal S4096x4096 .f32) (x : FVec Ideal S4096x256 .f32) (W1 : FVec Ideal S256x256 .f32)
    (bv1 : FVec Ideal S256 .f32) (W2 : FVec Ideal S256x128 .f32) (bv2 : FVec Ideal S128 .f32)
    (hc1 : S256.ShapeCasts S1x256) (hc2 : S128.ShapeCasts S1x128)
    (hadj : AllReal adj) (hx : AllReal x) (hW1 : AllReal W1) :
    gcnK adj x W1 (shapeCast S1x256 bv1 hc1) W2 (shapeCast S1x128 bv2 hc2) = gcnR adj x W1 bv1 W2 bv2 := by
  unfold gcnK gcnR
  rw [show dot_S4096x4096_S4096x128_S4096x128_1_0_0_1_n_n = DotDims.plain 4096 4096 128 from rfl,
    show dot_S4096x256_S256x128_S4096x128_1_0_0_1_n_n = DotDims.plain 4096 256 128 from rfl,
    show dot_S4096x4096_S4096x256_S4096x256_1_0_0_1_n_n = DotDims.plain 4096 4096 256 from rfl,
    show dot_S4096x256_S256x256_S4096x256_1_0_0_1_n_n = DotDims.plain 4096 256 256 from rfl]
  rw [hostDenseBias _ bv2 bcast_S128_S1x128_1 bcast_S1x128_S4096x128_0_1 hc2,
    hostDenseRelu _ bv1 bcast_S256_S1x256_1 bcast_S1x256_S4096x256_0_1 bcast_S_S4096x256 hc1,
    dot_assoc adj x W1 hadj hx hW1]

end Cert.ZEq

end
-- ==== Proof.LibRealHost.lean ====
/-
  More host operations on arrays of extended reals: the ones that keep every entry a real number, and the ones that make
  every entry a POSITIVE real number.

  A softmax row and a Gaussian overlap are built from exponentials, logarithms of positive numbers, sums along an axis, a
  maximum along an axis, and quotients by a sum of exponentials.  Each keeps the entries real: the exponential of a real
  is a positive real; the logarithm of a positive real is real; a sum along an axis of reals (from a real initial value) is
  real, and of positive reals from zero over a non-empty axis is positive; the maximum along a non-empty axis of reals, taken
  from minus infinity, is one of them; a finite float literal is a dyadic rational; a gather copies entries of its operand;
  a change of float format is the identity.  None of these facts reads an array at a particular index.
-/
import proofs.«134049_g16819091931673_cont_week2b_1393_5_alg».proof.Proof.LibRealClosed
import Idealize.ShloMosaic.PureOps.Reduce
import Idealize.ShloMosaic.PureOps.Ideal.Laws

noncomputable section

open scoped BigOperators

namespace Cert.LibRealHost

open Idealize.ShloMosaic Cert.LibRealClosed

/-- An extended real that is a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

theorem IsPos.ne_zero {x : EReal} (h : IsPos x) : x ≠ 0 := by
  obtain ⟨r, hr, rfl⟩ := h
  intro e
  exact (ne_of_gt hr) (EReal.coe_eq_zero.mp e)

/-- A real number above zero, as extended reals compare, is a positive real. -/
theorem isPos_of_isReal_of_pos {x : EReal} (h : IsReal x) (hp : 0 < x) : IsPos x := by
  obtain ⟨r, rfl⟩ := h
  exact ⟨r, EReal.coe_pos.mp hp, rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- A sum of positive reals over a non-empty finite set is a positive real. -/
theorem IsPos.sum {ι : Type*} (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- The larger of two reals is real. -/
theorem isReal_max {x y : EReal} (hx : IsReal x) (hy : IsReal y) : IsReal (max x y) := by
  rcases le_total x y with h | h
  · rw [max_eq_right h]; exact hy
  · rw [max_eq_left h]; exact hx

/-- The exponential of a real is a positive real. -/
theorem IsPos.exp {x : EReal} (hx : IsReal x) : IsPos (Ideal.exp x) := by
  obtain ⟨r, rfl⟩ := hx
  exact ⟨Real.exp r, Real.exp_pos r, rfl⟩

/-- The logarithm of a positive real is real. -/
theorem isReal_log {x : EReal} (hx : IsPos x) : IsReal (Ideal.log x) := by
  obtain ⟨r, hr, rfl⟩ := hx
  rw [Ideal.log_coe, if_neg (not_le.mpr hr)]
  exact ⟨_, rfl⟩

/-- A maximum from minus infinity over a finite set of reals is minus infinity on the empty set and real otherwise. -/
theorem fold_max_bot {ι : Type*} (s : Finset ι) (f : ι → EReal) (h : ∀ i ∈ s, IsReal (f i)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨_, e⟩ | hr
    · rw [e, max_eq_left bot_le]; exact h a (Finset.mem_insert_self a s)
    · exact isReal_max (h a (Finset.mem_insert_self a s)) hr

/-- A float32 pattern whose exponent field is not all ones denotes a real number (a dyadic rational). -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

/-- Every entry of the array is a positive real number. -/
def AllPos {S : Shape} {φ : FTy} (v : FVec Ideal S φ) : Prop := ∀ i, IsPos (v i)

variable {s t : Shape} {φ : FTy}

theorem AllPos.allReal {x : FVec Ideal s φ} (h : AllPos x) : AllReal x := fun i => (h i).isReal

/-- An array of reals each above zero is an array of positive reals. -/
theorem AllPos.of_pos {x : FVec Ideal s φ} (h : AllReal x) (hp : ∀ i, (0 : EReal) < x i) : AllPos x :=
  fun i => isPos_of_isReal_of_pos (h i) (hp i)

theorem AllPos.hostExp {x : FVec Ideal s φ} (hx : AllReal x) : AllPos (Host.exp x) := fun i => IsPos.exp (hx i)

theorem AllReal.hostLog {x : FVec Ideal s φ} (hx : AllPos x) : AllReal (Host.log x) := fun i => isReal_log (hx i)

theorem AllReal.maximumf {x y : FVec Ideal s φ} (hx : AllReal x) (hy : AllReal y) : AllReal (maximumf x y) :=
  fun i => isReal_max (hx i) (hy i)

/-- A change to a narrower float format is the identity on the extended reals. -/
theorem AllReal.truncf {ψ : FTy} {x : FVec Ideal s φ} (h : ψ.bits < φ.bits) (hx : AllReal x) :
    AllReal (φ := ψ) (truncf ψ x h) := fun i => hx i

/-- A gathered entry is an entry of the operand, whatever the indices. -/
theorem AllReal.gather {si : Shape} {w : Nat} (d : GatherDims s si t) {x : FVec Ideal s φ} (idx : IVec si w)
    (hx : AllReal x) : AllReal (φ := φ) (Host.gather d x idx) := fun _ => hx _

/-- A finite float32 literal splatted over a shape. -/
theorem AllReal.constant_f32 (b : BitVec 32) (h : (b.extractLsb' 23 8).toNat ≠ 2 ^ 8 - 1) :
    AllReal (constant (F := Ideal) s .f32 b) := fun _ => isReal_ofBits_f32 b h

/-- The host's sum along any axes of an array of reals, from a real initial value, is an array of reals. -/
theorem AllReal.hostReduceAdd {axes : List (Fin s.rank)} {u : Shape} {x : FVec Ideal s φ} {init : u.Idx → Ideal φ}
    (h : s.ReducesTo axes t) (hu : 0 < u.numel) (hx : AllReal x) (hi : ∀ i, IsReal (init i)) :
    AllReal (Host.reduceAdd x init h hu) := by
  intro j
  show IsReal (Ideal.hostReduceAdd h x (init (Shape.Idx.first hu)) j)
  unfold Ideal.hostReduceAdd
  exact (hi _).add (IsReal.sum _ _ fun i _ => hx i)

/-- The host's sum along ONE non-empty axis of an array of positive reals, from zero, is an array of positive reals. -/
theorem AllPos.hostReduceAdd_single {a : Fin s.rank} {u : Shape} {x : FVec Ideal s φ} {init : u.Idx → Ideal φ}
    (h' : s.ReducesTo [a] t) (h : s.Reduces [a] t) (hu : 0 < u.numel) (hn : 0 < s.size a) (hx : AllPos x)
    (hi : ∀ i, init i = 0) : AllPos (Host.reduceAdd x init h' hu) := by
  intro j
  show IsPos (Ideal.hostReduceAdd h' x (init (Shape.Idx.first hu)) j)
  rw [Ideal.hostReduceAdd_single h' h, hi, zero_add]
  haveI : Nonempty (Fin (s.size a)) := ⟨⟨0, hn⟩⟩
  exact IsPos.sum _ Finset.univ_nonempty _ fun k _ => hx _

/-- The host's maximum along ONE non-empty axis of an array of reals, taken from minus infinity, is an array of reals. -/
theorem AllReal.hostReduceMax_single {a : Fin s.rank} {u : Shape} {x : FVec Ideal s φ} {init : u.Idx → Ideal φ}
    (h' : s.ReducesTo [a] t) (h : s.Reduces [a] t) (hu : 0 < u.numel) (hn : 0 < s.size a) (hx : AllReal x)
    (hi : ∀ i, init i = ⊥) : AllReal (Host.reduce FloatOps.maximumf x init h' hu) := by
  intro j
  rw [Host.reduce_eq_fold_single FloatOps.maximumf x init h' h hu j, hi]
  haveI : Nonempty (Fin (s.size a)) := ⟨⟨0, hn⟩⟩
  rcases fold_max_bot (Finset.univ : Finset (Fin (s.size a))) (x ∘ h.lift j) (fun k _ => hx _) with ⟨e, _⟩ | hr
  · exact absurd e Finset.univ_nonempty.ne_empty
  · exact hr

end Cert.LibRealHost

end
-- ==== Proof.ZGlue.lean ====
/-
  The two regions joined, against the reference. Region 0 leaves H = relu((adj·x)·W₁ + b₁)·W₂ and region 1 leaves
  adj·H + b₂: the two-layer convolution with the first layer associated (adj·x)·W₁. Narrowing an operand to a shorter
  float format changes no entry of an array of extended reals, and a product does not depend on its factors' format
  tags. On real entries (adj·x)·W₁ = adj·(x·W₁), a finite double sum reordered, which is the reference's association;
  the biases enter as rows on one side and as broadcast vectors on the other, the same rows. The composition of arrays
  of reals is an array of reals: finite sums, products and maxima of reals, and a finite literal, are real.
-/
import proofs.«134049_g16819091931673_cont_week2b_1393_5_alg».proof.Proof.MidWhole
import proofs.«134049_g16819091931673_cont_week2b_1393_5_alg».proof.Proof.OutIdealWhole
import proofs.«134049_g16819091931673_cont_week2b_1393_5_alg».proof.Proof.ZEq
import proofs.«134049_g16819091931673_cont_week2b_1393_5_alg».proof.Proof.LibRealHost

set_option maxRecDepth 16384

noncomputable section

namespace Cert.KernelIdeal.ZGlue

open Idealize.ShloMosaic Idealize.ShloMosaic.ValueIdx
open Cert.KernelIdeal Cert.KernelIdeal.Gen
open Cert.LibRealClosed Cert.LibRealHost Cert.LibBiasRows Cert.LibMlpRows

/-! # The two regions' embedding arrays at the extended reals, against the reference's composition

  Region 0 leaves the hidden layer relu((adj·x)·W₁ + b₁)·W₂ and region 1 applies adj·(·) + b₂ to it: together the
  two-layer graph convolution in the kernel's association, which on real entries is the reference's. -/

/-- A product whose right factor is read under another format tag is the same product: an entry is the same finite sum. -/
theorem dot_retag {M K N : Nat} {φ₁ φ₂ φ₂' : FTy} (p p' : Option ContractPrecision) (U : FVec Ideal ⟨2, ![M, K]⟩ φ₁)
    (W : FVec Ideal ⟨2, ![K, N]⟩ φ₂) (W' : FVec Ideal ⟨2, ![K, N]⟩ φ₂') (h : ∀ i, W i = W' i) :
    Host.dotGeneral (F := Ideal) (DotDims.plain M K N) p U W = Host.dotGeneral (F := Ideal) (DotDims.plain M K N) p' U W' := by
  funext i
  obtain ⟨r, q, rfl⟩ : ∃ (r : Fin M) (q : Fin N), i = ix2 r q := ⟨i 0, i 1, eq_ix2 i⟩
  rw [StackMember.dotGeneral_plain_apply, StackMember.dotGeneral_plain_apply]
  exact Finset.sum_congr rfl fun c _ => by rw [h]

section
variable (adj : FVec Ideal S4096x4096 .f32) (x : FVec Ideal S4096x256 .f32) (W1 : FVec Ideal S256x256 .f32)
  (bv1 : FVec Ideal S256 .f32) (W2 : FVec Ideal S256x128 .f32) (bv2 : FVec Ideal S128 .f32)

/-- The second layer applied to the hidden layer of the narrowed operands is the kernel's association of the two-layer
    convolution: narrowing changes no entry. -/
theorem layer_hidden (b1 : FVec Ideal S1x256 .f32) (b2 : FVec Ideal S1x128 .f32) :
    OutIdeal.layer adj (MidIdeal.hidden adj (truncf .bf16 x bitsLt_bf16_f32) (truncf .bf16 W1 bitsLt_bf16_f32) b1
        (truncf .bf16 W2 bitsLt_bf16_f32)) b2
      = Cert.ZEq.gcnK adj x W1 b1 W2 b2 := by
  unfold MidIdeal.hidden Cert.ZEq.gcnK
  show biasOnly (Host.dotGeneral (F := Ideal) (DotDims.plain 4096 4096 128) none adj _) b2 = _
  rw [dot_truncf_rhs none none adj x bitsLt_bf16_f32, dot_truncf_rhs none none _ W1 bitsLt_bf16_f32,
    dot_truncf_rhs none none _ W2 bitsLt_bf16_f32]
  exact congrArg (fun Y => biasOnly Y b2) (dot_retag none none adj _ _ (fun _ => rfl))

/-- Tower 1's embedding array is the reference's composition. -/
theorem z1_ref (hadj : AllReal adj) (hx : AllReal x) (hW1 : AllReal W1) :
    Out.G1_6 (F := Ideal) adj (Mid.G0_10 (F := Ideal) adj (truncf .bf16 x bitsLt_bf16_f32) (truncf .bf16 W1 bitsLt_bf16_f32)
        (shapeCast S1x256 bv1 shapeCasts_S256_S1x256) (truncf .bf16 W2 bitsLt_bf16_f32)) (shapeCast S1x128 bv2 shapeCasts_S128_S1x128)
      = Cert.ZEq.gcnR adj x W1 bv1 W2 bv2 := by
  rw [OutIdeal.G1_6_ideal, MidIdeal.G0_10_hidden, layer_hidden]
  exact Cert.ZEq.gcn_eq adj x W1 bv1 W2 bv2 shapeCasts_S256_S1x256 shapeCasts_S128_S1x128 hadj hx hW1

/-- Tower 2's likewise. -/
theorem z2_ref (hadj : AllReal adj) (hx : AllReal x) (hW1 : AllReal W1) :
    Out.G1_7 (F := Ideal) adj (Mid.G0_11 (F := Ideal) adj (truncf .bf16 x bitsLt_bf16_f32) (truncf .bf16 W1 bitsLt_bf16_f32)
        (shapeCast S1x256 bv1 shapeCasts_S256_S1x256) (truncf .bf16 W2 bitsLt_bf16_f32)) (shapeCast S1x128 bv2 shapeCasts_S128_S1x128)
      = Cert.ZEq.gcnR adj x W1 bv1 W2 bv2 := by
  rw [OutIdeal.G1_7_ideal, MidIdeal.G0_11_hidden, layer_hidden]
  exact Cert.ZEq.gcn_eq adj x W1 bv1 W2 bv2 shapeCasts_S256_S1x256 shapeCasts_S128_S1x128 hadj hx hW1

/-- The reference's composition of arrays of reals is an array of reals. -/
theorem gcnR_real (hadj : AllReal adj) (hx : AllReal x) (hW1 : AllReal W1) (hb1 : AllReal bv1) (hW2 : AllReal W2)
    (hb2 : AllReal bv2) : AllReal (Cert.ZEq.gcnR adj x W1 bv1 W2 bv2) := by
  unfold Cert.ZEq.gcnR
  exact AllReal.addf
    (AllReal.dotGeneral _ _ hadj (AllReal.dotGeneral _ _
      (AllReal.maximumf
        (AllReal.addf (AllReal.dotGeneral _ _ hadj (AllReal.dotGeneral _ _ hx hW1))
          (AllReal.broadcastInDim _ _ (AllReal.broadcastInDim _ _ hb1)))
        (AllReal.broadcastInDim _ _ (AllReal.constant_f32 _ (by decide))))
      hW2))
    (AllReal.broadcastInDim _ _ (AllReal.broadcastInDim _ _ hb2))

end

end Cert.KernelIdeal.ZGlue

end
-- ==== Proof.OutEnds.lean ====
/-
  Two ends of the contrastive-loss program at the extended reals: the normalized rows at explicit coordinates, and the
  closing host lines.

  The normalized output of a tower at row i, column k is the layer's entry there over the root of row i's sum of
  squares — the whole-array statement read at one index. And the program's last host lines view the one-entry
  accumulator as a scalar, divide it by the row count 4096 and view the quotient as a scalar again: the entry over the
  real the constant's word encodes, reshapes of a one-element array moving nothing.
-/
import proofs.«134049_g16819091931673_cont_week2b_1393_5_alg».proof.Proof.OutIdealWhole
import Idealize.ShloMosaic.Lib.IdealHost

set_option maxRecDepth 16384

noncomputable section

namespace Cert.KernelIdeal.OutIdeal

open Cert.KernelIdeal Cert.KernelIdeal.Gen Cert.KernelIdeal.Out
open Idealize.ShloMosaic Idealize.ShloMosaic.ValueIdx
open scoped BigOperators

/-- Tower 1's normalized output at row i, column k: the layer's entry over the root of the row's sum of squares. -/
theorem zn1_at (adj : FVec Ideal S4096x4096 .f32) (s2 : FVec Ideal S4096x128 .bf16) (b2 : FVec Ideal S1x128 .f32)
    (i : Fin 4096) (k : Fin 128) :
    Out.G1_8 (F := Ideal) adj s2 b2 (ix2 i k)
      = Ideal.div (layer adj s2 b2 (ix2 i k))
          (Ideal.sqrt (0 + ∑ q : Fin 128, layer adj s2 b2 (ix2 i q) * layer adj s2 b2 (ix2 i q))) :=
  (congrFun (G1_8_ideal adj s2 b2) (ix2 i k)).trans (by unfold layerNormed; rfl)

/-- Tower 2's normalized output at row i, column k. -/
theorem zn2_at (adj : FVec Ideal S4096x4096 .f32) (s2 : FVec Ideal S4096x128 .bf16) (b2 : FVec Ideal S1x128 .f32)
    (i : Fin 4096) (k : Fin 128) :
    Out.G1_9 (F := Ideal) adj s2 b2 (ix2 i k)
      = Ideal.div (layer adj s2 b2 (ix2 i k))
          (Ideal.sqrt (0 + ∑ q : Fin 128, layer adj s2 b2 (ix2 i q) * layer adj s2 b2 (ix2 i q))) :=
  (congrFun (G1_9_ideal adj s2 b2) (ix2 i k)).trans (by unfold layerNormed; rfl)

/-- The one entry of a 1 × 1 array viewed as a scalar, divided by the constant 4096 and viewed as a scalar again, is the
    entry over the real the constant's word encodes. -/
theorem scalar_div (v : FVec Ideal S1x1 .f32) :
    shapeCast S_ (Host.divf (F := Ideal) (shapeCast S_ v Facts₀.shapeCasts_S1x1_S_) (constant (F := Ideal) S_ .f32 0x45800000#32))
        Facts₀.shapeCasts_S_S_ ValueIdx.ix0
      = Ideal.div (v (ix2 0 0)) (Ideal.ofBits .f32 0x45800000#32) := by
  rw [shapeCast_self]
  have hL : (S1x1.rowMajor (ix2 (0 : Fin 1) (0 : Fin 1))).val = 0 := by rw [Shape.rowMajor_val_two]; rfl
  have hR : (S_.rowMajor ix0).val = 0 := Shape.rowMajorPi_zero _ _
  have hv : shapeCast S_ v Facts₀.shapeCasts_S1x1_S_ ix0 = v (ix2 0 0) :=
    shapeCast_apply v Facts₀.shapeCasts_S1x1_S_ ix0 (ix2 0 0) (hL.trans hR.symm)
  show Ideal.div (shapeCast S_ v Facts₀.shapeCasts_S1x1_S_ ix0) (Ideal.ofBits .f32 0x45800000#32) = _
  rw [hv]

end Cert.KernelIdeal.OutIdeal

end
-- ==== Proof.LibSimLoss.lean ====
import Idealize.ShloMosaic.PureOps.Ideal
import Idealize.ShloMosaic.PureOps.Ideal.Laws
import Mathlib

/-!
# Extended-real laws joining two computations of a contrastive similarity loss

On Mathlib's extended reals, with the exact division, square root, exponential and logarithm
of the ideal reading: a cosine taken from normalised vectors equals the quotient of the inner
product by the product of the norms, and a difference of logarithms of a row's exponential sum
and of its weighted sum equals minus the logarithm of the normalised weighted sum, whatever the
sign of the weights' sum. With them: sums of real coercions, the negation of a sum that has no
top term, division of a negation by a positive real, and the regrouping of a sum over 4096 indices
into eight consecutive blocks of 512 accumulated from zero.
-/

namespace Cert.LibSimLoss

open Idealize.ShloMosaic

/-- The coercion of a finite sum of reals, over any finite set, is the sum of the coercions. -/
theorem coe_finset_sum {K : Type} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion of a finite sum of reals is the sum of the coercions. -/
theorem coe_sum {K : Type} [Fintype K] (f : K → ℝ) :
    ((∑ k, f k : ℝ) : EReal) = ∑ k, (f k : EReal) :=
  coe_finset_sum Finset.univ f

/-- The square root of a positive real is a positive real. -/
theorem sqrt_pos (s : ℝ) (hs : 0 < s) : ∃ n : ℝ, 0 < n ∧ Ideal.sqrt (s : EReal) = (n : EReal) :=
  ⟨Real.sqrt s, Real.sqrt_pos.2 hs, by rw [Ideal.sqrt_coe, if_neg (not_lt.2 hs.le)]⟩

/-- The exponential of a real is the real exponential. -/
theorem exp_real (r : ℝ) : Ideal.exp ((r : ℝ) : EReal) = ((Real.exp r : ℝ) : EReal) := rfl

/-- The real exponential is positive. -/
theorem exp_real_pos (r : ℝ) : 0 < Real.exp r := Real.exp_pos r

/-- Twice the sum of products of normalised coordinates is twice the inner product over the
    product of the norms, a real. -/
theorem cos_law_real {K : Type} [Fintype K] (a b : K → ℝ) (na nb : ℝ) (hna : na ≠ 0) (hnb : nb ≠ 0) :
    (0 + ∑ k, Ideal.div (a k : EReal) (na : EReal) * Ideal.div (b k : EReal) (nb : EReal)) * ((2 : ℝ) : EReal)
      = ((((∑ k, a k * b k) / (na * nb)) * 2 : ℝ) : EReal) := by
  have key : ∀ k, Ideal.div (a k : EReal) (na : EReal) * Ideal.div (b k : EReal) (nb : EReal)
      = ((a k * b k / (na * nb) : ℝ) : EReal) := by
    intro k
    rw [Ideal.div_coe hna, Ideal.div_coe hnb, ← EReal.coe_mul, ← EReal.coe_mul, ← EReal.coe_mul]
    congr 1
    field_simp
  simp_rw [key]
  rw [← coe_sum, zero_add, ← EReal.coe_mul, Finset.sum_div]

/-- The inner product over the product of the norms, divided by one half, is the same real. -/
theorem cos_law_rhs_real {K : Type} [Fintype K] (a b : K → ℝ) (na nb : ℝ) (hna : na ≠ 0) (hnb : nb ≠ 0) :
    Ideal.div (Ideal.div (0 + ∑ k, (a k : EReal) * (b k : EReal)) (0 + (na : EReal) * (nb : EReal)))
        (((1 / 2 : ℝ)) : EReal)
      = ((((∑ k, a k * b k) / (na * nb)) * 2 : ℝ) : EReal) := by
  have hn : na * nb ≠ 0 := mul_ne_zero hna hnb
  have hh : (1 / 2 : ℝ) ≠ 0 := by norm_num
  have hs : (∑ k, (a k : EReal) * (b k : EReal)) = ((∑ k, a k * b k : ℝ) : EReal) := by
    rw [coe_sum]
    exact Finset.sum_congr rfl (fun k _ => (EReal.coe_mul _ _).symm)
  rw [hs, zero_add, zero_add, ← EReal.coe_mul, Ideal.div_coe hn, ← EReal.coe_mul, Ideal.div_coe hh,
    ← EReal.coe_mul]
  congr 1
  field_simp

/-- The cosine of normalised vectors, doubled, is the inner product over the product of the norms
    divided by one half. -/
theorem cos_law {K : Type} [Fintype K] (a b : K → ℝ) (na nb : ℝ) (hna : na ≠ 0) (hnb : nb ≠ 0) :
    (0 + ∑ k, Ideal.div (a k : EReal) (na : EReal) * Ideal.div (b k : EReal) (nb : EReal)) * ((2 : ℝ) : EReal)
      = Ideal.div (Ideal.div (0 + ∑ k, (a k : EReal) * (b k : EReal)) (0 + (na : EReal) * (nb : EReal)))
          (((1 / 2 : ℝ)) : EReal) :=
  (cos_law_real a b na nb hna hnb).trans (cos_law_rhs_real a b na nb hna hnb).symm

/-- Zero plus a row's sum of reals plus a real constant is the real sum plus the constant. -/
theorem row_den {J : Type} [Fintype J] (E : J → ℝ) (e : ℝ) :
    0 + (∑ j, (E j : EReal)) + (e : EReal) = (((∑ j, E j) + e : ℝ) : EReal) := by
  rw [zero_add, ← coe_sum, ← EReal.coe_add]

/-- A row's sum of positive reals plus a positive constant is positive. -/
theorem row_den_pos {J : Type} [Fintype J] (E : J → ℝ) (hE : ∀ j, 0 < E j) (e : ℝ) (he : 0 < e) :
    0 < (∑ j, E j) + e :=
  add_pos_of_nonneg_of_pos (Finset.sum_nonneg (fun j _ => (hE j).le)) he

/-- The weighted sum of a row's normalised terms is the real weighted sum over the real denominator. -/
theorem row_arg {J : Type} [Fintype J] (E C : J → ℝ) (e : ℝ) (hT : (∑ j, E j) + e ≠ 0) :
    0 + ∑ j, Ideal.div (E j : EReal) (0 + (∑ j, (E j : EReal)) + (e : EReal)) * (C j : EReal)
      = (((∑ j, E j * C j) / ((∑ j, E j) + e) : ℝ) : EReal) := by
  rw [row_den]
  have key : ∀ i, Ideal.div (E i : EReal) ((((∑ j, E j) + e : ℝ)) : EReal) * (C i : EReal)
      = ((E i * C i / ((∑ j, E j) + e) : ℝ) : EReal) := by
    intro i
    rw [Ideal.div_coe hT, ← EReal.coe_mul, ← EReal.coe_mul]
    congr 1
    field_simp
  simp_rw [key]
  rw [← coe_sum, zero_add, Finset.sum_div]

/-- The logarithm of a row's sum plus a positive constant, minus the logarithm of its weighted sum,
    is minus the logarithm of the normalised weighted sum, whatever the sign of the weighted sum. -/
theorem row_law {J : Type} [Fintype J] (E C : J → ℝ) (hE : ∀ j, 0 < E j) (e : ℝ) (he : 0 < e) :
    Ideal.log (0 + (∑ j, (E j : EReal)) + (e : EReal))
        - Ideal.log (0 + ∑ j, (E j : EReal) * (C j : EReal))
      = - Ideal.log (0 + ∑ j, Ideal.div (E j : EReal) (0 + (∑ j, (E j : EReal)) + (e : EReal))
            * (C j : EReal)) := by
  have hT : 0 < (∑ j, E j) + e := row_den_pos E hE e he
  have hw : (0 + ∑ j, (E j : EReal) * (C j : EReal)) = ((∑ j, E j * C j : ℝ) : EReal) := by
    rw [zero_add, coe_sum]
    exact Finset.sum_congr rfl (fun j _ => (EReal.coe_mul _ _).symm)
  rw [row_arg E C e hT.ne', row_den, hw, Ideal.log_coe, Ideal.log_coe, Ideal.log_coe,
    if_neg (not_le.2 hT)]
  by_cases h : (∑ j, E j * C j) ≤ 0
  · have h' : (∑ j, E j * C j) / ((∑ j, E j) + e) ≤ 0 := div_nonpos_of_nonpos_of_nonneg h hT.le
    rw [if_pos h, if_pos h', EReal.coe_sub_bot, EReal.neg_bot]
  · have hpos : 0 < ∑ j, E j * C j := not_le.1 h
    have h' : ¬ (∑ j, E j * C j) / ((∑ j, E j) + e) ≤ 0 := not_le.2 (div_pos hpos hT)
    rw [if_neg h, if_neg h', Real.log_div hpos.ne' hT.ne', ← EReal.coe_sub, ← EReal.coe_neg]
    congr 1
    ring

/-- The logarithm of a row's normalised weighted sum is never the top element. -/
theorem row_ne_top {J : Type} [Fintype J] (E C : J → ℝ) (hE : ∀ j, 0 < E j) (e : ℝ) (he : 0 < e) :
    Ideal.log (0 + ∑ j, Ideal.div (E j : EReal) (0 + (∑ j, (E j : EReal)) + (e : EReal))
        * (C j : EReal)) ≠ ⊤ := by
  have hT : 0 < (∑ j, E j) + e := row_den_pos E hE e he
  rw [row_arg E C e hT.ne', Ideal.log_coe]
  split_ifs
  · exact bot_ne_top
  · exact EReal.coe_ne_top _

/-- Over any finite set with no top term, the sum of the negations is the negation of the sum,
    and the sum is not the top element. -/
theorem neg_finset_sum {I : Type} (s : Finset I) (x : I → EReal) (hx : ∀ i ∈ s, x i ≠ ⊤) :
    (∑ i ∈ s, -(x i) = -(∑ i ∈ s, x i)) ∧ (∑ i ∈ s, x i) ≠ ⊤ := by
  classical
  induction s using Finset.induction_on with
  | empty => simp
  | insert a s ha ih =>
    have hxa : x a ≠ ⊤ := hx a (Finset.mem_insert_self a s)
    obtain ⟨ih1, ih2⟩ := ih (fun i hi => hx i (Finset.mem_insert_of_mem hi))
    rw [Finset.sum_insert ha, Finset.sum_insert ha]
    refine ⟨?_, EReal.add_ne_top hxa ih2⟩
    rw [ih1, EReal.neg_add (Or.inr ih2) (Or.inl hxa), sub_eq_add_neg]

/-- With no top term, the sum of the negations is the negation of the sum. -/
theorem neg_sum {I : Type} [Fintype I] (x : I → EReal) (hx : ∀ i, x i ≠ ⊤) :
    ∑ i, -(x i) = -(∑ i, x i) :=
  (neg_finset_sum Finset.univ x (fun i _ => hx i)).1

/-- Division of a negation by a positive real is the negation of the division. -/
theorem div_neg_pos (x : EReal) (c : ℝ) (hc : 0 < c) :
    Ideal.div (-x) (c : EReal) = - Ideal.div x (c : EReal) := by
  rw [Ideal.div_coe hc.ne', Ideal.div_coe hc.ne', neg_mul]

/-- A sum over 4096 indices is the sum over eight blocks of the sums over the 512 indices of each. -/
theorem sum_eq_sum_blocks (f : Fin 4096 → EReal) :
    ∑ i, f i = ∑ t : Fin 8, ∑ r : Fin 512, f ⟨512 * t.val + r.val, by omega⟩ := by
  rw [← Equiv.sum_comp (finProdFinEquiv : Fin 8 × Fin 512 ≃ Fin (8 * 512)) f, Fintype.sum_prod_type]
  refine Finset.sum_congr rfl (fun t _ => Finset.sum_congr rfl (fun r _ => ?_))
  congr 1
  apply Fin.ext
  simp only [finProdFinEquiv, Equiv.coe_fn_mk]
  omega

/-- Eight block sums, each started from zero, accumulated in order from zero (stated as the explicit
    eight-term left fold), give zero plus the sum over all 4096 indices. -/
theorem sum_blocks (f : Fin 4096 → EReal) (p : Fin 8 → EReal)
    (hp : ∀ t : Fin 8, p t = 0 + ∑ r : Fin 512, f ⟨512 * t.val + r.val, by omega⟩) :
    ((((((((0 + p 0) + p 1) + p 2) + p 3) + p 4) + p 5) + p 6) + p 7) = 0 + ∑ i, f i := by
  rw [sum_eq_sum_blocks, Fin.sum_univ_eight]
  simp only [hp, zero_add]

end Cert.LibSimLoss
-- ==== Proof.RealRows.lean ====
/-
  Arrays of real entries, row by row.

  An array of extended reals whose every entry is a real number is the coercion of a real matrix; and when each row's
  sum of squares, taken on the extended reals from zero, is positive there, the real row's sum of squares is a positive
  real: the coercion commutes with the products and the finite sum.
-/
import proofs.«134049_g16819091931673_cont_week2b_1393_5_alg».proof.Proof.LibRealClosed
import proofs.«134049_g16819091931673_cont_week2b_1393_5_alg».proof.Proof.LibSimLoss
import Idealize.ShloMosaic.Lib.ValueIdx
import Mathlib

noncomputable section

open scoped BigOperators

namespace Cert.RealRows

open Idealize.ShloMosaic Idealize.ShloMosaic.ValueIdx
open Cert.LibRealClosed

/-- An array of real entries is the coercion of a real matrix. -/
theorem reals_of {M N : Nat} {φ : FTy} (Z : FVec Ideal ⟨2, ![M, N]⟩ φ) (hZ : AllReal Z) :
    ∃ z : Fin M → Fin N → ℝ, ∀ i k, Z (ix2 i k) = (z i k : EReal) :=
  ⟨fun i k => Classical.choose (hZ (ix2 i k)), fun i k => Classical.choose_spec (hZ (ix2 i k))⟩

/-- The sum of squares of a real row, coerced, is the sum of the squares of the coerced entries. -/
theorem coe_sum_sq {N : Nat} (x : Fin N → ℝ) :
    (∑ k : Fin N, (x k : EReal) * (x k : EReal)) = ((∑ k, x k * x k : ℝ) : EReal) := by
  rw [Cert.LibSimLoss.coe_sum]
  exact Finset.sum_congr rfl fun k _ => (EReal.coe_mul _ _).symm

/-- Rows whose sums of squares are positive as extended reals have positive real sums of squares. -/
theorem rows_pos {M N : Nat} {φ : FTy} (Z : FVec Ideal ⟨2, ![M, N]⟩ φ) (z : Fin M → Fin N → ℝ)
    (hz : ∀ i k, Z (ix2 i k) = (z i k : EReal))
    (h : ∀ i : Fin M, (0 : EReal) < 0 + ∑ k : Fin N, Z (ix2 i k) * Z (ix2 i k)) :
    ∀ i, 0 < ∑ k, z i k * z i k := by
  intro i
  have h' := h i
  simp only [hz] at h'
  rw [zero_add, coe_sum_sq] at h'
  exact EReal.coe_pos.mp h'

/-- info: 'Cert.RealRows.rows_pos' depends on axioms: [propext, Classical.choice, Quot.sound] -/
#guard_msgs in #print axioms rows_pos

end Cert.RealRows

end
-- ==== Proof.LibLossLaw.lean ====
import proofs.«134049_g16819091931673_cont_week2b_1393_5_alg».proof.Proof.LibSimLoss

/-!
# The similarity-loss identity between a blockwise and a rowwise computation

For two real embeddings with no zero row and real weights of any sign, on Mathlib's extended reals with
the exact division, square root, exponential and logarithm of the ideal reading, this file proves that
the similarity loss computed blockwise (rows normalised first, twice the cosines exponentiated, per row
the logarithm of the exponential sum plus a small positive constant minus the logarithm of the weighted
sum, the rows accumulated in eight blocks of 512, the total divided by 4096) equals the loss computed
rowwise (minus the mean over the rows of the logarithm of the normalised weighted sum, the cosine being
the inner product divided by the product of the norms and then by one half). It first reads the four
float constants the two computations spell, and it exports the facts on the way: norms and exponentials
are coercions of positive reals, and the two exponentials agree.
-/

noncomputable section

namespace Cert.LibLossLaw

open Idealize.ShloMosaic
open Cert.LibSimLoss

/-! ### The constants -/

/-- The pattern of 2.0 denotes the real 2. -/
theorem two : Ideal.ofBits .f32 0x40000000#32 = ((2 : ℝ) : EReal) := by
  simp [Ideal.ofBits, Ideal.ieee, -EReal.coe_mul]; norm_num

/-- The pattern of 0.5 denotes the real 1/2. -/
theorem half : Ideal.ofBits .f32 0x3F000000#32 = ((1 / 2 : ℝ) : EReal) := by
  simp [Ideal.ofBits, Ideal.ieee, -EReal.coe_mul]; norm_num

/-- The pattern of 4096.0 denotes the real 4096. -/
theorem n4096 : Ideal.ofBits .f32 0x45800000#32 = ((4096 : ℝ) : EReal) := by
  simp [Ideal.ofBits, Ideal.ieee, -EReal.coe_mul]; norm_num

/-- The pattern of the small additive constant denotes a positive real. -/
theorem eps : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-! ### The two computations -/

section Defs
variable (z1 z2 : Fin 4096 → Fin 128 → ℝ) (C : Fin 4096 → Fin 4096 → ℝ)

/-- The norm of row i of the first embedding. -/
def n1 (i : Fin 4096) : EReal := Ideal.sqrt (0 + ∑ k, (z1 i k : EReal) * (z1 i k : EReal))

/-- The norm of row j of the second embedding. -/
def n2 (j : Fin 4096) : EReal := Ideal.sqrt (0 + ∑ k, (z2 j k : EReal) * (z2 j k : EReal))

/-- The cosine from rows normalised first. -/
def cosK (i j : Fin 4096) : EReal :=
  0 + ∑ k, Ideal.div (z1 i k : EReal) (n1 z1 i) * Ideal.div (z2 j k : EReal) (n2 z2 j)

/-- The exponential of twice the cosine of normalised rows. -/
def EK (i j : Fin 4096) : EReal := Ideal.exp (cosK z1 z2 i j * Ideal.ofBits .f32 0x40000000#32)

/-- The accumulated contribution of block t: its 512 rows' differences of logarithms, from zero. -/
def partK (t : Fin 8) : EReal :=
  0 + ∑ r : Fin 512,
    (Ideal.log ((0 + ∑ j, EK z1 z2 ⟨512 * t.val + r.val, by omega⟩ j) + Ideal.ofBits .f32 0x322BCC77#32)
      - Ideal.log (0 + ∑ j, EK z1 z2 ⟨512 * t.val + r.val, by omega⟩ j
          * (C ⟨512 * t.val + r.val, by omega⟩ j : EReal)))

/-- The blockwise loss: the eight blocks accumulated in order from zero, divided by 4096. -/
def lossK : EReal :=
  Ideal.div (0 + partK z1 z2 C 0 + partK z1 z2 C 1 + partK z1 z2 C 2 + partK z1 z2 C 3 + partK z1 z2 C 4
      + partK z1 z2 C 5 + partK z1 z2 C 6 + partK z1 z2 C 7) (Ideal.ofBits .f32 0x45800000#32)

/-- The exponential of the inner product over the product of the norms, divided by one half. -/
def ER (i j : Fin 4096) : EReal :=
  Ideal.exp (Ideal.div (Ideal.div (0 + ∑ k, (z1 i k : EReal) * (z2 j k : EReal))
    (0 + ∑ _u : Fin 1, n1 z1 i * n2 z2 j)) (Ideal.ofBits .f32 0x3F000000#32))

/-- The rowwise loss: minus the mean of the logarithms of the normalised weighted sums. -/
def lossR : EReal :=
  - Ideal.div (0 + ∑ i, Ideal.log (0 + ∑ j, Ideal.div (ER z1 z2 i j)
      ((0 + ∑ j', ER z1 z2 i j') + Ideal.ofBits .f32 0x322BCC77#32) * (C i j : EReal)))
    (Ideal.ofBits .f32 0x45800000#32)

/-- The real norm of row i of an embedding. -/
def nr (z : Fin 4096 → Fin 128 → ℝ) (i : Fin 4096) : ℝ := Real.sqrt (∑ k, z i k * z i k)

/-- The real doubled cosine of row i of the first and row j of the second embedding. -/
def cr (i j : Fin 4096) : ℝ := (∑ k, z1 i k * z2 j k) / (nr z1 i * nr z2 j) * 2

/-- The real exponential of the doubled cosine. -/
def er (i j : Fin 4096) : ℝ := Real.exp (cr z1 z2 i j)

/-- Row i's difference of logarithms in the blockwise computation. -/
def rowK (i : Fin 4096) : EReal :=
  Ideal.log ((0 + ∑ j, EK z1 z2 i j) + Ideal.ofBits .f32 0x322BCC77#32)
    - Ideal.log (0 + ∑ j, EK z1 z2 i j * (C i j : EReal))

/-- Row i's logarithm of the normalised weighted sum in the rowwise computation. -/
def rowR (i : Fin 4096) : EReal :=
  Ideal.log (0 + ∑ j, Ideal.div (ER z1 z2 i j)
    ((0 + ∑ j', ER z1 z2 i j') + Ideal.ofBits .f32 0x322BCC77#32) * (C i j : EReal))

end Defs

/-! ### The facts on the way -/

section Facts
variable (z1 z2 : Fin 4096 → Fin 128 → ℝ) (C : Fin 4096 → Fin 4096 → ℝ)

/-- The real norm of a nonzero row is positive. -/
theorem nr_pos (z : Fin 4096 → Fin 128 → ℝ) (h : ∀ i, 0 < ∑ k, z i k * z i k) (i : Fin 4096) :
    0 < nr z i := Real.sqrt_pos.2 (h i)

/-- The square root of zero plus the sum of squares of a nonzero row is the real norm. -/
theorem sqrt_sq_sum (z : Fin 4096 → Fin 128 → ℝ) (h : ∀ i, 0 < ∑ k, z i k * z i k) (i : Fin 4096) :
    Ideal.sqrt (0 + ∑ k, (z i k : EReal) * (z i k : EReal)) = (nr z i : EReal) := by
  have hs : (0 + ∑ k, (z i k : EReal) * (z i k : EReal)) = ((∑ k, z i k * z i k : ℝ) : EReal) := by
    rw [zero_add, coe_sum]
    exact Finset.sum_congr rfl (fun k _ => (EReal.coe_mul _ _).symm)
  rw [hs, Ideal.sqrt_coe, if_neg (not_lt.2 (h i).le)]
  rfl

/-- The norm of a row of the first embedding is its real norm. -/
theorem n1_eq (h1 : ∀ i, 0 < ∑ k, z1 i k * z1 i k) (i : Fin 4096) : n1 z1 i = (nr z1 i : EReal) :=
  sqrt_sq_sum z1 h1 i

/-- The norm of a row of the second embedding is its real norm. -/
theorem n2_eq (h2 : ∀ j, 0 < ∑ k, z2 j k * z2 j k) (j : Fin 4096) : n2 z2 j = (nr z2 j : EReal) :=
  sqrt_sq_sum z2 h2 j

/-- The norm of a row of the first embedding is the coercion of a positive real. -/
theorem n1_pos (h1 : ∀ i, 0 < ∑ k, z1 i k * z1 i k) (i : Fin 4096) :
    ∃ n : ℝ, 0 < n ∧ n1 z1 i = (n : EReal) := ⟨nr z1 i, nr_pos z1 h1 i, n1_eq z1 h1 i⟩

/-- The norm of a row of the second embedding is the coercion of a positive real. -/
theorem n2_pos (h2 : ∀ j, 0 < ∑ k, z2 j k * z2 j k) (j : Fin 4096) :
    ∃ n : ℝ, 0 < n ∧ n2 z2 j = (n : EReal) := ⟨nr z2 j, nr_pos z2 h2 j, n2_eq z2 h2 j⟩

/-- Twice the cosine of normalised rows is the real doubled cosine. -/
theorem cosK_two (h1 : ∀ i, 0 < ∑ k, z1 i k * z1 i k) (h2 : ∀ j, 0 < ∑ k, z2 j k * z2 j k)
    (i j : Fin 4096) :
    cosK z1 z2 i j * Ideal.ofBits .f32 0x40000000#32 = (cr z1 z2 i j : EReal) := by
  unfold cosK
  rw [n1_eq z1 h1, n2_eq z2 h2, two]
  exact cos_law_real (z1 i) (z2 j) (nr z1 i) (nr z2 j) (nr_pos z1 h1 i).ne' (nr_pos z2 h2 j).ne'

/-- The blockwise exponential is the real exponential of the doubled cosine. -/
theorem EK_eq (h1 : ∀ i, 0 < ∑ k, z1 i k * z1 i k) (h2 : ∀ j, 0 < ∑ k, z2 j k * z2 j k)
    (i j : Fin 4096) : EK z1 z2 i j = (er z1 z2 i j : EReal) := by
  unfold EK
  rw [cosK_two z1 z2 h1 h2]
  rfl

/-- The rowwise exponential is the real exponential of the doubled cosine. -/
theorem ER_eq (h1 : ∀ i, 0 < ∑ k, z1 i k * z1 i k) (h2 : ∀ j, 0 < ∑ k, z2 j k * z2 j k)
    (i j : Fin 4096) : ER z1 z2 i j = (er z1 z2 i j : EReal) := by
  unfold ER
  rw [Fin.sum_univ_one, n1_eq z1 h1, n2_eq z2 h2, half,
    cos_law_rhs_real (z1 i) (z2 j) (nr z1 i) (nr z2 j) (nr_pos z1 h1 i).ne' (nr_pos z2 h2 j).ne']
  rfl

/-- The two exponentials agree. -/
theorem EK_eq_ER (h1 : ∀ i, 0 < ∑ k, z1 i k * z1 i k) (h2 : ∀ j, 0 < ∑ k, z2 j k * z2 j k)
    (i j : Fin 4096) : EK z1 z2 i j = ER z1 z2 i j :=
  (EK_eq z1 z2 h1 h2 i j).trans (ER_eq z1 z2 h1 h2 i j).symm

/-- The real exponential of the doubled cosine is positive. -/
theorem er_pos (i j : Fin 4096) : 0 < er z1 z2 i j := Real.exp_pos _

/-- The blockwise exponential is the coercion of a positive real. -/
theorem EK_pos (h1 : ∀ i, 0 < ∑ k, z1 i k * z1 i k) (h2 : ∀ j, 0 < ∑ k, z2 j k * z2 j k)
    (i j : Fin 4096) : ∃ x : ℝ, 0 < x ∧ EK z1 z2 i j = (x : EReal) :=
  ⟨er z1 z2 i j, er_pos z1 z2 i j, EK_eq z1 z2 h1 h2 i j⟩

/-- The rowwise exponential is the coercion of a positive real. -/
theorem ER_pos (h1 : ∀ i, 0 < ∑ k, z1 i k * z1 i k) (h2 : ∀ j, 0 < ∑ k, z2 j k * z2 j k)
    (i j : Fin 4096) : ∃ x : ℝ, 0 < x ∧ ER z1 z2 i j = (x : EReal) :=
  ⟨er z1 z2 i j, er_pos z1 z2 i j, ER_eq z1 z2 h1 h2 i j⟩

/-- A row's difference of logarithms is minus the logarithm of its normalised weighted sum, and
    that logarithm is not the top element. -/
theorem row_eq (h1 : ∀ i, 0 < ∑ k, z1 i k * z1 i k) (h2 : ∀ j, 0 < ∑ k, z2 j k * z2 j k)
    (i : Fin 4096) : rowK z1 z2 C i = - rowR z1 z2 C i ∧ rowR z1 z2 C i ≠ ⊤ := by
  obtain ⟨e, he, heq⟩ := eps
  unfold rowK rowR
  simp only [EK_eq z1 z2 h1 h2, ER_eq z1 z2 h1 h2, heq]
  exact ⟨row_law (er z1 z2 i) (C i) (er_pos z1 z2 i) e he,
    row_ne_top (er z1 z2 i) (C i) (er_pos z1 z2 i) e he⟩

/-- The eight blocks accumulated in order from zero are zero plus the sum of all rows' differences. -/
theorem fold_eq :
    0 + partK z1 z2 C 0 + partK z1 z2 C 1 + partK z1 z2 C 2 + partK z1 z2 C 3 + partK z1 z2 C 4
      + partK z1 z2 C 5 + partK z1 z2 C 6 + partK z1 z2 C 7 = 0 + ∑ i, rowK z1 z2 C i :=
  sum_blocks (rowK z1 z2 C) (partK z1 z2 C) (fun _ => rfl)

/-- The rowwise loss in terms of its rows. -/
theorem lossR_eq :
    lossR z1 z2 C = - Ideal.div (0 + ∑ i, rowR z1 z2 C i) (Ideal.ofBits .f32 0x45800000#32) := rfl

/-- The blockwise loss equals the rowwise loss. -/
theorem loss_law (h1 : ∀ i, 0 < ∑ k, z1 i k * z1 i k) (h2 : ∀ j, 0 < ∑ k, z2 j k * z2 j k) :
    lossK z1 z2 C = lossR z1 z2 C := by
  have hsum : (∑ i, rowK z1 z2 C i) = - ∑ i, rowR z1 z2 C i := by
    rw [← neg_sum _ (fun i => (row_eq z1 z2 C h1 h2 i).2)]
    exact Finset.sum_congr rfl (fun i _ => (row_eq z1 z2 C h1 h2 i).1)
  rw [lossR_eq]
  unfold lossK
  rw [fold_eq z1 z2 C, hsum, n4096, zero_add, zero_add, div_neg_pos _ _ (by norm_num)]

end Facts

end Cert.LibLossLaw

end
-- ==== Proof.RefLoss.lean ====
import proofs.«134049_g16819091931673_cont_week2b_1393_5_alg».proof.Proof.Gen.ReferenceIdeal.Read
import proofs.«134049_g16819091931673_cont_week2b_1393_5_alg».proof.Proof.LibLossLaw
import proofs.«134049_g16819091931673_cont_week2b_1393_5_alg».proof.Proof.LibHostReads
import proofs.«134049_g16819091931673_cont_week2b_1393_5_alg».proof.Proof.LibRealClosed

/-!
# The reference's similarity loss, as a function of the two embeddings and the weights

The third result of the reference is a composition of host operations whose only inputs are the two
embeddings and the weight matrix; this module names that composition on abstract inputs, shows the
result equal to it, and reads it on the extended reals, for inputs that are coercions of reals, as
minus the mean over the rows of the logarithm of the normalised weighted exponential sums.
-/

noncomputable section

namespace Cert.RefLoss

open Cert.ReferenceIdeal Cert.ReferenceIdeal.Gen Idealize.ShloMosaic Idealize.ShloMosaic.TcCoe Idealize.SL.Sem Idealize.ShloMosaic.StableHlo

section Term
variable {F : FTy → Type} [FloatOps F]

/-- The first embedding, as the composed term of the arguments. -/
def zref1 (m : (ℓ : Loc nD τ sig) → Buf (Elt F) ℓ) (c : Dev nD) : FVec F S4096x128 .f32 :=
  addf (Host.dotGeneral dot_S4096x4096_S4096x128_S4096x128_1_0_0_1_n_n none (m ((c.tc : Thread nD τ).loc main_arg1)) (Host.dotGeneral dot_S4096x256_S256x128_S4096x128_1_0_0_1_n_n none (maximumf (addf (Host.dotGeneral dot_S4096x4096_S4096x256_S4096x256_1_0_0_1_n_n none (m ((c.tc : Thread nD τ).loc main_arg1)) (Host.dotGeneral dot_S4096x256_S256x256_S4096x256_1_0_0_1_n_n none (m ((c.tc : Thread nD τ).loc main_arg0)) (m ((c.tc : Thread nD τ).loc main_arg5)))) (broadcastInDim S4096x256 ![0, 1] bcast_S1x256_S4096x256_0_1 (broadcastInDim S1x256 ![1] bcast_S256_S1x256_1 (m ((c.tc : Thread nD τ).loc main_arg6))))) (broadcastInDim S4096x256 ![] bcast_S_S4096x256 (constant S_ .f32 0x00000000#32))) (m ((c.tc : Thread nD τ).loc main_arg7)))) (broadcastInDim S4096x128 ![0, 1] bcast_S1x128_S4096x128_0_1 (broadcastInDim S1x128 ![1] bcast_S128_S1x128_1 (m ((c.tc : Thread nD τ).loc main_arg8))))

/-- The second embedding, as the composed term of the arguments. -/
def zref2 (m : (ℓ : Loc nD τ sig) → Buf (Elt F) ℓ) (c : Dev nD) : FVec F S4096x128 .f32 :=
  addf (Host.dotGeneral dot_S4096x4096_S4096x128_S4096x128_1_0_0_1_n_n none (m ((c.tc : Thread nD τ).loc main_arg3)) (Host.dotGeneral dot_S4096x256_S256x128_S4096x128_1_0_0_1_n_n none (maximumf (addf (Host.dotGeneral dot_S4096x4096_S4096x256_S4096x256_1_0_0_1_n_n none (m ((c.tc : Thread nD τ).loc main_arg3)) (Host.dotGeneral dot_S4096x256_S256x256_S4096x256_1_0_0_1_n_n none (m ((c.tc : Thread nD τ).loc main_arg2)) (m ((c.tc : Thread nD τ).loc main_arg9)))) (broadcastInDim S4096x256 ![0, 1] bcast_S1x256_S4096x256_0_1 (broadcastInDim S1x256 ![1] bcast_S256_S1x256_1 (m ((c.tc : Thread nD τ).loc main_arg10))))) (broadcastInDim S4096x256 ![] bcast_S_S4096x256 (constant S_ .f32 0x00000000#32))) (m ((c.tc : Thread nD τ).loc main_arg11)))) (broadcastInDim S4096x128 ![0, 1] bcast_S1x128_S4096x128_0_1 (broadcastInDim S1x128 ![1] bcast_S128_S1x128_1 (m ((c.tc : Thread nD τ).loc main_arg12))))

/-- The similarity loss as a composition of host operations on two embeddings and a weight matrix. -/
def refLoss (Z1 Z2 : FVec F S4096x128 .f32) (C : FVec F S4096x4096 .f32) : FVec F S_ .f32 :=
  Host.negf (Host.divf (Host.reduceAdd (Host.log (Host.reduceAdd (mulf (Host.divf (Host.exp (Host.divf (Host.divf (Host.dotGeneral dot_S4096x128_S128x4096_S4096x4096_1_0_0_1_n_n none Z1 (transpose S128x4096 [1, 0] Z2 transposes_S4096x128_S128x4096_1_0)) (Host.dotGeneral dot_S4096x1_S1x4096_S4096x4096_1_0_0_1_n_n none (Host.sqrt (broadcastInDim S4096x1 ![0] bcast_S4096_S4096x1_0 (Host.reduceAdd (mulf Z1 Z1) (constant S_ .f32 0x00000000#32) reducesTo_S4096x128_S4096_d1 h_S_))) (transpose S1x4096 [1, 0] (Host.sqrt (broadcastInDim S4096x1 ![0] bcast_S4096_S4096x1_0 (Host.reduceAdd (mulf Z2 Z2) (constant S_ .f32 0x00000000#32) reducesTo_S4096x128_S4096_d1 h_S_))) transposes_S4096x1_S1x4096_1_0))) (broadcastInDim S4096x4096 ![] bcast_S_S4096x4096 (constant S_ .f32 0x3F000000#32)))) (broadcastInDim S4096x4096 ![0, 1] bcast_S4096x1_S4096x4096_0_1 (addf (shapeCast _ (Host.reduceAdd (Host.exp (Host.divf (Host.divf (Host.dotGeneral dot_S4096x128_S128x4096_S4096x4096_1_0_0_1_n_n none Z1 (transpose S128x4096 [1, 0] Z2 transposes_S4096x128_S128x4096_1_0)) (Host.dotGeneral dot_S4096x1_S1x4096_S4096x4096_1_0_0_1_n_n none (Host.sqrt (broadcastInDim S4096x1 ![0] bcast_S4096_S4096x1_0 (Host.reduceAdd (mulf Z1 Z1) (constant S_ .f32 0x00000000#32) reducesTo_S4096x128_S4096_d1 h_S_))) (transpose S1x4096 [1, 0] (Host.sqrt (broadcastInDim S4096x1 ![0] bcast_S4096_S4096x1_0 (Host.reduceAdd (mulf Z2 Z2) (constant S_ .f32 0x00000000#32) reducesTo_S4096x128_S4096_d1 h_S_))) transposes_S4096x1_S1x4096_1_0))) (broadcastInDim S4096x4096 ![] bcast_S_S4096x4096 (constant S_ .f32 0x3F000000#32)))) (constant S_ .f32 0x00000000#32) reducesTo_S4096x4096_S4096_d1 h_S_) shapeCasts_S4096_S4096x1) (broadcastInDim S4096x1 ![] bcast_S_S4096x1 (constant S_ .f32 0x322BCC77#32))))) C) (constant S_ .f32 0x00000000#32) reducesTo_S4096x4096_S4096_d1 h_S_)) (constant S_ .f32 0x00000000#32) reducesTo_S4096_S_d0 h_S_) (constant S_ .f32 0x45800000#32))

set_option maxRecDepth 8192 in
/-- The third result's term is the similarity loss of the two embeddings' terms and the fifth argument. -/
theorem res_eq (m : (ℓ : Loc nD τ sig) → Buf (Elt F) ℓ) (c : Dev nD) :
    Cert.ReferenceIdeal.Value.res_main_v45 (F := F) m c
      = refLoss (zref1 m c) (zref2 m c) (m ((c.tc : Thread nD τ).loc main_arg4)) := by
  unfold Cert.ReferenceIdeal.Value.res_main_v45 refLoss zref1 zref2
  rfl

end Term

/-! ### The composition by stages -/

section Stages
variable {F : FTy → Type} [FloatOps F]

/-- The norms of an embedding's rows, as a column. -/
def normV (Z : FVec F S4096x128 .f32) : FVec F S4096x1 .f32 :=
  Host.sqrt (broadcastInDim S4096x1 ![0] bcast_S4096_S4096x1_0 (Host.reduceAdd (mulf Z Z) (constant S_ .f32 0x00000000#32) reducesTo_S4096x128_S4096_d1 h_S_))

/-- The exponentials of the inner products over the products of the norms, divided by one half. -/
def expMat (Z1 Z2 : FVec F S4096x128 .f32) : FVec F S4096x4096 .f32 :=
  Host.exp (Host.divf (Host.divf (Host.dotGeneral dot_S4096x128_S128x4096_S4096x4096_1_0_0_1_n_n none Z1 (transpose S128x4096 [1, 0] Z2 transposes_S4096x128_S128x4096_1_0)) (Host.dotGeneral dot_S4096x1_S1x4096_S4096x4096_1_0_0_1_n_n none (normV Z1) (transpose S1x4096 [1, 0] (normV Z2) transposes_S4096x1_S1x4096_1_0))) (broadcastInDim S4096x4096 ![] bcast_S_S4096x4096 (constant S_ .f32 0x3F000000#32)))

/-- The row sums of a matrix plus the small constant, as a column. -/
def denV (E : FVec F S4096x4096 .f32) : FVec F S4096x1 .f32 :=
  addf (shapeCast _ (Host.reduceAdd E (constant S_ .f32 0x00000000#32) reducesTo_S4096x4096_S4096_d1 h_S_) shapeCasts_S4096_S4096x1) (broadcastInDim S4096x1 ![] bcast_S_S4096x1 (constant S_ .f32 0x322BCC77#32))

/-- Per row, the logarithm of the weighted sum of the matrix divided by its row's denominator. -/
def rowLog (E C : FVec F S4096x4096 .f32) : FVec F S4096 .f32 :=
  Host.log (Host.reduceAdd (mulf (Host.divf E (broadcastInDim S4096x4096 ![0, 1] bcast_S4096x1_S4096x4096_0_1 (denV E))) C) (constant S_ .f32 0x00000000#32) reducesTo_S4096x4096_S4096_d1 h_S_)

/-- Minus the sum of a vector divided by 4096. -/
def total (v : FVec F S4096 .f32) : FVec F S_ .f32 :=
  Host.negf (Host.divf (Host.reduceAdd v (constant S_ .f32 0x00000000#32) reducesTo_S4096_S_d0 h_S_) (constant S_ .f32 0x45800000#32))

/-- The similarity loss is the total of the rows' logarithms of the exponential matrix. -/
theorem refLoss_stages (Z1 Z2 : FVec F S4096x128 .f32) (C : FVec F S4096x4096 .f32) :
    refLoss Z1 Z2 C = total (rowLog (expMat Z1 Z2) C) := rfl

end Stages

/-! ### The stages read on the extended reals -/

section AtIdeal
open Idealize.ShloMosaic.ValueIdx Cert.LibHostReads

/-- A rank-1 index set is its coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The sum of a 4096×128 matrix along its rows from a constant: the constant plus the row's sum. -/
theorem reduce128_apply (y : FVec Ideal S4096x128 .f32) (b : BitVec 32) (i : Fin 4096) :
    Host.reduceAdd y (constant S_ .f32 b) reducesTo_S4096x128_S4096_d1 h_S_ (ix1 i)
      = Ideal.ofBits .f32 b + ∑ k : Fin 128, y (ix2 i k) := by
  simp only [Host.reduceAdd, Ideal.hostReduceAdd_def]
  rw [Ideal.hostReduceAdd_single reducesTo_S4096x128_S4096_d1 (by decide)]
  refine congrArg₂ (· + ·) rfl (Finset.sum_congr rfl fun k _ => ?_)
  exact congrArg y (funext fun a => Fin.ext (by match a with | ⟨0, _⟩ => rfl | ⟨1, _⟩ => rfl))

/-- The sum of a 4096×4096 matrix along its rows from a constant: the constant plus the row's sum. -/
theorem reduce4096_apply (y : FVec Ideal S4096x4096 .f32) (b : BitVec 32) (i : Fin 4096) :
    Host.reduceAdd y (constant S_ .f32 b) reducesTo_S4096x4096_S4096_d1 h_S_ (ix1 i)
      = Ideal.ofBits .f32 b + ∑ k : Fin 4096, y (ix2 i k) := by
  simp only [Host.reduceAdd, Ideal.hostReduceAdd_def]
  rw [Ideal.hostReduceAdd_single reducesTo_S4096x4096_S4096_d1 (by decide)]
  refine congrArg₂ (· + ·) rfl (Finset.sum_congr rfl fun k _ => ?_)
  exact congrArg y (funext fun a => Fin.ext (by match a with | ⟨0, _⟩ => rfl | ⟨1, _⟩ => rfl))

/-- The transposed embedding at (k, j) is the embedding at (j, k). -/
theorem transpose128_apply {α : Type} (Z : S4096x128.Idx → α) (k : Fin 128) (j : Fin 4096) :
    transpose S128x4096 [1, 0] Z transposes_S4096x128_S128x4096_1_0 (ix2 k j) = Z (ix2 j k) :=
  transpose_apply [1, 0] Z transposes_S4096x128_S128x4096_1_0 (ix2 k j) (ix2 j k) (fun b => match b with
    | ⟨0, _⟩ => rfl
    | ⟨1, _⟩ => rfl)

/-- The transposed column at (u, j) is the column at (j, u). -/
theorem transpose1_apply {α : Type} (N : S4096x1.Idx → α) (u : Fin 1) (j : Fin 4096) :
    transpose S1x4096 [1, 0] N transposes_S4096x1_S1x4096_1_0 (ix2 u j) = N (ix2 j u) :=
  transpose_apply [1, 0] N transposes_S4096x1_S1x4096_1_0 (ix2 u j) (ix2 j u) (fun b => match b with
    | ⟨0, _⟩ => rfl
    | ⟨1, _⟩ => rfl)

/-- The norm of row i: the square root of zero plus the sum of the squares of the row. -/
theorem normV_apply (Z : FVec Ideal S4096x128 .f32) (i : Fin 4096) (u : Fin 1) :
    normV Z (ix2 i u) = Ideal.sqrt (0 + ∑ k : Fin 128, Z (ix2 i k) * Z (ix2 i k)) := by
  show Ideal.sqrt (broadcastInDim S4096x1 ![0] bcast_S4096_S4096x1_0
    (Host.reduceAdd (mulf Z Z) (constant S_ .f32 0x00000000#32) reducesTo_S4096x128_S4096_d1 h_S_) (ix2 i u)) = _
  rw [col_apply (by decide) bcast_S4096_S4096x1_0, reduce128_apply, Ideal.ofBits_zero_f32]
  rfl

/-- The exponential matrix at (i, j). -/
theorem expMat_apply (Z1 Z2 : FVec Ideal S4096x128 .f32) (i j : Fin 4096) :
    expMat Z1 Z2 (ix2 i j)
      = Ideal.exp (Ideal.div (Ideal.div (∑ k : Fin 128, Z1 (ix2 i k) * Z2 (ix2 j k))
          (∑ u : Fin 1, normV Z1 (ix2 i u) * normV Z2 (ix2 j u))) (Ideal.ofBits .f32 0x3F000000#32)) := by
  show Ideal.exp (Ideal.div (Ideal.div
      (Host.dotGeneral dot_S4096x128_S128x4096_S4096x4096_1_0_0_1_n_n none Z1
        (transpose S128x4096 [1, 0] Z2 transposes_S4096x128_S128x4096_1_0) (ix2 i j))
      (Host.dotGeneral dot_S4096x1_S1x4096_S4096x4096_1_0_0_1_n_n none (normV Z1)
        (transpose S1x4096 [1, 0] (normV Z2) transposes_S4096x1_S1x4096_1_0) (ix2 i j)))
      (broadcastInDim S4096x4096 ![] bcast_S_S4096x4096 (constant (F := Ideal) S_ .f32 0x3F000000#32) (ix2 i j))) = _
  rw [dot_apply dot_S4096x128_S128x4096_S4096x4096_1_0_0_1_n_n rfl,
    dot_apply dot_S4096x1_S1x4096_S4096x4096_1_0_0_1_n_n rfl, splat_apply]
  refine congrArg₂ (fun a b => Ideal.exp (Ideal.div (Ideal.div a b) (Ideal.ofBits .f32 0x3F000000#32)))
    (Finset.sum_congr rfl fun k _ => ?_) (Finset.sum_congr rfl fun u _ => ?_)
  · rw [transpose128_apply]
  · rw [transpose1_apply]

/-- A row's denominator: zero plus the row's sum, plus the small constant. -/
theorem denV_apply (E : FVec Ideal S4096x4096 .f32) (i : Fin 4096) (u : Fin 1) :
    denV E (ix2 i u) = (0 + ∑ j : Fin 4096, E (ix2 i j)) + Ideal.ofBits .f32 0x322BCC77#32 := by
  show shapeCast _ (Host.reduceAdd E (constant S_ .f32 0x00000000#32) reducesTo_S4096x4096_S4096_d1 h_S_)
      shapeCasts_S4096_S4096x1 (ix2 i u)
    + broadcastInDim S4096x1 ![] bcast_S_S4096x1 (constant (F := Ideal) S_ .f32 0x322BCC77#32) (ix2 i u) = _
  rw [splat_apply, shapeCast_apply _ shapeCasts_S4096_S4096x1 (ix2 i u) (ix1 i)
    (by rw [Shape.rowMajor_val_one, Shape.rowMajor_val_two]
        have hu : u.val < 1 := u.isLt
        show i.val = i.val * 1 + u.val
        omega),
    reduce4096_apply, Ideal.ofBits_zero_f32]
  rfl

/-- A row's logarithm of the weighted sum of its entries over its denominator. -/
theorem rowLog_apply (E C : FVec Ideal S4096x4096 .f32) (i : Fin 4096) :
    rowLog E C (ix1 i)
      = Ideal.log (0 + ∑ j : Fin 4096, Ideal.div (E (ix2 i j))
          ((0 + ∑ j' : Fin 4096, E (ix2 i j')) + Ideal.ofBits .f32 0x322BCC77#32) * C (ix2 i j)) := by
  show Ideal.log (Host.reduceAdd (mulf (Host.divf E
      (broadcastInDim S4096x4096 ![0, 1] bcast_S4096x1_S4096x4096_0_1 (denV E))) C)
      (constant S_ .f32 0x00000000#32) reducesTo_S4096x4096_S4096_d1 h_S_ (ix1 i)) = _
  rw [reduce4096_apply, Ideal.ofBits_zero_f32]
  refine congrArg (fun s => Ideal.log (0 + s)) (Finset.sum_congr rfl fun j _ => ?_)
  show Ideal.div (E (ix2 i j)) (broadcastInDim S4096x4096 ![0, 1] bcast_S4096x1_S4096x4096_0_1 (denV E) (ix2 i j))
    * C (ix2 i j) = _
  rw [colBcast_apply (by decide) bcast_S4096x1_S4096x4096_0_1, denV_apply]

/-- The total: minus, over 4096, zero plus the sum of the vector. -/
theorem total_apply (v : FVec Ideal S4096 .f32) :
    total v ix0 = - Ideal.div (0 + ∑ i : Fin 4096, v (ix1 i)) (Ideal.ofBits .f32 0x45800000#32) := by
  show - Ideal.div (Host.reduceAdd v (constant S_ .f32 0x00000000#32) reducesTo_S4096_S_d0 h_S_ ix0)
    (Ideal.ofBits .f32 0x45800000#32) = _
  have hsum : Host.reduceAdd v (constant S_ .f32 0x00000000#32) reducesTo_S4096_S_d0 h_S_ ix0
      = 0 + ∑ i : Fin 4096, v (ix1 i) := by
    simp only [Host.reduceAdd, Ideal.hostReduceAdd_def]
    rw [Ideal.hostReduceAdd_total reducesTo_S4096_S_d0 (fun b => b.elim0), sum_idx1]
    exact congrArg₂ (· + ·) Ideal.ofBits_zero_f32 rfl
  rw [hsum]

/-- On embeddings and weights that are coercions of reals, the similarity loss is minus the mean over
    the rows of the logarithm of the normalised weighted exponential sums. -/
theorem refLoss_eq (Z1 Z2 : FVec Ideal S4096x128 .f32) (C : FVec Ideal S4096x4096 .f32)
    (z1 z2 : Fin 4096 → Fin 128 → ℝ) (Cr : Fin 4096 → Fin 4096 → ℝ)
    (h1 : ∀ i k, Z1 (ix2 i k) = (z1 i k : EReal)) (h2 : ∀ j k, Z2 (ix2 j k) = (z2 j k : EReal))
    (hC : ∀ i j, C (ix2 i j) = (Cr i j : EReal)) :
    refLoss (F := Ideal) Z1 Z2 C ValueIdx.ix0 = Cert.LibLossLaw.lossR z1 z2 Cr := by
  have hn1 : ∀ i u, normV Z1 (ix2 i u) = Cert.LibLossLaw.n1 z1 i := by
    intro i u
    rw [normV_apply]
    simp only [h1]
    rfl
  have hn2 : ∀ j u, normV Z2 (ix2 j u) = Cert.LibLossLaw.n2 z2 j := by
    intro j u
    rw [normV_apply]
    simp only [h2]
    rfl
  have hE : ∀ i j, expMat Z1 Z2 (ix2 i j) = Cert.LibLossLaw.ER z1 z2 i j := by
    intro i j
    rw [expMat_apply]
    simp only [hn1, hn2, h1, h2]
    unfold Cert.LibLossLaw.ER
    rw [zero_add, zero_add]
  rw [refLoss_stages, total_apply]
  simp only [rowLog_apply, hE, hC]
  rfl

end AtIdeal

end Cert.RefLoss

end
-- ==== Proof.LibNtMatmul.lean ====
/-
  A product against a transposed right operand, read at an entry, at the extended reals.

  A kernel's `q · kᵀ` prints as a matrix product whose dimension numbers contract the LAST axis of both operands
  (rows of the left against rows of the right).  Accumulated into the zero block, its entry (a, b) is the sum over the
  shared axis of the products of the entries: the accumulator adds nothing and, on the extended reals, nothing is rounded
  and no order of the summands is left.  Generic in the three extents, the two operand formats and the precision key.
-/
import Idealize.ShloMosaic.Lib.ValueIdx
import Idealize.ShloMosaic.PureOps.Ideal.Laws

noncomputable section

open scoped BigOperators

namespace Cert.LibNtMatmul

open Idealize.ShloMosaic Idealize.ShloMosaic.ValueIdx

/-- `A · Bᵀ` of an m×k block by an n×k block into the zero block: entry `(a, b)` is `Σ_c A(a,c)·B(b,c)`. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibNtMatmul

end
-- ==== Proof.LibUnitAxes.lean ====
/-
  Three layout operations read at an index given by its coordinates, generic in the extents and the element type.
  • A shape cast that DROPS two leading unit axes, [1, 1, a, b] → [a, b], reads at (p, c) the operand at (0, 0, p, c); the
    cast that ADDS them, [a, b] → [1, 1, a, b], reads at (0, 0, p, c) the operand at (p, c): the row-major position of
    (0, 0, p, c) in [1, 1, a, b] is p·b + c, that of (p, c) in [a, b].
  • A column [a, 1] broadcast along the second axis to [a, b] reads at (p, c) the column's entry p, whatever c.
-/
import Idealize.ShloMosaic.Lib.ValueLayout

namespace Cert.LibUnitAxes

open Idealize.ShloMosaic Idealize.ShloMosaic.ValueIdx

variable {α : Type}

/-- [1, 1, a, b] cast to [a, b], at (p, c): the operand at (0, 0, p, c). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h (ix2 p c) (ix4 (0 : Fin 1) (0 : Fin 1) p c) (by
    rw [Shape.rowMajor_val_four, Shape.rowMajor_val_two]
    show (((0 * 1 + 0) * a + p.val) * b + c.val) = p.val * b + c.val
    simp only [Nat.zero_mul, Nat.zero_add])

/-- [a, b] cast to [1, 1, a, b], at (0, 0, p, c): the operand at (p, c). -/
theorem shapeCast_ab_11ab_apply {a b : ℕ} (x : (⟨2, ![a, b]⟩ : Shape).Idx → α)
    (h : (⟨2, ![a, b]⟩ : Shape).ShapeCasts ⟨4, ![1, 1, a, b]⟩) (p : Fin a) (c : Fin b) :
    shapeCast ⟨4, ![1, 1, a, b]⟩ x h (ix4 (0 : Fin 1) (0 : Fin 1) p c) = x (ix2 p c) :=
  shapeCast_apply x h (ix4 (0 : Fin 1) (0 : Fin 1) p c) (ix2 p c) (by
    rw [Shape.rowMajor_val_four, Shape.rowMajor_val_two]
    show p.val * b + c.val = (((0 * 1 + 0) * a + p.val) * b + c.val)
    simp only [Nat.zero_mul, Nat.zero_add])

/-- A column [a, 1] broadcast to [a, b], at (p, c): the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibUnitAxes
-- ==== Proof.LossIdeal.lean ====
/- The contrastive-loss region's payloads read at the exact values (floats as extended reals), index by index. The
   step payload `k2_pay2 a b cl acc`, for a block `a` of 512 normalised rows, all 4096 normalised rows `b`, the block
   `cl` of the weights and the running total `acc`, is at its one index
   `acc + Σ_r (log (Σ_j E r j + ε) − log (Σ_j E r j · cl r j))` with `E r j = exp (2 · Σ_k a r k · b j k)`
   (`loss_block`); the zero payload is 0 (`loss_zero`); so the accumulator after point `t` holds zero plus the
   bracketed sums of blocks 0 … t, and the region's value `G2_3` of the three arrays is, at its one index, zero plus the
   eight blocks' bracketed sums in order (`loss_region`). Stage by stage: the product against the transposed right
   operand into the zero block, the scaling and the exponential (`sim`); the two row sums kept as columns (`rowSum`,
   `rowWSum`); the difference of logarithms (`rowDiff`); the sum over the 512 rows through the (1,512,1) layout
   (`part`). Every `0 +` kept in the statements is a zero accumulator or a reduction's initial value. -/
import proofs.«134049_g16819091931673_cont_week2b_1393_5_alg».proof.Proof.Gen.KernelIdeal.Skeleton
import proofs.«134049_g16819091931673_cont_week2b_1393_5_alg».proof.Proof.Loss
import proofs.«134049_g16819091931673_cont_week2b_1393_5_alg».proof.Proof.LibNtMatmul
import proofs.«134049_g16819091931673_cont_week2b_1393_5_alg».proof.Proof.LibKeepdims
import proofs.«134049_g16819091931673_cont_week2b_1393_5_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.LossIdeal

open Cert.KernelIdeal Cert.KernelIdeal.Gen
open Idealize.ShloMosaic Idealize.ShloMosaic.ValueIdx

/-! ## The step's payload, stage by stage, at the exact values

A block of 512 normalised rows `a`, the 4096 normalised rows `b`, the block `cl` of the weights, and the running
total `acc`. Each stage below is the printed payload's own subterm, named; `k2_pay2_eq` says the payload is their
composition, by unfolding. -/

variable (a : FVec Ideal S512x128 .bf16) (b : FVec Ideal S4096x128 .bf16) (cl : FVec Ideal S512x4096 .f32)

/-- The similarities: `exp` of twice the products of the block's rows with all rows. -/
def sim : FVec Ideal S512x4096 .f32 :=
  exp (mulf (matmul dot_S512x128_S4096x128_S512x4096_1_1_0_0_n_n none
      (shapeCast S512x128 a shapeCasts_S512x128_S512x128) (shapeCast S4096x128 b shapeCasts_S4096x128_S4096x128)
      (constant (F := Ideal) S512x4096 .f32 0x00000000#32))
    (broadcast S512x4096 (Scalar.ofBits (F := Ideal) .f32 0x40000000#32)))

/-- Each row's sum of similarities, as a column. -/
def rowSum : FVec Ideal S512x1 .f32 :=
  shapeCast S512x1 (multiReduction (F := Ideal) .add [1] S512 (sim a b) 0x00000000#32 reduces_S512x4096_S512 (.inl rfl) rfl) shapeCasts_S512_S512x1

/-- Each row's sum of weighted similarities, as a column. -/
def rowWSum : FVec Ideal S512x1 .f32 :=
  shapeCast S512x1 (multiReduction (F := Ideal) .add [1] S512 (mulf (sim a b) cl) 0x00000000#32 reduces_S512x4096_S512 (.inl rfl) rfl) shapeCasts_S512_S512x1

/-- Each row's difference of logarithms. -/
def rowDiff : FVec Ideal S512x1 .f32 :=
  subf (log (addf (rowSum a b) (broadcast S512x1 (Scalar.ofBits (F := Ideal) .f32 0x322BCC77#32)))) (log (rowWSum a b cl))

/-- The block's part: the sum of the rows' differences. -/
def part : Ideal .f32 :=
  extractAt ![0, 0, 0]
    (shapeCast S1x1x1
      (multiReduction (F := Ideal) .add [1, 2] S1 (shapeCast S1x512x1 (rowDiff a b cl) shapeCasts_S512x1_S1x512x1) 0x00000000#32
        reduces_S1x512x1_S1 (.inl rfl) rfl)
      shapeCasts_S1_S1x1x1)
    inpos_S1x1x1_p0_0_0

/-- The step's payload is the running total plus the block's part. -/
theorem k2_pay2_eq (acc : FVec Ideal S1x1 .f32) :
    k2_pay2 (F := Ideal) a b cl acc = addf (shapeCast S1x1 acc shapeCasts_S1x1_S1x1) (broadcast S1x1 (part a b cl)) := rfl

/-! ## Each stage read at an index -/

/-- A similarity: `exp` of twice the sum over the 128 coordinates of the products. -/
theorem sim_apply (r : Fin 512) (j : Fin 4096) :
    sim a b (ix2 r j) = Ideal.exp ((∑ k : Fin 128, a (ix2 r k) * b (ix2 j k)) * Ideal.ofBits .f32 0x40000000#32) := by
  have hd : dot_S512x128_S4096x128_S512x4096_1_1_0_0_n_n = DotDims.transposedRhs 512 128 4096 := rfl
  have hm := Cert.LibNtMatmul.matmul_nt_zero_apply (m := 512) (k := 128) (n := 4096) none a b r j
  show Ideal.exp (matmul dot_S512x128_S4096x128_S512x4096_1_1_0_0_n_n none
      (shapeCast S512x128 a shapeCasts_S512x128_S512x128) (shapeCast S4096x128 b shapeCasts_S4096x128_S4096x128)
      (constant (F := Ideal) S512x4096 .f32 0x00000000#32) (ix2 r j) * Ideal.ofBits .f32 0x40000000#32) = _
  rw [shapeCast_self, shapeCast_self, hd]
  exact congrArg (fun x => Ideal.exp (x * Ideal.ofBits .f32 0x40000000#32)) hm

/-- A row's sum of similarities. -/
theorem rowSum_apply (r : Fin 512) (u : Fin 1) :
    rowSum a b (ix2 r u) = ∑ j : Fin 4096, sim a b (ix2 r j) := by
  unfold rowSum
  refine (shapeCast_a_a1_apply (a := 512) _ shapeCasts_S512_S512x1 r u).trans ?_
  exact multiReduction_add_row (a := 512) (b := 4096) (sim a b) 0x00000000#32 reduces_S512x4096_S512 (.inl rfl) rfl r

/-- A row's sum of weighted similarities. -/
theorem rowWSum_apply (r : Fin 512) (u : Fin 1) :
    rowWSum a b cl (ix2 r u) = ∑ j : Fin 4096, sim a b (ix2 r j) * cl (ix2 r j) := by
  unfold rowWSum
  refine (shapeCast_a_a1_apply (a := 512) _ shapeCasts_S512_S512x1 r u).trans ?_
  exact multiReduction_add_row (a := 512) (b := 4096) (mulf (sim a b) cl) 0x00000000#32 reduces_S512x4096_S512 (.inl rfl) rfl r

/-- A row's difference of logarithms. -/
theorem rowDiff_apply (r : Fin 512) (u : Fin 1) :
    rowDiff a b cl (ix2 r u)
      = Ideal.log (rowSum a b (ix2 r u) + Ideal.ofBits .f32 0x322BCC77#32) - Ideal.log (rowWSum a b cl (ix2 r u)) := rfl

/-! ## The sum over the block's rows -/

/-- The one entry of a (1,1,1) array, extracted at position (0,0,0). -/
theorem extract000 {α : Type} (x : S1x1x1.Idx → α) (h : ∀ d, (![0, 0, 0] : Fin 3 → Nat) d < S1x1x1.size d) :
    extractAt ![0, 0, 0] x h = x (ix3 (0 : Fin 1) (0 : Fin 1) (0 : Fin 1)) := by
  unfold extractAt
  refine congrArg x (funext fun d => Fin.ext ?_)
  match d with
  | ⟨0, _⟩ => rfl
  | ⟨1, _⟩ => rfl
  | ⟨2, _⟩ => rfl

/-- A one-entry vector cast to (1,1,1) reads its entry. -/
theorem shapeCast_1_111_apply {α : Type} (x : S1.Idx → α) (h : S1.ShapeCasts S1x1x1) :
    shapeCast S1x1x1 x h (ix3 (0 : Fin 1) (0 : Fin 1) (0 : Fin 1)) = x (ix1 (0 : Fin 1)) :=
  shapeCast_apply x h _ _ (by rw [Shape.rowMajor_val_three, Shape.rowMajor_val_one]; rfl)

/-- The indices of a (1,512,1) array are its 512 middle coordinates. -/
def mid512 : Fin 512 ≃ S1x512x1.Idx where
  toFun r := ix3 (0 : Fin 1) r (0 : Fin 1)
  invFun j := j 1
  left_inv r := rfl
  right_inv j := by
    funext d
    match d with
    | ⟨0, _⟩ => exact Fin.ext (by have h : (j 0).val < 1 := (j 0).isLt; show (0 : ℕ) = (j 0).val; omega)
    | ⟨1, _⟩ => rfl
    | ⟨2, _⟩ => exact Fin.ext (by have h : (j 2).val < 1 := (j 2).isLt; show (0 : ℕ) = (j 2).val; omega)

/-- The sum of a (1,512,1) array over its last two axes, at the exact values: the sum over the 512 middle coordinates. -/
theorem total_1x512x1 (x : FVec Ideal S1x512x1 .f32) :
    multiReduction (F := Ideal) .add [1, 2] S1 x 0x00000000#32 reduces_S1x512x1_S1 (.inl rfl) rfl (ix1 (0 : Fin 1))
      = ∑ r : Fin 512, x (ix3 (0 : Fin 1) r (0 : Fin 1)) := by
  refine (Ideal.multiReduction_add_total x 0x00000000#32 reduces_S1x512x1_S1
    (fun d => by match d with | ⟨0, _⟩ => rfl) (.inl rfl) rfl (ix1 (0 : Fin 1))).trans ?_
  exact (Equiv.sum_comp mid512 x).symm

/-- The block's part is the sum over its 512 rows of the rows' differences of logarithms. -/
theorem part_eq : part a b cl = ∑ r : Fin 512, rowDiff a b cl (ix2 r (0 : Fin 1)) := by
  unfold part
  refine (extract000 _ _).trans ((shapeCast_1_111_apply _ _).trans ((total_1x512x1 _).trans ?_))
  exact Finset.sum_congr rfl fun r _ =>
    shapeCast_ab_1ab_apply (a := 512) (b := 1) (rowDiff a b cl) shapeCasts_S512x1_S1x512x1 (0 : Fin 1) r (0 : Fin 1)

/-! ## The step and the zero payloads at the exact values -/

/-- THE BRACKETED SUM of a block: over its 512 rows, the logarithm of the row's sum of similarities plus the small
    constant, minus the logarithm of the row's weighted sum; a similarity is `exp` of twice the sum over the 128
    coordinates of the products. The `0 +` are the product's zero accumulator and each reduction's initial value. -/
def blockPart (a : FVec Ideal S512x128 .bf16) (b : FVec Ideal S4096x128 .bf16) (cl : FVec Ideal S512x4096 .f32) : EReal :=
  0 + ∑ r : Fin 512,
    (Ideal.log ((0 + ∑ j : Fin 4096, Ideal.exp ((0 + ∑ k : Fin 128, a (ix2 r k) * b (ix2 j k)) * Ideal.ofBits .f32 0x40000000#32))
        + Ideal.ofBits .f32 0x322BCC77#32)
      - Ideal.log (0 + ∑ j : Fin 4096,
          Ideal.exp ((0 + ∑ k : Fin 128, a (ix2 r k) * b (ix2 j k)) * Ideal.ofBits .f32 0x40000000#32) * cl (ix2 r j)))

/-- The step's payload at its one index: the running total plus the block's bracketed sum. -/
theorem loss_block (acc : FVec Ideal S1x1 .f32) :
    k2_pay2 (F := Ideal) a b cl acc (ix2 (0 : Fin 1) (0 : Fin 1))
      = acc (ix2 (0 : Fin 1) (0 : Fin 1))
        + (0 + ∑ r : Fin 512,
            (Ideal.log ((0 + ∑ j : Fin 4096, Ideal.exp ((0 + ∑ k : Fin 128, a (ix2 r k) * b (ix2 j k)) * Ideal.ofBits .f32 0x40000000#32))
                + Ideal.ofBits .f32 0x322BCC77#32)
              - Ideal.log (0 + ∑ j : Fin 4096,
                  Ideal.exp ((0 + ∑ k : Fin 128, a (ix2 r k) * b (ix2 j k)) * Ideal.ofBits .f32 0x40000000#32) * cl (ix2 r j)))) := by
  rw [k2_pay2_eq]
  show shapeCast S1x1 acc shapeCasts_S1x1_S1x1 (ix2 (0 : Fin 1) (0 : Fin 1)) + part a b cl = _
  rw [shapeCast_self, part_eq]
  simp only [zero_add]
  refine congrArg (acc (ix2 (0 : Fin 1) (0 : Fin 1)) + ·) (Finset.sum_congr rfl fun r _ => ?_)
  rw [rowDiff_apply, rowSum_apply, rowWSum_apply]
  simp only [sim_apply]

/-- The same, the bracket named. -/
theorem loss_block_part (acc : FVec Ideal S1x1 .f32) :
    k2_pay2 (F := Ideal) a b cl acc (ix2 (0 : Fin 1) (0 : Fin 1)) = acc (ix2 (0 : Fin 1) (0 : Fin 1)) + blockPart a b cl :=
  loss_block a b cl acc

/-- The zero payload at its one index is the extended real zero. -/
theorem loss_zero : k2_pay1 (F := Ideal) (ix2 (0 : Fin 1) (0 : Fin 1)) = 0 := by
  show Ideal.ofBits .f32 0x00000000#32 = 0
  exact Ideal.ofBits_zero_f32

/-! ## The whole region's value at the exact values -/

section Region
variable (zn1 zn2 : FVec Ideal S4096x128 .bf16) (clm : FVec Ideal S4096x4096 .f32)

/-- THE PART OF BLOCK `t`: the bracketed sum at rows `512·t … 512·t + 511` of the first and third arrays, all rows
    of the second. -/
def P (t : ℕ) (ht : t < 8) : EReal :=
  blockPart (Loss.rows128 zn1 t ht) zn2 (Loss.rows4096 clm t ht)

/-- A row block read at an index: the array at row `512·t + r`. -/
theorem rows128_apply (t : ℕ) (ht : t < 8) (r : Fin 512) (k : Fin 128) :
    Loss.rows128 zn1 t ht (ix2 r k) = zn1 (ix2 ⟨512 * t + r.val, by omega⟩ k) := rfl
theorem rows4096_apply (t : ℕ) (ht : t < 8) (r : Fin 512) (j : Fin 4096) :
    Loss.rows4096 clm t ht (ix2 r j) = clm (ix2 ⟨512 * t + r.val, by omega⟩ j) := rfl

/-- The part of block `t`, spelt out over the arrays' entries. -/
theorem P_eq (t : ℕ) (ht : t < 8) :
    P zn1 zn2 clm t ht = 0 + ∑ r : Fin 512,
      (Ideal.log ((0 + ∑ j : Fin 4096, Ideal.exp ((0 + ∑ k : Fin 128, zn1 (ix2 ⟨512 * t + r.val, by omega⟩ k) * zn2 (ix2 j k)) * Ideal.ofBits .f32 0x40000000#32))
          + Ideal.ofBits .f32 0x322BCC77#32)
        - Ideal.log (0 + ∑ j : Fin 4096,
            Ideal.exp ((0 + ∑ k : Fin 128, zn1 (ix2 ⟨512 * t + r.val, by omega⟩ k) * zn2 (ix2 j k)) * Ideal.ofBits .f32 0x40000000#32)
              * clm (ix2 ⟨512 * t + r.val, by omega⟩ j))) := rfl

/-- The fold after point `n`, at its one index: the fold after the point before plus block `n`'s part. -/
theorem acc2_succ_apply (n : ℕ) (h : n + 1 < 8) :
    Loss.acc2 (F := Ideal) zn1 zn2 clm (n + 1) h (ix2 (0 : Fin 1) (0 : Fin 1))
      = Loss.acc2 (F := Ideal) zn1 zn2 clm n (Nat.lt_of_succ_lt h) (ix2 (0 : Fin 1) (0 : Fin 1)) + P zn1 zn2 clm (n + 1) h :=
  loss_block_part (Loss.rows128 zn1 (n + 1) h) zn2 (Loss.rows4096 clm (n + 1) h) (Loss.acc2 (F := Ideal) zn1 zn2 clm n (Nat.lt_of_succ_lt h))

/-- The fold after the first point, at its one index: zero plus block 0's part. -/
theorem acc2_zero_apply (h : 0 < 8) :
    Loss.acc2 (F := Ideal) zn1 zn2 clm 0 h (ix2 (0 : Fin 1) (0 : Fin 1)) = 0 + P zn1 zn2 clm 0 h :=
  (loss_block_part (Loss.rows128 zn1 0 h) zn2 (Loss.rows4096 clm 0 h) (k2_pay1 (F := Ideal))).trans
    (congrArg (· + P zn1 zn2 clm 0 h) loss_zero)

/-- THE REGION'S VALUE: the (1,1) output, at its one index, is zero plus the eight blocks' parts in order. -/
theorem loss_region :
    Loss.G2_3 (F := Ideal) zn1 zn2 clm (ix2 (0 : Fin 1) (0 : Fin 1))
      = 0 + P zn1 zn2 clm 0 (by decide) + P zn1 zn2 clm 1 (by decide) + P zn1 zn2 clm 2 (by decide) + P zn1 zn2 clm 3 (by decide)
          + P zn1 zn2 clm 4 (by decide) + P zn1 zn2 clm 5 (by decide) + P zn1 zn2 clm 6 (by decide) + P zn1 zn2 clm 7 (by decide) := by
  unfold Loss.G2_3
  rw [acc2_succ_apply, acc2_succ_apply, acc2_succ_apply, acc2_succ_apply, acc2_succ_apply, acc2_succ_apply, acc2_succ_apply,
    acc2_zero_apply]

end Region

/-! ## The axioms used -/

/-- info: 'Cert.KernelIdeal.LossIdeal.loss_block' depends on axioms: [propext, Classical.choice, Quot.sound] -/
#guard_msgs in #print axioms loss_block
/-- info: 'Cert.KernelIdeal.LossIdeal.loss_zero' depends on axioms: [propext, Classical.choice, Quot.sound] -/
#guard_msgs in #print axioms loss_zero
/-- info: 'Cert.KernelIdeal.LossIdeal.loss_region' depends on axioms: [propext, Classical.choice, Quot.sound] -/
#guard_msgs in #print axioms loss_region

end Cert.KernelIdeal.LossIdeal

end
-- ==== Proof.LossGlue.lean ====
/- The contrastive-loss region's value joined to the blockwise loss over the reals. When the two normalised arrays are
   the rows of two real embeddings divided by their norms (the square root of the row's sum of squares from zero) and
   the weights are real, each block's bracketed sum — the accumulator's increment at that point — is that block's
   accumulated contribution `partK`, row `512·t + r` on both sides, so the region's (1,1) output at its one index,
   divided by 4096, is the blockwise loss `lossK` of the embeddings and the weights (`kloss_eq`); the law between the
   blockwise and the rowwise loss then applies to it. -/
import proofs.«134049_g16819091931673_cont_week2b_1393_5_alg».proof.Proof.Loss
import proofs.«134049_g16819091931673_cont_week2b_1393_5_alg».proof.Proof.LossIdeal
import proofs.«134049_g16819091931673_cont_week2b_1393_5_alg».proof.Proof.LibLossLaw

set_option maxRecDepth 16384

noncomputable section

open scoped BigOperators

namespace Cert.KernelIdeal.LossGlue

open Cert.KernelIdeal Cert.KernelIdeal.Gen
open Idealize.ShloMosaic Idealize.ShloMosaic.ValueIdx

section Glue
variable (Z1 Z2 : FVec Ideal S4096x128 .f32) (zn1 zn2 : FVec Ideal S4096x128 .bf16) (C : FVec Ideal S4096x4096 .f32)
  (z1 z2 : Fin 4096 → Fin 128 → ℝ) (Cr : Fin 4096 → Fin 4096 → ℝ)

/-- A normalised entry of the first array is the real entry divided by its row's norm. -/
theorem zn1_eq (hZ1 : ∀ i k, Z1 (ix2 i k) = (z1 i k : EReal))
    (hn1 : ∀ (i : Fin 4096) (k : Fin 128), zn1 (ix2 i k) = Ideal.div (Z1 (ix2 i k)) (Ideal.sqrt (0 + ∑ q : Fin 128, Z1 (ix2 i q) * Z1 (ix2 i q))))
    (i : Fin 4096) (k : Fin 128) : zn1 (ix2 i k) = Ideal.div (z1 i k : EReal) (Cert.LibLossLaw.n1 z1 i) := by
  unfold Cert.LibLossLaw.n1
  rw [hn1]
  simp only [hZ1]

/-- A normalised entry of the second array likewise. -/
theorem zn2_eq (hZ2 : ∀ j k, Z2 (ix2 j k) = (z2 j k : EReal))
    (hn2 : ∀ (j : Fin 4096) (k : Fin 128), zn2 (ix2 j k) = Ideal.div (Z2 (ix2 j k)) (Ideal.sqrt (0 + ∑ q : Fin 128, Z2 (ix2 j q) * Z2 (ix2 j q))))
    (j : Fin 4096) (k : Fin 128) : zn2 (ix2 j k) = Ideal.div (z2 j k : EReal) (Cert.LibLossLaw.n2 z2 j) := by
  unfold Cert.LibLossLaw.n2
  rw [hn2]
  simp only [hZ2]

/-- Block `t`'s bracketed sum is its accumulated contribution to the blockwise loss. -/
theorem P_eq_partK
    (hZ1 : ∀ i k, Z1 (ix2 i k) = (z1 i k : EReal)) (hZ2 : ∀ j k, Z2 (ix2 j k) = (z2 j k : EReal)) (hC : ∀ i j, C (ix2 i j) = (Cr i j : EReal))
    (hn1 : ∀ (i : Fin 4096) (k : Fin 128), zn1 (ix2 i k) = Ideal.div (Z1 (ix2 i k)) (Ideal.sqrt (0 + ∑ q : Fin 128, Z1 (ix2 i q) * Z1 (ix2 i q))))
    (hn2 : ∀ (j : Fin 4096) (k : Fin 128), zn2 (ix2 j k) = Ideal.div (Z2 (ix2 j k)) (Ideal.sqrt (0 + ∑ q : Fin 128, Z2 (ix2 j q) * Z2 (ix2 j q))))
    (t : ℕ) (ht : t < 8) :
    LossIdeal.P zn1 zn2 C t ht = Cert.LibLossLaw.partK z1 z2 Cr ⟨t, ht⟩ := by
  have e1 := zn1_eq Z1 zn1 z1 hZ1 hn1
  have e2 := zn2_eq Z2 zn2 z2 hZ2 hn2
  unfold LossIdeal.P LossIdeal.blockPart Cert.LibLossLaw.partK Cert.LibLossLaw.EK Cert.LibLossLaw.cosK
  refine congrArg (0 + ·) (Finset.sum_congr rfl fun r _ => ?_)
  simp only [LossIdeal.rows128_apply, LossIdeal.rows4096_apply, e1, e2, hC]

/-- THE REGION'S LOSS: the (1,1) output at its one index, divided by 4096, is the blockwise loss of the embeddings. -/
theorem kloss_eq
    (hZ1 : ∀ i k, Z1 (ix2 i k) = (z1 i k : EReal)) (hZ2 : ∀ j k, Z2 (ix2 j k) = (z2 j k : EReal)) (hC : ∀ i j, C (ix2 i j) = (Cr i j : EReal))
    (hn1 : ∀ (i : Fin 4096) (k : Fin 128), zn1 (ix2 i k) = Ideal.div (Z1 (ix2 i k)) (Ideal.sqrt (0 + ∑ q : Fin 128, Z1 (ix2 i q) * Z1 (ix2 i q))))
    (hn2 : ∀ (j : Fin 4096) (k : Fin 128), zn2 (ix2 j k) = Ideal.div (Z2 (ix2 j k)) (Ideal.sqrt (0 + ∑ q : Fin 128, Z2 (ix2 j q) * Z2 (ix2 j q)))) :
    Ideal.div (Loss.G2_3 (F := Ideal) zn1 zn2 C (ix2 0 0)) (Ideal.ofBits .f32 0x45800000#32) = Cert.LibLossLaw.lossK z1 z2 Cr := by
  have e := P_eq_partK Z1 Z2 zn1 zn2 C z1 z2 Cr hZ1 hZ2 hC hn1 hn2
  unfold Cert.LibLossLaw.lossK
  rw [LossIdeal.loss_region, e 0, e 1, e 2, e 3, e 4, e 5, e 6, e 7]
  rfl

end Glue

/-- info: 'Cert.KernelIdeal.LossGlue.kloss_eq' depends on axioms: [propext, Classical.choice, Quot.sound] -/
#guard_msgs in #print axioms kloss_eq

end Cert.KernelIdeal.LossGlue

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.PreFacts.lean ====
/-
  The precondition decoded.

  The claims assume that the printed predicate "all inputs finite, and every row of both towers' embeddings has a
  positive sum of squares" evaluates to 1 at its one index. The predicate is a left-nested conjunction of fifteen
  reductions by "and": thirteen of the comparison |x| < +∞ over every entry of an argument, and two of the comparison
  Σ_k z(i,k)·z(i,k) > 0 over the rows i of an embedding z = adj·(relu(adj·(x·Wa) + ba)·Wb) + bb, which the predicate
  computes itself. On the extended reals the first kind says every entry is a real number and the second is the strict
  order 0 < 0 + Σ_k z(i,k)·z(i,k). The conjunction is taken apart one printed part at a time, each part stated over
  variables for the values it receives, so that no step sees more than twenty-four operations. The two embeddings are
  named (preZ1, preZ2) and shown to be, term for term, the reference program's first and second results.
-/
import proofs.«134049_g16819091931673_cont_week2b_1393_5_alg».proof.Proof.Gen.Pre_finite_inputs
import proofs.«134049_g16819091931673_cont_week2b_1393_5_alg».proof.Proof.Gen.ReferenceIdeal
import proofs.«134049_g16819091931673_cont_week2b_1393_5_alg».proof.Proof.LibFiniteInputs
import proofs.«134049_g16819091931673_cont_week2b_1393_5_alg».proof.Proof.LibRealClosed
import Idealize.ShloMosaic.Lib.ReduceAll
import Idealize.ShloMosaic.Lib.ValueIdx
import Idealize.ShloMosaic.PureOps.Ideal.Laws

noncomputable section

open scoped BigOperators

namespace Cert.PreFacts

open Idealize.ShloMosaic Idealize.ShloMosaic.ValueIdx Cert.LibRealClosed
open Cert.Pre_finite_inputs Cert.Pre_finite_inputs.Facts

/-- The first tower's embedding as the predicate computes it: adj1·(relu(adj1·(x1·W11) + b11)·W12) + b12. -/
def preZ1 (a0 : FVec Ideal S4096x256 .f32) (a1 : FVec Ideal S4096x4096 .f32) (a5 : FVec Ideal S256x256 .f32)
    (a6 : FVec Ideal S256 .f32) (a7 : FVec Ideal S256x128 .f32) (a8 : FVec Ideal S128 .f32) : FVec Ideal S4096x128 .f32 :=
  addf (Host.dotGeneral dot_S4096x4096_S4096x128_S4096x128_1_0_0_1_n_n none a1
      (Host.dotGeneral dot_S4096x256_S256x128_S4096x128_1_0_0_1_n_n none
        (maximumf (addf (Host.dotGeneral dot_S4096x4096_S4096x256_S4096x256_1_0_0_1_n_n none a1
              (Host.dotGeneral dot_S4096x256_S256x256_S4096x256_1_0_0_1_n_n none a0 a5))
            (broadcastInDim S4096x256 ![0, 1] bcast_S1x256_S4096x256_0_1 (broadcastInDim S1x256 ![1] bcast_S256_S1x256_1 a6)))
          (broadcastInDim S4096x256 ![] bcast_S_S4096x256 (constant S_ .f32 0x00000000#32)))
        a7))
    (broadcastInDim S4096x128 ![0, 1] bcast_S1x128_S4096x128_0_1 (broadcastInDim S1x128 ![1] bcast_S128_S1x128_1 a8))

/-- The second tower's embedding as the predicate computes it: the same composition over the second tower's arguments. -/
def preZ2 (a2 : FVec Ideal S4096x256 .f32) (a3 : FVec Ideal S4096x4096 .f32) (a9 : FVec Ideal S256x256 .f32)
    (a10 : FVec Ideal S256 .f32) (a11 : FVec Ideal S256x128 .f32) (a12 : FVec Ideal S128 .f32) : FVec Ideal S4096x128 .f32 :=
  preZ1 a2 a3 a9 a10 a11 a12

/-- A conjunction of two one-bit scalars that is 1 has both conjuncts 1. -/
theorem and1 {a b : IVec S_ 1} (h : andi a b ix0 = 1#1) : a ix0 = 1#1 ∧ b ix0 = 1#1 :=
  IntOp.andi_eq_one.1 h

/-- The sum over the second axis of a 4096×128 array from the zero word, read at row i: 0 + Σ_k Y(i,k). -/
theorem rowsum_read (Y : FVec Ideal S4096x128 .f32) (i : Fin 4096) :
    Host.reduceAdd Y (constant S_ .f32 0x00000000#32) reducesTo_S4096x128_S4096_d1 h_S_ (ix1 i)
      = (0 : EReal) + ∑ k : Fin 128, Y (ix2 i k) := by
  simp only [Host.reduceAdd, Ideal.hostReduceAdd_def]
  rw [Ideal.hostReduceAdd_single reducesTo_S4096x128_S4096_d1 (by decide)]
  refine congrArg₂ (· + ·) Ideal.ofBits_zero_f32 (Finset.sum_congr rfl fun k _ => ?_)
  exact congrArg Y (funext fun a => Fin.ext (by match a with | ⟨0, _⟩ => rfl | ⟨1, _⟩ => rfl))

/-- all(Σ_k Z(·,k)·Z(·,k) > 0), as printed, gives at every row i the strict order 0 < 0 + Σ_k Z(i,k)·Z(i,k). -/
theorem rowsum_pos (Z : FVec Ideal S4096x128 .f32)
    (h : Host.reduce IntOp.andi
          (cmpf .ogt (Host.reduceAdd (mulf Z Z) (constant S_ .f32 0x00000000#32) reducesTo_S4096x128_S4096_d1 h_S_)
            (broadcastInDim S4096 ![] bcast_S_S4096 (constant S_ .f32 0x00000000#32)))
          (constantI S_ 1 1#1) reducesTo_S4096_S_d0 h_S_ ix0 = 1#1) (i : Fin 4096) :
    (0 : EReal) < 0 + ∑ k : Fin 128, Z (ix2 i k) * Z (ix2 i k) := by
  have e := Host.reduce_andi_all _ _ reducesTo_S4096_S_d0 h_S_ ix0 h (ix1 i)
  have e' : Ideal.cmp .ogt
      (Host.reduceAdd (mulf Z Z) (constant S_ .f32 0x00000000#32) reducesTo_S4096x128_S4096_d1 h_S_ (ix1 i))
      (Ideal.ofBits .f32 0x00000000#32) = 1#1 := e
  rw [rowsum_read, Ideal.ofBits_zero_f32] at e'
  have hm : ∀ k : Fin 128, mulf Z Z (ix2 i k) = Z (ix2 i k) * Z (ix2 i k) := fun _ => rfl
  simp only [hm] at e'
  simp only [Ideal.cmp] at e'
  by_contra hc
  rw [decide_eq_false hc] at e'
  exact absurd e' (by decide)

/-- Every row of Z has a positive sum of squares, as the strict order on the extended reals. -/
abbrev RowsPos (Z : FVec Ideal S4096x128 .f32) : Prop :=
  ∀ i : Fin 4096, (0 : EReal) < 0 + ∑ k : Fin 128, Z (ix2 i k) * Z (ix2 i k)

/-- all(|x| < +∞), as printed, says every entry of x is a real number. -/
theorem real {S : Shape} {axes : List (Fin S.rank)} (x : FVec Ideal S .f32)
    {hb : S_.BroadcastsInDim S (![] : Fin 0 → Fin S.rank)} {hr : S.ReducesTo axes S_} {hu : 0 < S_.numel}
    (h : Host.reduce IntOp.andi
          (cmpf .olt (Host.absf x) (broadcastInDim S ![] hb (constant S_ .f32 0x7F800000#32)))
          (constantI S_ 1 1#1) hr hu ix0 = 1#1) : AllReal x :=
  Cert.LibFiniteInputs.real_of_all_finite x hb hr hu h

/-- The last part of the predicate: the conjunction so far, the first embedding's rows (whose sums and zero word the
    part receives) and the second embedding's rows. -/
theorem part5_split (v23 : FVec Ideal S4096x128 .f32) (v87 : IVec S_ 1) (v89 : FVec Ideal S4096 .f32)
    (c27 : FVec Ideal S_ .f32) (h : fn_part5 (F := Ideal) v23 v87 v89 c27 ix0 = 1#1) :
    v87 ix0 = 1#1
    ∧ Host.reduce IntOp.andi (cmpf .ogt v89 (broadcastInDim S4096 ![] bcast_S_S4096 c27))
        (constantI S_ 1 1#1) reducesTo_S4096_S_d0 h_S_ ix0 = 1#1
    ∧ RowsPos v23 := by
  unfold fn_part5 at h
  obtain ⟨h93, h98⟩ := and1 h
  obtain ⟨h87, h92⟩ := and1 h93
  exact ⟨h87, h92, rowsum_pos v23 h98⟩

/-- The fourth part: the conjunction so far, the second tower's first bias (whose absolute value the part receives),
    its second weight and bias, and both embeddings' rows. -/
theorem part4_split (a11 : FVec Ideal S256x128 .f32) (a12 : FVec Ideal S128 .f32) (v11 v23 : FVec Ideal S4096x128 .f32)
    (v72 : IVec S_ 1) (v73 : FVec Ideal S256 .f32)
    (h : fn_part4 (F := Ideal) a11 a12 v11 v23 v72 v73 ix0 = 1#1) :
    v72 ix0 = 1#1
    ∧ Host.reduce IntOp.andi (cmpf .olt v73 (broadcastInDim S256 ![] bcast_S_S256 (constant S_ .f32 0x7F800000#32)))
        (constantI S_ 1 1#1) reducesTo_S256_S_d0 h_S_ ix0 = 1#1
    ∧ AllReal a11 ∧ AllReal a12 ∧ RowsPos v11 ∧ RowsPos v23 := by
  unfold fn_part4 at h
  obtain ⟨h87, h92, z2⟩ := part5_split _ _ _ _ h
  obtain ⟨h82, h86⟩ := and1 h87
  obtain ⟨h77, h81⟩ := and1 h82
  obtain ⟨h72, h76⟩ := and1 h77
  exact ⟨h72, h76, real a11 h81, real a12 h86, rowsum_pos v11 h92, z2⟩

/-- The third part: the conjunction so far, the first tower's first bias (whose comparison the part receives), and the
    arguments from the first tower's second weight on. -/
theorem part3_split (a7 : FVec Ideal S256x128 .f32) (a8 : FVec Ideal S128 .f32) (a9 : FVec Ideal S256x256 .f32) (a10 : FVec Ideal S256 .f32) (a11 : FVec Ideal S256x128 .f32) (a12 : FVec Ideal S128 .f32)
    (v11 v23 : FVec Ideal S4096x128 .f32) (v52 : IVec S_ 1) (v55 : IVec S256 1) (c13 : IVec S_ 1)
    (h : fn_part3 (F := Ideal) a7 a8 a9 a10 a11 a12 v11 v23 v52 v55 c13 ix0 = 1#1) :
    v52 ix0 = 1#1
    ∧ Host.reduce IntOp.andi v55 c13 reducesTo_S256_S_d0 h_S_ ix0 = 1#1
    ∧ AllReal a7 ∧ AllReal a8 ∧ AllReal a9 ∧ AllReal a10 ∧ AllReal a11 ∧ AllReal a12 ∧ RowsPos v11 ∧ RowsPos v23 := by
  unfold fn_part3 at h
  obtain ⟨h72, h76, r11, r12, z1, z2⟩ := part4_split _ _ _ _ _ _ h
  obtain ⟨h67, h71⟩ := and1 h72
  obtain ⟨h62, h66⟩ := and1 h67
  obtain ⟨h57, h61⟩ := and1 h62
  obtain ⟨h52, h56⟩ := and1 h57
  exact ⟨h52, h56, real a7 h61, real a8 h66, real a9 h71, real a10 h76, r11, r12, z1, z2⟩

/-- The second part: the conjunction so far, the second adjacency (whose absolute value and bound the part receives),
    and the arguments from the mask on. -/
theorem part2_split (a4 : FVec Ideal S4096x4096 .f32) (a5 : FVec Ideal S256x256 .f32) (a6 : FVec Ideal S256 .f32) (a7 : FVec Ideal S256x128 .f32) (a8 : FVec Ideal S128 .f32) (a9 : FVec Ideal S256x256 .f32) (a10 : FVec Ideal S256 .f32) (a11 : FVec Ideal S256x128 .f32) (a12 : FVec Ideal S128 .f32)
    (v11 v23 : FVec Ideal S4096x128 .f32) (v37 : IVec S_ 1) (v38 : FVec Ideal S4096x4096 .f32) (c6 : FVec Ideal S_ .f32)
    (h : fn_part2 (F := Ideal) a4 a5 a6 a7 a8 a9 a10 a11 a12 v11 v23 v37 v38 c6 ix0 = 1#1) :
    v37 ix0 = 1#1
    ∧ Host.reduce IntOp.andi (cmpf .olt v38 (broadcastInDim S4096x4096 ![] bcast_S_S4096x4096 c6))
        (constantI S_ 1 1#1) reducesTo_S4096x4096_S_d0_1 h_S_ ix0 = 1#1
    ∧ AllReal a4 ∧ AllReal a5 ∧ AllReal a6 ∧ AllReal a7 ∧ AllReal a8 ∧ AllReal a9 ∧ AllReal a10 ∧ AllReal a11 ∧ AllReal a12 ∧ RowsPos v11 ∧ RowsPos v23 := by
  unfold fn_part2 at h
  obtain ⟨h52, h56, r7, r8, r9, r10, r11, r12, z1, z2⟩ := part3_split _ _ _ _ _ _ _ _ _ _ _ h
  obtain ⟨h47, h51⟩ := and1 h52
  obtain ⟨h42, h46⟩ := and1 h47
  obtain ⟨h37, h41⟩ := and1 h42
  exact ⟨h37, h41, real a4 h46, real a5 h51, real a6 h56, r7, r8, r9, r10, r11, r12, z1, z2⟩

/-- The first part: every argument, the first embedding's rows, and the rows of the second embedding, which the part
    completes by adding its bias row. -/
theorem part1_split (a0 : FVec Ideal S4096x256 .f32) (a1 : FVec Ideal S4096x4096 .f32) (a2 : FVec Ideal S4096x256 .f32) (a3 : FVec Ideal S4096x4096 .f32) (a4 : FVec Ideal S4096x4096 .f32) (a5 : FVec Ideal S256x256 .f32) (a6 : FVec Ideal S256 .f32) (a7 : FVec Ideal S256x128 .f32) (a8 : FVec Ideal S128 .f32) (a9 : FVec Ideal S256x256 .f32) (a10 : FVec Ideal S256 .f32) (a11 : FVec Ideal S256x128 .f32) (a12 : FVec Ideal S128 .f32)
    (v11 v20 : FVec Ideal S4096x128 .f32) (v21 : FVec Ideal S1x128 .f32)
    (h : fn_part1 (F := Ideal) a0 a1 a2 a3 a4 a5 a6 a7 a8 a9 a10 a11 a12 v11 v20 v21 ix0 = 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ RowsPos v11
    ∧ RowsPos (addf v20 (broadcastInDim S4096x128 ![0, 1] bcast_S1x128_S4096x128_0_1 v21)) := by
  unfold fn_part1 at h
  obtain ⟨h37, h41, r4, r5, r6, r7, r8, r9, r10, r11, r12, z1, z2⟩ := part2_split _ _ _ _ _ _ _ _ _ _ _ _ _ _ h
  obtain ⟨h32, h36⟩ := and1 h37
  obtain ⟨h27, h31⟩ := and1 h32
  exact ⟨real a0 h27, real a1 h31, real a2 h36, real a3 h41, r4, r5, r6, r7, r8, r9, r10, r11, r12, z1, z2⟩

/-- The precondition decoded: every argument is an array of real numbers, and every row of either tower's embedding
    has a positive sum of squares. -/
theorem pre_facts (a0 : FVec Ideal S4096x256 .f32) (a1 : FVec Ideal S4096x4096 .f32) (a2 : FVec Ideal S4096x256 .f32) (a3 : FVec Ideal S4096x4096 .f32) (a4 : FVec Ideal S4096x4096 .f32) (a5 : FVec Ideal S256x256 .f32) (a6 : FVec Ideal S256 .f32) (a7 : FVec Ideal S256x128 .f32) (a8 : FVec Ideal S128 .f32) (a9 : FVec Ideal S256x256 .f32) (a10 : FVec Ideal S256 .f32) (a11 : FVec Ideal S256x128 .f32) (a12 : FVec Ideal S128 .f32)
    (h : Cert.Pre_finite_inputs.fn (F := Ideal) a0 a1 a2 a3 a4 a5 a6 a7 a8 a9 a10 a11 a12 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12
    ∧ (∀ i : Fin 4096, (0 : EReal) < 0 + ∑ k : Fin 128, preZ1 a0 a1 a5 a6 a7 a8 (ix2 i k) * preZ1 a0 a1 a5 a6 a7 a8 (ix2 i k))
    ∧ (∀ i : Fin 4096, (0 : EReal) < 0 + ∑ k : Fin 128, preZ2 a2 a3 a9 a10 a11 a12 (ix2 i k) * preZ2 a2 a3 a9 a10 a11 a12 (ix2 i k)) := by
  have h0 := congrFun h ix0
  unfold Cert.Pre_finite_inputs.fn at h0
  obtain ⟨r0, r1, r2, r3, r4, r5, r6, r7, r8, r9, r10, r11, r12, z1, z2⟩ :=
    part1_split _ _ _ _ _ _ _ _ _ _ _ _ _ _ _ _ h0
  exact ⟨r0, r1, r2, r3, r4, r5, r6, r7, r8, r9, r10, r11, r12, z1, z2⟩

end Cert.PreFacts

/-! The same two embeddings are the reference program's first and second results: its run states them as this
    composition over its own dimension records and broadcast facts, which have the same bodies. -/

namespace Cert.PreFacts

open Idealize.ShloMosaic Cert.ReferenceIdeal Cert.ReferenceIdeal.Gen

/-- The first tower's embedding is the reference's first result, term for term. -/
theorem preZ1_eq_ref (a0 : FVec Ideal S4096x256 .f32) (a1 : FVec Ideal S4096x4096 .f32) (a5 : FVec Ideal S256x256 .f32)
    (a6 : FVec Ideal S256 .f32) (a7 : FVec Ideal S256x128 .f32) (a8 : FVec Ideal S128 .f32) :
    preZ1 a0 a1 a5 a6 a7 a8 =
      addf (Host.dotGeneral dot_S4096x4096_S4096x128_S4096x128_1_0_0_1_n_n none a1 (Host.dotGeneral dot_S4096x256_S256x128_S4096x128_1_0_0_1_n_n none (maximumf (addf (Host.dotGeneral dot_S4096x4096_S4096x256_S4096x256_1_0_0_1_n_n none a1 (Host.dotGeneral dot_S4096x256_S256x256_S4096x256_1_0_0_1_n_n none a0 a5)) (broadcastInDim S4096x256 ![0, 1] bcast_S1x256_S4096x256_0_1 (broadcastInDim S1x256 ![1] bcast_S256_S1x256_1 a6))) (broadcastInDim S4096x256 ![] bcast_S_S4096x256 (constant S_ .f32 0x00000000#32))) a7)) (broadcastInDim S4096x128 ![0, 1] bcast_S1x128_S4096x128_0_1 (broadcastInDim S1x128 ![1] bcast_S128_S1x128_1 a8)) :=
  rfl

/-- The second tower's embedding is the reference's second result, term for term. -/
theorem preZ2_eq_ref (a2 : FVec Ideal S4096x256 .f32) (a3 : FVec Ideal S4096x4096 .f32) (a9 : FVec Ideal S256x256 .f32)
    (a10 : FVec Ideal S256 .f32) (a11 : FVec Ideal S256x128 .f32) (a12 : FVec Ideal S128 .f32) :
    preZ2 a2 a3 a9 a10 a11 a12 =
      addf (Host.dotGeneral dot_S4096x4096_S4096x128_S4096x128_1_0_0_1_n_n none a3 (Host.dotGeneral dot_S4096x256_S256x128_S4096x128_1_0_0_1_n_n none (maximumf (addf (Host.dotGeneral dot_S4096x4096_S4096x256_S4096x256_1_0_0_1_n_n none a3 (Host.dotGeneral dot_S4096x256_S256x256_S4096x256_1_0_0_1_n_n none a2 a9)) (broadcastInDim S4096x256 ![0, 1] bcast_S1x256_S4096x256_0_1 (broadcastInDim S1x256 ![1] bcast_S256_S1x256_1 a10))) (broadcastInDim S4096x256 ![] bcast_S_S4096x256 (constant S_ .f32 0x00000000#32))) a11)) (broadcastInDim S4096x128 ![0, 1] bcast_S1x128_S4096x128_0_1 (broadcastInDim S1x128 ![1] bcast_S128_S1x128_1 a12)) :=
  rfl

end Cert.PreFacts

end
-- ==== Proof.Join.lean ====
/-
  The two programs' results joined. On a device, with the argument arrays a₀ … a₁₂ finite and no embedding row zero:
  the kernel's first two results are its two towers' embeddings in the kernel's association, which on real entries is
  the reference's composition; the third is the accumulated row differences of logarithms over normalized rows, which
  by the loss law is the reference's negated mean of logarithms of quotients.
-/
import proofs.«134049_g16819091931673_cont_week2b_1393_5_alg».proof.Defs
import proofs.«134049_g16819091931673_cont_week2b_1393_5_alg».proof.Proof.KVal
import proofs.«134049_g16819091931673_cont_week2b_1393_5_alg».proof.Proof.ZGlue
import proofs.«134049_g16819091931673_cont_week2b_1393_5_alg».proof.Proof.OutEnds
import proofs.«134049_g16819091931673_cont_week2b_1393_5_alg».proof.Proof.RealRows
import proofs.«134049_g16819091931673_cont_week2b_1393_5_alg».proof.Proof.RefLoss
import proofs.«134049_g16819091931673_cont_week2b_1393_5_alg».proof.Proof.LossGlue
import proofs.«134049_g16819091931673_cont_week2b_1393_5_alg».proof.Proof.PreFacts

set_option maxRecDepth 16384

noncomputable section

namespace Cert.Join

open Idealize.ShloMosaic Idealize.ShloMosaic.ValueIdx Idealize.ShloMosaic.TcCoe Idealize.SL.Sem
open Cert.LibRealClosed Cert.KernelIdeal Cert.KernelIdeal.Gen Cert.KernelIdeal.KRun Cert.KernelIdeal.KVal

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The argument arrays on the device. -/
abbrev a0 := m ((c.tc : Thread Cert.KernelIdeal.nD Cert.KernelIdeal.τ).loc Cert.KernelIdeal.main_arg0)
abbrev a1 := m ((c.tc : Thread Cert.KernelIdeal.nD Cert.KernelIdeal.τ).loc Cert.KernelIdeal.main_arg1)
abbrev a2 := m ((c.tc : Thread Cert.KernelIdeal.nD Cert.KernelIdeal.τ).loc Cert.KernelIdeal.main_arg2)
abbrev a3 := m ((c.tc : Thread Cert.KernelIdeal.nD Cert.KernelIdeal.τ).loc Cert.KernelIdeal.main_arg3)
abbrev a4 := m ((c.tc : Thread Cert.KernelIdeal.nD Cert.KernelIdeal.τ).loc Cert.KernelIdeal.main_arg4)
abbrev a5 := m ((c.tc : Thread Cert.KernelIdeal.nD Cert.KernelIdeal.τ).loc Cert.KernelIdeal.main_arg5)
abbrev a6 := m ((c.tc : Thread Cert.KernelIdeal.nD Cert.KernelIdeal.τ).loc Cert.KernelIdeal.main_arg6)
abbrev a7 := m ((c.tc : Thread Cert.KernelIdeal.nD Cert.KernelIdeal.τ).loc Cert.KernelIdeal.main_arg7)
abbrev a8 := m ((c.tc : Thread Cert.KernelIdeal.nD Cert.KernelIdeal.τ).loc Cert.KernelIdeal.main_arg8)
abbrev a9 := m ((c.tc : Thread Cert.KernelIdeal.nD Cert.KernelIdeal.τ).loc Cert.KernelIdeal.main_arg9)
abbrev a10 := m ((c.tc : Thread Cert.KernelIdeal.nD Cert.KernelIdeal.τ).loc Cert.KernelIdeal.main_arg10)
abbrev a11 := m ((c.tc : Thread Cert.KernelIdeal.nD Cert.KernelIdeal.τ).loc Cert.KernelIdeal.main_arg11)
abbrev a12 := m ((c.tc : Thread Cert.KernelIdeal.nD Cert.KernelIdeal.τ).loc Cert.KernelIdeal.main_arg12)

/-- The first tower's embedding as the reference composes it, of the kernel memory's arguments. -/
abbrev Z1 : FVec Ideal S4096x128 .f32 := Cert.ZEq.gcnR (a1 m c) (a0 m c) (a5 m c) (a6 m c) (a7 m c) (a8 m c)
/-- The second tower's. -/
abbrev Z2 : FVec Ideal S4096x128 .f32 := Cert.ZEq.gcnR (a3 m c) (a2 m c) (a9 m c) (a10 m c) (a11 m c) (a12 m c)

/-- The kernel's first result is the first tower's embedding. -/
theorem z1_join (hpre : Cert.Pre_KernelIdeal m) : Wend m ρ c (Proc.devRef .tc main_v11_0) = Z1 m c := by
  have hf := Cert.PreFacts.pre_facts _ _ _ _ _ _ _ _ _ _ _ _ _ (hpre c)
  refine (z1_eq m ρ c).trans ?_
  unfold s21 b12row
  exact Cert.KernelIdeal.ZGlue.z1_ref _ _ _ _ _ _ hf.2.1 hf.1 hf.2.2.2.2.2.1
/-- The second result is the second tower's. -/
theorem z2_join (hpre : Cert.Pre_KernelIdeal m) : Wend m ρ c (Proc.devRef .tc main_v11_1) = Z2 m c := by
  have hf := Cert.PreFacts.pre_facts _ _ _ _ _ _ _ _ _ _ _ _ _ (hpre c)
  refine (z2_eq m ρ c).trans ?_
  unfold s22 b22row
  exact Cert.KernelIdeal.ZGlue.z2_ref _ _ _ _ _ _ hf.2.2.2.1 hf.2.2.1 hf.2.2.2.2.2.2.2.2.2.1

/-- The second region's embedding of the first tower, as a whole-array function of the kernel's own operands, is the
    first tower's embedding. -/
theorem layer1_eq (hpre : Cert.Pre_KernelIdeal m) :
    Cert.KernelIdeal.OutIdeal.layer (a1 m c) (s21 m c) (b12row m c) = Z1 m c :=
  (Cert.KernelIdeal.OutIdeal.G1_6_ideal (a1 m c) (s21 m c) (b12row m c)).symm.trans (by
    have hf := Cert.PreFacts.pre_facts _ _ _ _ _ _ _ _ _ _ _ _ _ (hpre c)
    unfold s21 b12row
    exact Cert.KernelIdeal.ZGlue.z1_ref _ _ _ _ _ _ hf.2.1 hf.1 hf.2.2.2.2.2.1)
theorem layer2_eq (hpre : Cert.Pre_KernelIdeal m) :
    Cert.KernelIdeal.OutIdeal.layer (a3 m c) (s22 m c) (b22row m c) = Z2 m c :=
  (Cert.KernelIdeal.OutIdeal.G1_7_ideal (a3 m c) (s22 m c) (b22row m c)).symm.trans (by
    have hf := Cert.PreFacts.pre_facts _ _ _ _ _ _ _ _ _ _ _ _ _ (hpre c)
    unfold s22 b22row
    exact Cert.KernelIdeal.ZGlue.z2_ref _ _ _ _ _ _ hf.2.2.2.1 hf.2.2.1 hf.2.2.2.2.2.2.2.2.2.1)

/-- The kernel's third result is the reference's loss of the two embeddings and the weights. -/
theorem loss_join (hpre : Cert.Pre_KernelIdeal m) :
    Wend m ρ c (Proc.devRef .tc main_v15) = Cert.RefLoss.refLoss (F := Ideal) (Z1 m c) (Z2 m c) (a4 m c) := by
  obtain ⟨h0, h1, h2, h3, h4, h5, h6, h7, h8, h9, h10, h11, h12, hp1, hp2⟩ := Cert.PreFacts.pre_facts _ _ _ _ _ _ _ _ _ _ _ _ _ (hpre c)
  have hZ1r : AllReal (Z1 m c) := Cert.KernelIdeal.ZGlue.gcnR_real _ _ _ _ _ _ h1 h0 h5 h6 h7 h8
  have hZ2r : AllReal (Z2 m c) := Cert.KernelIdeal.ZGlue.gcnR_real _ _ _ _ _ _ h3 h2 h9 h10 h11 h12
  obtain ⟨z1, hz1⟩ := Cert.RealRows.reals_of (Z1 m c) hZ1r
  obtain ⟨z2, hz2⟩ := Cert.RealRows.reals_of (Z2 m c) hZ2r
  obtain ⟨Cr, hCr⟩ := Cert.RealRows.reals_of (φ := .f32) (a4 m c) h4
  have hq1 : ∀ i, 0 < ∑ k, z1 i k * z1 i k := Cert.RealRows.rows_pos (Z1 m c) z1 hz1 hp1
  have hq2 : ∀ i, 0 < ∑ k, z2 i k * z2 i k := Cert.RealRows.rows_pos (Z2 m c) z2 hz2 hp2
  have hn1 : ∀ (i : Fin 4096) (k : Fin 128), Out.G1_8 (F := Ideal) (a1 m c) (s21 m c) (b12row m c) (ix2 i k)
      = Ideal.div (Z1 m c (ix2 i k)) (Ideal.sqrt (0 + ∑ q : Fin 128, Z1 m c (ix2 i q) * Z1 m c (ix2 i q))) := fun i k => by
    rw [Cert.KernelIdeal.OutIdeal.zn1_at, layer1_eq m c hpre]
  have hn2 : ∀ (j : Fin 4096) (k : Fin 128), Out.G1_9 (F := Ideal) (a3 m c) (s22 m c) (b22row m c) (ix2 j k)
      = Ideal.div (Z2 m c (ix2 j k)) (Ideal.sqrt (0 + ∑ q : Fin 128, Z2 m c (ix2 j q) * Z2 m c (ix2 j q))) := fun j k => by
    rw [Cert.KernelIdeal.OutIdeal.zn2_at, layer2_eq m c hpre]
  funext i
  obtain rfl : i = ValueIdx.ix0 := @Subsingleton.elim Cert.KernelIdeal.S_.Idx _ i ValueIdx.ix0
  rw [loss_eq m ρ c, Cert.KernelIdeal.OutIdeal.scalar_div,
    Cert.KernelIdeal.LossGlue.kloss_eq (Z1 m c) (Z2 m c) _ _ (a4 m c) z1 z2 Cr hz1 hz2 hCr hn1 hn2,
    Cert.LibLossLaw.loss_law z1 z2 Cr hq1 hq2]
  exact (Cert.RefLoss.refLoss_eq (Z1 m c) (Z2 m c) (a4 m c) z1 z2 Cr hz1 hz2 hCr).symm

end Cert.Join

end
-- ==== Proof.lean ====
/-
  The certificate of a two-tower graph convolution with a contrastive similarity loss, computed by three tiled kernels
  (hidden layer; embeddings and their normalized rows; the loss accumulated over row blocks), against its plain
  reference.

  FRAMES. The program as printed and its idealization are the same text; each is run as a chain of host stretches and
  three kernel regions (Proof/Chain.lean), the regions' proof data and body obligations being Proof/Mid.lean,
  Proof/Out.lean and Proof/Loss.lean (their word-level copies carry the suffix B). The reference is host operations
  only; its frame is its generated run with the results dropped.

  VALUES. At the ideal instance both programs' embeddings are adj·(relu(adj·(x·W₁) + b₁)·W₂) + b₂ — the kernel forms
  (adj·x)·W₁, equal on real entries (Proof/ZEq.lean) — and both losses are
  −(1/N) Σ_i log( Σ_j e_ij·c_ij / (Σ_j e_ij + ε) ), e_ij = exp(2 ⟨z¹_i, z²_j⟩ / (‖z¹_i‖ ‖z²_j‖)):
  the kernel normalizes the rows first and subtracts two logarithms row by row, the reference divides the Gram matrix by
  the outer product of the norms and takes one logarithm of a quotient (Proof/LibSimLoss.lean, Proof/LibLossLaw.lean).
  The precondition keeps every input finite and every embedding row nonzero; the latter is where the reference's
  quotient of a zero dot product by a zero norm product would be undefined.
-/
import proofs.«134049_g16819091931673_cont_week2b_1393_5_alg».proof.Defs
import proofs.«134049_g16819091931673_cont_week2b_1393_5_alg».proof.Proof.Gen.Kernel
import proofs.«134049_g16819091931673_cont_week2b_1393_5_alg».proof.Proof.Gen.KernelIdeal
import proofs.«134049_g16819091931673_cont_week2b_1393_5_alg».proof.Proof.Gen.ReferenceIdeal
import proofs.«134049_g16819091931673_cont_week2b_1393_5_alg».proof.Proof.Gen.Pre_finite_inputs
import proofs.«134049_g16819091931673_cont_week2b_1393_5_alg».proof.Proof.Gen.ReferenceIdeal.Run
import proofs.«134049_g16819091931673_cont_week2b_1393_5_alg».proof.Proof.KRun
import proofs.«134049_g16819091931673_cont_week2b_1393_5_alg».proof.Proof.KRunB
import proofs.«134049_g16819091931673_cont_week2b_1393_5_alg».proof.Proof.Join
import Idealize.ShloMosaic.Adequacy
import Idealize.ShloMosaic.Init

noncomputable section

namespace Cert.Proof

open Idealize.ShloMosaic Idealize.SL.Sem

/-- The program as printed runs and leaves its arguments as launched. -/
theorem frame_k : Cert.frame_Kernel := fun m ρ _ => Cert.Kernel.KRun.frame (F := Bits) m ρ
/-- So does its idealization. -/
theorem frame_ki : Cert.frame_KernelIdeal := fun m ρ _ => Cert.KernelIdeal.KRun.frame (F := Ideal) m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- No operation of the program is rewritten by the idealization: nothing to preserve. -/
theorem preserves : Cert.preserves_Kernel_KernelIdeal := trivial

open Cert.KernelIdeal.Chain Cert.KernelIdeal.KRun in
/-- At the ideal instance, from memories agreeing on the arguments, both programs run and end with equal results:
    the kernel's are read off its run's last boundary (`Wend`), and the reference's run ends at its composed terms,
    which are those values (Proof/Join.lean). -/
theorem algebraic : Cert.algebraic_KernelIdeal_ReferenceIdeal := by
  intro m ρ m' ρ' hpre hagree
  refine ⟨fun c => Wend m ρ c (Proc.devRef .tc Cert.KernelIdeal.main_v11_0), fun c => Wend m ρ c (Proc.devRef .tc Cert.KernelIdeal.main_v11_1),
    fun c => Wend m ρ c (Proc.devRef .tc Cert.KernelIdeal.main_v15), ?_, ?_⟩
  · exact (θ_run Cert.KernelIdeal.defs _ _).mono (fun r h c =>
      ⟨h c _ (mem_uc Cert.KernelIdeal.main_v11_0 (by decide)), h c _ (mem_uc Cert.KernelIdeal.main_v11_1 (by decide)),
       h c _ (mem_uc Cert.KernelIdeal.main_v15 (by decide)),
       (h c _ (mem_uc Cert.KernelIdeal.main_arg0 (by decide))).trans (W6_main_arg0 half0 half1 half2 m ρ c),
       (h c _ (mem_uc Cert.KernelIdeal.main_arg1 (by decide))).trans (W6_main_arg1 half0 half1 half2 m ρ c),
       (h c _ (mem_uc Cert.KernelIdeal.main_arg2 (by decide))).trans (W6_main_arg2 half0 half1 half2 m ρ c),
       (h c _ (mem_uc Cert.KernelIdeal.main_arg3 (by decide))).trans (W6_main_arg3 half0 half1 half2 m ρ c),
       (h c _ (mem_uc Cert.KernelIdeal.main_arg4 (by decide))).trans (W6_main_arg4 half0 half1 half2 m ρ c),
       (h c _ (mem_uc Cert.KernelIdeal.main_arg5 (by decide))).trans (W6_main_arg5 half0 half1 half2 m ρ c),
       (h c _ (mem_uc Cert.KernelIdeal.main_arg6 (by decide))).trans (W6_main_arg6 half0 half1 half2 m ρ c),
       (h c _ (mem_uc Cert.KernelIdeal.main_arg7 (by decide))).trans (W6_main_arg7 half0 half1 half2 m ρ c),
       (h c _ (mem_uc Cert.KernelIdeal.main_arg8 (by decide))).trans (W6_main_arg8 half0 half1 half2 m ρ c),
       (h c _ (mem_uc Cert.KernelIdeal.main_arg9 (by decide))).trans (W6_main_arg9 half0 half1 half2 m ρ c),
       (h c _ (mem_uc Cert.KernelIdeal.main_arg10 (by decide))).trans (W6_main_arg10 half0 half1 half2 m ρ c),
       (h c _ (mem_uc Cert.KernelIdeal.main_arg11 (by decide))).trans (W6_main_arg11 half0 half1 half2 m ρ c),
       (h c _ (mem_uc Cert.KernelIdeal.main_arg12 (by decide))).trans (W6_main_arg12 half0 half1 half2 m ρ c)⟩)
      (Cert.KernelIdeal.KRun.run m ρ)
  · refine (θ_run Cert.ReferenceIdeal.defs _ _).mono (fun r h c => ?_) (Cert.ReferenceIdeal.Value.run (F := Ideal) m' ρ')
    obtain ⟨h1, h2, h3, hargs⟩ := h c
    obtain ⟨e0, e1, e2, e3, e4, e5, e6, e7, e8, e9, e10, e11, e12⟩ := hagree c
    refine ⟨h1.trans ?_, h2.trans ?_, h3.trans ?_, hargs⟩
    · rw [e0, e1, e5, e6, e7, e8]
      exact (Cert.Join.z1_join m ρ c hpre).symm
    · rw [e2, e3, e9, e10, e11, e12]
      exact (Cert.Join.z2_join m ρ c hpre).symm
    · rw [Cert.RefLoss.res_eq m' c]
      unfold Cert.RefLoss.zref1 Cert.RefLoss.zref2
      rw [e0, e1, e2, e3, e4, e5, e6, e7, e8, e9, e10, e11, e12]
      exact (Cert.Join.loss_join m ρ c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
